-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384x50 : Shape := ⟨2, ![16384, 50]⟩
abbrev S1000000x64 : Shape := ⟨2, ![1000000, 64]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S16384x50 : S_.BroadcastsInDim S16384x50 (![] : Fin 0 → Fin S16384x50.rank)
  reducesTo_S16384x50_S_d0_1 : S16384x50.ReducesTo [0, 1] S_

variable [Facts]

def fn {F : FTy → Type} [FloatOps F] (main_arg0 : IVec S16384x50 32) (main_arg1 : FVec F S1000000x64 .f32) : IVec S_ 1 :=
  let main_v0 : FVec F S1000000x64 .f32 := Host.absf main_arg1
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_c_0 : IVec S_ 32 := constantI S_ 32 0#32
  let main_v4 : IVec S16384x50 32 := broadcastInDim S16384x50 ![] bcast_S_S16384x50 main_c_0
  let main_v5 : IVec S16384x50 1 := cmpi .sge main_arg0 main_v4
  let main_c_1 : IVec S_ 32 := constantI S_ 32 999999#32
  let main_v6 : IVec S16384x50 32 := broadcastInDim S16384x50 ![] bcast_S_S16384x50 main_c_1
  let main_v7 : IVec S16384x50 1 := cmpi .sle main_arg0 main_v6
  let main_v8 : IVec S16384x50 1 := andi main_v5 main_v7
  let main_c_2 : IVec S_ 1 := constantI S_ 1 1#1
  let main_v9 : IVec S_ 1 := (fun x v => Host.reduce IntOp.andi x v reducesTo_S16384x50_S_d0_1 h_S_) main_v8 main_c_2
  let main_v10 : IVec S_ 1 := andi main_v3 main_v9
  main_v10
-- ==== Kernel.lean ====
abbrev S16384x50 : Shape := ⟨2, ![16384, 50]⟩
abbrev S1000000x64 : Shape := ⟨2, ![1000000, 64]⟩
abbrev S64x1000000 : Shape := ⟨2, ![64, 1000000]⟩
abbrev S1000000x128 : Shape := ⟨2, ![1000000, 128]⟩
abbrev S64x4096 : Shape := ⟨2, ![64, 4096]⟩
abbrev S4096x128 : Shape := ⟨2, ![4096, 128]⟩
abbrev S4096x64 : Shape := ⟨2, ![4096, 64]⟩
abbrev S16384x50x128 : Shape := ⟨3, ![16384, 50, 128]⟩
abbrev S512x50 : Shape := ⟨2, ![512, 50]⟩
abbrev S50x128 : Shape := ⟨2, ![50, 128]⟩
abbrev S_ : Shape := ⟨0, ![]⟩
abbrev S1x50 : Shape := ⟨2, ![1, 50]⟩
abbrev S50 : Shape := ⟨1, ![50]⟩
abbrev S1x50x128 : Shape := ⟨3, ![1, 50, 128]⟩
abbrev S16384x50x64 : Shape := ⟨3, ![16384, 50, 64]⟩

abbrev nBuf : Table → Nat
  | .hbm => 6
  | .local .tc .vmem => 4
  | .local .scVector .vmem => 9
  | _ => 0

abbrev bufTy : (tb : Table) → Fin (nBuf tb) → BufTy
  | .hbm, ⟨0, _⟩ => ⟨S16384x50, .i32⟩
  | .hbm, ⟨1, _⟩ => ⟨S1000000x64, .f32⟩
  | .hbm, ⟨2, _⟩ => ⟨S64x1000000, .f32⟩
  | .hbm, ⟨3, _⟩ => ⟨S1000000x128, .f32⟩
  | .hbm, ⟨4, _⟩ => ⟨S16384x50x128, .f32⟩
  | .hbm, ⟨5, _⟩ => ⟨S16384x50x64, .f32⟩
  | .local .tc .vmem, ⟨0, _⟩ => ⟨S64x4096, .f32⟩
  | .local .tc .vmem, ⟨1, _⟩ => ⟨S64x4096, .f32⟩
  | .local .tc .vmem, ⟨2, _⟩ => ⟨S4096x128, .f32⟩
  | .local .tc .vmem, ⟨3, _⟩ => ⟨S4096x128, .f32⟩
  | .local .scVector .vmem, ⟨0, _⟩ => ⟨S512x50, .i32⟩
  | .local .scVector .vmem, ⟨1, _⟩ => ⟨S50x128, .f32⟩
  | .local .scVector .vmem, ⟨2, _⟩ => ⟨S50x128, .f32⟩
  | .local .scVector .vmem, ⟨3, _⟩ => ⟨S50x128, .f32⟩
  | .local .scVector .vmem, ⟨4, _⟩ => ⟨S50x128, .f32⟩
  | .local .scVector .vmem, ⟨5, _⟩ => ⟨S50x128, .f32⟩
  | .local .scVector .vmem, ⟨6, _⟩ => ⟨S50x128, .f32⟩
  | .local .scVector .vmem, ⟨7, _⟩ => ⟨S50x128, .f32⟩
  | .local .scVector .vmem, ⟨8, _⟩ => ⟨S50x128, .f32⟩
  | _, _ => ⟨S16384x50, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 21 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | _ => false

abbrev sig : RefSig :=
  ofTables nBuf rfl bufTy 4 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_arg0_scv : Ref sig .scVector := ⟨.hbm, 0, rfl⟩
abbrev main_v1_scv : Ref sig .scVector := ⟨.hbm, 3, rfl⟩
abbrev main_v2_scv : Ref sig .scVector := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc1_scratch6 : Ref sig .scVector := ⟨.vmem, 6, rfl⟩
abbrev cc1_scratch7 : Ref sig .scVector := ⟨.vmem, 7, rfl⟩
abbrev cc1_scratch8 : Ref sig .scVector := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![245], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![2, 16], ![false, false]⟩

def k1_off1 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_60_r0 : BitVec 32 := 0#32
  ![v2.toNat, 0]
@[reducible] def k1_t1_loop : Scf.Loop 32 :=
  let c0_i32_25 : BitVec 32 := 0#32
  let c64_i32 : BitVec 32 := 64#32
  let v27 : BitVec 32 := Scalar.addi c0_i32_25 c64_i32
  let c1_i32_26 : BitVec 32 := 1#32
  ⟨c0_i32_25, v27, c1_i32_26⟩
def k1_off2 (k1_t1 : Fin k1_t1_loop.trips) (c0_i32_61 : BitVec 32) : Fin 2 → Nat :=
  let c0_i32_60 : BitVec 32 := 0#32
  let c0_i32_25 : BitVec 32 := 0#32
  let c1_i32_26 : BitVec 32 := 1#32
  let arg30 : BitVec 32 := Scf.iv c0_i32_25 c1_i32_26 k1_t1
  let c8_i32 : BitVec 32 := 8#32
  let v68 : BitVec 32 := Scalar.muli arg30 c8_i32
  let v69 : BitVec 32 := Scalar.addi c0_i32_60 v68
  let v70 : BitVec 32 := Scalar.addi v69 c0_i32_61
  let c0_i32_62 : BitVec 32 := 0#32
  ![v70.toNat, 0]
def k1_off3 (i : grid1.Coords) (k1_t1 : Fin k1_t1_loop.trips) (c0_i32_61 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_60 : BitVec 32 := 0#32
  let c0_i32_25 : BitVec 32 := 0#32
  let c1_i32_26 : BitVec 32 := 1#32
  let arg30 : BitVec 32 := Scf.iv c0_i32_25 c1_i32_26 k1_t1
  let c8_i32 : BitVec 32 := 8#32
  let v68 : BitVec 32 := Scalar.muli arg30 c8_i32
  let v69 : BitVec 32 := Scalar.addi c0_i32_60 v68
  let v70 : BitVec 32 := Scalar.addi v69 c0_i32_61
  let v74 : BitVec 32 := Scalar.addi v2 v70
  let c0_i32_65 : BitVec 32 := 0#32
  let c0_i32_66 : BitVec 32 := 0#32
  ![v74.toNat, 0, 0]
def k1_cond1 (k1_t1 : Fin k1_t1_loop.trips) : BitVec 1 :=
  let c0_i32_60 : BitVec 32 := 0#32
  let c0_i32_25 : BitVec 32 := 0#32
  let c1_i32_26 : BitVec 32 := 1#32
  let arg30 : BitVec 32 := Scf.iv c0_i32_25 c1_i32_26 k1_t1
  let c8_i32 : BitVec 32 := 8#32
  let v68 : BitVec 32 := Scalar.muli arg30 c8_i32
  let v69 : BitVec 32 := Scalar.addi c0_i32_60 v68
  let c0_i32_61 : BitVec 32 := 0#32
  let v70 : BitVec 32 := Scalar.addi v69 c0_i32_61
  let c8_i32_69 : BitVec 32 := 8#32
  let v79 : BitVec 32 := Scalar.addi v70 c8_i32_69
  let c512_i32_70 : BitVec 32 := 512#32
  let v80 : BitVec 1 := Scalar.cmpi .slt v79 c512_i32_70
  let v81 : BitVec 32 := Scalar.extui v80
  let c0_i32_71 : BitVec 32 := 0#32
  let v82 : BitVec 1 := Scalar.cmpi .ne v81 c0_i32_71
  v82

def k1_off4 (i : grid1.Coords) (k1_t1 : Fin k1_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_60 : BitVec 32 := 0#32
  let c0_i32_25 : BitVec 32 := 0#32
  let c1_i32_26 : BitVec 32 := 1#32
  let arg30 : BitVec 32 := Scf.iv c0_i32_25 c1_i32_26 k1_t1
  let c8_i32 : BitVec 32 := 8#32
  let v68 : BitVec 32 := Scalar.muli arg30 c8_i32
  let v69 : BitVec 32 := Scalar.addi c0_i32_60 v68
  let c0_i32_61 : BitVec 32 := 0#32
  let v70 : BitVec 32 := Scalar.addi v69 c0_i32_61
  let v174 : BitVec 32 := Scalar.addi v2 v70
  let c0_i32_149 : BitVec 32 := 0#32
  let c0_i32_150 : BitVec 32 := 0#32
  ![v174.toNat, 0, 0]
def k1_off5 (k1_t1 : Fin k1_t1_loop.trips) : Fin 2 → Nat :=
  let c0_i32_60 : BitVec 32 := 0#32
  let c0_i32_25 : BitVec 32 := 0#32
  let c1_i32_26 : BitVec 32 := 1#32
  let arg30 : BitVec 32 := Scf.iv c0_i32_25 c1_i32_26 k1_t1
  let c8_i32 : BitVec 32 := 8#32
  let v68 : BitVec 32 := Scalar.muli arg30 c8_i32
  let v69 : BitVec 32 := Scalar.addi c0_i32_60 v68
  let c0_i32_61 : BitVec 32 := 0#32
  let v70 : BitVec 32 := Scalar.addi v69 c0_i32_61
  let c8_i32_69 : BitVec 32 := 8#32
  let v79 : BitVec 32 := Scalar.addi v70 c8_i32_69
  let c0_i32_153 : BitVec 32 := 0#32
  ![v79.toNat, 0]
def k1_cond2 (k1_t1 : Fin k1_t1_loop.trips) : BitVec 1 :=
  let c0_i32_60 : BitVec 32 := 0#32
  let c0_i32_25 : BitVec 32 := 0#32
  let c1_i32_26 : BitVec 32 := 1#32
  let arg30 : BitVec 32 := Scf.iv c0_i32_25 c1_i32_26 k1_t1
  let c8_i32 : BitVec 32 := 8#32
  let v68 : BitVec 32 := Scalar.muli arg30 c8_i32
  let v69 : BitVec 32 := Scalar.addi c0_i32_60 v68
  let c1_i32_72 : BitVec 32 := 1#32
  let v83 : BitVec 32 := Scalar.addi v69 c1_i32_72
  let c8_i32_80 : BitVec 32 := 8#32
  let v92 : BitVec 32 := Scalar.addi v83 c8_i32_80
  let c512_i32_81 : BitVec 32 := 512#32
  let v93 : BitVec 1 := Scalar.cmpi .slt v92 c512_i32_81
  let v94 : BitVec 32 := Scalar.extui v93
  let c0_i32_82 : BitVec 32 := 0#32
  let v95 : BitVec 1 := Scalar.cmpi .ne v94 c0_i32_82
  v95

def k1_off6 (i : grid1.Coords) (k1_t1 : Fin k1_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_60 : BitVec 32 := 0#32
  let c0_i32_25 : BitVec 32 := 0#32
  let c1_i32_26 : BitVec 32 := 1#32
  let arg30 : BitVec 32 := Scf.iv c0_i32_25 c1_i32_26 k1_t1
  let c8_i32 : BitVec 32 := 8#32
  let v68 : BitVec 32 := Scalar.muli arg30 c8_i32
  let v69 : BitVec 32 := Scalar.addi c0_i32_60 v68
  let c1_i32_72 : BitVec 32 := 1#32
  let v83 : BitVec 32 := Scalar.addi v69 c1_i32_72
  let v174 : BitVec 32 := Scalar.addi v2 v83
  let c0_i32_149 : BitVec 32 := 0#32
  let c0_i32_150 : BitVec 32 := 0#32
  ![v174.toNat, 0, 0]
def k1_off7 (k1_t1 : Fin k1_t1_loop.trips) : Fin 2 → Nat :=
  let c0_i32_60 : BitVec 32 := 0#32
  let c0_i32_25 : BitVec 32 := 0#32
  let c1_i32_26 : BitVec 32 := 1#32
  let arg30 : BitVec 32 := Scf.iv c0_i32_25 c1_i32_26 k1_t1
  let c8_i32 : BitVec 32 := 8#32
  let v68 : BitVec 32 := Scalar.muli arg30 c8_i32
  let v69 : BitVec 32 := Scalar.addi c0_i32_60 v68
  let c1_i32_72 : BitVec 32 := 1#32
  let v83 : BitVec 32 := Scalar.addi v69 c1_i32_72
  let c8_i32_80 : BitVec 32 := 8#32
  let v92 : BitVec 32 := Scalar.addi v83 c8_i32_80
  let c0_i32_153 : BitVec 32 := 0#32
  ![v92.toNat, 0]
def k1_cond3 (k1_t1 : Fin k1_t1_loop.trips) : BitVec 1 :=
  let c0_i32_60 : BitVec 32 := 0#32
  let c0_i32_25 : BitVec 32 := 0#32
  let c1_i32_26 : BitVec 32 := 1#32
  let arg30 : BitVec 32 := Scf.iv c0_i32_25 c1_i32_26 k1_t1
  let c8_i32 : BitVec 32 := 8#32
  let v68 : BitVec 32 := Scalar.muli arg30 c8_i32
  let v69 : BitVec 32 := Scalar.addi c0_i32_60 v68
  let c2_i32_83 : BitVec 32 := 2#32
  let v96 : BitVec 32 := Scalar.addi v69 c2_i32_83
  let c8_i32_91 : BitVec 32 := 8#32
  let v105 : BitVec 32 := Scalar.addi v96 c8_i32_91
  let c512_i32_92 : BitVec 32 := 512#32
  let v106 : BitVec 1 := Scalar.cmpi .slt v105 c512_i32_92
  let v107 : BitVec 32 := Scalar.extui v106
  let c0_i32_93 : BitVec 32 := 0#32
  let v108 : BitVec 1 := Scalar.cmpi .ne v107 c0_i32_93
  v108

def k1_off8 (i : grid1.Coords) (k1_t1 : Fin k1_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_60 : BitVec 32 := 0#32
  let c0_i32_25 : BitVec 32 := 0#32
  let c1_i32_26 : BitVec 32 := 1#32
  let arg30 : BitVec 32 := Scf.iv c0_i32_25 c1_i32_26 k1_t1
  let c8_i32 : BitVec 32 := 8#32
  let v68 : BitVec 32 := Scalar.muli arg30 c8_i32
  let v69 : BitVec 32 := Scalar.addi c0_i32_60 v68
  let c2_i32_83 : BitVec 32 := 2#32
  let v96 : BitVec 32 := Scalar.addi v69 c2_i32_83
  let v174 : BitVec 32 := Scalar.addi v2 v96
  let c0_i32_149 : BitVec 32 := 0#32
  let c0_i32_150 : BitVec 32 := 0#32
  ![v174.toNat, 0, 0]
def k1_off9 (k1_t1 : Fin k1_t1_loop.trips) : Fin 2 → Nat :=
  let c0_i32_60 : BitVec 32 := 0#32
  let c0_i32_25 : BitVec 32 := 0#32
  let c1_i32_26 : BitVec 32 := 1#32
  let arg30 : BitVec 32 := Scf.iv c0_i32_25 c1_i32_26 k1_t1
  let c8_i32 : BitVec 32 := 8#32
  let v68 : BitVec 32 := Scalar.muli arg30 c8_i32
  let v69 : BitVec 32 := Scalar.addi c0_i32_60 v68
  let c2_i32_83 : BitVec 32 := 2#32
  let v96 : BitVec 32 := Scalar.addi v69 c2_i32_83
  let c8_i32_91 : BitVec 32 := 8#32
  let v105 : BitVec 32 := Scalar.addi v96 c8_i32_91
  let c0_i32_153 : BitVec 32 := 0#32
  ![v105.toNat, 0]
def k1_cond4 (k1_t1 : Fin k1_t1_loop.trips) : BitVec 1 :=
  let c0_i32_60 : BitVec 32 := 0#32
  let c0_i32_25 : BitVec 32 := 0#32
  let c1_i32_26 : BitVec 32 := 1#32
  let arg30 : BitVec 32 := Scf.iv c0_i32_25 c1_i32_26 k1_t1
  let c8_i32 : BitVec 32 := 8#32
  let v68 : BitVec 32 := Scalar.muli arg30 c8_i32
  let v69 : BitVec 32 := Scalar.addi c0_i32_60 v68
  let c3_i32_94 : BitVec 32 := 3#32
  let v109 : BitVec 32 := Scalar.addi v69 c3_i32_94
  let c8_i32_102 : BitVec 32 := 8#32
  let v118 : BitVec 32 := Scalar.addi v109 c8_i32_102
  let c512_i32_103 : BitVec 32 := 512#32
  let v119 : BitVec 1 := Scalar.cmpi .slt v118 c512_i32_103
  let v120 : BitVec 32 := Scalar.extui v119
  let c0_i32_104 : BitVec 32 := 0#32
  let v121 : BitVec 1 := Scalar.cmpi .ne v120 c0_i32_104
  v121

def k1_off10 (i : grid1.Coords) (k1_t1 : Fin k1_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_60 : BitVec 32 := 0#32
  let c0_i32_25 : BitVec 32 := 0#32
  let c1_i32_26 : BitVec 32 := 1#32
  let arg30 : BitVec 32 := Scf.iv c0_i32_25 c1_i32_26 k1_t1
  let c8_i32 : BitVec 32 := 8#32
  let v68 : BitVec 32 := Scalar.muli arg30 c8_i32
  let v69 : BitVec 32 := Scalar.addi c0_i32_60 v68
  let c3_i32_94 : BitVec 32 := 3#32
  let v109 : BitVec 32 := Scalar.addi v69 c3_i32_94
  let v174 : BitVec 32 := Scalar.addi v2 v109
  let c0_i32_149 : BitVec 32 := 0#32
  let c0_i32_150 : BitVec 32 := 0#32
  ![v174.toNat, 0, 0]
def k1_off11 (k1_t1 : Fin k1_t1_loop.trips) : Fin 2 → Nat :=
  let c0_i32_60 : BitVec 32 := 0#32
  let c0_i32_25 : BitVec 32 := 0#32
  let c1_i32_26 : BitVec 32 := 1#32
  let arg30 : BitVec 32 := Scf.iv c0_i32_25 c1_i32_26 k1_t1
  let c8_i32 : BitVec 32 := 8#32
  let v68 : BitVec 32 := Scalar.muli arg30 c8_i32
  let v69 : BitVec 32 := Scalar.addi c0_i32_60 v68
  let c3_i32_94 : BitVec 32 := 3#32
  let v109 : BitVec 32 := Scalar.addi v69 c3_i32_94
  let c8_i32_102 : BitVec 32 := 8#32
  let v118 : BitVec 32 := Scalar.addi v109 c8_i32_102
  let c0_i32_153 : BitVec 32 := 0#32
  ![v118.toNat, 0]
def k1_cond5 (k1_t1 : Fin k1_t1_loop.trips) : BitVec 1 :=
  let c0_i32_60 : BitVec 32 := 0#32
  let c0_i32_25 : BitVec 32 := 0#32
  let c1_i32_26 : BitVec 32 := 1#32
  let arg30 : BitVec 32 := Scf.iv c0_i32_25 c1_i32_26 k1_t1
  let c8_i32 : BitVec 32 := 8#32
  let v68 : BitVec 32 := Scalar.muli arg30 c8_i32
  let v69 : BitVec 32 := Scalar.addi c0_i32_60 v68
  let c4_i32_105 : BitVec 32 := 4#32
  let v122 : BitVec 32 := Scalar.addi v69 c4_i32_105
  let c8_i32_113 : BitVec 32 := 8#32
  let v131 : BitVec 32 := Scalar.addi v122 c8_i32_113
  let c512_i32_114 : BitVec 32 := 512#32
  let v132 : BitVec 1 := Scalar.cmpi .slt v131 c512_i32_114
  let v133 : BitVec 32 := Scalar.extui v132
  let c0_i32_115 : BitVec 32 := 0#32
  let v134 : BitVec 1 := Scalar.cmpi .ne v133 c0_i32_115
  v134

def k1_off12 (i : grid1.Coords) (k1_t1 : Fin k1_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_60 : BitVec 32 := 0#32
  let c0_i32_25 : BitVec 32 := 0#32
  let c1_i32_26 : BitVec 32 := 1#32
  let arg30 : BitVec 32 := Scf.iv c0_i32_25 c1_i32_26 k1_t1
  let c8_i32 : BitVec 32 := 8#32
  let v68 : BitVec 32 := Scalar.muli arg30 c8_i32
  let v69 : BitVec 32 := Scalar.addi c0_i32_60 v68
  let c4_i32_105 : BitVec 32 := 4#32
  let v122 : BitVec 32 := Scalar.addi v69 c4_i32_105
  let v174 : BitVec 32 := Scalar.addi v2 v122
  let c0_i32_149 : BitVec 32 := 0#32
  let c0_i32_150 : BitVec 32 := 0#32
  ![v174.toNat, 0, 0]
def k1_off13 (k1_t1 : Fin k1_t1_loop.trips) : Fin 2 → Nat :=
  let c0_i32_60 : BitVec 32 := 0#32
  let c0_i32_25 : BitVec 32 := 0#32
  let c1_i32_26 : BitVec 32 := 1#32
  let arg30 : BitVec 32 := Scf.iv c0_i32_25 c1_i32_26 k1_t1
  let c8_i32 : BitVec 32 := 8#32
  let v68 : BitVec 32 := Scalar.muli arg30 c8_i32
  let v69 : BitVec 32 := Scalar.addi c0_i32_60 v68
  let c4_i32_105 : BitVec 32 := 4#32
  let v122 : BitVec 32 := Scalar.addi v69 c4_i32_105
  let c8_i32_113 : BitVec 32 := 8#32
  let v131 : BitVec 32 := Scalar.addi v122 c8_i32_113
  let c0_i32_153 : BitVec 32 := 0#32
  ![v131.toNat, 0]
def k1_cond6 (k1_t1 : Fin k1_t1_loop.trips) : BitVec 1 :=
  let c0_i32_60 : BitVec 32 := 0#32
  let c0_i32_25 : BitVec 32 := 0#32
  let c1_i32_26 : BitVec 32 := 1#32
  let arg30 : BitVec 32 := Scf.iv c0_i32_25 c1_i32_26 k1_t1
  let c8_i32 : BitVec 32 := 8#32
  let v68 : BitVec 32 := Scalar.muli arg30 c8_i32
  let v69 : BitVec 32 := Scalar.addi c0_i32_60 v68
  let c5_i32_116 : BitVec 32 := 5#32
  let v135 : BitVec 32 := Scalar.addi v69 c5_i32_116
  let c8_i32_124 : BitVec 32 := 8#32
  let v144 : BitVec 32 := Scalar.addi v135 c8_i32_124
  let c512_i32_125 : BitVec 32 := 512#32
  let v145 : BitVec 1 := Scalar.cmpi .slt v144 c512_i32_125
  let v146 : BitVec 32 := Scalar.extui v145
  let c0_i32_126 : BitVec 32 := 0#32
  let v147 : BitVec 1 := Scalar.cmpi .ne v146 c0_i32_126
  v147

def k1_off14 (i : grid1.Coords) (k1_t1 : Fin k1_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_60 : BitVec 32 := 0#32
  let c0_i32_25 : BitVec 32 := 0#32
  let c1_i32_26 : BitVec 32 := 1#32
  let arg30 : BitVec 32 := Scf.iv c0_i32_25 c1_i32_26 k1_t1
  let c8_i32 : BitVec 32 := 8#32
  let v68 : BitVec 32 := Scalar.muli arg30 c8_i32
  let v69 : BitVec 32 := Scalar.addi c0_i32_60 v68
  let c5_i32_116 : BitVec 32 := 5#32
  let v135 : BitVec 32 := Scalar.addi v69 c5_i32_116
  let v174 : BitVec 32 := Scalar.addi v2 v135
  let c0_i32_149 : BitVec 32 := 0#32
  let c0_i32_150 : BitVec 32 := 0#32
  ![v174.toNat, 0, 0]
def k1_off15 (k1_t1 : Fin k1_t1_loop.trips) : Fin 2 → Nat :=
  let c0_i32_60 : BitVec 32 := 0#32
  let c0_i32_25 : BitVec 32 := 0#32
  let c1_i32_26 : BitVec 32 := 1#32
  let arg30 : BitVec 32 := Scf.iv c0_i32_25 c1_i32_26 k1_t1
  let c8_i32 : BitVec 32 := 8#32
  let v68 : BitVec 32 := Scalar.muli arg30 c8_i32
  let v69 : BitVec 32 := Scalar.addi c0_i32_60 v68
  let c5_i32_116 : BitVec 32 := 5#32
  let v135 : BitVec 32 := Scalar.addi v69 c5_i32_116
  let c8_i32_124 : BitVec 32 := 8#32
  let v144 : BitVec 32 := Scalar.addi v135 c8_i32_124
  let c0_i32_153 : BitVec 32 := 0#32
  ![v144.toNat, 0]
def k1_cond7 (k1_t1 : Fin k1_t1_loop.trips) : BitVec 1 :=
  let c0_i32_60 : BitVec 32 := 0#32
  let c0_i32_25 : BitVec 32 := 0#32
  let c1_i32_26 : BitVec 32 := 1#32
  let arg30 : BitVec 32 := Scf.iv c0_i32_25 c1_i32_26 k1_t1
  let c8_i32 : BitVec 32 := 8#32
  let v68 : BitVec 32 := Scalar.muli arg30 c8_i32
  let v69 : BitVec 32 := Scalar.addi c0_i32_60 v68
  let c6_i32_127 : BitVec 32 := 6#32
  let v148 : BitVec 32 := Scalar.addi v69 c6_i32_127
  let c8_i32_135 : BitVec 32 := 8#32
  let v157 : BitVec 32 := Scalar.addi v148 c8_i32_135
  let c512_i32_136 : BitVec 32 := 512#32
  let v158 : BitVec 1 := Scalar.cmpi .slt v157 c512_i32_136
  let v159 : BitVec 32 := Scalar.extui v158
  let c0_i32_137 : BitVec 32 := 0#32
  let v160 : BitVec 1 := Scalar.cmpi .ne v159 c0_i32_137
  v160

def k1_off16 (i : grid1.Coords) (k1_t1 : Fin k1_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_60 : BitVec 32 := 0#32
  let c0_i32_25 : BitVec 32 := 0#32
  let c1_i32_26 : BitVec 32 := 1#32
  let arg30 : BitVec 32 := Scf.iv c0_i32_25 c1_i32_26 k1_t1
  let c8_i32 : BitVec 32 := 8#32
  let v68 : BitVec 32 := Scalar.muli arg30 c8_i32
  let v69 : BitVec 32 := Scalar.addi c0_i32_60 v68
  let c6_i32_127 : BitVec 32 := 6#32
  let v148 : BitVec 32 := Scalar.addi v69 c6_i32_127
  let v174 : BitVec 32 := Scalar.addi v2 v148
  let c0_i32_149 : BitVec 32 := 0#32
  let c0_i32_150 : BitVec 32 := 0#32
  ![v174.toNat, 0, 0]
def k1_off17 (k1_t1 : Fin k1_t1_loop.trips) : Fin 2 → Nat :=
  let c0_i32_60 : BitVec 32 := 0#32
  let c0_i32_25 : BitVec 32 := 0#32
  let c1_i32_26 : BitVec 32 := 1#32
  let arg30 : BitVec 32 := Scf.iv c0_i32_25 c1_i32_26 k1_t1
  let c8_i32 : BitVec 32 := 8#32
  let v68 : BitVec 32 := Scalar.muli arg30 c8_i32
  let v69 : BitVec 32 := Scalar.addi c0_i32_60 v68
  let c6_i32_127 : BitVec 32 := 6#32
  let v148 : BitVec 32 := Scalar.addi v69 c6_i32_127
  let c8_i32_135 : BitVec 32 := 8#32
  let v157 : BitVec 32 := Scalar.addi v148 c8_i32_135
  let c0_i32_153 : BitVec 32 := 0#32
  ![v157.toNat, 0]
def k1_cond8 (k1_t1 : Fin k1_t1_loop.trips) : BitVec 1 :=
  let c0_i32_60 : BitVec 32 := 0#32
  let c0_i32_25 : BitVec 32 := 0#32
  let c1_i32_26 : BitVec 32 := 1#32
  let arg30 : BitVec 32 := Scf.iv c0_i32_25 c1_i32_26 k1_t1
  let c8_i32 : BitVec 32 := 8#32
  let v68 : BitVec 32 := Scalar.muli arg30 c8_i32
  let v69 : BitVec 32 := Scalar.addi c0_i32_60 v68
  let c7_i32_138 : BitVec 32 := 7#32
  let v161 : BitVec 32 := Scalar.addi v69 c7_i32_138
  let c8_i32_146 : BitVec 32 := 8#32
  let v170 : BitVec 32 := Scalar.addi v161 c8_i32_146
  let c512_i32_147 : BitVec 32 := 512#32
  let v171 : BitVec 1 := Scalar.cmpi .slt v170 c512_i32_147
  let v172 : BitVec 32 := Scalar.extui v171
  let c0_i32_148 : BitVec 32 := 0#32
  let v173 : BitVec 1 := Scalar.cmpi .ne v172 c0_i32_148
  v173

def k1_off18 (i : grid1.Coords) (k1_t1 : Fin k1_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_60 : BitVec 32 := 0#32
  let c0_i32_25 : BitVec 32 := 0#32
  let c1_i32_26 : BitVec 32 := 1#32
  let arg30 : BitVec 32 := Scf.iv c0_i32_25 c1_i32_26 k1_t1
  let c8_i32 : BitVec 32 := 8#32
  let v68 : BitVec 32 := Scalar.muli arg30 c8_i32
  let v69 : BitVec 32 := Scalar.addi c0_i32_60 v68
  let c7_i32_138 : BitVec 32 := 7#32
  let v161 : BitVec 32 := Scalar.addi v69 c7_i32_138
  let v174 : BitVec 32 := Scalar.addi v2 v161
  let c0_i32_149 : BitVec 32 := 0#32
  let c0_i32_150 : BitVec 32 := 0#32
  ![v174.toNat, 0, 0]
def k1_off19 (k1_t1 : Fin k1_t1_loop.trips) : Fin 2 → Nat :=
  let c0_i32_60 : BitVec 32 := 0#32
  let c0_i32_25 : BitVec 32 := 0#32
  let c1_i32_26 : BitVec 32 := 1#32
  let arg30 : BitVec 32 := Scf.iv c0_i32_25 c1_i32_26 k1_t1
  let c8_i32 : BitVec 32 := 8#32
  let v68 : BitVec 32 := Scalar.muli arg30 c8_i32
  let v69 : BitVec 32 := Scalar.addi c0_i32_60 v68
  let c7_i32_138 : BitVec 32 := 7#32
  let v161 : BitVec 32 := Scalar.addi v69 c7_i32_138
  let c8_i32_146 : BitVec 32 := 8#32
  let v170 : BitVec 32 := Scalar.addi v161 c8_i32_146
  let c0_i32_153 : BitVec 32 := 0#32
  ![v170.toNat, 0]
def k1_off20 (i : grid1.Coords) (c504_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v28 : BitVec 32 := Scalar.addi v2 c504_i32
  let c0_i32_28 : BitVec 32 := 0#32
  let c0_i32_29 : BitVec 32 := 0#32
  ![v28.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S1000000x64_S64x1000000_1_0 : S1000000x64.Transposes [1, 0] S64x1000000
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  transposes_S64x4096_p1_0_S4096x64 : S64x4096.Transposes [1, 0] S4096x64
  inb_S4096x128_S4096x64_0_0 : ∀ a, (![0, 0] : Fin 2 → Nat) a + S4096x64.size a ≤ S4096x128.size a
  h_S4096x64 : 0 < S4096x64.numel
  inb_S512x50_S1x50_0_0 : ∀ a, (![0, 0] : Fin 2 → Nat) a + S1x50.size a ≤ S512x50.size a
  squeezes_S1x50_S50 : S1x50.Squeezes S50
  inb_S1000000x128_S1000000x128_0_0 : ∀ a, (![0, 0] : Fin 2 → Nat) a + S1000000x128.size a ≤ S1000000x128.size a
  gathers_S1000000x128_S50x128 : S1000000x128.Gathers 0 S50x128
  inb_S512x50_S1x50_1_0 : ∀ a, (![1, 0] : Fin 2 → Nat) a + S1x50.size a ≤ S512x50.size a
  inb_S512x50_S1x50_2_0 : ∀ a, (![2, 0] : Fin 2 → Nat) a + S1x50.size a ≤ S512x50.size a
  inb_S512x50_S1x50_3_0 : ∀ a, (![3, 0] : Fin 2 → Nat) a + S1x50.size a ≤ S512x50.size a
  inb_S512x50_S1x50_4_0 : ∀ a, (![4, 0] : Fin 2 → Nat) a + S1x50.size a ≤ S512x50.size a
  inb_S512x50_S1x50_5_0 : ∀ a, (![5, 0] : Fin 2 → Nat) a + S1x50.size a ≤ S512x50.size a
  inb_S512x50_S1x50_6_0 : ∀ a, (![6, 0] : Fin 2 → Nat) a + S1x50.size a ≤ S512x50.size a
  inb_S512x50_S1x50_7_0 : ∀ a, (![7, 0] : Fin 2 → Nat) a + S1x50.size a ≤ S512x50.size a
  squeezes_S1x50x128_S50x128 : S1x50x128.Squeezes S50x128
  slices_S16384x50x128_S16384x50x64_0_0_0 : S16384x50x128.Slices ![0, 0, 0] S16384x50x64
  hcc1_scratch9 : 4 + S_.numel ≤ 21
  hcc1_scratch10 : 5 + S_.numel ≤ 21
  hcc1_scratch11 : 6 + S_.numel ≤ 21
  hcc1_scratch12 : 7 + S_.numel ≤ 21
  hcc1_scratch13 : 8 + S_.numel ≤ 21
  hcc1_scratch14 : 9 + S_.numel ≤ 21
  hcc1_scratch15 : 10 + S_.numel ≤ 21
  hcc1_scratch16 : 11 + S_.numel ≤ 21
  hcc1_scratch17 : 12 + S_.numel ≤ 21
  hcc1_scratch18 : 13 + S_.numel ≤ 21
  hcc1_scratch19 : 14 + S_.numel ≤ 21
  hcc1_scratch20 : 15 + S_.numel ≤ 21
  hcc1_scratch21 : 16 + S_.numel ≤ 21
  hcc1_scratch22 : 17 + S_.numel ≤ 21
  hcc1_scratch23 : 18 + S_.numel ≤ 21
  hcc1_scratch24 : 19 + S_.numel ≤ 21
  hcc1_scoped0 : 20 + S_.numel ≤ 21
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S64x4096.size a < S64x1000000.size a
  hwx0_0 : ∀ i : grid0.Coords, EltTy.bits .f32 = 32 ∨ (Rect.unit (s := S64x1000000) (fun a => cc0_transform_0 i a * S64x4096.size a) (fun a => (Pipeline.Clip.of (cc0_transform_0 i a) (S64x4096.size a) (S64x1000000.size a)).extent (S64x4096.size a)) fun a => Pipeline.Clip.inb (Pipeline.Clip.ok_of (hstart0_0 i a))).WholeWords (EltTy.packing .f32)
  hwxs0_0 : ∀ i : grid0.Coords, EltTy.bits .f32 = 32 ∨ (Rect.unit (s := S64x4096) (fun _ => 0) (fun a => (Pipeline.Clip.of (cc0_transform_0 i a) (S64x4096.size a) (S64x1000000.size a)).extent (S64x4096.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S4096x128.size a < S1000000x128.size a
  hwx0_1 : ∀ i : grid0.Coords, EltTy.bits .f32 = 32 ∨ (Rect.unit (s := S1000000x128) (fun a => cc0_transform_1 i a * S4096x128.size a) (fun a => (Pipeline.Clip.of (cc0_transform_1 i a) (S4096x128.size a) (S1000000x128.size a)).extent (S4096x128.size a)) fun a => Pipeline.Clip.inb (Pipeline.Clip.ok_of (hstart0_1 i a))).WholeWords (EltTy.packing .f32)
  hwxs0_1 : ∀ i : grid0.Coords, EltTy.bits .f32 = 32 ∨ (Rect.unit (s := S4096x128) (fun _ => 0) (fun a => (Pipeline.Clip.of (cc0_transform_1 i a) (S4096x128.size a) (S1000000x128.size a)).extent (S4096x128.size a)) fun a => (Nat.zero_add _).trans_le (Pipeline.Clip.extent_le (Pipeline.Clip.ok_of (hstart0_1 i a)))).WholeWords (EltTy.packing .f32)
  hcore1 : grid1.bound 0 ≤ τ.nSC
  hsub1 : grid1.bound 1 ≤ τ.nSub
  k1_off1_inb : ∀ i : grid1.Coords, ∀ a, (k1_off1 i) a + S512x50.size a ≤ S16384x50.size a
  k1_t1_ok : k1_t1_loop.OK
  k1_off2_inb : ∀ k1_t1 : Fin k1_t1_loop.trips, ∀ (r : Fin 8), ∀ a, (k1_off2 k1_t1 (BitVec.ofNat 32 r.val)) a + S1x50.size a ≤ S512x50.size a
  k1_off3_inb : ∀ (i : grid1.Coords) (k1_t1 : Fin k1_t1_loop.trips), ∀ (r : Fin 8), ∀ a, (k1_off3 i k1_t1 (BitVec.ofNat 32 r.val)) a + S1x50x128.size a ≤ S16384x50x128.size a
  k1_off4_inb : ∀ (i : grid1.Coords) (k1_t1 : Fin k1_t1_loop.trips), ∀ (k1_h1 : k1_cond1 k1_t1 = 1#1), ∀ a, (k1_off4 i k1_t1) a + S1x50x128.size a ≤ S16384x50x128.size a
  k1_off5_inb : ∀ k1_t1 : Fin k1_t1_loop.trips, ∀ (k1_h1 : k1_cond1 k1_t1 = 1#1), ∀ a, (k1_off5 k1_t1) a + S1x50.size a ≤ S512x50.size a
  k1_off6_inb : ∀ (i : grid1.Coords) (k1_t1 : Fin k1_t1_loop.trips), ∀ (k1_h2 : k1_cond2 k1_t1 = 1#1), ∀ a, (k1_off6 i k1_t1) a + S1x50x128.size a ≤ S16384x50x128.size a
  k1_off7_inb : ∀ k1_t1 : Fin k1_t1_loop.trips, ∀ (k1_h2 : k1_cond2 k1_t1 = 1#1), ∀ a, (k1_off7 k1_t1) a + S1x50.size a ≤ S512x50.size a
  k1_off8_inb : ∀ (i : grid1.Coords) (k1_t1 : Fin k1_t1_loop.trips), ∀ (k1_h3 : k1_cond3 k1_t1 = 1#1), ∀ a, (k1_off8 i k1_t1) a + S1x50x128.size a ≤ S16384x50x128.size a
  k1_off9_inb : ∀ k1_t1 : Fin k1_t1_loop.trips, ∀ (k1_h3 : k1_cond3 k1_t1 = 1#1), ∀ a, (k1_off9 k1_t1) a + S1x50.size a ≤ S512x50.size a
  k1_off10_inb : ∀ (i : grid1.Coords) (k1_t1 : Fin k1_t1_loop.trips), ∀ (k1_h4 : k1_cond4 k1_t1 = 1#1), ∀ a, (k1_off10 i k1_t1) a + S1x50x128.size a ≤ S16384x50x128.size a
  k1_off11_inb : ∀ k1_t1 : Fin k1_t1_loop.trips, ∀ (k1_h4 : k1_cond4 k1_t1 = 1#1), ∀ a, (k1_off11 k1_t1) a + S1x50.size a ≤ S512x50.size a
  k1_off12_inb : ∀ (i : grid1.Coords) (k1_t1 : Fin k1_t1_loop.trips), ∀ (k1_h5 : k1_cond5 k1_t1 = 1#1), ∀ a, (k1_off12 i k1_t1) a + S1x50x128.size a ≤ S16384x50x128.size a
  k1_off13_inb : ∀ k1_t1 : Fin k1_t1_loop.trips, ∀ (k1_h5 : k1_cond5 k1_t1 = 1#1), ∀ a, (k1_off13 k1_t1) a + S1x50.size a ≤ S512x50.size a
  k1_off14_inb : ∀ (i : grid1.Coords) (k1_t1 : Fin k1_t1_loop.trips), ∀ (k1_h6 : k1_cond6 k1_t1 = 1#1), ∀ a, (k1_off14 i k1_t1) a + S1x50x128.size a ≤ S16384x50x128.size a
  k1_off15_inb : ∀ k1_t1 : Fin k1_t1_loop.trips, ∀ (k1_h6 : k1_cond6 k1_t1 = 1#1), ∀ a, (k1_off15 k1_t1) a + S1x50.size a ≤ S512x50.size a
  k1_off16_inb : ∀ (i : grid1.Coords) (k1_t1 : Fin k1_t1_loop.trips), ∀ (k1_h7 : k1_cond7 k1_t1 = 1#1), ∀ a, (k1_off16 i k1_t1) a + S1x50x128.size a ≤ S16384x50x128.size a
  k1_off17_inb : ∀ k1_t1 : Fin k1_t1_loop.trips, ∀ (k1_h7 : k1_cond7 k1_t1 = 1#1), ∀ a, (k1_off17 k1_t1) a + S1x50.size a ≤ S512x50.size a
  k1_off18_inb : ∀ (i : grid1.Coords) (k1_t1 : Fin k1_t1_loop.trips), ∀ (k1_h8 : k1_cond8 k1_t1 = 1#1), ∀ a, (k1_off18 i k1_t1) a + S1x50x128.size a ≤ S16384x50x128.size a
  k1_off19_inb : ∀ k1_t1 : Fin k1_t1_loop.trips, ∀ (k1_h8 : k1_cond8 k1_t1 = 1#1), ∀ a, (k1_off19 k1_t1) a + S1x50.size a ≤ S512x50.size a
  k1_off20_inb : ∀ i : grid1.Coords, ∀ (r : Fin 8), ∀ a, (k1_off20 i (BitVec.ofNat 32 (504 + r.val))) a + S1x50x128.size a ≤ S16384x50x128.size a

variable [Facts₀]

abbrev cc1_scratch9 : DmaSems sig S_ := SemArray.consecutive 4 S_ hcc1_scratch9
abbrev cc1_scratch10 : DmaSems sig S_ := SemArray.consecutive 5 S_ hcc1_scratch10
abbrev cc1_scratch11 : DmaSems sig S_ := SemArray.consecutive 6 S_ hcc1_scratch11
abbrev cc1_scratch12 : DmaSems sig S_ := SemArray.consecutive 7 S_ hcc1_scratch12
abbrev cc1_scratch13 : DmaSems sig S_ := SemArray.consecutive 8 S_ hcc1_scratch13
abbrev cc1_scratch14 : DmaSems sig S_ := SemArray.consecutive 9 S_ hcc1_scratch14
abbrev cc1_scratch15 : DmaSems sig S_ := SemArray.consecutive 10 S_ hcc1_scratch15
abbrev cc1_scratch16 : DmaSems sig S_ := SemArray.consecutive 11 S_ hcc1_scratch16
abbrev cc1_scratch17 : DmaSems sig S_ := SemArray.consecutive 12 S_ hcc1_scratch17
abbrev cc1_scratch18 : DmaSems sig S_ := SemArray.consecutive 13 S_ hcc1_scratch18
abbrev cc1_scratch19 : DmaSems sig S_ := SemArray.consecutive 14 S_ hcc1_scratch19
abbrev cc1_scratch20 : DmaSems sig S_ := SemArray.consecutive 15 S_ hcc1_scratch20
abbrev cc1_scratch21 : DmaSems sig S_ := SemArray.consecutive 16 S_ hcc1_scratch21
abbrev cc1_scratch22 : DmaSems sig S_ := SemArray.consecutive 17 S_ hcc1_scratch22
abbrev cc1_scratch23 : DmaSems sig S_ := SemArray.consecutive 18 S_ hcc1_scratch23
abbrev cc1_scratch24 : DmaSems sig S_ := SemArray.consecutive 19 S_ hcc1_scratch24
abbrev cc1_scoped0 : DmaSems sig S_ := SemArray.consecutive 20 S_ hcc1_scoped0

abbrev win0_0 : Pipeline.Window sig grid0 :=
  Pipeline.Window.ofSpecClip (Memref.whole main_v0) S64x4096.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v1) S4096x128.size cc0_transform_1 reads0_1 true false 2 stage0_1 sem0_1
    hrank0 hreads0_1 hstart0_1 nbuf0_1 (Memref.isWhole_whole _) hwx0_1 hwxs0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16384x50 : Shape := ⟨2, ![16384, 50]⟩
abbrev S1000000x64 : Shape := ⟨2, ![1000000, 64]⟩
abbrev S_ : Shape := ⟨0, ![]⟩
abbrev S16384x50x1 : Shape := ⟨3, ![16384, 50, 1]⟩
abbrev S1 : Shape := ⟨1, ![1]⟩
abbrev S1x1x1 : Shape := ⟨3, ![1, 1, 1]⟩
abbrev S16384x50x64 : Shape := ⟨3, ![16384, 50, 64]⟩

abbrev nBuf : Space → Nat
  | .hbm => 25
  | .vmem => 0
  | .smem => 0
  | _ => 0

abbrev bufTy : (tb : Table) → Fin (tcTables nBuf tb) → BufTy
  | .hbm, ⟨0, _⟩ => ⟨S16384x50, .i32⟩
  | .hbm, ⟨1, _⟩ => ⟨S1000000x64, .f32⟩
  | .hbm, ⟨2, _⟩ => ⟨S_, .i32⟩
  | .hbm, ⟨3, _⟩ => ⟨S16384x50, .i32⟩
  | .hbm, ⟨4, _⟩ => ⟨S16384x50, .i1⟩
  | .hbm, ⟨5, _⟩ => ⟨S_, .i32⟩
  | .hbm, ⟨6, _⟩ => ⟨S16384x50, .i32⟩
  | .hbm, ⟨7, _⟩ => ⟨S16384x50, .i32⟩
  | .hbm, ⟨8, _⟩ => ⟨S16384x50, .i32⟩
  | .hbm, ⟨9, _⟩ => ⟨S16384x50x1, .i32⟩
  | .hbm, ⟨10, _⟩ => ⟨S1, .i32⟩
  | .hbm, ⟨11, _⟩ => ⟨S_, .i32⟩
  | .hbm, ⟨12, _⟩ => ⟨S16384x50x1, .i32⟩
  | .hbm, ⟨13, _⟩ => ⟨S16384x50x1, .i1⟩
  | .hbm, ⟨14, _⟩ => ⟨S1x1x1, .i32⟩
  | .hbm, ⟨15, _⟩ => ⟨S16384x50x1, .i32⟩
  | .hbm, ⟨16, _⟩ => ⟨S16384x50x1, .i1⟩
  | .hbm, ⟨17, _⟩ => ⟨S16384x50x1, .i1⟩
  | .hbm, ⟨18, _⟩ => ⟨S_, .i1⟩
  | .hbm, ⟨19, _⟩ => ⟨S16384x50, .i1⟩
  | .hbm, ⟨20, _⟩ => ⟨S16384x50x64, .f32⟩
  | .hbm, ⟨21, _⟩ => ⟨S16384x50x64, .i1⟩
  | .hbm, ⟨22, _⟩ => ⟨S_, .f32⟩
  | .hbm, ⟨23, _⟩ => ⟨S16384x50x64, .f32⟩
  | .hbm, ⟨24, _⟩ => ⟨S16384x50x64, .f32⟩
  | _, _ => ⟨S16384x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]

class Facts₀ : Prop where
  bcast_S_S16384x50 : S_.BroadcastsInDim S16384x50 (![] : Fin 0 → Fin S16384x50.rank)
  bcast_S16384x50_S16384x50x1_0_1 : S16384x50.BroadcastsInDim S16384x50x1 (![0, 1] : Fin 2 → Fin S16384x50x1.rank)
  bcast_S_S16384x50x1 : S_.BroadcastsInDim S16384x50x1 (![] : Fin 0 → Fin S16384x50x1.rank)
  bcast_S1_S1x1x1_2 : S1.BroadcastsInDim S1x1x1 (![2] : Fin 1 → Fin S1x1x1.rank)
  bcast_S1x1x1_S16384x50x1_0_1_2 : S1x1x1.BroadcastsInDim S16384x50x1 (![0, 1, 2] : Fin 3 → Fin S16384x50x1.rank)
  reducesTo_S16384x50x1_S16384x50_d2 : S16384x50x1.ReducesTo [2] S16384x50
  h_S_ : 0 < S_.numel
  bcast_S16384x50_S16384x50x64_0_1 : S16384x50.BroadcastsInDim S16384x50x64 (![0, 1] : Fin 2 → Fin S16384x50x64.rank)
  bcast_S_S16384x50x64 : S_.BroadcastsInDim S16384x50x64 (![] : Fin 0 → Fin S16384x50x64.rank)
  gather_S1000000x64_S16384x50x1_S16384x50x64_2_0_n_n_0_2_164_wf : GatherDims.WF S1000000x64 S16384x50x1 S16384x50x64 [2] [0] [] [0] [] 2 ![1, 64]

variable [Facts₀]

def gather_S1000000x64_S16384x50x1_S16384x50x64_2_0_n_n_0_2_164 : GatherDims S1000000x64 S16384x50x1 S16384x50x64 where
  offsetDims := [2]
  collapsedSliceDims := [0]
  operandBatchingDims := []
  startIndicesBatchingDims := []
  startIndexMap := [0]
  indexVectorDim := 2
  sliceSizes := ![1, 64]
  wf := gather_S1000000x64_S16384x50x1_S16384x50x64_2_0_n_n_0_2_164_wf

class Facts : Prop extends Facts₀ where

variable [Facts]
-- ==== Proof.Spec.lean ====
/-
  The function both programs compute: an embedding lookup.  For a table `w` of 1000000 rows of 64 numbers and an
  array `x` of 16384 × 50 row numbers, entry `(n, j, q)` of the result is `w[x[n, j], q]`.  The row number is read
  as the word's natural-number value, reduced modulo the table's height so that the function is total; on the
  inputs the claim speaks of every word is below 1000000 and the reduction does nothing.
-/
import Idealize.ShloMosaic.Lib.ValueIdx
import Idealize.ShloMosaic.PureOps

namespace Cert.Proof.Spec

open Idealize.ShloMosaic Idealize.ShloMosaic.ValueIdx

/-- The table row that entry `(n, j)` of the index array names. -/
def row (x : (⟨2, ![16384, 50]⟩ : Shape).Idx → BitVec 32) (n : Fin 16384) (j : Fin 50) : Fin 1000000 :=
  ⟨(x (ix2 n j)).toNat % 1000000, Nat.mod_lt _ (by norm_num)⟩

/-- The lookup: entry `(n, j, q)` is entry `(x[n, j], q)` of the table. -/
def lookup {α : Type} (x : (⟨2, ![16384, 50]⟩ : Shape).Idx → BitVec 32)
    (w : (⟨2, ![1000000, 64]⟩ : Shape).Idx → α) : (⟨3, ![16384, 50, 64]⟩ : Shape).Idx → α :=
  fun i => w (ix2 (row x (i 0) (i 1)) (i 2))

theorem lookup_apply {α : Type} (x : (⟨2, ![16384, 50]⟩ : Shape).Idx → BitVec 32)
    (w : (⟨2, ![1000000, 64]⟩ : Shape).Idx → α) (n : Fin 16384) (j : Fin 50) (q : Fin 64) :
    lookup x w (ix3 n j q) = w (ix2 (row x n j) q) := rfl

/-- On a word below the table's height the row is the word's value. -/
theorem row_val_of_lt (x : (⟨2, ![16384, 50]⟩ : Shape).Idx → BitVec 32) (n : Fin 16384) (j : Fin 50)
    (h : (x (ix2 n j)).toNat < 1000000) : (row x n j).val = (x (ix2 n j)).toNat :=
  Nat.mod_eq_of_lt h

end Cert.Proof.Spec
-- ==== Proof.HandKernel.Common.lean ====
/-
  What the parts of the kernel's run share: the program as the launch theorem sees it, the resource algebra, the
  arrays' locations, the rows of the index array and of the padded output that each vector subcore works on, and
  what the handshakes between the TensorCore, the two sequencers and the thirty-two vector subcores carry.

  The mathematics.  The first region rewrites the transposed table row by row into a table `T` of 1000000 rows of
  128 numbers whose first 64 columns are the rows of `w` (`GoodTbl`); nothing is said of columns 64‥127.  Subcore
  `(c, s)` is worker `2·s + c`; it owns rows `512·(2·s + c) ‥ 512·(2·s + c) + 511` of the index array `x` and of the
  padded output, and leaves in each owned output entry `(n, j, q)`, `q < 64`, the table entry `w[x[n, j], q]`
  (`GoodOut`).
-/
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Tactic
import proofs.«206440_g52347061403653_cont_9to1_m_884_16_alg».proof.Kernel
import proofs.«206440_g52347061403653_cont_9to1_m_884_16_alg».proof.Proof.Gen.Kernel
import proofs.«206440_g52347061403653_cont_9to1_m_884_16_alg».proof.Proof.Gen.Kernel.Skeleton
import proofs.«206440_g52347061403653_cont_9to1_m_884_16_alg».proof.Proof.Gen.Kernel.Launch
import proofs.«206440_g52347061403653_cont_9to1_m_884_16_alg».proof.Proof.Gen.Kernel.Points
import proofs.«206440_g52347061403653_cont_9to1_m_884_16_alg».proof.Proof.Spec

noncomputable section

namespace Cert.Kernel.Hand

open Cert.Kernel Cert.Kernel.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the first region's staging cells, the transfers' counters -/

abbrev UH : Type := URounds (GSem nD τ sig) ℕ
abbrev UPp : Type := UR sig nD τ
abbrev UU : Type := UH × (UPp × Counters)

local notation "𝕄" => MT nD τ sig (HIx 1) (Elt F) ℕ UU ℕ

abbrev EH : Emb UH (MT nD τ sig (HIx 1) (Elt F) ℕ UU ℕ) := embL
def EP : Emb UPp (MT nD τ sig (HIx 1) (Elt F) ℕ UU ℕ) := (Emb.inl : Emb UPp (UPp × Counters)).trans embR
instance EP_landsIn : (EP (F := F)).LandsIn (upEmb : UEmb _ 𝕄) := by unfold EP embR; infer_instance

/-! ## The launch memory and the arrays -/

variable (m : (ℓ : Loc nD τ sig) → Buf (Elt F) ℓ) (ρ : Dev nD → PrngReg)

/-- The index array `x`, the table `w`, its transpose, the padded table, the padded output and the result. -/
abbrev xLoc (d : Dev nD) : Loc nD τ sig := (SparseCore.T d).loc main_arg0
abbrev wLoc (d : Dev nD) : Loc nD τ sig := (SparseCore.T d).loc main_arg1
abbrev wtLoc (d : Dev nD) : Loc nD τ sig := (SparseCore.T d).loc main_v0
abbrev tLoc (d : Dev nD) : Loc nD τ sig := (SparseCore.T d).loc main_v1
abbrev oLoc (d : Dev nD) : Loc nD τ sig := (SparseCore.T d).loc main_v2
abbrev rLoc (d : Dev nD) : Loc nD τ sig := (SparseCore.T d).loc main_v3

/-- Worker `2·s + c` of subcore `s` of SparseCore `c`. -/
def wid (c : Fin 2) (s : Fin 16) : Fin 32 := ⟨2 * s.val + c.val, by omega⟩

theorem xdiv : 32 ∣ S16384x50.size 0 := ⟨512, rfl⟩
theorem odiv : 32 ∣ S16384x50x128.size 0 := ⟨512, rfl⟩
/-- The 512 rows of `x`, and of the padded output, that worker `k` owns. -/
abbrev xrows (k : Fin 32) : Rect S16384x50 := Rect.part (s := S16384x50) (a₀ := 0) xdiv k
abbrev orows (k : Fin 32) : Rect S16384x50x128 := Rect.part (s := S16384x50x128) (a₀ := 0) odiv k
abbrev xSet (c : Fin 2) (s : Fin 16) : Finset S16384x50.Idx := (xrows (wid c s)).set
abbrev oSet (c : Fin 2) (s : Fin 16) : Finset S16384x50x128.Idx := (orows (wid c s)).set

/-- Subcore `(c, s)`'s read share of the padded table: token `2·s + c` of thirty-two. -/
abbrev tq (c : Fin 2) (s : Fin 16) : PosShare TreeShare := Transfers.shareTok fullShare 32 (wid c s)

/-- The padded table's first 64 columns are the table's rows. -/
def GoodTbl {α : Type} (w : S1000000x64.Idx → α) (t : S1000000x128.Idx → α) : Prop :=
  ∀ (v : Fin 1000000) (q : Fin 64), t (ix2 v (⟨q.val, by omega⟩ : Fin 128)) = w (ix2 v q)

/-- On the entries `I`, the padded output's first 64 columns are the looked-up rows. -/
def GoodOut {α : Type} (x : S16384x50.Idx → BitVec 32) (w : S1000000x64.Idx → α) (I : Finset S16384x50x128.Idx)
    (f : S16384x50x128.Idx → α) : Prop :=
  ∀ i ∈ I, ∀ h : (i 2).val < 64, f i = w (ix2 (Cert.Proof.Spec.row x (i 0) (i 1)) (⟨(i 2).val, h⟩ : Fin 64))

/-- What the proof asks of the launch memory: every word of `x` names a row of the table. -/
def PreOK : Prop := ∀ (d : Dev nD) (j : S16384x50.Idx), (m (xLoc d) j).toNat < 1000000

variable [FloatOps F]

/-! ## What the handshakes carry -/

/-- Handed to subcore `(c, s)`: its rows of `x`, its read share of the padded table (at contents whose first 64
    columns are `w`'s rows), its rows of the padded output as the launch memory has them. -/
abbrev goR (d : Dev nD) (c : Fin 2) (s : Fin 16) : sProp 𝕄 :=
  iprop((xLoc d ↦[xSet c s]{fullShare} m (xLoc d))
    ∗ (∃ t, ⌜GoodTbl (m (wLoc d)) t⌝ ∗ tLoc d ↦{tq c s} t)
    ∗ oLoc d ↦[oSet c s]{fullShare} m (oLoc d))

/-- Brought back by subcore `(c, s)`: its rows of `x` unchanged, its rows of the padded output holding the looked-up rows. -/
abbrev tdR (d : Dev nD) (c : Fin 2) (s : Fin 16) : sProp 𝕄 :=
  iprop((xLoc d ↦[xSet c s]{fullShare} m (xLoc d))
    ∗ ∃ f, ⌜GoodOut (m (xLoc d)) (m (wLoc d)) (oSet c s) f⌝ ∗ oLoc d ↦[oSet c s]{fullShare} f)

def P : (K (F := F)).Pay (nD := nD) (Val := Elt F) (Name := ℕ) (U := UU) where
  st := fun q d c => match q with | 0 => bigSep Finset.univ fun s : Fin 16 => goR m d (Fin.cast nCore_zero c) s
  dn := fun q d c => match q with | 0 => bigSep Finset.univ fun s : Fin 16 => tdR m d (Fin.cast nCore_zero c) s
  go := fun q d c i => match q with | 0 => goR m d (Fin.cast nCore_zero c) (Fin.cast nSub_zero i)
  td := fun q d c i => match q with | 0 => tdR m d (Fin.cast nCore_zero c) (Fin.cast nSub_zero i)
  x := fun _ _ => iprop(emp)

instance P_storable : (P (F := F) m).IsStorable where
  st q d c := match q with
    | 0 => (inferInstance : BI.Storable (upEmb : UEmb _ 𝕄) (bigSep Finset.univ fun s : Fin 16 => goR m d (Fin.cast nCore_zero c) s))
  dn q d c := match q with
    | 0 => (inferInstance : BI.Storable (upEmb : UEmb _ 𝕄) (bigSep Finset.univ fun s : Fin 16 => tdR m d (Fin.cast nCore_zero c) s))
  go q d c i := match q with
    | 0 => (inferInstance : BI.Storable (upEmb : UEmb _ 𝕄) (goR m d (Fin.cast nCore_zero c) (Fin.cast nSub_zero i)))
  td q d c i := match q with
    | 0 => (inferInstance : BI.Storable (upEmb : UEmb _ 𝕄) (tdR m d (Fin.cast nCore_zero c) (Fin.cast nSub_zero i)))

end Cert.Kernel.Hand

end
-- ==== Proof.HandKernel.Split.lean ====
import proofs.«206440_g52347061403653_cont_9to1_m_884_16_alg».proof.Proof.HandKernel.Common

noncomputable section

namespace Cert.Kernel.Hand

open Cert.Kernel Cert.Kernel.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## The thirty-two workers as pairs (SparseCore, subcore) -/

/-- Worker `k` is subcore `k / 2` of SparseCore `k % 2`. -/
def widEquiv : Fin 2 × Fin 16 ≃ Fin 32 where
  toFun p := wid p.1 p.2
  invFun k := (⟨k.val % 2, Nat.mod_lt _ (by norm_num)⟩, ⟨k.val / 2, by omega⟩)
  left_inv p := by
    rcases p with ⟨c, s⟩
    refine Prod.ext (Fin.ext ?_) (Fin.ext ?_) <;> simp only [wid] <;> omega
  right_inv k := by
    refine Fin.ext ?_
    simp only [wid]; omega

omit m ρ in
theorem bigSep_workers (Φ : Fin 32 → sProp 𝕄) :
    bigSep Finset.univ Φ = bigSep Finset.univ fun c : Fin 2 => bigSep Finset.univ fun s : Fin 16 => Φ (wid c s) := by
  rw [bigSep_univ_equiv widEquiv Φ, bigSep_univ_prod]; rfl

/-! ## The rows split among the workers and join again -/

omit m ρ in
theorem xrows_disjoint : ∀ i ∈ (Finset.univ : Finset (Fin 32)), ∀ j ∈ (Finset.univ : Finset (Fin 32)), i ≠ j →
    Disjoint (xrows i).set (xrows j).set :=
  fun _ _ _ _ h => Rect.part_disjoint xdiv h
omit m ρ in
theorem orows_disjoint : ∀ i ∈ (Finset.univ : Finset (Fin 32)), ∀ j ∈ (Finset.univ : Finset (Fin 32)), i ≠ j →
    Disjoint (orows i).set (orows j).set :=
  fun _ _ _ _ h => Rect.part_disjoint odiv h
omit m ρ in
theorem xrows_cover : (Finset.univ : Finset (Fin 32)).biUnion (fun k => (xrows k).set) = Finset.univ := Rect.biUnion_part xdiv
omit m ρ in
theorem orows_cover : (Finset.univ : Finset (Fin 32)).biUnion (fun k => (orows k).set) = Finset.univ := Rect.biUnion_part odiv

omit m ρ in
theorem xPts_rows (d : Dev nD) (f : Buf (Elt F) (xLoc d)) :
    (xLoc d ↦{fullShare} f : sProp 𝕄) = bigSep Finset.univ fun k : Fin 32 => xLoc d ↦[(xrows k).set]{fullShare} f := by
  rw [← pointsTo_biUnion Finset.univ (ℓ := xLoc d) (fun k => (xrows k).set) xrows_disjoint, xrows_cover]; try rfl
omit m ρ in
theorem oPts_rows (d : Dev nD) (f : Buf (Elt F) (oLoc d)) :
    (oLoc d ↦{fullShare} f : sProp 𝕄) = bigSep Finset.univ fun k : Fin 32 => oLoc d ↦[(orows k).set]{fullShare} f := by
  rw [← pointsTo_biUnion Finset.univ (ℓ := oLoc d) (fun k => (orows k).set) orows_disjoint, orows_cover]; try rfl

variable [FloatOps F]

/-! ## What the TensorCore hands the SparseCores, and what it gets back -/

/-- Worker `k`'s part of the three arrays before the call. -/
abbrev goK (d : Dev nD) (k : Fin 32) : sProp 𝕄 :=
  iprop((xLoc d ↦[(xrows k).set]{fullShare} m (xLoc d))
    ∗ (∃ t, ⌜GoodTbl (m (wLoc d)) t⌝ ∗ tLoc d ↦{Transfers.shareTok fullShare 32 k} t)
    ∗ oLoc d ↦[(orows k).set]{fullShare} m (oLoc d))

/-- and after it. -/
abbrev tdK (d : Dev nD) (k : Fin 32) : sProp 𝕄 :=
  iprop((xLoc d ↦[(xrows k).set]{fullShare} m (xLoc d))
    ∗ ∃ f, ⌜GoodOut (m (xLoc d)) (m (wLoc d)) (orows k).set f⌝ ∗ oLoc d ↦[(orows k).set]{fullShare} f)

omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem st_eq (d : Dev nD) :
    (bigSep Finset.univ fun c : Fin ((K (F := F)).nCore 0) => (P m).st 0 d c) = bigSep Finset.univ fun k : Fin 32 => goK m d k := by
  rw [bigSep_workers (F := F) (fun k => goK m d k)]
  exact bigSep_cores (F := F) (fun c => bigSep Finset.univ fun s : Fin 16 => goR m d c s)

theorem dn_eq (d : Dev nD) :
    (bigSep Finset.univ fun c : Fin ((K (F := F)).nCore 0) => (P m).dn 0 d c) = bigSep Finset.univ fun k : Fin 32 => tdK m d k := by
  rw [bigSep_workers (F := F) (fun k => tdK m d k)]
  exact bigSep_cores (F := F) (fun c => bigSep Finset.univ fun s : Fin 16 => tdR m d c s)

/-- The three arrays whole, the padded table at contents whose first 64 columns are the table's rows, are every
    SparseCore's share of the call's operands. -/
theorem deal_st (d : Dev nD) (t : Buf (Elt F) (tLoc d)) (ht : GoodTbl (m (wLoc d)) t) :
    iprop((xLoc d ↦{fullShare} m (xLoc d)) ∗ (tLoc d ↦{fullShare} t) ∗ (oLoc d ↦{fullShare} m (oLoc d)))
      ⊢ (bigSep Finset.univ fun c : Fin ((K (F := F)).nCore 0) => (P m).st 0 d c : sProp 𝕄) := by
  rw [st_eq]
  have h32 : iprop((xLoc d ↦{fullShare} m (xLoc d)) ∗ (tLoc d ↦{fullShare} t) ∗ (oLoc d ↦{fullShare} m (oLoc d)))
      ⊢ (bigSep Finset.univ fun k : Fin 32 => iprop((xLoc d ↦[(xrows k).set]{fullShare} m (xLoc d))
          ∗ (tLoc d ↦{Transfers.shareTok fullShare 32 k} t) ∗ oLoc d ↦[(orows k).set]{fullShare} m (oLoc d)) : sProp 𝕄) := by
    rw [bigSep_sep', bigSep_sep', ← xPts_rows, ← oPts_rows]
    iintro ⟨Hx, Ht, Ho⟩
    ihave Ht' := (Transfers.pointsTo_toks_split (ℓ := tLoc d) (S := Finset.univ) (f := t) fullShare 32) $$ Ht
    icases Ht' with ⟨-, Ht'⟩
    isplitl [Hx]; · iexact Hx
    isplitl [Ht']; · iexact Ht'
    iexact Ho
  have hk : ∀ k : Fin 32, (iprop((xLoc d ↦[(xrows k).set]{fullShare} m (xLoc d))
      ∗ (tLoc d ↦{Transfers.shareTok fullShare 32 k} t) ∗ oLoc d ↦[(orows k).set]{fullShare} m (oLoc d)) : sProp 𝕄) ⊢ goK m d k := by
    intro k
    iintro ⟨Hx, Ht, Ho⟩
    isplitl [Hx]; · iexact Hx
    isplitl [Ht]
    · iexists t; isplitr
      · ipureintro; exact ht
      · iexact Ht
    iexact Ho
  exact h32.trans (bigSep_mono fun k _ => hk k)

set_option maxRecDepth 8192 in
/-- What the SparseCores bring back is `x` whole and unchanged and the padded output whole, its first 64 columns
    the looked-up rows everywhere. -/
theorem gather_dn (d : Dev nD) :
    (bigSep Finset.univ fun c : Fin ((K (F := F)).nCore 0) => (P m).dn 0 d c : sProp 𝕄)
      ⊢ iprop((xLoc d ↦{fullShare} m (xLoc d)) ∗ ∃ f, ⌜GoodOut (m (xLoc d)) (m (wLoc d)) Finset.univ f⌝ ∗ oLoc d ↦{fullShare} f) := by
  rw [dn_eq, bigSep_sep', ← xPts_rows]
  iintro ⟨Hx, Ho⟩
  isplitl [Hx]; · iexact Hx
  ihave Ho' := (bigSep_exists_pi Finset.univ (fun (k : Fin 32) (f : Buf (Elt F) (oLoc d)) =>
    iprop(⌜GoodOut (m (xLoc d)) (m (wLoc d)) (orows k).set f⌝ ∗ oLoc d ↦[(orows k).set]{fullShare} f))) $$ Ho
  icases Ho' with ⟨%fs, Ho'⟩
  ihave Ho2 := (bigSep_pure_sep Finset.univ (fun k : Fin 32 => GoodOut (m (xLoc d)) (m (wLoc d)) (orows k).set (fs k))
    (fun k => (oLoc d ↦[(orows k).set]{fullShare} fs k : sProp 𝕄))) $$ Ho'
  icases Ho2 with ⟨%hgood, Ho2⟩
  have : Nonempty (Buf (Elt F) (oLoc d)) := ⟨fs 0⟩
  ihave H' := (pointsTo_biUnion_join (ℓ := oLoc d) (q := fullShare) (Val := Elt F) Finset.univ (fun k : Fin 32 => (orows k).set) fs (fs 0) orows_disjoint) $$ Ho2
  icases H' with ⟨%g, %hg, Hg⟩
  rw [orows_cover]
  iexists g; isplitr
  · ipureintro
    intro i _ h64
    have hi : i ∈ (Finset.univ : Finset (Fin 32)).biUnion fun k => (orows k).set := by rw [orows_cover]; exact Finset.mem_univ i
    obtain ⟨k, -, hk⟩ := Finset.mem_biUnion.mp hi
    rw [hg k (Finset.mem_univ k) i hk]
    exact hgood k (Finset.mem_univ k) i hk h64
  · iexact Hg

end Cert.Kernel.Hand

end
-- ==== Proof.HandKernel.Value.lean ====
import proofs.«206440_g52347061403653_cont_9to1_m_884_16_alg».proof.Proof.HandKernel.Common

noncomputable section

namespace Cert.Kernel.Hand

open Cert.Kernel Cert.Kernel.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## The host slice of a padded output whose first 64 columns are the looked-up rows is the lookup -/

omit m ρ in
theorem slice_good (x : S16384x50.Idx → BitVec 32) (w : S1000000x64.Idx → Elt F .f32) (f : S16384x50x128.Idx → Elt F .f32)
    (hg : GoodOut x w Finset.univ f) :
    extractStridedSlice S16384x50x64 ![0, 0, 0] f slices_S16384x50x128_S16384x50x64_0_0_0 = Cert.Proof.Spec.lookup x w := by
  funext j
  have h64 : (0 + (j 2).val) < 64 := by have := (j 2).isLt; simpa using this
  show f _ = _
  rw [hg _ (Finset.mem_univ _) (by simpa using h64)]
  unfold Cert.Proof.Spec.lookup
  congr 1
  refine congrArg₂ ix2 ?_ ?_
  · refine congrArg₂ (Cert.Proof.Spec.row x) (Fin.ext ?_) (Fin.ext ?_) <;> simp
  · exact Fin.ext (by simp)

end Cert.Kernel.Hand

end
-- ==== Proof.HandKernel.Launch.lean ====
/-
  The program's run from its parts: @main on the TensorCore — the host transpose of the table, the first region
  (the padded table built), the SparseCore call (the rows looked up into the padded output), the host slice of its
  first 64 columns —, how a SparseCore's operands split among its subcores, the launch element, and what the final
  memory reads.  The first region's step, the funding of its staging cells and the vector subcores' obligation
  enter as hypotheses (`RegionHyp`, `FundHyp`, `TileObl`); the run's post says the result is the lookup
  `w[x[n, j], q]` and both arguments are unchanged.
-/
import proofs.«206440_g52347061403653_cont_9to1_m_884_16_alg».proof.Proof.HandKernel.Common
import proofs.«206440_g52347061403653_cont_9to1_m_884_16_alg».proof.Proof.HandKernel.Split
import proofs.«206440_g52347061403653_cont_9to1_m_884_16_alg».proof.Proof.HandKernel.Value
import Idealize.ShloMosaic.Lib.ValueLayout

noncomputable section

namespace Cert.Kernel.Hand

open Cert.Kernel Cert.Kernel.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## @main on the TensorCore -/

abbrev x' : DevRef τ sig := Proc.devRef .tc (main_arg0 : Ref sig .tc)
abbrev w' : DevRef τ sig := Proc.devRef .tc (main_arg1 : Ref sig .tc)
abbrev wt' : DevRef τ sig := Proc.devRef .tc (main_v0 : Ref sig .tc)
abbrev o' : DevRef τ sig := Proc.devRef .tc (main_v2 : Ref sig .tc)
abbrev r' : DevRef τ sig := Proc.devRef .tc (main_v3 : Ref sig .tc)

/-- The host transpose of the table, and the host slice of the padded output's first 64 columns. -/
abbrev opT : HloOp τ sig (Elt F) :=
  StableHlo.unary main_arg1 main_v0 ((transpose S64x1000000 [1, 0] · transposes_S1000000x64_S64x1000000_1_0) : (⟨S1000000x64, .f32⟩ : BufTy).Contents (Elt F) → (⟨S64x1000000, .f32⟩ : BufTy).Contents (Elt F))
abbrev opS : HloOp τ sig (Elt F) :=
  StableHlo.unary main_v2 main_v3 ((extractStridedSlice S16384x50x64 ![0, 0, 0] · slices_S16384x50x128_S16384x50x64_0_0_0) : (⟨S16384x50x128, .f32⟩ : BufTy).Contents (Elt F) → (⟨S16384x50x64, .f32⟩ : BufTy).Contents (Elt F))

omit [FloatOps F] in
/-- The TensorCore's unscoped buffers: the two arguments, the transposed table, the padded table, the padded output, the result. -/
theorem unscopedBufs_eq (d : Dev nD) (W : (b : Ref sig .tc) → Buf (Elt F) ((d.tc : Thread nD τ).loc b)) :
    (unscopedBufs d W : sProp 𝕄)
      = iprop((xLoc d ↦{fullShare} W main_arg0) ∗ (wLoc d ↦{fullShare} W main_arg1) ∗ (wtLoc d ↦{fullShare} W main_v0)
          ∗ (tLoc d ↦{fullShare} W main_v1) ∗ (oLoc d ↦{fullShare} W main_v2) ∗ rLoc d ↦{fullShare} W main_v3) := by
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide),
    SparseCore.bigSep_insert' (by decide), SparseCore.bigSep_insert' (by decide), bigSep_singleton]

theorem opTBufs_eq (d : Dev nD) (W : Valuation τ sig (Elt F)) :
    (bigSep (opT (F := F)).bufs (fun b => ((d, b) : Loc nD τ sig) ↦{fullShare} W b) : sProp 𝕄)
      = iprop((wLoc d ↦{fullShare} W w') ∗ wtLoc d ↦{fullShare} W wt') := by
  show bigSep ({w', wt'} : Finset (DevRef τ sig)) (fun b => ((d, b) : Loc nD τ sig) ↦{fullShare} W b) = _
  rw [SparseCore.bigSep_insert' (by decide), bigSep_singleton]

theorem opSBufs_eq (d : Dev nD) (W : Valuation τ sig (Elt F)) :
    (bigSep (opS (F := F)).bufs (fun b => ((d, b) : Loc nD τ sig) ↦{fullShare} W b) : sProp 𝕄)
      = iprop((oLoc d ↦{fullShare} W o') ∗ rLoc d ↦{fullShare} W r') := by
  show bigSep ({o', r'} : Finset (DevRef τ sig)) (fun b => ((d, b) : Loc nD τ sig) ↦{fullShare} W b) = _
  rw [SparseCore.bigSep_insert' (by decide), bigSep_singleton]

/-- The first region's ghost state on device `d`: its staging cells' and its duty tokens'. -/
abbrev RG (d : Dev nD) : sProp 𝕄 := iprop(Pipeline.cellsGhost cfgs (EP (F := F)) 0 d ∗ Pipeline.toksInit cfgs (EP (F := F)) 0 d)

/-- The padded table's first 64 columns are the transposed table's rows. -/
def GoodTblT' {α : Type} (a : S64x1000000.Idx → α) (t : S1000000x128.Idx → α) : Prop :=
  ∀ (v : Fin 1000000) (q : Fin 64), t (ix2 v (⟨q.val, by omega⟩ : Fin 128)) = a (ix2 q v)

/-- What @main leaves the claim: the two arguments at their launch contents, the result at the lookup. -/
abbrev FIN (d : Dev nD) : sProp 𝕄 :=
  iprop((xLoc d ↦{fullShare} m (xLoc d)) ∗ (wLoc d ↦{fullShare} m (wLoc d))
    ∗ rLoc d ↦{fullShare} (Cert.Proof.Spec.lookup (m (xLoc d)) (m (wLoc d)) : Buf (Elt F) (rLoc d)))

/-- The device's valuation at launch. -/
abbrev Fv0 (d : Dev nD) : Valuation τ sig (Elt F) := fun b => m (d, b)

/-- The transposed table. -/
abbrev WT (d : Dev nD) : Buf (Elt F) (wtLoc d) :=
  (transpose S64x1000000 [1, 0] (m (wLoc d)) transposes_S1000000x64_S64x1000000_1_0 : S64x1000000.Idx → Elt F .f32)

omit m ρ [FloatOps F] in
theorem Otc_none (d : Dev nD) (n : ℕ) (g : GSem nD τ sig) : (K (F := F)).Otc d n g none = 0 := by
  by_contra h
  have := SparseCore.Cfg.lev_of_Otc_pos (K := K (F := F)) (Nat.pos_of_ne_zero h)
  rw [SparseCore.Cfg.lev_none] at this; omega

omit ρ [FloatOps F] in
/-- The transposed table at `(q, v)` is the table at `(v, q)`. -/
theorem WT_apply (d : Dev nD) (q : Fin 64) (v : Fin 1000000) : WT m d (ix2 q v) = m (wLoc d) (ix2 v q) :=
  transpose_ix2_apply _ _ q v

/-- The device's valuation before the slice: the launch's, the padded output at `f`. -/
def Fv1 (d : Dev nD) (f : Buf (Elt F) (oLoc d)) : Valuation τ sig (Elt F) := Function.update (fun b => m (d, b)) o' f
omit ρ [FloatOps F] in
theorem Fv1_o (d : Dev nD) (f : Buf (Elt F) (oLoc d)) : Fv1 m d f o' = f := Function.update_self _ _ _
omit ρ [FloatOps F] in
theorem Fv1_r (d : Dev nD) (f : Buf (Elt F) (oLoc d)) : Fv1 m d f r' = m (rLoc d) := Function.update_of_ne (show r' ≠ o' by decide) _ _

/-- What the first region's proof supplies: from the transposed table and the padded table whole, the region's custom
    call leaves the padded table at contents whose first 64 columns are the transposed table's rows. -/
def RegionHyp : Prop :=
  ∀ (A0 : (d : Dev nD) → Buf (Elt F) (wtLoc d)) (A1 : (d : Dev nD) → Buf (Elt F) (tLoc d)) (O : Dev nD → CellTallies nD τ sig (HIx 1)) (hO : ∀ d g, O d g none = 0)
      (d : Dev nD) (W : Waits sig (HIx 1)) (hW : (K (F := F)).WBelow (T d) W 0) (Φ : PUnit → sProp 𝕄),
      iprop(levAts (K (F := F)).L (K (F := F)).lev ∗ boundary (T d) ∗ (wtLoc d ↦{fullShare} A0 d) ∗ (tLoc d ↦{fullShare} A1 d) ∗ owes (T d) (O d) W
        ∗ Pipeline.cellsGhost cfgs (EP (F := F)) 0 d ∗ Pipeline.toksInit cfgs (EP (F := F)) 0 d
        ∗ (iprop(boundary (T d) ∗ (wtLoc d ↦{fullShare} A0 d) ∗ (∃ t, ⌜GoodTblT' (A0 d) t⌝ ∗ tLoc d ↦{fullShare} t) ∗ ∃ W', ⌜(K (F := F)).WBelow (T d) W' 0⌝ ∗ owes (T d) (O d) W') -∗ Φ ⟨⟩))
      ⊢ wp frame (wpE (D (F := F)) 𝒱 (T d) none) Set.univ (Prog.lift (.customCall (Pipeline.entry 0) ())) Φ

theorem region_lifted (hreg : RegionHyp (F := F)) (d : Dev nD) (W : Waits sig (HIx 1)) (hW : (K (F := F)).WBelow (SparseCore.T d) W 0) (Φ : PUnit → sProp 𝕄) :
    iprop(levAts (K (F := F)).L (K (F := F)).lev ∗ boundary (SparseCore.T d) ∗ (wtLoc d ↦{fullShare} WT m d) ∗ (tLoc d ↦{fullShare} m (tLoc d)) ∗ owes (SparseCore.T d) ((K (F := F)).Otc d 0) W
        ∗ Pipeline.cellsGhost cfgs (EP (F := F)) 0 d ∗ Pipeline.toksInit cfgs (EP (F := F)) 0 d
        ∗ (iprop(boundary (SparseCore.T d) ∗ (wtLoc d ↦{fullShare} WT m d) ∗ (∃ t, ⌜GoodTblT' (WT m d) t⌝ ∗ tLoc d ↦{fullShare} t) ∗ ∃ W', ⌜(K (F := F)).WBelow (SparseCore.T d) W' 0⌝ ∗ owes (SparseCore.T d) ((K (F := F)).Otc d 0) W') -∗ Φ ⟨⟩))
      ⊢ wp frame (wpE ((K (F := F)).defs (D (F := F))) 𝒱 (SparseCore.T d) none) Set.univ (Prog.lift (.customCall (SparseCore.inner (Pipeline.entry 0)) ())) Φ :=
  (hreg (WT m) (fun d => m (tLoc d)) (fun d => (K (F := F)).Otc d 0) (fun d g => Otc_none d 0 g) d W hW Φ).trans
    ((K (F := F)).wp_liftProg (D (F := F)) 𝒱 (SparseCore.T d) Set.univ none (Prog.lift (.customCall (Pipeline.entry 0) ())) Φ)

set_option maxRecDepth 8192 in
theorem hmain
    (hreg : RegionHyp (F := F))
    (κ : GSem nD τ sig → ℕ) (d : Dev nD) :
    iprop((K (F := F)).ctx EH (P m) κ ∗ (K (F := F)).tcSt EH d 0 ∗ (K (F := F)).tcRes m ρ d ∗ RG (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hx, Hw, Hwt, Ht, Ho, Hr⟩, -, -⟩, ⟨Hcg, Htk⟩⟩
  -- the host transpose
  iapply (wp_hlo 𝒱 (SparseCore.T d) none Set.univ (op := opT) (q := fun _ => fullShare) (F := Fv0 m d) (fun _ _ => rfl)) $$ [Hb Hw Hwt]
  · isplitl [Hb]; · iexact Hb
    rw [opTBufs_eq]
    isplitl [Hw]; · iexact Hw
    iexact Hwt
  rw [opTBufs_eq]
  iintro ⟨Hb, Hw, Hwt⟩
  rw [wp_ret]; imodintro
  rw [show (opT (F := F)).result (Fv0 m d) w' = m (wLoc d) from (opT (F := F)).result_of_not_mem (Fv0 m d) (b := w') (show w' ∉ ({wt'} : Finset (DevRef τ sig)) by decide),
    show (opT (F := F)).result (Fv0 m d) wt' = WT m d from StableHlo.unary_result _ _ _ _ _ _]
  -- the first region: the padded table built
  ihave Hlev := (SparseCore.Cfg.ctx_levAts κ) $$ Hctx
  ihave Hst' := (Entails.of_eq (show (K (F := F)).tcSt EH d 0 = iprop((∃ W, ⌜(K (F := F)).WBelow (SparseCore.T d) W (8 * 0)⌝ ∗ owes (SparseCore.T d) ((K (F := F)).Otc d 0) W) ∗ _) from rfl)) $$ Hst
  icases Hst' with ⟨⟨%W, %hW, HO⟩, Htail⟩
  iapply (region_lifted m hreg d W hW _) $$ [Hlev Hb Hwt Ht HO Hcg Htk Hx Hw Ho Hr Htail]
  isplitl [Hlev]; · iexact Hlev
  isplitl [Hb]; · iexact Hb
  isplitl [Hwt]; · iexact Hwt
  isplitl [Ht]; · iexact Ht
  isplitl [HO]; · iexact HO
  isplitl [Hcg]; · iexact Hcg
  isplitl [Htk]; · iexact Htk
  iintro ⟨Hb, Hwt, ⟨%t, %ht, Ht⟩, HO⟩
  -- the TensorCore's state again, the padded table's first 64 columns the table's rows
  have hgood : GoodTbl (m (wLoc d)) t := fun v q => (ht v q).trans (WT_apply m d q v)
  ihave Hst := (Entails.of_eq (show iprop((∃ W, ⌜(K (F := F)).WBelow (SparseCore.T d) W (8 * 0)⌝ ∗ owes (SparseCore.T d) ((K (F := F)).Otc d 0) W) ∗ _) = (K (F := F)).tcSt EH d 0 from rfl)) $$ [HO Htail]
  · isplitl [HO]; · iexact HO
    iexact Htail
  -- the SparseCore call
  iapply ((K (F := F)).wp_run (D (F := F)) 𝒱 (EH := EH) (P := P m) κ d 0) $$ [Hst Hx Ht Ho Hb Hw Hr Hwt]
  isplitr; · iexact Hctx
  isplitl [Hst]; · iexact Hst
  isplitl [Hx Ht Ho]
  · iapply (deal_st m d t hgood)
    isplitl [Hx]; · iexact Hx
    isplitl [Ht]; · iexact Ht
    iexact Ho
  iintro ⟨Hst, Hdn⟩
  ihave Hdn' := (gather_dn m d) $$ Hdn
  icases Hdn' with ⟨Hx, %f, %hf, Ho⟩
  -- the host slice
  iapply (wp_hlo 𝒱 (SparseCore.T d) none Set.univ (op := opS) (q := fun _ => fullShare) (F := Fv1 m d f) (fun _ _ => rfl)) $$ [Hb Ho Hr]
  · isplitl [Hb]; · iexact Hb
    rw [opSBufs_eq, Fv1_o, Fv1_r]
    isplitl [Ho]; · iexact Ho
    iexact Hr
  rw [opSBufs_eq]
  iintro ⟨Hb, Ho, Hr⟩
  rw [show (opS (F := F)).result (Fv1 m d f) r' = (Cert.Proof.Spec.lookup (m (xLoc d)) (m (wLoc d)) : Buf (Elt F) (rLoc d)) from
    (StableHlo.unary_result _ _ _ _ _ _).trans (by rw [Fv1_o]; exact slice_good _ _ _ hf)]
  rw [wp_ret]; imodintro; imodintro
  isplitl [Hst]; · iexact Hst
  isplitl [Hx]; · iexact Hx
  isplitl [Hw]; · iexact Hw
  iexact Hr

/-! ## How a SparseCore's operands split among its subcores -/

omit m ρ [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit ρ in
/-- A SparseCore's share of the operands IS its sixteen subcores' shares, and their results are its result. -/
theorem vecSplit : (K (F := F)).VecSplit' (P m) 0 := by
  intro d c
  show (bigSep Finset.univ fun s : Fin 16 => goR m d (Fin.cast nCore_zero c) s) ⊢ |={Set.univ}=> iprop(
      (bigSep Finset.univ fun i : Fin ((K (F := F)).nSub 0) => goR m d (Fin.cast nCore_zero c) (Fin.cast nSub_zero i))
      ∗ ((bigSep Finset.univ fun i : Fin ((K (F := F)).nSub 0) => tdR m d (Fin.cast nCore_zero c) (Fin.cast nSub_zero i))
          -∗ bigSep Finset.univ fun s : Fin 16 => tdR m d (Fin.cast nCore_zero c) s))
  rw [bigSep_tasks (F := F) (fun s => goR m d (Fin.cast nCore_zero c) s), bigSep_tasks (F := F) (fun s => tdR m d (Fin.cast nCore_zero c) s)]
  iintro H; imodintro
  isplitl [H]; · iexact H
  iintro H; iexact H

/-! ## The launch element -/

/-- The handshakes' launch element, the first region's staging cells' and the transfers' counters. -/
def u₀ : UU := (initOf (K (F := F)).hsCells (K (F := F)).hsToks,
  (initOf (Pipeline.cells cfgs cellOf_inj) (Pipeline.launchToks cfgs cellOf_inj), 1))

omit m ρ [FloatOps F] in
theorem bigSep_emp' {I : Type} (s : Finset I) : (bigSep s fun _ => iprop(emp)) = (iprop(emp) : sProp 𝕄) := bigSep_emp_const s

/-- What funds the first region's ghost state on every device. -/
def FundHyp : Prop :=
  (BI.own (EP (F := F) (initOf (Pipeline.cells cfgs cellOf_inj) (Pipeline.launchToks cfgs cellOf_inj))) : sProp 𝕄)
    ⊢ |==> bigSep Finset.univ fun d : Dev nD => RG (F := F) d

omit ρ in
theorem hu₀ (hfund : FundHyp (F := F)) : (ownU (u₀ (F := F)) : sProp 𝕄)
    ⊢ |={Set.univ}=> iprop(BI.own (EH (initOf (K (F := F)).hsCells (K (F := F)).hsToks)) ∗ (bigSep Finset.univ fun d : Dev nD => RG (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave HR' := (own_pair_emb embR _ _) $$ HR
  icases HR' with ⟨HP, -⟩
  have hfund' : (BI.own (EP (F := F) (initOf (Pipeline.cells cfgs cellOf_inj) (Pipeline.launchToks cfgs cellOf_inj))) : sProp 𝕄)
      ⊢ |==> bigSep Finset.univ fun d : Dev nD => RG (F := F) d := hfund
  ihave HP2 := (Entails.of_eq (show (BI.own (((Emb.inl : Emb UPp (UPp × Counters)).trans embR) (initOf (Pipeline.cells cfgs cellOf_inj) (Pipeline.launchToks cfgs cellOf_inj))) : sProp 𝕄)
    = BI.own (EP (F := F) (initOf (Pipeline.cells cfgs cellOf_inj) (Pipeline.launchToks cfgs cellOf_inj))) from rfl)) $$ HP
  imod hfund' $$ HP2 with HG
  imodintro
  isplitl [HH]; · iexact HH
  isplitl [HG]; · iexact HG
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## What the claim reads of the final memory -/

def fq (d : Dev nD) (s' : Phys nD τ sig (Elt F)) : Prop :=
  s'.mem.mem (rLoc d) = (Cert.Proof.Spec.lookup (m (xLoc d)) (m (wLoc d)) : Buf (Elt F) (rLoc d))
    ∧ s'.mem.mem (xLoc d) = m (xLoc d) ∧ s'.mem.mem (wLoc d) = m (wLoc d)

omit ρ in
set_option maxRecDepth 16384 in
theorem hfin (d : Dev nD) (s' : Phys nD τ sig (Elt F)) : iprop(FIN m d ∗ SI s') ⊢ (⌜fq m d s'⌝ : sProp 𝕄) := by
  iintro ⟨⟨Hx, Hw, Hr⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := wLoc d) (I := Finset.univ) (q := fullShare) (f := m (wLoc d)))) $$ [HSI Hw]
  · isplitl [HSI] <;> iassumption
  icases H with ⟨%h2, HSI, -⟩
  ihave H := (SI_pointsTo_agree (st := s') (ℓ := rLoc d) (I := Finset.univ) (q := fullShare)
    (f := (Cert.Proof.Spec.lookup (m (xLoc d)) (m (wLoc d)) : Buf (Elt F) (rLoc d)))) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

/-- The run's post: the result is the lookup, the two arguments are unchanged. -/
def QC : PUnit × MemSt nD τ sig (Elt F) → Prop := fun r => ∀ c : Dev nD,
  r.2.mem (rLoc c) = (Cert.Proof.Spec.lookup (m (xLoc c)) (m (wLoc c)) : Buf (Elt F) (rLoc c))
    ∧ r.2.mem (xLoc c) = m (xLoc c) ∧ r.2.mem (wLoc c) = m (wLoc c)

theorem run_of [∀ e, Nonempty (Elt F e)] (hreg : RegionHyp (F := F)) (hfund : FundHyp (F := F))
    (htile : (K (F := F)).TileObl (D (F := F)) 𝒱 (P m) v₀ 0) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (fun d => RG (F := F) d) (FIN m) (u₀ (F := F)) (sep_elim_left.trans (hu₀ m hfund)) (hmain m ρ hreg) (fq m) (hfin m) (QC m) (fun _ h => h)

end Cert.Kernel.Hand

end
-- ==== Proof.HandKernel.TileA.lean ====
/-
  The body of the lookup kernel on one vector subcore: what the subcore owns when its task starts, and the names of
  the rows, row buffers and semaphores its ring of eight slots works on.
-/
import proofs.«206440_g52347061403653_cont_9to1_m_884_16_alg».proof.Proof.HandKernel.Common

noncomputable section

namespace Cert.Kernel.Hand

open Cert.Kernel Cert.Kernel.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

section Tile

variable (d : Dev nD) (L : grid1.Coords)

abbrev cV (L : grid1.Coords) : Fin τ.nSC := (L 0).castLE hcore1
abbrev jV (L : grid1.Coords) : Fin τ.nSub := (L 1).castLE hsub1
theorem bound_zero : grid1.bound 0 = 2 := rfl
theorem bound_one : grid1.bound 1 = 16 := rfl
abbrev cL (L : grid1.Coords) : Fin 2 := Fin.cast bound_zero (L 0)
abbrev sL (L : grid1.Coords) : Fin 16 := Fin.cast bound_one (L 1)

/-! ## The subcore's own semaphores and buffers -/

/-- The seventeen DMA semaphores the kernel names. -/
def semsT : Finset (SemLoc sig) :=
  {SemLoc.dma cc1_scratch9.sem, SemLoc.dma cc1_scratch10.sem, SemLoc.dma cc1_scratch11.sem, SemLoc.dma cc1_scratch12.sem,
   SemLoc.dma cc1_scratch13.sem, SemLoc.dma cc1_scratch14.sem, SemLoc.dma cc1_scratch15.sem, SemLoc.dma cc1_scratch16.sem,
   SemLoc.dma cc1_scratch17.sem, SemLoc.dma cc1_scratch18.sem, SemLoc.dma cc1_scratch19.sem, SemLoc.dma cc1_scratch20.sem,
   SemLoc.dma cc1_scratch21.sem, SemLoc.dma cc1_scratch22.sem, SemLoc.dma cc1_scratch23.sem, SemLoc.dma cc1_scratch24.sem,
   SemLoc.dma cc1_scoped0.sem}

abbrev sv (d : Dev nD) (L : grid1.Coords) (a : DmaSems sig S_) : sProp 𝕄 := semVal (V d (cV L) (jV L), SemLoc.dma a.sem) 0

theorem ownSems0_V :
    (ownSems0 (V d (cV L) (jV L)) : sProp 𝕄)
      = iprop((sv d L cc1_scratch9 ∗ sv d L cc1_scratch10 ∗ sv d L cc1_scratch11 ∗ sv d L cc1_scratch12
          ∗ sv d L cc1_scratch13 ∗ sv d L cc1_scratch14 ∗ sv d L cc1_scratch15 ∗ sv d L cc1_scratch16
          ∗ sv d L cc1_scratch17 ∗ sv d L cc1_scratch18 ∗ sv d L cc1_scratch19 ∗ sv d L cc1_scratch20
          ∗ sv d L cc1_scratch21 ∗ sv d L cc1_scratch22 ∗ sv d L cc1_scratch23 ∗ sv d L cc1_scratch24
          ∗ sv d L cc1_scoped0)
          ∗ bigSep ((Finset.univ.filter fun sm : SemLoc sig => sm.isScoped .scVector) \ semsT) fun sm => semVal (V d (cV L) (jV L), sm) 0) := by
  rw [SparseCore.Cfg.ownSems0_eq]
  show bigSep (Finset.univ.filter fun sm : SemLoc sig => sm.isScoped .scVector) _ = _
  rw [SparseCore.bigSep_sdiff_split' (t := semsT) (by decide)]
  congr 1
  unfold semsT
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    bigSep_singleton]

/-- The nine scratch buffers the kernel names. -/
def bufsT : Finset (Ref sig .scVector) :=
  {cc1_scratch0, cc1_scratch1, cc1_scratch2, cc1_scratch3, cc1_scratch4, cc1_scratch5, cc1_scratch6, cc1_scratch7, cc1_scratch8}

abbrev bv (d : Dev nD) (L : grid1.Coords) (b : Ref sig .scVector) : sProp 𝕄 := iprop(∃ f, (V d (cV L) (jV L)).loc b ↦{fullShare} f)

def devEmb (L : grid1.Coords) : Ref sig .scVector ↪ DevRef τ sig :=
  ⟨(Proc.scVector (cV L) (jV L)).devRef, Proc.devRef_injective _⟩

theorem ownBufs_V :
    (ownBufs (V d (cV L) (jV L)) : sProp 𝕄)
      = iprop((bv d L cc1_scratch0 ∗ bv d L cc1_scratch1 ∗ bv d L cc1_scratch2 ∗ bv d L cc1_scratch3 ∗ bv d L cc1_scratch4
          ∗ bv d L cc1_scratch5 ∗ bv d L cc1_scratch6 ∗ bv d L cc1_scratch7 ∗ bv d L cc1_scratch8)
          ∗ bigSep (ownRefs (τ := τ) (.scVector (cV L) (jV L)) \ bufsT.map (devEmb L))
              fun b => iprop(∃ f, ((d, b) : Loc nD τ sig) ↦{fullShare} f)) := by
  unfold SparseCore.Cfg.ownBufs
  have hsub : bufsT.map (devEmb L) ⊆ ownRefs (τ := τ) (sig := sig) (.scVector (cV L) (jV L)) := by
    intro b hb
    obtain ⟨r, hr, rfl⟩ := Finset.mem_map.mp hb
    unfold bufsT at hr
    simp only [Finset.mem_insert, Finset.mem_singleton] at hr
    rcases hr with rfl | rfl | rfl | rfl | rfl | rfl | rfl | rfl | rfl <;>
      exact SparseCore.Cfg.mem_ownRefs_of_owner (p := Proc.scVector (cV L) (jV L)) rfl
  refine (SparseCore.bigSep_sdiff_split' hsub).trans ?_
  congr 1
  rw [bigSep_map]
  unfold bufsT
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    bigSep_singleton]
  rfl

/-! ## The rows of the index array, as the kernel slices them -/

local notation "xV" => (Memref.whole Cert.Kernel.main_arg0_scv : Memref Cert.Kernel.sig Kind.scVector Space.hbm Cert.Kernel.S16384x50 EltTy.i32)
local notation "tV" => (Memref.whole Cert.Kernel.main_v1_scv : Memref Cert.Kernel.sig Kind.scVector Space.hbm Cert.Kernel.S1000000x128 EltTy.f32)
local notation "oV" => (Memref.whole Cert.Kernel.main_v2_scv : Memref Cert.Kernel.sig Kind.scVector Space.hbm Cert.Kernel.S16384x50x128 EltTy.f32)
local notation "iV" => (Memref.whole Cert.Kernel.cc1_scratch0 : Memref Cert.Kernel.sig Kind.scVector Space.vmem Cert.Kernel.S512x50 EltTy.i32)
local notation "r0V" => (Memref.whole Cert.Kernel.cc1_scratch1 : Memref Cert.Kernel.sig Kind.scVector Space.vmem Cert.Kernel.S50x128 EltTy.f32)
local notation "r1V" => (Memref.whole Cert.Kernel.cc1_scratch2 : Memref Cert.Kernel.sig Kind.scVector Space.vmem Cert.Kernel.S50x128 EltTy.f32)
local notation "r2V" => (Memref.whole Cert.Kernel.cc1_scratch3 : Memref Cert.Kernel.sig Kind.scVector Space.vmem Cert.Kernel.S50x128 EltTy.f32)
local notation "r3V" => (Memref.whole Cert.Kernel.cc1_scratch4 : Memref Cert.Kernel.sig Kind.scVector Space.vmem Cert.Kernel.S50x128 EltTy.f32)
local notation "r4V" => (Memref.whole Cert.Kernel.cc1_scratch5 : Memref Cert.Kernel.sig Kind.scVector Space.vmem Cert.Kernel.S50x128 EltTy.f32)
local notation "r5V" => (Memref.whole Cert.Kernel.cc1_scratch6 : Memref Cert.Kernel.sig Kind.scVector Space.vmem Cert.Kernel.S50x128 EltTy.f32)
local notation "r6V" => (Memref.whole Cert.Kernel.cc1_scratch7 : Memref Cert.Kernel.sig Kind.scVector Space.vmem Cert.Kernel.S50x128 EltTy.f32)
local notation "r7V" => (Memref.whole Cert.Kernel.cc1_scratch8 : Memref Cert.Kernel.sig Kind.scVector Space.vmem Cert.Kernel.S50x128 EltTy.f32)

abbrev xrowsK (L : grid1.Coords) : Rect S16384x50 := Rect.unit (s := S16384x50) (k1_off1 L) S512x50.size (k1_off1_inb L)
abbrev xRowsK (L : grid1.Coords) : Memref sig .scVector .hbm S512x50 .i32 := (xV).slice (xrowsK L) (fun _ => rfl)

theorem wid_val (L : grid1.Coords) : (wid (cL L) (sL L)).val = 2 * (L 1).val + (L 0).val := rfl

theorem xrowsK_eq : xrowsK L = xrows (wid (cL L) (sL L)) := by
  unfold xrowsK xrows Rect.part Rect.block
  congr 1 <;> funext a
  · rw [k1_off1_eq]
    match a with
    | 0 => simp [Shape.partIx, Shape.partSize, wid_val]; omega
    | 1 => simp [Shape.partIx, Shape.partSize]
  · match a with
    | 0 => simp [Shape.partSize]
    | 1 => simp [Shape.partSize]

theorem set_xRowsK : (xRowsK L).view.set = xSet (cL L) (sL L) := by
  show ((xV).view.slice (xrowsK L)).set = (xrows (wid (cL L) (sL L))).set
  rw [xrowsK_eq]
  show ((View.whole (main_arg0_scv : Ref sig .scVector)).slice _).set = _
  rw [View.set_slice]; exact Finset.map_refl

theorem pts_xRowsK (f : Buf (Elt F) (xLoc d)) :
    ((xRowsK L).view.loc (V d (cV L) (jV L)) ↦[(xRowsK L).view.set]{fullShare} f : sProp 𝕄) = xLoc d ↦[xSet (cL L) (sL L)]{fullShare} f := by
  rw [set_xRowsK]
theorem pts_tV (q : PosShare TreeShare) (f : Buf (Elt F) (tLoc d)) :
    ((tV).view.loc (V d (cV L) (jV L)) ↦{q} f : sProp 𝕄) = tLoc d ↦{q} f := rfl
theorem pts_oV (I : Finset S16384x50x128.Idx) (f : Buf (Elt F) (oLoc d)) :
    ((oV).view.loc (V d (cV L) (jV L)) ↦[I]{fullShare} f : sProp 𝕄) = oLoc d ↦[I]{fullShare} f := rfl

end Tile

end Cert.Kernel.Hand

end
-- ==== Proof.HandKernel.TileB.lean ====
/-
  The body of the lookup kernel on one vector subcore: what the subcore owns when its task starts, and the names of
  the rows, row buffers and semaphores its ring of eight slots works on.
-/
import proofs.«206440_g52347061403653_cont_9to1_m_884_16_alg».proof.Proof.HandKernel.TileA

noncomputable section

namespace Cert.Kernel.Hand

open Cert.Kernel Cert.Kernel.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "xV" => (Memref.whole Cert.Kernel.main_arg0_scv : Memref Cert.Kernel.sig Kind.scVector Space.hbm Cert.Kernel.S16384x50 EltTy.i32)
local notation "tV" => (Memref.whole Cert.Kernel.main_v1_scv : Memref Cert.Kernel.sig Kind.scVector Space.hbm Cert.Kernel.S1000000x128 EltTy.f32)
local notation "oV" => (Memref.whole Cert.Kernel.main_v2_scv : Memref Cert.Kernel.sig Kind.scVector Space.hbm Cert.Kernel.S16384x50x128 EltTy.f32)
local notation "iV" => (Memref.whole Cert.Kernel.cc1_scratch0 : Memref Cert.Kernel.sig Kind.scVector Space.vmem Cert.Kernel.S512x50 EltTy.i32)
local notation "r0V" => (Memref.whole Cert.Kernel.cc1_scratch1 : Memref Cert.Kernel.sig Kind.scVector Space.vmem Cert.Kernel.S50x128 EltTy.f32)
local notation "r1V" => (Memref.whole Cert.Kernel.cc1_scratch2 : Memref Cert.Kernel.sig Kind.scVector Space.vmem Cert.Kernel.S50x128 EltTy.f32)
local notation "r2V" => (Memref.whole Cert.Kernel.cc1_scratch3 : Memref Cert.Kernel.sig Kind.scVector Space.vmem Cert.Kernel.S50x128 EltTy.f32)
local notation "r3V" => (Memref.whole Cert.Kernel.cc1_scratch4 : Memref Cert.Kernel.sig Kind.scVector Space.vmem Cert.Kernel.S50x128 EltTy.f32)
local notation "r4V" => (Memref.whole Cert.Kernel.cc1_scratch5 : Memref Cert.Kernel.sig Kind.scVector Space.vmem Cert.Kernel.S50x128 EltTy.f32)
local notation "r5V" => (Memref.whole Cert.Kernel.cc1_scratch6 : Memref Cert.Kernel.sig Kind.scVector Space.vmem Cert.Kernel.S50x128 EltTy.f32)
local notation "r6V" => (Memref.whole Cert.Kernel.cc1_scratch7 : Memref Cert.Kernel.sig Kind.scVector Space.vmem Cert.Kernel.S50x128 EltTy.f32)
local notation "r7V" => (Memref.whole Cert.Kernel.cc1_scratch8 : Memref Cert.Kernel.sig Kind.scVector Space.vmem Cert.Kernel.S50x128 EltTy.f32)

/-! ## Rows of the index scratch and of the padded output, by their leading coordinate -/

/-- The entries of the index scratch whose row lies in `[lo, hi)`. -/
def iRng (lo hi : ℕ) : Finset S512x50.Idx := Finset.univ.filter fun i => lo ≤ (i 0).val ∧ (i 0).val < hi
/-- The entries of the padded output whose row lies in `[lo, hi)`. -/
def oRng (lo hi : ℕ) : Finset S16384x50x128.Idx := Finset.univ.filter fun i => lo ≤ (i 0).val ∧ (i 0).val < hi

theorem mem_iRng {lo hi : ℕ} {i : S512x50.Idx} : i ∈ iRng lo hi ↔ lo ≤ (i 0).val ∧ (i 0).val < hi := by
  simp only [iRng, Finset.mem_filter, Finset.mem_univ, true_and]
theorem mem_oRng {lo hi : ℕ} {i : S16384x50x128.Idx} : i ∈ oRng lo hi ↔ lo ≤ (i 0).val ∧ (i 0).val < hi := by
  simp only [oRng, Finset.mem_filter, Finset.mem_univ, true_and]

theorem iRng_union {a b c : ℕ} (hab : a ≤ b) (hbc : b ≤ c) : iRng a c = iRng a b ∪ iRng b c := by
  ext i; simp only [mem_iRng, Finset.mem_union]; omega
theorem iRng_disjoint (a b c : ℕ) : Disjoint (iRng a b) (iRng b c) := by
  rw [Finset.disjoint_left]; intro i h1 h2; rw [mem_iRng] at h1 h2; omega
theorem oRng_union {a b c : ℕ} (hab : a ≤ b) (hbc : b ≤ c) : oRng a c = oRng a b ∪ oRng b c := by
  ext i; simp only [mem_oRng, Finset.mem_union]; omega
theorem oRng_disjoint (a b c : ℕ) : Disjoint (oRng a b) (oRng b c) := by
  rw [Finset.disjoint_left]; intro i h1 h2; rw [mem_oRng] at h1 h2; omega
theorem iRng_all : iRng 0 512 = Finset.univ := by
  ext i; simp only [mem_iRng, Finset.mem_univ, iff_true]; exact ⟨Nat.zero_le _, (i 0).isLt⟩

section Pts
variable {ℓ : Loc nD τ sig} {q : PosShare TreeShare} {f : Buf (Elt F) ℓ}
end Pts

/-- Row `o 0` of the index scratch, squeezed, as the kernel slices it. -/
abbrev idxRowR (o : Fin 2 → ℕ) (ho : ∀ a, o a + S1x50.size a ≤ S512x50.size a) : Rect S512x50 := Rect.unit (s := S512x50) o S1x50.size ho
abbrev idxRowM (o : Fin 2 → ℕ) (ho : ∀ a, o a + S1x50.size a ≤ S512x50.size a) : Memref sig .scVector .vmem S50 .i32 :=
  ((iV).slice (idxRowR o ho) (fun _ => rfl)).squeeze S50 squeezes_S1x50_S50
/-- Row `o 0` of the padded output, squeezed, as the kernel slices it. -/
abbrev outRowR (o : Fin 3 → ℕ) (ho : ∀ a, o a + S1x50x128.size a ≤ S16384x50x128.size a) : Rect S16384x50x128 := Rect.unit (s := S16384x50x128) o S1x50x128.size ho
abbrev outRowM (o : Fin 3 → ℕ) (ho : ∀ a, o a + S1x50x128.size a ≤ S16384x50x128.size a) : Memref sig .scVector .hbm S50x128 .f32 :=
  ((oV).slice (outRowR o ho) (fun _ => rfl)).squeeze S50x128 squeezes_S1x50x128_S50x128

theorem set_idxRowM (o : Fin 2 → ℕ) (ho : ∀ a, o a + S1x50.size a ≤ S512x50.size a) (r : ℕ) (h : o = ![r, 0]) :
    (idxRowM o ho).view.set = iRng r (r + 1) := by
  subst h
  show (((iV).view.slice (idxRowR _ ho)).reshape S50 squeezes_S1x50_S50.numel_eq).set = _
  rw [View.set_reshape]
  show ((View.whole (cc1_scratch0 : Ref sig .scVector)).slice _).set = _
  rw [View.set_slice]
  refine Finset.map_refl.trans ?_
  ext i
  rw [Rect.mem_set_unit, mem_iRng]
  constructor
  · intro h; have := h 0; simp at this; omega
  · intro h a
    match a with
    | 0 => simp; omega
    | 1 => simp; exact (i 1).isLt

theorem set_outRowM (o : Fin 3 → ℕ) (ho : ∀ a, o a + S1x50x128.size a ≤ S16384x50x128.size a) (r : ℕ) (h : o = ![r, 0, 0]) :
    (outRowM o ho).view.set = oRng r (r + 1) := by
  subst h
  show (((oV).view.slice (outRowR _ ho)).reshape S50x128 squeezes_S1x50x128_S50x128.numel_eq).set = _
  rw [View.set_reshape]
  show ((View.whole (main_v2_scv : Ref sig .scVector)).slice _).set = _
  rw [View.set_slice]
  refine Finset.map_refl.trans ?_
  ext i
  rw [Rect.mem_set_unit, mem_oRng]
  constructor
  · intro h; have := h 0; simp at this; omega
  · intro h a
    match a with
    | 0 => simp; omega
    | 1 => simp; exact (i 1).isLt
    | 2 => simp; exact (i 2).isLt

theorem oSet_eq (c : Fin 2) (s : Fin 16) : oSet c s = oRng (512 * (wid c s).val) (512 * (wid c s).val + 512) := by
  ext i
  rw [Rect.mem_set_unit, mem_oRng]
  constructor
  · intro h; have := h 0; simp [Shape.partIx, Shape.partSize] at this; omega
  · intro h a
    match a with
    | 0 => simp [Shape.partIx, Shape.partSize]; omega
    | 1 => simp [Shape.partIx, Shape.partSize]; exact (i 1).isLt
    | 2 => simp [Shape.partIx, Shape.partSize]; exact (i 2).isLt

end Cert.Kernel.Hand
end
-- ==== Proof.HandKernel.TileC.lean ====
/-
  The body of the lookup kernel on one vector subcore: what the subcore owns when its task starts, and the names of
  the rows, row buffers and semaphores its ring of eight slots works on.
-/
import proofs.«206440_g52347061403653_cont_9to1_m_884_16_alg».proof.Proof.HandKernel.TileB

noncomputable section

namespace Cert.Kernel.Hand

open Cert.Kernel Cert.Kernel.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "xV" => (Memref.whole Cert.Kernel.main_arg0_scv : Memref Cert.Kernel.sig Kind.scVector Space.hbm Cert.Kernel.S16384x50 EltTy.i32)
local notation "tV" => (Memref.whole Cert.Kernel.main_v1_scv : Memref Cert.Kernel.sig Kind.scVector Space.hbm Cert.Kernel.S1000000x128 EltTy.f32)
local notation "oV" => (Memref.whole Cert.Kernel.main_v2_scv : Memref Cert.Kernel.sig Kind.scVector Space.hbm Cert.Kernel.S16384x50x128 EltTy.f32)
local notation "iV" => (Memref.whole Cert.Kernel.cc1_scratch0 : Memref Cert.Kernel.sig Kind.scVector Space.vmem Cert.Kernel.S512x50 EltTy.i32)
local notation "r0V" => (Memref.whole Cert.Kernel.cc1_scratch1 : Memref Cert.Kernel.sig Kind.scVector Space.vmem Cert.Kernel.S50x128 EltTy.f32)
local notation "r1V" => (Memref.whole Cert.Kernel.cc1_scratch2 : Memref Cert.Kernel.sig Kind.scVector Space.vmem Cert.Kernel.S50x128 EltTy.f32)
local notation "r2V" => (Memref.whole Cert.Kernel.cc1_scratch3 : Memref Cert.Kernel.sig Kind.scVector Space.vmem Cert.Kernel.S50x128 EltTy.f32)
local notation "r3V" => (Memref.whole Cert.Kernel.cc1_scratch4 : Memref Cert.Kernel.sig Kind.scVector Space.vmem Cert.Kernel.S50x128 EltTy.f32)
local notation "r4V" => (Memref.whole Cert.Kernel.cc1_scratch5 : Memref Cert.Kernel.sig Kind.scVector Space.vmem Cert.Kernel.S50x128 EltTy.f32)
local notation "r5V" => (Memref.whole Cert.Kernel.cc1_scratch6 : Memref Cert.Kernel.sig Kind.scVector Space.vmem Cert.Kernel.S50x128 EltTy.f32)
local notation "r6V" => (Memref.whole Cert.Kernel.cc1_scratch7 : Memref Cert.Kernel.sig Kind.scVector Space.vmem Cert.Kernel.S50x128 EltTy.f32)
local notation "r7V" => (Memref.whole Cert.Kernel.cc1_scratch8 : Memref Cert.Kernel.sig Kind.scVector Space.vmem Cert.Kernel.S50x128 EltTy.f32)

variable [FloatOps F]
section Tile
variable (d : Dev nD) (L : grid1.Coords)

abbrev kern (L : grid1.Coords) := cc1__emb_kernel (F := F) L xV (Memref.isWhole_whole _) tV (Memref.isWhole_whole _) oV (Memref.isWhole_whole _)
  iV (Memref.isWhole_whole _) r0V (Memref.isWhole_whole _) r1V (Memref.isWhole_whole _) r2V (Memref.isWhole_whole _) r3V (Memref.isWhole_whole _)
  r4V (Memref.isWhole_whole _) r5V (Memref.isWhole_whole _) r6V (Memref.isWhole_whole _) r7V (Memref.isWhole_whole _)
  cc1_scratch9 cc1_scratch10 cc1_scratch11 cc1_scratch12 cc1_scratch13 cc1_scratch14 cc1_scratch15 cc1_scratch16
  cc1_scratch17 cc1_scratch18 cc1_scratch19 cc1_scratch20 cc1_scratch21 cc1_scratch22 cc1_scratch23 cc1_scratch24 cc1_scoped0

omit [FloatOps F] in
theorem tok_split (ℓ : Loc nD τ sig) (f : Buf (Elt F) ℓ) (q : PosShare TreeShare) (i : ℕ) :
    (ℓ ↦{Transfers.shareDrop q i} f : sProp 𝕄) ⊣⊢ iprop((ℓ ↦{Transfers.shareDrop q (i + 1)} f) ∗ ℓ ↦{Transfers.shareTokN q i} f) :=
  pointsTo_share (PosShare.mem_left_op_right _)

omit [FloatOps F] in
theorem pts_buf (b : Ref sig .scVector) (f : Buf (Elt F) ((V d (cV L) (jV L)).loc b)) :
    ((Memref.whole b).view.loc (V d (cV L) (jV L)) ↦{fullShare} f : sProp 𝕄) = (V d (cV L) (jV L)).loc b ↦{fullShare} f := rfl

/-- What the index scratch holds once the subcore's rows of the index array have landed in it. -/
def idxC (d : Dev nD) (L : grid1.Coords) : S512x50.Idx → Elt F .i32 :=
  ReadAs.same.apply ((xRowsK L).view.read (Elt F) (m (xLoc d)))

omit [FloatOps F] in
theorem idxC_apply (i : S512x50.Idx) : idxC m d L i = m (xLoc d) ((xRowsK L).view.emb i) :=
  (View.read_apply _ _).trans (cast_eq _ _)

omit [FloatOps F] in
theorem idx_landed (fi : Buf (Elt F) ((V d (cV L) (jV L)).loc cc1_scratch0)) (pay : S512x50.Idx → Elt F .i32) (hpay : pay = idxC m d L) :
    ((iV).view.loc (V d (cV L) (jV L)) ↦{fullShare} View.write (Elt F) (iV).view fi pay Finset.univ : sProp 𝕄)
      = (iV).view.loc (V d (cV L) (jV L)) ↦[iRng 0 512]{fullShare} idxC m d L := by
  subst hpay; rw [iRng_all, View.write_whole_univ]

omit [FloatOps F] in
theorem pts_iRng_split (f : S512x50.Idx → Elt F .i32) {a b c : ℕ} (hab : a ≤ b) (hbc : b ≤ c) :
    ((iV).view.loc (V d (cV L) (jV L)) ↦[iRng a c]{fullShare} f : sProp 𝕄)
      ⊣⊢ iprop(((iV).view.loc (V d (cV L) (jV L)) ↦[iRng a b]{fullShare} f) ∗ (iV).view.loc (V d (cV L) (jV L)) ↦[iRng b c]{fullShare} f) := by
  rw [iRng_union hab hbc]; exact pointsTo_union (iRng_disjoint a b c)

omit [FloatOps F] in
theorem pts_idxRow (o : Fin 2 → ℕ) (ho : ∀ a, o a + S1x50.size a ≤ S512x50.size a) (r : ℕ) (h : o = ![r, 0]) (f : S512x50.Idx → Elt F .i32) :
    ((idxRowM o ho).view.loc (V d (cV L) (jV L)) ↦[(idxRowM o ho).view.set]{fullShare} f : sProp 𝕄)
      = (iV).view.loc (V d (cV L) (jV L)) ↦[iRng r (r + 1)]{fullShare} f := by
  rw [set_idxRowM o ho r h]

omit [FloatOps F] in
/-- Every word of every row of the landed index scratch names a row of the table. -/
theorem inb_of_pre (hpre : PreOK m) (o : Fin 2 → ℕ) (ho : ∀ a, o a + S1x50.size a ≤ S512x50.size a) :
    ∀ x, ((idxRowM o ho).view.read (Elt F) (idxC m d L) x).toNat < S1000000x128.size gathers_S1000000x128_S50x128.axis := by
  intro x
  rw [show (idxRowM o ho).view.read (Elt F) (idxC m d L) x = idxC m d L ((idxRowM o ho).view.emb x) from (View.read_apply _ _).trans (cast_eq _ _),
    idxC_apply]
  exact hpre d _

/-- The whole padded table, as every gather slices it. -/
abbrev tAllM : Memref sig .scVector .hbm S1000000x128 .f32 :=
  (tV).slice (Rect.unit (s := S1000000x128) ![0, 0] S1000000x128.size inb_S1000000x128_S1000000x128_0_0) (fun _ => rfl)

omit [FloatOps F] in
theorem wid_row_lt (r : ℕ) (hr : r < 512) : 512 * (wid (cL L) (sL L)).val + r < 16384 := by
  have := (wid (cL L) (sL L)).isLt; omega

/-- A row buffer's contents `p` hold, in their first 64 columns, the table rows that row `n` of the index array names. -/
def RowGood {α : Type} (x : S16384x50.Idx → BitVec 32) (w : S1000000x64.Idx → α) (n : Fin 16384) (p : S50x128.Idx → α) : Prop :=
  ∀ (y : S50x128.Idx) (h : (y 1).val < 64), p y = w (ix2 (Cert.Proof.Spec.row x n (y 0)) (⟨(y 1).val, h⟩ : Fin 64))

end Tile
end Cert.Kernel.Hand
end
-- ==== Proof.HandKernel.TileX.lean ====
/-
  The value carried by one gather: the rows gathered for a row of the subcore's indices are, in their first 64
  columns, the table rows those indices name.
-/
import proofs.«206440_g52347061403653_cont_9to1_m_884_16_alg».proof.Proof.HandKernel.TileC

noncomputable section

namespace Cert.Kernel.Hand

open Cert.Kernel Cert.Kernel.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-! ## The gathered rows are the looked-up rows -/

omit m in
/-- The padded table sliced whole reads the padded table. -/
theorem tAllM_emb (i : S1000000x128.Idx) : (tAllM).view.emb i = i := by
  funext a
  refine Fin.ext ?_
  simp only [Memref.view_slice, View.emb_slice, Memref.view_whole, View.emb_whole, Function.Embedding.trans_apply,
    Function.Embedding.refl_apply, Rect.emb_apply]
  match a with
  | ⟨0, _⟩ => rw [Rect.emb_apply]; simp [Rect.unit]
  | ⟨1, _⟩ => rw [Rect.emb_apply]; simp [Rect.unit]

omit m in
/-- A row of 50 words read as a 1 × 50 block: entry `z` is entry `(0, z)`. -/
theorem squeeze_row (h : S50.numel = S1x50.numel) (z : S50.Idx) : Shape.reshapeEquiv h z = (ix2 (0 : Fin 1) (z 0) : S1x50.Idx) := by
  refine Shape.reshapeEquiv_eq_of_rowMajor _ ?_
  rw [Shape.rowMajor_val_two, Shape.rowMajor_val_one]
  simp

/-- Entry `z` of row `r` of the landed index scratch is entry `(512·wid + r, z)` of the index array. -/
theorem idxRow_read (d : Dev nD) (L : grid1.Coords) (r : ℕ) (hr : r < 512) (ho : ∀ a, (![r, 0] : Fin 2 → ℕ) a + S1x50.size a ≤ S512x50.size a) (z : S50.Idx) :
    (idxRowM ![r, 0] ho).view.read (Elt F) (idxC m d L) z
      = m (xLoc d) (ix2 (⟨512 * (wid (cL L) (sL L)).val + r, wid_row_lt L r hr⟩ : Fin 16384) (z 0)) := by
  rw [show (idxRowM ![r, 0] ho).view.read (Elt F) (idxC m d L) z = idxC m d L ((idxRowM ![r, 0] ho).view.emb z) from (View.read_apply _ _).trans (cast_eq _ _),
    idxC_apply]
  congr 1
  funext a
  refine Fin.ext ?_
  simp only [Memref.view_slice, Memref.view_squeeze, View.emb_slice, View.emb_reshape, Memref.view_whole, View.emb_whole, Function.Embedding.trans_apply,
    Function.Embedding.refl_apply, Equiv.coe_toEmbedding, squeeze_row]
  match a with
  | ⟨0, _⟩ => rw [Rect.emb_apply, Rect.emb_apply, squeeze_row]; simp [Rect.unit, k1_off1_eq, wid_val]; omega
  | ⟨1, _⟩ => rw [Rect.emb_apply, Rect.emb_apply, squeeze_row]; simp [Rect.unit, k1_off1_eq]

omit m in
/-- The index whose row-major position is `k` in a row of 50 is `k`. -/
theorem rowMajor_symm_zero (k : Fin S50.numel) : ((S50.rowMajor.symm k) 0).val = k.val := by
  have h := Shape.rowMajor_val_one (S50.rowMajor.symm k)
  rw [Equiv.apply_symm_apply] at h
  exact h.symm

/-- The rows gathered for row `r` of the subcore's indices hold, in their first 64 columns, the table rows those
    indices name: the index scratch holds the subcore's rows of `x`, every word below the table's height is its own
    row number, and the padded table's first 64 columns are the table's. -/
theorem gather_good (d : Dev nD) (L : grid1.Coords) (hpre : PreOK m) (t : Buf (Elt F) (tLoc d)) (ht : GoodTbl (m (wLoc d)) t)
    (o : Fin 2 → ℕ) (ho : ∀ a, o a + S1x50.size a ≤ S512x50.size a) (r : ℕ) (hr : r < 512) (ho_eq : o = ![r, 0])
    (hn : S50.numel = S50x128.size gathers_S1000000x128_S50x128.axis')
    (hin : ∀ x, ((idxRowM o ho).view.read (Elt F) (idxC m d L) x).toNat < S1000000x128.size gathers_S1000000x128_S50x128.axis) :
    RowGood (m (xLoc d)) (m (wLoc d)) ⟨512 * (wid (cL L) (sL L)).val + r, wid_row_lt L r hr⟩
      (SparseCore.gatherPayload gathers_S1000000x128_S50x128 ((tAllM).view.read (Elt F) t)
        (SparseCore.rows ((idxRowM o ho).view.read (Elt F) (idxC m d L)) hn hin)) := by
  intro y h64
  subst ho_eq
  unfold SparseCore.gatherPayload
  rw [show ∀ i, (tAllM).view.read (Elt F) t i = t ((tAllM).view.emb i) from fun i => (View.read_apply _ _).trans (cast_eq _ _), tAllM_emb]
  have hI : gathers_S1000000x128_S50x128.idx (SparseCore.rows ((idxRowM ![r, 0] ho).view.read (Elt F) (idxC m d L)) hn hin) y
      = ix2 (Cert.Proof.Spec.row (m (xLoc d)) ⟨512 * (wid (cL L) (sL L)).val + r, wid_row_lt L r hr⟩ (y 0)) (⟨(y 1).val, by omega⟩ : Fin 128) := by
    funext a
    refine Fin.ext ?_
    match a with
    | ⟨0, h0⟩ =>
      have e1 := Shape.Gathers.idx_axis gathers_S1000000x128_S50x128 (SparseCore.rows ((idxRowM ![r, 0] ho).view.read (Elt F) (idxC m d L)) hn hin) y
      rw [show (⟨0, h0⟩ : Fin S1000000x128.rank) = gathers_S1000000x128_S50x128.axis from rfl, e1]
      unfold SparseCore.rows
      simp only [idxRow_read m d L r hr ho]
      have ez : (S50.rowMajor.symm ((y gathers_S1000000x128_S50x128.axis').cast hn.symm)) 0 = y 0 := by
        refine Fin.ext ?_
        rw [rowMajor_symm_zero]; rfl
      rw [ez]
      exact (Nat.mod_eq_of_lt (hpre d _)).symm
    | ⟨1, h1⟩ =>
      exact Shape.Gathers.idx_of_ne gathers_S1000000x128_S50x128 _ y ⟨1, h1⟩ (show (1 : ℕ) ≠ 0 from Nat.one_ne_zero)
  rw [hI]
  exact ht _ ⟨(y 1).val, h64⟩

end Cert.Kernel.Hand

end
-- ==== Proof.HandKernel.TileY.lean ====
/-
  The value carried by one write-out: a row buffer holding the rows gathered for index row `n`, copied to output
  row `n`, leaves the looked-up rows in that output row's first 64 columns.
-/
import proofs.«206440_g52347061403653_cont_9to1_m_884_16_alg».proof.Proof.HandKernel.TileC

noncomputable section

namespace Cert.Kernel.Hand

open Cert.Kernel Cert.Kernel.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

omit m in
/-- A 50 × 128 block read as a 1 × 50 × 128 block: entry `(a, b)` is entry `(0, a, b)`. -/
theorem squeeze_block (h : S50x128.numel = S1x50x128.numel) (y : S50x128.Idx) :
    Shape.reshapeEquiv h y = (ix3 (0 : Fin 1) (y 0) (y 1) : S1x50x128.Idx) := by
  refine Shape.reshapeEquiv_eq_of_rowMajor _ ?_
  rw [Shape.rowMajor_val_three, Shape.rowMajor_val_two]
  simp

omit m in
/-- Entry `(a, b)` of output row `r`, as the kernel slices it, is entry `(r, a, b)` of the padded output. -/
theorem outRowM_emb (r : ℕ) (ho : ∀ a, (![r, 0, 0] : Fin 3 → ℕ) a + S1x50x128.size a ≤ S16384x50x128.size a) (i : S16384x50x128.Idx) (hi : (i 0).val = r) :
    (outRowM ![r, 0, 0] ho).view.emb (ix2 (i 1) (i 2)) = i := by
  funext a
  refine Fin.ext ?_
  simp only [Memref.view_slice, Memref.view_squeeze, View.emb_slice, View.emb_reshape, Memref.view_whole, View.emb_whole, Function.Embedding.trans_apply,
    Function.Embedding.refl_apply, Equiv.coe_toEmbedding]
  match a with
  | ⟨0, _⟩ => rw [Rect.emb_apply, squeeze_block]; simp [Rect.unit, hi]
  | ⟨1, _⟩ => rw [Rect.emb_apply, squeeze_block]; simp [Rect.unit]
  | ⟨2, _⟩ => rw [Rect.emb_apply, squeeze_block]; simp [Rect.unit]; rfl

/-- The row written out: the row buffer's gathered rows, written through the kernel's slice of output row `r`, put
    the looked-up rows into that output row's first 64 columns. -/
theorem out_row_good (d : Dev nD) (L : grid1.Coords) (n : Fin 16384) (r : ℕ) (hnr : n.val = r)
    (o : Fin 3 → ℕ) (ho : ∀ a, o a + S1x50x128.size a ≤ S16384x50x128.size a) (ho_eq : o = ![r, 0, 0])
    (g : Buf (Elt F) (oLoc d)) (rb : Memref sig .scVector .vmem S50x128 .f32)
    (fb : Buf (Elt F) (rb.view.loc (V d (cV L) (jV L)))) (pay : S50x128.Idx → Elt F .f32)
    (hp : RowGood (m (xLoc d)) (m (wLoc d)) n pay) :
    GoodOut (m (xLoc d)) (m (wLoc d)) (oRng r (r + 1))
      ((outRowM o ho).view.writes (Elt F) g
        [⟨Rect.whole S50x128, ReadAs.same.apply (rb.view.read (Elt F) (rb.view.writes (Elt F) fb [⟨Rect.whole S50x128, pay⟩]))⟩]) := by
  subst ho_eq
  intro i hi h64
  rw [mem_oRng] at hi
  have hi0 : (i 0).val = r := by omega
  have hn : i 0 = n := Fin.ext (hi0.trans hnr.symm)
  have hread := View.read_writes_cons_emb (outRowM ![r, 0, 0] ho).view g (Rect.whole S50x128)
    (ReadAs.same.apply (rb.view.read (Elt F) (rb.view.writes (Elt F) fb [⟨Rect.whole S50x128, pay⟩]))) [] (ix2 (i 1) (i 2))
  rw [Rect.emb_whole_apply, show ∀ f y, (outRowM ![r, 0, 0] ho).view.read (Elt F) f y = f ((outRowM ![r, 0, 0] ho).view.emb y) from
    fun f y => (View.read_apply _ _).trans (cast_eq _ _), outRowM_emb r ho i hi0] at hread
  rw [hread, ReadAs.apply_same]
  have hpay := View.read_writes_cons_emb rb.view fb (Rect.whole S50x128) pay [] (ix2 (i 1) (i 2))
  rw [Rect.emb_whole_apply] at hpay
  rw [hpay, hp (ix2 (i 1) (i 2)) h64, hn]

end Cert.Kernel.Hand

end
-- ==== Proof.HandKernel.TileD.lean ====
/-
  The body of the lookup kernel on one vector subcore: what the subcore owns when its task starts, and the names of
  the rows, row buffers and semaphores its ring of eight slots works on.
-/
import proofs.«206440_g52347061403653_cont_9to1_m_884_16_alg».proof.Proof.HandKernel.TileX
import proofs.«206440_g52347061403653_cont_9to1_m_884_16_alg».proof.Proof.HandKernel.TileY

noncomputable section

namespace Cert.Kernel.Hand

open Cert.Kernel Cert.Kernel.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "xV" => (Memref.whole Cert.Kernel.main_arg0_scv : Memref Cert.Kernel.sig Kind.scVector Space.hbm Cert.Kernel.S16384x50 EltTy.i32)
local notation "tV" => (Memref.whole Cert.Kernel.main_v1_scv : Memref Cert.Kernel.sig Kind.scVector Space.hbm Cert.Kernel.S1000000x128 EltTy.f32)
local notation "oV" => (Memref.whole Cert.Kernel.main_v2_scv : Memref Cert.Kernel.sig Kind.scVector Space.hbm Cert.Kernel.S16384x50x128 EltTy.f32)
local notation "iV" => (Memref.whole Cert.Kernel.cc1_scratch0 : Memref Cert.Kernel.sig Kind.scVector Space.vmem Cert.Kernel.S512x50 EltTy.i32)
local notation "r0V" => (Memref.whole Cert.Kernel.cc1_scratch1 : Memref Cert.Kernel.sig Kind.scVector Space.vmem Cert.Kernel.S50x128 EltTy.f32)
local notation "r1V" => (Memref.whole Cert.Kernel.cc1_scratch2 : Memref Cert.Kernel.sig Kind.scVector Space.vmem Cert.Kernel.S50x128 EltTy.f32)
local notation "r2V" => (Memref.whole Cert.Kernel.cc1_scratch3 : Memref Cert.Kernel.sig Kind.scVector Space.vmem Cert.Kernel.S50x128 EltTy.f32)
local notation "r3V" => (Memref.whole Cert.Kernel.cc1_scratch4 : Memref Cert.Kernel.sig Kind.scVector Space.vmem Cert.Kernel.S50x128 EltTy.f32)
local notation "r4V" => (Memref.whole Cert.Kernel.cc1_scratch5 : Memref Cert.Kernel.sig Kind.scVector Space.vmem Cert.Kernel.S50x128 EltTy.f32)
local notation "r5V" => (Memref.whole Cert.Kernel.cc1_scratch6 : Memref Cert.Kernel.sig Kind.scVector Space.vmem Cert.Kernel.S50x128 EltTy.f32)
local notation "r6V" => (Memref.whole Cert.Kernel.cc1_scratch7 : Memref Cert.Kernel.sig Kind.scVector Space.vmem Cert.Kernel.S50x128 EltTy.f32)
local notation "r7V" => (Memref.whole Cert.Kernel.cc1_scratch8 : Memref Cert.Kernel.sig Kind.scVector Space.vmem Cert.Kernel.S50x128 EltTy.f32)

variable [FloatOps F]
section Tile
variable (d : Dev nD) (L : grid1.Coords)

omit [FloatOps F] in
theorem inb_row (r : ℕ) (hr : r < 512) : ∀ a, (![r, 0] : Fin 2 → ℕ) a + S1x50.size a ≤ S512x50.size a := by
  intro a
  match a with
  | 0 => simp; omega
  | 1 => simp

/-- The first row of the padded output that the subcore owns. -/
abbrev obase (L : grid1.Coords) : ℕ := 1024 * (L 1).val + 512 * (L 0).val

omit [FloatOps F] in
theorem pts_oRng_split (f : Buf (Elt F) (oLoc d)) {a b c : ℕ} (hab : a ≤ b) (hbc : b ≤ c) :
    ((oV).view.loc (V d (cV L) (jV L)) ↦[oRng a c]{fullShare} f : sProp 𝕄)
      ⊣⊢ iprop(((oV).view.loc (V d (cV L) (jV L)) ↦[oRng a b]{fullShare} f) ∗ (oV).view.loc (V d (cV L) (jV L)) ↦[oRng b c]{fullShare} f) := by
  rw [oRng_union hab hbc]; exact pointsTo_union (oRng_disjoint a b c)

omit [FloatOps F] in
theorem pts_outRow (o : Fin 3 → ℕ) (ho : ∀ a, o a + S1x50x128.size a ≤ S16384x50x128.size a) (r : ℕ) (h : o = ![r, 0, 0]) (f : Buf (Elt F) (oLoc d)) :
    ((outRowM o ho).view.loc (V d (cV L) (jV L)) ↦[(outRowM o ho).view.set]{fullShare} f : sProp 𝕄)
      = (oV).view.loc (V d (cV L) (jV L)) ↦[oRng r (r + 1)]{fullShare} f := by
  rw [set_outRowM o ho r h]

omit [FloatOps F] in
theorem k1_conds_pos : ∀ k : Fin k1_t1_loop.trips, k.val < 63 →
    k1_cond1 k = 1#1 ∧ k1_cond2 k = 1#1 ∧ k1_cond3 k = 1#1 ∧ k1_cond4 k = 1#1 ∧ k1_cond5 k = 1#1 ∧ k1_cond6 k = 1#1 ∧ k1_cond7 k = 1#1 ∧ k1_cond8 k = 1#1 := by
  decide +kernel
omit [FloatOps F] in
theorem k1_conds_neg : ∀ k : Fin k1_t1_loop.trips, ¬ k.val < 63 →
    ¬ k1_cond1 k = 1#1 ∧ ¬ k1_cond2 k = 1#1 ∧ ¬ k1_cond3 k = 1#1 ∧ ¬ k1_cond4 k = 1#1 ∧ ¬ k1_cond5 k = 1#1 ∧ ¬ k1_cond6 k = 1#1 ∧ ¬ k1_cond7 k = 1#1 ∧ ¬ k1_cond8 k = 1#1 := by
  decide +kernel

omit [FloatOps F] in
theorem k_lt64 (k : Fin k1_t1_loop.trips) : k.val < 64 := by
  have h : k1_t1_loop.trips = 64 := by decide
  exact h ▸ k.isLt

/-- The thread of subcore `L`. -/
abbrev thr (d : Dev nD) (L : grid1.Coords) : Thread nD τ := V d (cV L) (jV L)

/-- Slot `b` with the gather of index row `r` in flight on its semaphore: the row buffer will hold `pay`. -/
abbrev gFlight (d : Dev nD) (L : grid1.Coords) (t : Buf (Elt F) (tLoc d)) (rb : Memref sig .scVector .vmem S50x128 .f32) (gs : DmaSems sig S_) (tokN : ℕ)
    (r : ℕ) (hr : r < 512) (fb : Buf (Elt F) (rb.view.loc (V d (cV L) (jV L)))) (pay : S50x128.Idx → Elt F .f32) : sProp 𝕄 :=
  Transfers.Flight countersEmb (V d (cV L) (jV L)) (SemLoc.dma gs.sem) (default : HIx 1) 204800
    iprop(((rb.view.loc (V d (cV L) (jV L)) ↦{fullShare} rb.view.writes (Elt F) fb [⟨Rect.whole S50x128, pay⟩])
        ∗ ((idxRowM ![r, 0] (inb_row r hr)).view.loc (V d (cV L) (jV L)) ↦[(idxRowM ![r, 0] (inb_row r hr)).view.set]{fullShare} idxC m d L))
      ∗ ((tV).view.loc (V d (cV L) (jV L)) ↦[(tAllM).view.set]{Transfers.shareTokN (tq (cL L) (sL L)) tokN} t))

abbrev tRest (d : Dev nD) (L : grid1.Coords) (t : Buf (Elt F) (tLoc d)) (tokN : ℕ) : sProp 𝕄 :=
  (tV).view.loc (V d (cV L) (jV L)) ↦[Finset.univ \ (tAllM).view.set]{Transfers.shareTokN (tq (cL L) (sL L)) tokN} t

omit [FloatOps F] in
theorem goodOut_join {α : Type} (x : S16384x50.Idx → BitVec 32) (w : S1000000x64.Idx → α) {I J : Finset S16384x50x128.Idx}
    {f g : S16384x50x128.Idx → α} (hf : GoodOut x w I f) (hg : GoodOut x w J g) : GoodOut x w (I ∪ J) (J.piecewise g f) := by
  intro i hi h
  by_cases hj : i ∈ J
  · rw [Finset.piecewise_eq_of_mem _ _ _ hj]; exact hg i hj h
  · rw [Finset.piecewise_eq_of_notMem _ _ _ hj]; exact hf i ((Finset.mem_union.mp hi).resolve_right hj) h

omit [FloatOps F] in
theorem goodOut_empty {α : Type} (x : S16384x50.Idx → BitVec 32) (w : S1000000x64.Idx → α) (a : ℕ) (f : S16384x50x128.Idx → α) :
    GoodOut x w (oRng a a) f := by
  intro i hi; rw [mem_oRng] at hi; omega

omit [FloatOps F] in
/-- The finished rows grow by one finished row. -/
theorem done_extend (a b : ℕ) (hab : a ≤ b) (g' : Buf (Elt F) (oLoc d)) (hg' : GoodOut (m (xLoc d)) (m (wLoc d)) (oRng b (b + 1)) g') :
    iprop((∃ gd : Buf (Elt F) (oLoc d), ⌜GoodOut (m (xLoc d)) (m (wLoc d)) (oRng a b) gd⌝ ∗ (oV).view.loc (V d (cV L) (jV L)) ↦[oRng a b]{fullShare} gd)
        ∗ ((oV).view.loc (V d (cV L) (jV L)) ↦[oRng b (b + 1)]{fullShare} g'))
      ⊢ (iprop(∃ gd : Buf (Elt F) (oLoc d), ⌜GoodOut (m (xLoc d)) (m (wLoc d)) (oRng a (b + 1)) gd⌝ ∗ (oV).view.loc (V d (cV L) (jV L)) ↦[oRng a (b + 1)]{fullShare} gd) : sProp 𝕄) := by
  iintro ⟨⟨%gd, %hgd, Hd⟩, Hr⟩
  iexists ((oRng b (b + 1)).piecewise g' gd)
  rw [oRng_union hab (Nat.le_succ b)]
  isplitr
  · ipureintro; exact goodOut_join _ _ hgd hg'
  · iapply (pointsTo_join (oRng_disjoint a b (b + 1)))
    isplitl [Hd] <;> iassumption

omit [FloatOps F] in
theorem pts_cast {ℓ : Loc nD τ sig} {S S' : Finset (Idx ℓ)} (h : S = S') (q : PosShare TreeShare) (f : Buf (Elt F) ℓ) :
    (ℓ ↦[S]{q} f : sProp 𝕄) ⊢ ℓ ↦[S']{q} f := by subst h; exact Entails.rfl

omit [FloatOps F] in
theorem inbo (r : ℕ) (hr : r < 512) : ∀ a, (![obase L + r, 0, 0] : Fin 3 → ℕ) a + S1x50x128.size a ≤ S16384x50x128.size a := by
  intro a
  have h0 : (L 0).val < 2 := (L 0).isLt
  have h1 : (L 1).val < 16 := (L 1).isLt
  match a with
  | 0 => simp [obase]; omega
  | 1 => simp
  | 2 => simp

omit [FloatOps F] in
theorem waits_ins {W W' : Waits sig (HIx 1)} (sm : SemLoc sig) (h : ∀ p ∈ W', p ∈ W ∨ p.2 = none) :
    ∀ p ∈ insert (sm, (default : HIx 1)) W', p ∈ W ∨ p.2 = none := by
  intro p hp
  rcases Finset.mem_insert.mp hp with hp | hp
  · exact .inr (hp ▸ rfl)
  · exact h p hp

/-- Row `r` of the subcore's rows, as a row of the index array and of the padded output. -/
abbrev rowN (L : grid1.Coords) (r : ℕ) (hr : r < 512) : Fin 16384 := ⟨512 * (wid (cL L) (sL L)).val + r, wid_row_lt L r hr⟩

omit [FloatOps F] in
theorem rowN_val (r : ℕ) (hr : r < 512) : (rowN L r hr).val = obase L + r := by
  show 512 * (wid (cL L) (sL L)).val + r = obase L + r
  rw [wid_val]; unfold obase; omega

/-- Slot `b` while its gather of index row `r` is in flight: its write semaphore free, the flight at SOME row-buffer
    contents whose gathered payload is good for row `r`, the rest of its read token of the table. -/
abbrev slotG (t : Buf (Elt F) (tLoc d)) (rb : Memref sig .scVector .vmem S50x128 .f32) (gs ws : DmaSems sig S_) (tokN : ℕ) (r : ℕ) (hr : r < 512) : sProp 𝕄 :=
  iprop(sv d L ws
    ∗ (∃ (fb : Buf (Elt F) (rb.view.loc (V d (cV L) (jV L)))) (pay : S50x128.Idx → Elt F .f32),
        ⌜RowGood (m (xLoc d)) (m (wLoc d)) (rowN L r hr) pay⌝ ∗ gFlight m d L t rb gs tokN r hr fb pay)
    ∗ tRest d L t tokN)

/-- Slot `b` while its write of output row `r` is in flight: its gather semaphore free, its read token whole. -/
abbrev slotW (t : Buf (Elt F) (tLoc d)) (rb : Memref sig .scVector .vmem S50x128 .f32) (gs ws : DmaSems sig S_) (tokN : ℕ) (r : ℕ) (hr : r < 512) : sProp 𝕄 :=
  iprop(sv d L gs ∗ ((tV).view.loc (V d (cV L) (jV L)) ↦{Transfers.shareTokN (tq (cL L) (sL L)) tokN} t)
    ∗ ∃ (g' : Buf (Elt F) (oLoc d)) (f' : Buf (Elt F) (rb.view.loc (V d (cV L) (jV L)))),
        ⌜GoodOut (m (xLoc d)) (m (wLoc d)) (oRng (obase L + r) (obase L + r + 1)) g'⌝
        ∗ Transfers.Flight countersEmb (V d (cV L) (jV L)) (SemLoc.dma ws.sem) (default : HIx 1) 204800
            iprop(((outRowM ![obase L + r, 0, 0] (inbo L r hr)).view.loc (V d (cV L) (jV L)) ↦[(outRowM ![obase L + r, 0, 0] (inbo L r hr)).view.set]{fullShare} g')
              ∗ (rb.view.loc (V d (cV L) (jV L)) ↦[rb.view.set]{fullShare} f'))
        ∗ (rb.view.loc (V d (cV L) (jV L)) ↦[Finset.univ \ rb.view.set]{fullShare} f'))

omit [FloatOps F] in
theorem slotG_cast (t : Buf (Elt F) (tLoc d)) (rb : Memref sig .scVector .vmem S50x128 .f32) (gs ws : DmaSems sig S_) (tokN : ℕ)
    (r r' : ℕ) (hr : r < 512) (hr' : r' < 512) (h : r = r') : slotG m d L t rb gs ws tokN r hr ⊢ slotG m d L t rb gs ws tokN r' hr' := by
  subst h; exact Entails.rfl

omit [FloatOps F] in
/-- The flight the run leaves after issuing the gather of the index row at offsets `o`, read as a slot's. -/
theorem gFlight_of (t : Buf (Elt F) (tLoc d)) (rb : Memref sig .scVector .vmem S50x128 .f32) (gs : DmaSems sig S_) (tokN : ℕ)
    (o : Fin 2 → ℕ) (ho : ∀ a, o a + S1x50.size a ≤ S512x50.size a) (r : ℕ) (hr : r < 512) (h : o = ![r, 0])
    (fb : Buf (Elt F) (rb.view.loc (V d (cV L) (jV L)))) (p0 pay : S50x128.Idx → Elt F .f32) :
    Transfers.Flight countersEmb (V d (cV L) (jV L)) (SemLoc.dma gs.sem) (default : HIx 1) 204800
        iprop(((rb.view.loc (V d (cV L) (jV L)) ↦{fullShare} rb.view.writes (Elt F) fb [⟨Rect.whole S50x128, pay⟩, ⟨Rect.whole S50x128, p0⟩])
            ∗ ((idxRowM o ho).view.loc (V d (cV L) (jV L)) ↦[(idxRowM o ho).view.set]{fullShare} idxC m d L))
          ∗ ((tV).view.loc (V d (cV L) (jV L)) ↦[(tAllM).view.set]{Transfers.shareTokN (tq (cL L) (sL L)) tokN} t))
      ⊢ gFlight m d L t rb gs tokN r hr (rb.view.writes (Elt F) fb [⟨Rect.whole S50x128, p0⟩]) pay := by
  subst h; exact Entails.rfl

omit [FloatOps F] in
/-- The same for a first gather, over the buffer's launch contents. -/
theorem gFlight_of0 (t : Buf (Elt F) (tLoc d)) (rb : Memref sig .scVector .vmem S50x128 .f32) (gs : DmaSems sig S_) (tokN : ℕ)
    (o : Fin 2 → ℕ) (ho : ∀ a, o a + S1x50.size a ≤ S512x50.size a) (r : ℕ) (hr : r < 512) (h : o = ![r, 0])
    (fb : Buf (Elt F) (rb.view.loc (V d (cV L) (jV L)))) (pay : S50x128.Idx → Elt F .f32) :
    Transfers.Flight countersEmb (V d (cV L) (jV L)) (SemLoc.dma gs.sem) (default : HIx 1) 204800
        iprop(((rb.view.loc (V d (cV L) (jV L)) ↦{fullShare} rb.view.writes (Elt F) fb [⟨Rect.whole S50x128, pay⟩])
            ∗ ((idxRowM o ho).view.loc (V d (cV L) (jV L)) ↦[(idxRowM o ho).view.set]{fullShare} idxC m d L))
          ∗ ((tV).view.loc (V d (cV L) (jV L)) ↦[(tAllM).view.set]{Transfers.shareTokN (tq (cL L) (sL L)) tokN} t))
      ⊢ gFlight m d L t rb gs tokN r hr fb pay := by
  subst h; exact Entails.rfl

omit [FloatOps F] in
/-- The flight the run leaves after issuing the write of the output row at offsets `o`, read as a slot's. -/
theorem wFlight_of (rb : Memref sig .scVector .vmem S50x128 .f32) (ws : DmaSems sig S_)
    (o : Fin 3 → ℕ) (ho : ∀ a, o a + S1x50x128.size a ≤ S16384x50x128.size a) (r : ℕ) (hr : r < 512) (h : o = ![obase L + r, 0, 0])
    (g' : Buf (Elt F) (oLoc d)) (f' : Buf (Elt F) (rb.view.loc (V d (cV L) (jV L)))) :
    (Transfers.Flight countersEmb (V d (cV L) (jV L)) (SemLoc.dma ws.sem) (default : HIx 1) 204800
        iprop(((outRowM o ho).view.loc (V d (cV L) (jV L)) ↦[(outRowM o ho).view.set]{fullShare} g') ∗ (rb.view.loc (V d (cV L) (jV L)) ↦[rb.view.set]{fullShare} f')) : sProp 𝕄)
      ⊢ Transfers.Flight countersEmb (V d (cV L) (jV L)) (SemLoc.dma ws.sem) (default : HIx 1) 204800
        iprop(((outRowM ![obase L + r, 0, 0] (inbo L r hr)).view.loc (V d (cV L) (jV L)) ↦[(outRowM ![obase L + r, 0, 0] (inbo L r hr)).view.set]{fullShare} g')
          ∗ (rb.view.loc (V d (cV L) (jV L)) ↦[rb.view.set]{fullShare} f')) := by
  subst h; exact Entails.rfl

/-- How many of the subcore's output rows are finished before trip `k`. -/
def dn (k : ℕ) : ℕ := 8 * min k 63

/-- What every trip boundary shares. -/
abbrev invC (t : Buf (Elt F) (tLoc d)) (O : CellTallies nD τ sig (HIx 1)) (W : Waits sig (HIx 1)) (k : ℕ) : sProp 𝕄 :=
  iprop(Transfers.MayWaits (V d (cV L) (jV L)) (default : HIx 1) O
    ∗ (∃ W', ⌜∀ p ∈ W', p ∈ W ∨ p.2 = none⌝ ∗ owes (V d (cV L) (jV L)) O W')
    ∗ ((iV).view.loc (V d (cV L) (jV L)) ↦[iRng 0 (8 * k)]{fullShare} idxC m d L)
    ∗ ((iV).view.loc (V d (cV L) (jV L)) ↦[iRng (8 * k + 8) 512]{fullShare} idxC m d L)
    ∗ (∃ gd : Buf (Elt F) (oLoc d), ⌜GoodOut (m (xLoc d)) (m (wLoc d)) (oRng (obase L) (obase L + dn k)) gd⌝ ∗ (oV).view.loc (V d (cV L) (jV L)) ↦[oRng (obase L) (obase L + dn k)]{fullShare} gd)
    ∗ (∃ g : Buf (Elt F) (oLoc d), (oV).view.loc (V d (cV L) (jV L)) ↦[oRng (obase L + 8 * k + 0) (obase L + 512)]{fullShare} g))

abbrev slotsG (t : Buf (Elt F) (tLoc d)) (k : ℕ) (hk : k < 64) : sProp 𝕄 :=
  iprop(slotG m d L t r0V cc1_scratch9 cc1_scratch17 4 (8 * k + 0) (by omega)
    ∗ slotG m d L t r1V cc1_scratch10 cc1_scratch18 5 (8 * k + 1) (by omega)
    ∗ slotG m d L t r2V cc1_scratch11 cc1_scratch19 6 (8 * k + 2) (by omega)
    ∗ slotG m d L t r3V cc1_scratch12 cc1_scratch20 7 (8 * k + 3) (by omega)
    ∗ slotG m d L t r4V cc1_scratch13 cc1_scratch21 8 (8 * k + 4) (by omega)
    ∗ slotG m d L t r5V cc1_scratch14 cc1_scratch22 9 (8 * k + 5) (by omega)
    ∗ slotG m d L t r6V cc1_scratch15 cc1_scratch23 10 (8 * k + 6) (by omega)
    ∗ slotG m d L t r7V cc1_scratch16 cc1_scratch24 11 (8 * k + 7) (by omega))

abbrev slotsW (t : Buf (Elt F) (tLoc d)) : sProp 𝕄 :=
  iprop(slotW m d L t r0V cc1_scratch9 cc1_scratch17 4 504 (by omega)
    ∗ slotW m d L t r1V cc1_scratch10 cc1_scratch18 5 505 (by omega)
    ∗ slotW m d L t r2V cc1_scratch11 cc1_scratch19 6 506 (by omega)
    ∗ slotW m d L t r3V cc1_scratch12 cc1_scratch20 7 507 (by omega)
    ∗ slotW m d L t r4V cc1_scratch13 cc1_scratch21 8 508 (by omega)
    ∗ slotW m d L t r5V cc1_scratch14 cc1_scratch22 9 509 (by omega)
    ∗ slotW m d L t r6V cc1_scratch15 cc1_scratch23 10 510 (by omega)
    ∗ slotW m d L t r7V cc1_scratch16 cc1_scratch24 11 511 (by omega))

/-- The loop's invariant: before trip `k` the index rows below `8k` are back, the output rows below `8k` hold their
    looked-up rows, and each slot has its gather of row `8k + b` in flight; after the last trip each slot has its
    write of row `504 + b` in flight instead. -/
def inv (t : Buf (Elt F) (tLoc d)) (O : CellTallies nD τ sig (HIx 1)) (W : Waits sig (HIx 1)) (k : ℕ) (_ : Unit) : sProp 𝕄 :=
  iprop(invC m d L t O W k ∗ if hk : k < 64 then slotsG m d L t k hk else slotsW m d L t)

omit [FloatOps F] in
theorem inv_lt (t : Buf (Elt F) (tLoc d)) (O : CellTallies nD τ sig (HIx 1)) (W : Waits sig (HIx 1)) (k : ℕ) (u : Unit) (hk : k < 64) :
    inv m d L t O W k u = iprop(invC m d L t O W k ∗ slotsG m d L t k hk) := by
  unfold inv; rw [dif_pos hk]
omit [FloatOps F] in
theorem inv_ge (t : Buf (Elt F) (tLoc d)) (O : CellTallies nD τ sig (HIx 1)) (W : Waits sig (HIx 1)) (k : ℕ) (u : Unit) (hk : ¬ k < 64) :
    inv m d L t O W k u = iprop(invC m d L t O W k ∗ slotsW m d L t) := by
  unfold inv; rw [dif_neg hk]

omit [FloatOps F] in
theorem dn_of_le {k : ℕ} (h : k ≤ 63) : dn k = 8 * k := by unfold dn; rw [Nat.min_eq_left h]
omit [FloatOps F] in
theorem dn_of_ge {k : ℕ} (h : 63 ≤ k) : dn k = 504 := by unfold dn; rw [Nat.min_eq_right h]

omit [FloatOps F] in
theorem done_cast (a b b' : ℕ) (h : a + b = b') :
    (iprop(∃ gd : Buf (Elt F) (oLoc d), ⌜GoodOut (m (xLoc d)) (m (wLoc d)) (oRng a (a + b)) gd⌝ ∗ (oV).view.loc (V d (cV L) (jV L)) ↦[oRng a (a + b)]{fullShare} gd) : sProp 𝕄)
      ⊢ iprop(∃ gd : Buf (Elt F) (oLoc d), ⌜GoodOut (m (xLoc d)) (m (wLoc d)) (oRng a b') gd⌝ ∗ (oV).view.loc (V d (cV L) (jV L)) ↦[oRng a b']{fullShare} gd) := by
  subst h; exact Entails.rfl

omit [FloatOps F] in
theorem iRng_empty_eq {a b : ℕ} (ha : 512 ≤ a) (hb : 512 ≤ b) : iRng a 512 = iRng b 512 := by
  ext i; simp only [mem_iRng]; omega

omit [FloatOps F] in
theorem off3_last (k : Fin k1_t1_loop.trips) (hk63 : k.val = 63) (b : Fin 8) :
    k1_off3 L k (BitVec.ofNat 32 b.val) = ![obase L + (504 + b.val), 0, 0] := by
  rw [k1_off3_eq L k b]
  have h : 1024 * (L 1).val + 512 * (L 0).val + 8 * k.val + b.val = obase L + (504 + b.val) := by unfold obase; omega
  rw [h]

omit [FloatOps F] in
theorem done_cast2 (a b b' : ℕ) (h : b = a + b') :
    (iprop(∃ gd : Buf (Elt F) (oLoc d), ⌜GoodOut (m (xLoc d)) (m (wLoc d)) (oRng a b) gd⌝ ∗ (oV).view.loc (V d (cV L) (jV L)) ↦[oRng a b]{fullShare} gd) : sProp 𝕄)
      ⊢ iprop(∃ gd : Buf (Elt F) (oLoc d), ⌜GoodOut (m (xLoc d)) (m (wLoc d)) (oRng a (a + b')) gd⌝ ∗ (oV).view.loc (V d (cV L) (jV L)) ↦[oRng a (a + b')]{fullShare} gd) := by
  subst h; exact Entails.rfl

omit [FloatOps F] in
theorem pts_iCast (f : S512x50.Idx → Elt F .i32) {a b a' b' : ℕ} (ha : a = a') (hb : b = b') :
    ((iV).view.loc (V d (cV L) (jV L)) ↦[iRng a b]{fullShare} f : sProp 𝕄) ⊢ (iV).view.loc (V d (cV L) (jV L)) ↦[iRng a' b']{fullShare} f := by
  subst ha hb; exact Entails.rfl
omit [FloatOps F] in
theorem pts_oCast (f : Buf (Elt F) (oLoc d)) {a b a' b' : ℕ} (ha : a = a') (hb : b = b') :
    ((oV).view.loc (V d (cV L) (jV L)) ↦[oRng a b]{fullShare} f : sProp 𝕄) ⊢ (oV).view.loc (V d (cV L) (jV L)) ↦[oRng a' b']{fullShare} f := by
  subst ha hb; exact Entails.rfl
omit [FloatOps F] in
theorem pts_iNil (f : S512x50.Idx → Elt F .i32) {a b : ℕ} (h : b ≤ a) :
    (iprop(emp) : sProp 𝕄) ⊢ (iV).view.loc (V d (cV L) (jV L)) ↦[iRng a b]{fullShare} f := by
  rw [show iRng a b = ∅ from Finset.eq_empty_of_forall_notMem fun i hi => by rw [mem_iRng] at hi; omega, pointsTo_empty]
omit [FloatOps F] in
theorem pts_oNil (f : Buf (Elt F) (oLoc d)) {a b : ℕ} (h : b ≤ a) :
    (iprop(emp) : sProp 𝕄) ⊢ (oV).view.loc (V d (cV L) (jV L)) ↦[oRng a b]{fullShare} f := by
  rw [show oRng a b = ∅ from Finset.eq_empty_of_forall_notMem fun i hi => by rw [mem_oRng] at hi; omega, pointsTo_empty]

set_option maxHeartbeats 16000000 in
/-- A trip that is not the last: each slot's gather landed, its row written out and that write awaited, its next gather issued. -/
theorem trip_lt (hpre : PreOK m) (t : Buf (Elt F) (tLoc d)) (ht : GoodTbl (m (wLoc d)) t) (O : CellTallies nD τ sig (HIx 1)) (W : Waits sig (HIx 1))
    (v2 : BitVec 32) (k : Fin k1_t1_loop.trips) (hk : k.val < 63) :
    inv m d L t O W k.val ()
      ⊢ wp frame (wpE (defs₀ (F := F)) 𝒱₀ (V d (cV L) (jV L)) none) Set.univ
          (k1_t1_body (F := F) L xV (Memref.isWhole_whole _) tV (Memref.isWhole_whole _) oV (Memref.isWhole_whole _)
  iV (Memref.isWhole_whole _) r0V (Memref.isWhole_whole _) r1V (Memref.isWhole_whole _) r2V (Memref.isWhole_whole _) r3V (Memref.isWhole_whole _)
  r4V (Memref.isWhole_whole _) r5V (Memref.isWhole_whole _) r6V (Memref.isWhole_whole _) r7V (Memref.isWhole_whole _)
  cc1_scratch9 cc1_scratch10 cc1_scratch11 cc1_scratch12 cc1_scratch13 cc1_scratch14 cc1_scratch15 cc1_scratch16
  cc1_scratch17 cc1_scratch18 cc1_scratch19 cc1_scratch20 cc1_scratch21 cc1_scratch22 cc1_scratch23 cc1_scratch24 cc1_scoped0 v2 k ())
          (inv m d L t O W (k.val + 1)) := by
  obtain ⟨hc1, hc2, hc3, hc4, hc5, hc6, hc7, hc8⟩ := k1_conds_pos k hk
  have hpost : inv m d L t O W (k.val + 1) = fun _ => iprop(invC m d L t O W (k.val + 1) ∗ slotsG m d L t (k.val + 1) (by omega)) :=
    funext fun u => inv_lt m d L t O W (k.val + 1) u (by omega)
  rw [hpost]
  have hin := inb_of_pre (F := F) m d L hpre
  have hk64 := k_lt64 k
  rw [inv_lt m d L t O W k.val () hk64]
  iintro ⟨⟨#Hmw, ⟨%W', %hW', HO⟩, Hpast, Hf0, Hdone, ⟨%g, Ho0⟩⟩, ⟨⟨Hw0, ⟨%fb0, %pay0, %hp0, Hg0⟩, Ht0⟩, ⟨Hw1, ⟨%fb1, %pay1, %hp1, Hg1⟩, Ht1⟩, ⟨Hw2, ⟨%fb2, %pay2, %hp2, Hg2⟩, Ht2⟩, ⟨Hw3, ⟨%fb3, %pay3, %hp3, Hg3⟩, Ht3⟩, ⟨Hw4, ⟨%fb4, %pay4, %hp4, Hg4⟩, Ht4⟩, ⟨Hw5, ⟨%fb5, %pay5, %hp5, Hg5⟩, Ht5⟩, ⟨Hw6, ⟨%fb6, %pay6, %hp6, Hg6⟩, Ht6⟩, ⟨Hw7, ⟨%fb7, %pay7, %hp7, Hg7⟩, Ht7⟩⟩⟩
  ihave Hsp := (pts_iRng_split (F := F) d L (idxC m d L) (a := 8 * k.val + 8) (b := 8 * k.val + 9) (c := 512) (by omega) (by omega)).1 $$ Hf0
  icases Hsp with ⟨Hrow0, Hf1⟩
  ihave Hl0 := (Entails.of_eq (pts_idxRow (F := F) d L (k1_off5 k) (k1_off5_inb k hc1) (8 * k.val + 8) (k1_off5_eq k) (idxC m d L)).symm) $$ Hrow0
  ihave Hsp := (pts_iRng_split (F := F) d L (idxC m d L) (a := 8 * k.val + 9) (b := 8 * k.val + 10) (c := 512) (by omega) (by omega)).1 $$ Hf1
  icases Hsp with ⟨Hrow1, Hf2⟩
  ihave Hl1 := (Entails.of_eq (pts_idxRow (F := F) d L (k1_off7 k) (k1_off7_inb k hc2) (8 * k.val + 9) (k1_off7_eq k) (idxC m d L)).symm) $$ Hrow1
  ihave Hsp := (pts_iRng_split (F := F) d L (idxC m d L) (a := 8 * k.val + 10) (b := 8 * k.val + 11) (c := 512) (by omega) (by omega)).1 $$ Hf2
  icases Hsp with ⟨Hrow2, Hf3⟩
  ihave Hl2 := (Entails.of_eq (pts_idxRow (F := F) d L (k1_off9 k) (k1_off9_inb k hc3) (8 * k.val + 10) (k1_off9_eq k) (idxC m d L)).symm) $$ Hrow2
  ihave Hsp := (pts_iRng_split (F := F) d L (idxC m d L) (a := 8 * k.val + 11) (b := 8 * k.val + 12) (c := 512) (by omega) (by omega)).1 $$ Hf3
  icases Hsp with ⟨Hrow3, Hf4⟩
  ihave Hl3 := (Entails.of_eq (pts_idxRow (F := F) d L (k1_off11 k) (k1_off11_inb k hc4) (8 * k.val + 11) (k1_off11_eq k) (idxC m d L)).symm) $$ Hrow3
  ihave Hsp := (pts_iRng_split (F := F) d L (idxC m d L) (a := 8 * k.val + 12) (b := 8 * k.val + 13) (c := 512) (by omega) (by omega)).1 $$ Hf4
  icases Hsp with ⟨Hrow4, Hf5⟩
  ihave Hl4 := (Entails.of_eq (pts_idxRow (F := F) d L (k1_off13 k) (k1_off13_inb k hc5) (8 * k.val + 12) (k1_off13_eq k) (idxC m d L)).symm) $$ Hrow4
  ihave Hsp := (pts_iRng_split (F := F) d L (idxC m d L) (a := 8 * k.val + 13) (b := 8 * k.val + 14) (c := 512) (by omega) (by omega)).1 $$ Hf5
  icases Hsp with ⟨Hrow5, Hf6⟩
  ihave Hl5 := (Entails.of_eq (pts_idxRow (F := F) d L (k1_off15 k) (k1_off15_inb k hc6) (8 * k.val + 13) (k1_off15_eq k) (idxC m d L)).symm) $$ Hrow5
  ihave Hsp := (pts_iRng_split (F := F) d L (idxC m d L) (a := 8 * k.val + 14) (b := 8 * k.val + 15) (c := 512) (by omega) (by omega)).1 $$ Hf6
  icases Hsp with ⟨Hrow6, Hf7⟩
  ihave Hl6 := (Entails.of_eq (pts_idxRow (F := F) d L (k1_off17 k) (k1_off17_inb k hc7) (8 * k.val + 14) (k1_off17_eq k) (idxC m d L)).symm) $$ Hrow6
  ihave Hsp := (pts_iRng_split (F := F) d L (idxC m d L) (a := 8 * k.val + 15) (b := 8 * k.val + 16) (c := 512) (by omega) (by omega)).1 $$ Hf7
  icases Hsp with ⟨Hrow7, Hf8⟩
  ihave Hl7 := (Entails.of_eq (pts_idxRow (F := F) d L (k1_off19 k) (k1_off19_inb k hc8) (8 * k.val + 15) (k1_off19_eq k) (idxC m d L)).symm) $$ Hrow7
  ihave Hsp := (pts_oRng_split (F := F) d L g (a := obase L + 8 * k.val + 0) (b := obase L + 8 * k.val + 1) (c := obase L + 512) (by omega) (by omega)).1 $$ Ho0
  icases Hsp with ⟨Horow0, Ho1⟩
  ihave Hor0 := (Entails.of_eq (pts_outRow (F := F) d L (k1_off3 L k 0#32) (k1_off3_inb L k 0) (obase L + 8 * k.val + 0) (k1_off3_eq L k 0) g).symm) $$ Horow0
  ihave Hsp := (pts_oRng_split (F := F) d L g (a := obase L + 8 * k.val + 1) (b := obase L + 8 * k.val + 2) (c := obase L + 512) (by omega) (by omega)).1 $$ Ho1
  icases Hsp with ⟨Horow1, Ho2⟩
  ihave Hor1 := (Entails.of_eq (pts_outRow (F := F) d L (k1_off3 L k 1#32) (k1_off3_inb L k 1) (obase L + 8 * k.val + 1) (k1_off3_eq L k 1) g).symm) $$ Horow1
  ihave Hsp := (pts_oRng_split (F := F) d L g (a := obase L + 8 * k.val + 2) (b := obase L + 8 * k.val + 3) (c := obase L + 512) (by omega) (by omega)).1 $$ Ho2
  icases Hsp with ⟨Horow2, Ho3⟩
  ihave Hor2 := (Entails.of_eq (pts_outRow (F := F) d L (k1_off3 L k 2#32) (k1_off3_inb L k 2) (obase L + 8 * k.val + 2) (k1_off3_eq L k 2) g).symm) $$ Horow2
  ihave Hsp := (pts_oRng_split (F := F) d L g (a := obase L + 8 * k.val + 3) (b := obase L + 8 * k.val + 4) (c := obase L + 512) (by omega) (by omega)).1 $$ Ho3
  icases Hsp with ⟨Horow3, Ho4⟩
  ihave Hor3 := (Entails.of_eq (pts_outRow (F := F) d L (k1_off3 L k 3#32) (k1_off3_inb L k 3) (obase L + 8 * k.val + 3) (k1_off3_eq L k 3) g).symm) $$ Horow3
  ihave Hsp := (pts_oRng_split (F := F) d L g (a := obase L + 8 * k.val + 4) (b := obase L + 8 * k.val + 5) (c := obase L + 512) (by omega) (by omega)).1 $$ Ho4
  icases Hsp with ⟨Horow4, Ho5⟩
  ihave Hor4 := (Entails.of_eq (pts_outRow (F := F) d L (k1_off3 L k 4#32) (k1_off3_inb L k 4) (obase L + 8 * k.val + 4) (k1_off3_eq L k 4) g).symm) $$ Horow4
  ihave Hsp := (pts_oRng_split (F := F) d L g (a := obase L + 8 * k.val + 5) (b := obase L + 8 * k.val + 6) (c := obase L + 512) (by omega) (by omega)).1 $$ Ho5
  icases Hsp with ⟨Horow5, Ho6⟩
  ihave Hor5 := (Entails.of_eq (pts_outRow (F := F) d L (k1_off3 L k 5#32) (k1_off3_inb L k 5) (obase L + 8 * k.val + 5) (k1_off3_eq L k 5) g).symm) $$ Horow5
  ihave Hsp := (pts_oRng_split (F := F) d L g (a := obase L + 8 * k.val + 6) (b := obase L + 8 * k.val + 7) (c := obase L + 512) (by omega) (by omega)).1 $$ Ho6
  icases Hsp with ⟨Horow6, Ho7⟩
  ihave Hor6 := (Entails.of_eq (pts_outRow (F := F) d L (k1_off3 L k 6#32) (k1_off3_inb L k 6) (obase L + 8 * k.val + 6) (k1_off3_eq L k 6) g).symm) $$ Horow6
  ihave Hsp := (pts_oRng_split (F := F) d L g (a := obase L + 8 * k.val + 7) (b := obase L + 8 * k.val + 8) (c := obase L + 512) (by omega) (by omega)).1 $$ Ho7
  icases Hsp with ⟨Horow7, Ho8⟩
  ihave Hor7 := (Entails.of_eq (pts_outRow (F := F) d L (k1_off3 L k 7#32) (k1_off3_inb L k 7) (obase L + 8 * k.val + 7) (k1_off3_eq L k 7) g).symm) $$ Horow7
  sl_exec (disch := assumption)
  sl_step
  isplitl [HO Hpast Hf8 Hdone Ho8 Hg0_dst_and Hor0 Hg1_dst_and Hor1 Hg2_dst_and Hor2 Hg3_dst_and Hor3 Hg4_dst_and Hor4 Hg5_dst_and Hor5 Hg6_dst_and Hor6 Hg7_dst_and Hor7]
  · isplitr; · iexact Hmw
    isplitl [HO]
    · iexists _; isplitr; swap; · iexact HO
      ipureintro; exact (waits_ins _ (waits_ins _ (waits_ins _ (waits_ins _ (waits_ins _ (waits_ins _ (waits_ins _ (waits_ins _ (waits_ins _ (waits_ins _ (waits_ins _ (waits_ins _ (waits_ins _ (waits_ins _ (waits_ins _ (waits_ins _ hW'))))))))))))))))
    isplitl [Hpast Hg0_dst_and Hg1_dst_and Hg2_dst_and Hg3_dst_and Hg4_dst_and Hg5_dst_and Hg6_dst_and Hg7_dst_and]
    · ihave Hp0 := (pts_iCast (F := F) d L (idxC m d L) (rfl : 0 = 0) (show 8 * k.val = 8 * k.val + 0 by omega)) $$ Hpast
      ihave Hr0 := (Entails.of_eq (pts_idxRow (F := F) d L ![8 * k.val + 0, 0] (inb_row (8 * k.val + 0) (by omega)) (8 * k.val + 0) rfl (idxC m d L))) $$ Hg0_dst_and
      ihave Hp1 := (pts_iRng_split (F := F) d L (idxC m d L) (a := 0) (b := 8 * k.val + 0) (c := 8 * k.val + 0 + 1) (by omega) (by omega)).2 $$ [Hp0 Hr0]
      · isplitl [Hp0]; · iexact Hp0
        iexact Hr0
      ihave Hr1 := (Entails.of_eq (pts_idxRow (F := F) d L ![8 * k.val + 1, 0] (inb_row (8 * k.val + 1) (by omega)) (8 * k.val + 1) rfl (idxC m d L))) $$ Hg1_dst_and
      ihave Hp2 := (pts_iRng_split (F := F) d L (idxC m d L) (a := 0) (b := 8 * k.val + 1) (c := 8 * k.val + 1 + 1) (by omega) (by omega)).2 $$ [Hp1 Hr1]
      · isplitl [Hp1]; · iexact Hp1
        iexact Hr1
      ihave Hr2 := (Entails.of_eq (pts_idxRow (F := F) d L ![8 * k.val + 2, 0] (inb_row (8 * k.val + 2) (by omega)) (8 * k.val + 2) rfl (idxC m d L))) $$ Hg2_dst_and
      ihave Hp3 := (pts_iRng_split (F := F) d L (idxC m d L) (a := 0) (b := 8 * k.val + 2) (c := 8 * k.val + 2 + 1) (by omega) (by omega)).2 $$ [Hp2 Hr2]
      · isplitl [Hp2]; · iexact Hp2
        iexact Hr2
      ihave Hr3 := (Entails.of_eq (pts_idxRow (F := F) d L ![8 * k.val + 3, 0] (inb_row (8 * k.val + 3) (by omega)) (8 * k.val + 3) rfl (idxC m d L))) $$ Hg3_dst_and
      ihave Hp4 := (pts_iRng_split (F := F) d L (idxC m d L) (a := 0) (b := 8 * k.val + 3) (c := 8 * k.val + 3 + 1) (by omega) (by omega)).2 $$ [Hp3 Hr3]
      · isplitl [Hp3]; · iexact Hp3
        iexact Hr3
      ihave Hr4 := (Entails.of_eq (pts_idxRow (F := F) d L ![8 * k.val + 4, 0] (inb_row (8 * k.val + 4) (by omega)) (8 * k.val + 4) rfl (idxC m d L))) $$ Hg4_dst_and
      ihave Hp5 := (pts_iRng_split (F := F) d L (idxC m d L) (a := 0) (b := 8 * k.val + 4) (c := 8 * k.val + 4 + 1) (by omega) (by omega)).2 $$ [Hp4 Hr4]
      · isplitl [Hp4]; · iexact Hp4
        iexact Hr4
      ihave Hr5 := (Entails.of_eq (pts_idxRow (F := F) d L ![8 * k.val + 5, 0] (inb_row (8 * k.val + 5) (by omega)) (8 * k.val + 5) rfl (idxC m d L))) $$ Hg5_dst_and
      ihave Hp6 := (pts_iRng_split (F := F) d L (idxC m d L) (a := 0) (b := 8 * k.val + 5) (c := 8 * k.val + 5 + 1) (by omega) (by omega)).2 $$ [Hp5 Hr5]
      · isplitl [Hp5]; · iexact Hp5
        iexact Hr5
      ihave Hr6 := (Entails.of_eq (pts_idxRow (F := F) d L ![8 * k.val + 6, 0] (inb_row (8 * k.val + 6) (by omega)) (8 * k.val + 6) rfl (idxC m d L))) $$ Hg6_dst_and
      ihave Hp7 := (pts_iRng_split (F := F) d L (idxC m d L) (a := 0) (b := 8 * k.val + 6) (c := 8 * k.val + 6 + 1) (by omega) (by omega)).2 $$ [Hp6 Hr6]
      · isplitl [Hp6]; · iexact Hp6
        iexact Hr6
      ihave Hr7 := (Entails.of_eq (pts_idxRow (F := F) d L ![8 * k.val + 7, 0] (inb_row (8 * k.val + 7) (by omega)) (8 * k.val + 7) rfl (idxC m d L))) $$ Hg7_dst_and
      ihave Hp8 := (pts_iRng_split (F := F) d L (idxC m d L) (a := 0) (b := 8 * k.val + 7) (c := 8 * k.val + 7 + 1) (by omega) (by omega)).2 $$ [Hp7 Hr7]
      · isplitl [Hp7]; · iexact Hp7
        iexact Hr7
      iapply (pts_iCast (F := F) d L (idxC m d L) (rfl : 0 = 0) (show 8 * k.val + 7 + 1 = 8 * (k.val + 1) by omega)) $$ Hp8
    isplitl [Hf8]
    · iapply (pts_iCast (F := F) d L (idxC m d L) (show 8 * k.val + 16 = 8 * (k.val + 1) + 8 by omega) (rfl : 512 = 512)) $$ Hf8
    isplitl [Hdone Hor0 Hor1 Hor2 Hor3 Hor4 Hor5 Hor6 Hor7]
    · ihave Hd0 := (done_cast (F := F) m d L (obase L) _ (obase L + 8 * k.val + 0) (by have := dn_of_le (show k.val ≤ 63 by omega); omega)) $$ Hdone
      have hgo0 := out_row_good m d L (rowN L (8 * k.val + 0) (by omega)) (obase L + 8 * k.val + 0) (rowN_val L _ _) (k1_off3 L k 0#32) (k1_off3_inb L k 0) (k1_off3_eq L k 0) g r0V fb0 pay0 hp0
      ihave Hrw0 := (Entails.of_eq (pts_outRow (F := F) d L (k1_off3 L k 0#32) (k1_off3_inb L k 0) (obase L + 8 * k.val + 0) (k1_off3_eq L k 0) _)) $$ Hor0
      ihave Hd1 := (done_extend (F := F) m d L (obase L) (obase L + 8 * k.val + 0) (by omega) _ hgo0) $$ [Hd0 Hrw0]
      · isplitl [Hd0]; · iexact Hd0
        iexact Hrw0
      have hgo1 := out_row_good m d L (rowN L (8 * k.val + 1) (by omega)) (obase L + 8 * k.val + 1) (rowN_val L _ _) (k1_off3 L k 1#32) (k1_off3_inb L k 1) (k1_off3_eq L k 1) g r1V fb1 pay1 hp1
      ihave Hrw1 := (Entails.of_eq (pts_outRow (F := F) d L (k1_off3 L k 1#32) (k1_off3_inb L k 1) (obase L + 8 * k.val + 1) (k1_off3_eq L k 1) _)) $$ Hor1
      ihave Hd2 := (done_extend (F := F) m d L (obase L) (obase L + 8 * k.val + 1) (by omega) _ hgo1) $$ [Hd1 Hrw1]
      · isplitl [Hd1]; · iexact Hd1
        iexact Hrw1
      have hgo2 := out_row_good m d L (rowN L (8 * k.val + 2) (by omega)) (obase L + 8 * k.val + 2) (rowN_val L _ _) (k1_off3 L k 2#32) (k1_off3_inb L k 2) (k1_off3_eq L k 2) g r2V fb2 pay2 hp2
      ihave Hrw2 := (Entails.of_eq (pts_outRow (F := F) d L (k1_off3 L k 2#32) (k1_off3_inb L k 2) (obase L + 8 * k.val + 2) (k1_off3_eq L k 2) _)) $$ Hor2
      ihave Hd3 := (done_extend (F := F) m d L (obase L) (obase L + 8 * k.val + 2) (by omega) _ hgo2) $$ [Hd2 Hrw2]
      · isplitl [Hd2]; · iexact Hd2
        iexact Hrw2
      have hgo3 := out_row_good m d L (rowN L (8 * k.val + 3) (by omega)) (obase L + 8 * k.val + 3) (rowN_val L _ _) (k1_off3 L k 3#32) (k1_off3_inb L k 3) (k1_off3_eq L k 3) g r3V fb3 pay3 hp3
      ihave Hrw3 := (Entails.of_eq (pts_outRow (F := F) d L (k1_off3 L k 3#32) (k1_off3_inb L k 3) (obase L + 8 * k.val + 3) (k1_off3_eq L k 3) _)) $$ Hor3
      ihave Hd4 := (done_extend (F := F) m d L (obase L) (obase L + 8 * k.val + 3) (by omega) _ hgo3) $$ [Hd3 Hrw3]
      · isplitl [Hd3]; · iexact Hd3
        iexact Hrw3
      have hgo4 := out_row_good m d L (rowN L (8 * k.val + 4) (by omega)) (obase L + 8 * k.val + 4) (rowN_val L _ _) (k1_off3 L k 4#32) (k1_off3_inb L k 4) (k1_off3_eq L k 4) g r4V fb4 pay4 hp4
      ihave Hrw4 := (Entails.of_eq (pts_outRow (F := F) d L (k1_off3 L k 4#32) (k1_off3_inb L k 4) (obase L + 8 * k.val + 4) (k1_off3_eq L k 4) _)) $$ Hor4
      ihave Hd5 := (done_extend (F := F) m d L (obase L) (obase L + 8 * k.val + 4) (by omega) _ hgo4) $$ [Hd4 Hrw4]
      · isplitl [Hd4]; · iexact Hd4
        iexact Hrw4
      have hgo5 := out_row_good m d L (rowN L (8 * k.val + 5) (by omega)) (obase L + 8 * k.val + 5) (rowN_val L _ _) (k1_off3 L k 5#32) (k1_off3_inb L k 5) (k1_off3_eq L k 5) g r5V fb5 pay5 hp5
      ihave Hrw5 := (Entails.of_eq (pts_outRow (F := F) d L (k1_off3 L k 5#32) (k1_off3_inb L k 5) (obase L + 8 * k.val + 5) (k1_off3_eq L k 5) _)) $$ Hor5
      ihave Hd6 := (done_extend (F := F) m d L (obase L) (obase L + 8 * k.val + 5) (by omega) _ hgo5) $$ [Hd5 Hrw5]
      · isplitl [Hd5]; · iexact Hd5
        iexact Hrw5
      have hgo6 := out_row_good m d L (rowN L (8 * k.val + 6) (by omega)) (obase L + 8 * k.val + 6) (rowN_val L _ _) (k1_off3 L k 6#32) (k1_off3_inb L k 6) (k1_off3_eq L k 6) g r6V fb6 pay6 hp6
      ihave Hrw6 := (Entails.of_eq (pts_outRow (F := F) d L (k1_off3 L k 6#32) (k1_off3_inb L k 6) (obase L + 8 * k.val + 6) (k1_off3_eq L k 6) _)) $$ Hor6
      ihave Hd7 := (done_extend (F := F) m d L (obase L) (obase L + 8 * k.val + 6) (by omega) _ hgo6) $$ [Hd6 Hrw6]
      · isplitl [Hd6]; · iexact Hd6
        iexact Hrw6
      have hgo7 := out_row_good m d L (rowN L (8 * k.val + 7) (by omega)) (obase L + 8 * k.val + 7) (rowN_val L _ _) (k1_off3 L k 7#32) (k1_off3_inb L k 7) (k1_off3_eq L k 7) g r7V fb7 pay7 hp7
      ihave Hrw7 := (Entails.of_eq (pts_outRow (F := F) d L (k1_off3 L k 7#32) (k1_off3_inb L k 7) (obase L + 8 * k.val + 7) (k1_off3_eq L k 7) _)) $$ Hor7
      ihave Hd8 := (done_extend (F := F) m d L (obase L) (obase L + 8 * k.val + 7) (by omega) _ hgo7) $$ [Hd7 Hrw7]
      · isplitl [Hd7]; · iexact Hd7
        iexact Hrw7
      iapply (done_cast2 (F := F) m d L (obase L) _ _ (by have := dn_of_le (show k.val + 1 ≤ 63 by omega); omega)) $$ Hd8
    iexists g
    iapply (pts_oCast (F := F) d L g (show obase L + 8 * k.val + 8 = obase L + 8 * (k.val + 1) + 0 by omega) (rfl : obase L + 512 = obase L + 512)) $$ Ho8
  isplitl [Hw0 Hg0 Ht0]
  · have hr : 8 * k.val + 8 < 512 := by omega
    have he : 8 * k.val + 8 = 8 * (k.val + 1) + 0 := by omega
    iapply (slotG_cast (F := F) m d L t r0V cc1_scratch9 cc1_scratch17 4 (8 * k.val + 8) (8 * (k.val + 1) + 0) hr _ he)
    isplitl [Hw0]; · iexact Hw0
    isplitr [Ht0]; swap; · iexact Ht0
    iexists _, _
    isplitr; swap
    · iapply (gFlight_of (F := F) m d L t r0V cc1_scratch9 4 (k1_off5 k) (k1_off5_inb k hc1) (8 * k.val + 8) hr (k1_off5_eq k) fb0 pay0 _)
      iexact Hg0
    · ipureintro
      exact gather_good m d L hpre t ht (k1_off5 k) (k1_off5_inb k hc1) (8 * k.val + 8) hr (k1_off5_eq k) rfl (hin _ _)
  isplitl [Hw1 Hg1 Ht1]
  · have hr : 8 * k.val + 9 < 512 := by omega
    have he : 8 * k.val + 9 = 8 * (k.val + 1) + 1 := by omega
    iapply (slotG_cast (F := F) m d L t r1V cc1_scratch10 cc1_scratch18 5 (8 * k.val + 9) (8 * (k.val + 1) + 1) hr _ he)
    isplitl [Hw1]; · iexact Hw1
    isplitr [Ht1]; swap; · iexact Ht1
    iexists _, _
    isplitr; swap
    · iapply (gFlight_of (F := F) m d L t r1V cc1_scratch10 5 (k1_off7 k) (k1_off7_inb k hc2) (8 * k.val + 9) hr (k1_off7_eq k) fb1 pay1 _)
      iexact Hg1
    · ipureintro
      exact gather_good m d L hpre t ht (k1_off7 k) (k1_off7_inb k hc2) (8 * k.val + 9) hr (k1_off7_eq k) rfl (hin _ _)
  isplitl [Hw2 Hg2 Ht2]
  · have hr : 8 * k.val + 10 < 512 := by omega
    have he : 8 * k.val + 10 = 8 * (k.val + 1) + 2 := by omega
    iapply (slotG_cast (F := F) m d L t r2V cc1_scratch11 cc1_scratch19 6 (8 * k.val + 10) (8 * (k.val + 1) + 2) hr _ he)
    isplitl [Hw2]; · iexact Hw2
    isplitr [Ht2]; swap; · iexact Ht2
    iexists _, _
    isplitr; swap
    · iapply (gFlight_of (F := F) m d L t r2V cc1_scratch11 6 (k1_off9 k) (k1_off9_inb k hc3) (8 * k.val + 10) hr (k1_off9_eq k) fb2 pay2 _)
      iexact Hg2
    · ipureintro
      exact gather_good m d L hpre t ht (k1_off9 k) (k1_off9_inb k hc3) (8 * k.val + 10) hr (k1_off9_eq k) rfl (hin _ _)
  isplitl [Hw3 Hg3 Ht3]
  · have hr : 8 * k.val + 11 < 512 := by omega
    have he : 8 * k.val + 11 = 8 * (k.val + 1) + 3 := by omega
    iapply (slotG_cast (F := F) m d L t r3V cc1_scratch12 cc1_scratch20 7 (8 * k.val + 11) (8 * (k.val + 1) + 3) hr _ he)
    isplitl [Hw3]; · iexact Hw3
    isplitr [Ht3]; swap; · iexact Ht3
    iexists _, _
    isplitr; swap
    · iapply (gFlight_of (F := F) m d L t r3V cc1_scratch12 7 (k1_off11 k) (k1_off11_inb k hc4) (8 * k.val + 11) hr (k1_off11_eq k) fb3 pay3 _)
      iexact Hg3
    · ipureintro
      exact gather_good m d L hpre t ht (k1_off11 k) (k1_off11_inb k hc4) (8 * k.val + 11) hr (k1_off11_eq k) rfl (hin _ _)
  isplitl [Hw4 Hg4 Ht4]
  · have hr : 8 * k.val + 12 < 512 := by omega
    have he : 8 * k.val + 12 = 8 * (k.val + 1) + 4 := by omega
    iapply (slotG_cast (F := F) m d L t r4V cc1_scratch13 cc1_scratch21 8 (8 * k.val + 12) (8 * (k.val + 1) + 4) hr _ he)
    isplitl [Hw4]; · iexact Hw4
    isplitr [Ht4]; swap; · iexact Ht4
    iexists _, _
    isplitr; swap
    · iapply (gFlight_of (F := F) m d L t r4V cc1_scratch13 8 (k1_off13 k) (k1_off13_inb k hc5) (8 * k.val + 12) hr (k1_off13_eq k) fb4 pay4 _)
      iexact Hg4
    · ipureintro
      exact gather_good m d L hpre t ht (k1_off13 k) (k1_off13_inb k hc5) (8 * k.val + 12) hr (k1_off13_eq k) rfl (hin _ _)
  isplitl [Hw5 Hg5 Ht5]
  · have hr : 8 * k.val + 13 < 512 := by omega
    have he : 8 * k.val + 13 = 8 * (k.val + 1) + 5 := by omega
    iapply (slotG_cast (F := F) m d L t r5V cc1_scratch14 cc1_scratch22 9 (8 * k.val + 13) (8 * (k.val + 1) + 5) hr _ he)
    isplitl [Hw5]; · iexact Hw5
    isplitr [Ht5]; swap; · iexact Ht5
    iexists _, _
    isplitr; swap
    · iapply (gFlight_of (F := F) m d L t r5V cc1_scratch14 9 (k1_off15 k) (k1_off15_inb k hc6) (8 * k.val + 13) hr (k1_off15_eq k) fb5 pay5 _)
      iexact Hg5
    · ipureintro
      exact gather_good m d L hpre t ht (k1_off15 k) (k1_off15_inb k hc6) (8 * k.val + 13) hr (k1_off15_eq k) rfl (hin _ _)
  isplitl [Hw6 Hg6 Ht6]
  · have hr : 8 * k.val + 14 < 512 := by omega
    have he : 8 * k.val + 14 = 8 * (k.val + 1) + 6 := by omega
    iapply (slotG_cast (F := F) m d L t r6V cc1_scratch15 cc1_scratch23 10 (8 * k.val + 14) (8 * (k.val + 1) + 6) hr _ he)
    isplitl [Hw6]; · iexact Hw6
    isplitr [Ht6]; swap; · iexact Ht6
    iexists _, _
    isplitr; swap
    · iapply (gFlight_of (F := F) m d L t r6V cc1_scratch15 10 (k1_off17 k) (k1_off17_inb k hc7) (8 * k.val + 14) hr (k1_off17_eq k) fb6 pay6 _)
      iexact Hg6
    · ipureintro
      exact gather_good m d L hpre t ht (k1_off17 k) (k1_off17_inb k hc7) (8 * k.val + 14) hr (k1_off17_eq k) rfl (hin _ _)
  · have hr : 8 * k.val + 15 < 512 := by omega
    have he : 8 * k.val + 15 = 8 * (k.val + 1) + 7 := by omega
    iapply (slotG_cast (F := F) m d L t r7V cc1_scratch16 cc1_scratch24 11 (8 * k.val + 15) (8 * (k.val + 1) + 7) hr _ he)
    isplitl [Hw7]; · iexact Hw7
    isplitr [Ht7]; swap; · iexact Ht7
    iexists _, _
    isplitr; swap
    · iapply (gFlight_of (F := F) m d L t r7V cc1_scratch16 11 (k1_off19 k) (k1_off19_inb k hc8) (8 * k.val + 15) hr (k1_off19_eq k) fb7 pay7 _)
      iexact Hg7
    · ipureintro
      exact gather_good m d L hpre t ht (k1_off19 k) (k1_off19_inb k hc8) (8 * k.val + 15) hr (k1_off19_eq k) rfl (hin _ _)

set_option maxHeartbeats 16000000 in
/-- The last trip: each slot's gather landed and its row's write issued; nothing is refilled. -/
theorem trip_63 (hpre : PreOK m) (t : Buf (Elt F) (tLoc d)) (ht : GoodTbl (m (wLoc d)) t) (O : CellTallies nD τ sig (HIx 1)) (W : Waits sig (HIx 1))
    (v2 : BitVec 32) (k : Fin k1_t1_loop.trips) (hk : ¬ k.val < 63) :
    inv m d L t O W k.val ()
      ⊢ wp frame (wpE (defs₀ (F := F)) 𝒱₀ (V d (cV L) (jV L)) none) Set.univ
          (k1_t1_body (F := F) L xV (Memref.isWhole_whole _) tV (Memref.isWhole_whole _) oV (Memref.isWhole_whole _)
  iV (Memref.isWhole_whole _) r0V (Memref.isWhole_whole _) r1V (Memref.isWhole_whole _) r2V (Memref.isWhole_whole _) r3V (Memref.isWhole_whole _)
  r4V (Memref.isWhole_whole _) r5V (Memref.isWhole_whole _) r6V (Memref.isWhole_whole _) r7V (Memref.isWhole_whole _)
  cc1_scratch9 cc1_scratch10 cc1_scratch11 cc1_scratch12 cc1_scratch13 cc1_scratch14 cc1_scratch15 cc1_scratch16
  cc1_scratch17 cc1_scratch18 cc1_scratch19 cc1_scratch20 cc1_scratch21 cc1_scratch22 cc1_scratch23 cc1_scratch24 cc1_scoped0 v2 k ())
          (inv m d L t O W (k.val + 1)) := by
  obtain ⟨hc1, hc2, hc3, hc4, hc5, hc6, hc7, hc8⟩ := k1_conds_neg k hk
  have hk63 : k.val = 63 := by have := k_lt64 k; omega
  have hpost : inv m d L t O W (k.val + 1) = fun _ => iprop(invC m d L t O W (k.val + 1) ∗ slotsW m d L t) :=
    funext fun u => inv_ge m d L t O W (k.val + 1) u (by omega)
  rw [hpost]
  have hin := inb_of_pre (F := F) m d L hpre
  have hk64 := k_lt64 k
  rw [inv_lt m d L t O W k.val () hk64]
  iintro ⟨⟨#Hmw, ⟨%W', %hW', HO⟩, Hpast, Hf0, Hdone, ⟨%g, Ho0⟩⟩, ⟨⟨Hw0, ⟨%fb0, %pay0, %hp0, Hg0⟩, Ht0⟩, ⟨Hw1, ⟨%fb1, %pay1, %hp1, Hg1⟩, Ht1⟩, ⟨Hw2, ⟨%fb2, %pay2, %hp2, Hg2⟩, Ht2⟩, ⟨Hw3, ⟨%fb3, %pay3, %hp3, Hg3⟩, Ht3⟩, ⟨Hw4, ⟨%fb4, %pay4, %hp4, Hg4⟩, Ht4⟩, ⟨Hw5, ⟨%fb5, %pay5, %hp5, Hg5⟩, Ht5⟩, ⟨Hw6, ⟨%fb6, %pay6, %hp6, Hg6⟩, Ht6⟩, ⟨Hw7, ⟨%fb7, %pay7, %hp7, Hg7⟩, Ht7⟩⟩⟩
  ihave Hsp := (pts_oRng_split (F := F) d L g (a := obase L + 8 * k.val + 0) (b := obase L + 8 * k.val + 1) (c := obase L + 512) (by omega) (by omega)).1 $$ Ho0
  icases Hsp with ⟨Horow0, Ho1⟩
  ihave Hor0 := (Entails.of_eq (pts_outRow (F := F) d L (k1_off3 L k 0#32) (k1_off3_inb L k 0) (obase L + 8 * k.val + 0) (k1_off3_eq L k 0) g).symm) $$ Horow0
  ihave Hsp := (pts_oRng_split (F := F) d L g (a := obase L + 8 * k.val + 1) (b := obase L + 8 * k.val + 2) (c := obase L + 512) (by omega) (by omega)).1 $$ Ho1
  icases Hsp with ⟨Horow1, Ho2⟩
  ihave Hor1 := (Entails.of_eq (pts_outRow (F := F) d L (k1_off3 L k 1#32) (k1_off3_inb L k 1) (obase L + 8 * k.val + 1) (k1_off3_eq L k 1) g).symm) $$ Horow1
  ihave Hsp := (pts_oRng_split (F := F) d L g (a := obase L + 8 * k.val + 2) (b := obase L + 8 * k.val + 3) (c := obase L + 512) (by omega) (by omega)).1 $$ Ho2
  icases Hsp with ⟨Horow2, Ho3⟩
  ihave Hor2 := (Entails.of_eq (pts_outRow (F := F) d L (k1_off3 L k 2#32) (k1_off3_inb L k 2) (obase L + 8 * k.val + 2) (k1_off3_eq L k 2) g).symm) $$ Horow2
  ihave Hsp := (pts_oRng_split (F := F) d L g (a := obase L + 8 * k.val + 3) (b := obase L + 8 * k.val + 4) (c := obase L + 512) (by omega) (by omega)).1 $$ Ho3
  icases Hsp with ⟨Horow3, Ho4⟩
  ihave Hor3 := (Entails.of_eq (pts_outRow (F := F) d L (k1_off3 L k 3#32) (k1_off3_inb L k 3) (obase L + 8 * k.val + 3) (k1_off3_eq L k 3) g).symm) $$ Horow3
  ihave Hsp := (pts_oRng_split (F := F) d L g (a := obase L + 8 * k.val + 4) (b := obase L + 8 * k.val + 5) (c := obase L + 512) (by omega) (by omega)).1 $$ Ho4
  icases Hsp with ⟨Horow4, Ho5⟩
  ihave Hor4 := (Entails.of_eq (pts_outRow (F := F) d L (k1_off3 L k 4#32) (k1_off3_inb L k 4) (obase L + 8 * k.val + 4) (k1_off3_eq L k 4) g).symm) $$ Horow4
  ihave Hsp := (pts_oRng_split (F := F) d L g (a := obase L + 8 * k.val + 5) (b := obase L + 8 * k.val + 6) (c := obase L + 512) (by omega) (by omega)).1 $$ Ho5
  icases Hsp with ⟨Horow5, Ho6⟩
  ihave Hor5 := (Entails.of_eq (pts_outRow (F := F) d L (k1_off3 L k 5#32) (k1_off3_inb L k 5) (obase L + 8 * k.val + 5) (k1_off3_eq L k 5) g).symm) $$ Horow5
  ihave Hsp := (pts_oRng_split (F := F) d L g (a := obase L + 8 * k.val + 6) (b := obase L + 8 * k.val + 7) (c := obase L + 512) (by omega) (by omega)).1 $$ Ho6
  icases Hsp with ⟨Horow6, Ho7⟩
  ihave Hor6 := (Entails.of_eq (pts_outRow (F := F) d L (k1_off3 L k 6#32) (k1_off3_inb L k 6) (obase L + 8 * k.val + 6) (k1_off3_eq L k 6) g).symm) $$ Horow6
  ihave Hsp := (pts_oRng_split (F := F) d L g (a := obase L + 8 * k.val + 7) (b := obase L + 8 * k.val + 8) (c := obase L + 512) (by omega) (by omega)).1 $$ Ho7
  icases Hsp with ⟨Horow7, Ho8⟩
  ihave Hor7 := (Entails.of_eq (pts_outRow (F := F) d L (k1_off3 L k 7#32) (k1_off3_inb L k 7) (obase L + 8 * k.val + 7) (k1_off3_eq L k 7) g).symm) $$ Horow7
  sl_exec (disch := assumption)
  sl_step
  isplitl [HO Hpast Hf0 Hdone Ho8 Hg0_dst_and Hg1_dst_and Hg2_dst_and Hg3_dst_and Hg4_dst_and Hg5_dst_and Hg6_dst_and Hg7_dst_and]
  · isplitr; · iexact Hmw
    isplitl [HO]
    · iexists _; isplitr; swap; · iexact HO
      ipureintro; exact (waits_ins _ (waits_ins _ (waits_ins _ (waits_ins _ (waits_ins _ (waits_ins _ (waits_ins _ (waits_ins _ hW'))))))))
    isplitl [Hpast Hg0_dst_and Hg1_dst_and Hg2_dst_and Hg3_dst_and Hg4_dst_and Hg5_dst_and Hg6_dst_and Hg7_dst_and]
    · ihave Hp0 := (pts_iCast (F := F) d L (idxC m d L) (rfl : 0 = 0) (show 8 * k.val = 8 * k.val + 0 by omega)) $$ Hpast
      ihave Hr0 := (Entails.of_eq (pts_idxRow (F := F) d L ![8 * k.val + 0, 0] (inb_row (8 * k.val + 0) (by omega)) (8 * k.val + 0) rfl (idxC m d L))) $$ Hg0_dst_and
      ihave Hp1 := (pts_iRng_split (F := F) d L (idxC m d L) (a := 0) (b := 8 * k.val + 0) (c := 8 * k.val + 0 + 1) (by omega) (by omega)).2 $$ [Hp0 Hr0]
      · isplitl [Hp0]; · iexact Hp0
        iexact Hr0
      ihave Hr1 := (Entails.of_eq (pts_idxRow (F := F) d L ![8 * k.val + 1, 0] (inb_row (8 * k.val + 1) (by omega)) (8 * k.val + 1) rfl (idxC m d L))) $$ Hg1_dst_and
      ihave Hp2 := (pts_iRng_split (F := F) d L (idxC m d L) (a := 0) (b := 8 * k.val + 1) (c := 8 * k.val + 1 + 1) (by omega) (by omega)).2 $$ [Hp1 Hr1]
      · isplitl [Hp1]; · iexact Hp1
        iexact Hr1
      ihave Hr2 := (Entails.of_eq (pts_idxRow (F := F) d L ![8 * k.val + 2, 0] (inb_row (8 * k.val + 2) (by omega)) (8 * k.val + 2) rfl (idxC m d L))) $$ Hg2_dst_and
      ihave Hp3 := (pts_iRng_split (F := F) d L (idxC m d L) (a := 0) (b := 8 * k.val + 2) (c := 8 * k.val + 2 + 1) (by omega) (by omega)).2 $$ [Hp2 Hr2]
      · isplitl [Hp2]; · iexact Hp2
        iexact Hr2
      ihave Hr3 := (Entails.of_eq (pts_idxRow (F := F) d L ![8 * k.val + 3, 0] (inb_row (8 * k.val + 3) (by omega)) (8 * k.val + 3) rfl (idxC m d L))) $$ Hg3_dst_and
      ihave Hp4 := (pts_iRng_split (F := F) d L (idxC m d L) (a := 0) (b := 8 * k.val + 3) (c := 8 * k.val + 3 + 1) (by omega) (by omega)).2 $$ [Hp3 Hr3]
      · isplitl [Hp3]; · iexact Hp3
        iexact Hr3
      ihave Hr4 := (Entails.of_eq (pts_idxRow (F := F) d L ![8 * k.val + 4, 0] (inb_row (8 * k.val + 4) (by omega)) (8 * k.val + 4) rfl (idxC m d L))) $$ Hg4_dst_and
      ihave Hp5 := (pts_iRng_split (F := F) d L (idxC m d L) (a := 0) (b := 8 * k.val + 4) (c := 8 * k.val + 4 + 1) (by omega) (by omega)).2 $$ [Hp4 Hr4]
      · isplitl [Hp4]; · iexact Hp4
        iexact Hr4
      ihave Hr5 := (Entails.of_eq (pts_idxRow (F := F) d L ![8 * k.val + 5, 0] (inb_row (8 * k.val + 5) (by omega)) (8 * k.val + 5) rfl (idxC m d L))) $$ Hg5_dst_and
      ihave Hp6 := (pts_iRng_split (F := F) d L (idxC m d L) (a := 0) (b := 8 * k.val + 5) (c := 8 * k.val + 5 + 1) (by omega) (by omega)).2 $$ [Hp5 Hr5]
      · isplitl [Hp5]; · iexact Hp5
        iexact Hr5
      ihave Hr6 := (Entails.of_eq (pts_idxRow (F := F) d L ![8 * k.val + 6, 0] (inb_row (8 * k.val + 6) (by omega)) (8 * k.val + 6) rfl (idxC m d L))) $$ Hg6_dst_and
      ihave Hp7 := (pts_iRng_split (F := F) d L (idxC m d L) (a := 0) (b := 8 * k.val + 6) (c := 8 * k.val + 6 + 1) (by omega) (by omega)).2 $$ [Hp6 Hr6]
      · isplitl [Hp6]; · iexact Hp6
        iexact Hr6
      ihave Hr7 := (Entails.of_eq (pts_idxRow (F := F) d L ![8 * k.val + 7, 0] (inb_row (8 * k.val + 7) (by omega)) (8 * k.val + 7) rfl (idxC m d L))) $$ Hg7_dst_and
      ihave Hp8 := (pts_iRng_split (F := F) d L (idxC m d L) (a := 0) (b := 8 * k.val + 7) (c := 8 * k.val + 7 + 1) (by omega) (by omega)).2 $$ [Hp7 Hr7]
      · isplitl [Hp7]; · iexact Hp7
        iexact Hr7
      iapply (pts_iCast (F := F) d L (idxC m d L) (rfl : 0 = 0) (show 8 * k.val + 7 + 1 = 8 * (k.val + 1) by omega)) $$ Hp8
    isplitl [Hf0]
    · iapply (pts_cast (F := F) (ℓ := (iV).view.loc (V d (cV L) (jV L))) (iRng_empty_eq (by omega) (by omega)) _ _) $$ Hf0
    isplitl [Hdone]
    · iapply (done_cast (F := F) m d L (obase L) _ _ (by rw [dn_of_ge (show 63 ≤ k.val by omega), dn_of_ge (show 63 ≤ k.val + 1 by omega)])) $$ Hdone
    iexists g
    iapply (pts_oCast (F := F) d L g (show obase L + 8 * k.val + 8 = obase L + 8 * (k.val + 1) + 0 by omega) (rfl : obase L + 512 = obase L + 512)) $$ Ho8
  isplitl [Hg0 Ht0 Hw0 Hg0_dst]
  · have hr : 504 < 512 := by omega
    isplitl [Hg0]; · iexact Hg0
    isplitl [Ht0]; · iexact Ht0
    iexists _, _
    isplitr; swap
    · isplitl [Hw0]
      · iapply (wFlight_of (F := F) d L r0V cc1_scratch17 (k1_off3 L k 0#32) (k1_off3_inb L k 0) 504 hr (off3_last L k hk63 0) _ _)
        iexact Hw0
      · iexact Hg0_dst
    · ipureintro
      have hrow : (rowN L (8 * k.val + 0) (by omega)).val = obase L + 504 := by rw [rowN_val]; omega
      exact out_row_good m d L (rowN L (8 * k.val + 0) (by omega)) (obase L + 504) hrow (k1_off3 L k 0#32) (k1_off3_inb L k 0) (off3_last L k hk63 0) g r0V fb0 pay0 hp0
  isplitl [Hg1 Ht1 Hw1 Hg1_dst]
  · have hr : 505 < 512 := by omega
    isplitl [Hg1]; · iexact Hg1
    isplitl [Ht1]; · iexact Ht1
    iexists _, _
    isplitr; swap
    · isplitl [Hw1]
      · iapply (wFlight_of (F := F) d L r1V cc1_scratch18 (k1_off3 L k 1#32) (k1_off3_inb L k 1) 505 hr (off3_last L k hk63 1) _ _)
        iexact Hw1
      · iexact Hg1_dst
    · ipureintro
      have hrow : (rowN L (8 * k.val + 1) (by omega)).val = obase L + 505 := by rw [rowN_val]; omega
      exact out_row_good m d L (rowN L (8 * k.val + 1) (by omega)) (obase L + 505) hrow (k1_off3 L k 1#32) (k1_off3_inb L k 1) (off3_last L k hk63 1) g r1V fb1 pay1 hp1
  isplitl [Hg2 Ht2 Hw2 Hg2_dst]
  · have hr : 506 < 512 := by omega
    isplitl [Hg2]; · iexact Hg2
    isplitl [Ht2]; · iexact Ht2
    iexists _, _
    isplitr; swap
    · isplitl [Hw2]
      · iapply (wFlight_of (F := F) d L r2V cc1_scratch19 (k1_off3 L k 2#32) (k1_off3_inb L k 2) 506 hr (off3_last L k hk63 2) _ _)
        iexact Hw2
      · iexact Hg2_dst
    · ipureintro
      have hrow : (rowN L (8 * k.val + 2) (by omega)).val = obase L + 506 := by rw [rowN_val]; omega
      exact out_row_good m d L (rowN L (8 * k.val + 2) (by omega)) (obase L + 506) hrow (k1_off3 L k 2#32) (k1_off3_inb L k 2) (off3_last L k hk63 2) g r2V fb2 pay2 hp2
  isplitl [Hg3 Ht3 Hw3 Hg3_dst]
  · have hr : 507 < 512 := by omega
    isplitl [Hg3]; · iexact Hg3
    isplitl [Ht3]; · iexact Ht3
    iexists _, _
    isplitr; swap
    · isplitl [Hw3]
      · iapply (wFlight_of (F := F) d L r3V cc1_scratch20 (k1_off3 L k 3#32) (k1_off3_inb L k 3) 507 hr (off3_last L k hk63 3) _ _)
        iexact Hw3
      · iexact Hg3_dst
    · ipureintro
      have hrow : (rowN L (8 * k.val + 3) (by omega)).val = obase L + 507 := by rw [rowN_val]; omega
      exact out_row_good m d L (rowN L (8 * k.val + 3) (by omega)) (obase L + 507) hrow (k1_off3 L k 3#32) (k1_off3_inb L k 3) (off3_last L k hk63 3) g r3V fb3 pay3 hp3
  isplitl [Hg4 Ht4 Hw4 Hg4_dst]
  · have hr : 508 < 512 := by omega
    isplitl [Hg4]; · iexact Hg4
    isplitl [Ht4]; · iexact Ht4
    iexists _, _
    isplitr; swap
    · isplitl [Hw4]
      · iapply (wFlight_of (F := F) d L r4V cc1_scratch21 (k1_off3 L k 4#32) (k1_off3_inb L k 4) 508 hr (off3_last L k hk63 4) _ _)
        iexact Hw4
      · iexact Hg4_dst
    · ipureintro
      have hrow : (rowN L (8 * k.val + 4) (by omega)).val = obase L + 508 := by rw [rowN_val]; omega
      exact out_row_good m d L (rowN L (8 * k.val + 4) (by omega)) (obase L + 508) hrow (k1_off3 L k 4#32) (k1_off3_inb L k 4) (off3_last L k hk63 4) g r4V fb4 pay4 hp4
  isplitl [Hg5 Ht5 Hw5 Hg5_dst]
  · have hr : 509 < 512 := by omega
    isplitl [Hg5]; · iexact Hg5
    isplitl [Ht5]; · iexact Ht5
    iexists _, _
    isplitr; swap
    · isplitl [Hw5]
      · iapply (wFlight_of (F := F) d L r5V cc1_scratch22 (k1_off3 L k 5#32) (k1_off3_inb L k 5) 509 hr (off3_last L k hk63 5) _ _)
        iexact Hw5
      · iexact Hg5_dst
    · ipureintro
      have hrow : (rowN L (8 * k.val + 5) (by omega)).val = obase L + 509 := by rw [rowN_val]; omega
      exact out_row_good m d L (rowN L (8 * k.val + 5) (by omega)) (obase L + 509) hrow (k1_off3 L k 5#32) (k1_off3_inb L k 5) (off3_last L k hk63 5) g r5V fb5 pay5 hp5
  isplitl [Hg6 Ht6 Hw6 Hg6_dst]
  · have hr : 510 < 512 := by omega
    isplitl [Hg6]; · iexact Hg6
    isplitl [Ht6]; · iexact Ht6
    iexists _, _
    isplitr; swap
    · isplitl [Hw6]
      · iapply (wFlight_of (F := F) d L r6V cc1_scratch23 (k1_off3 L k 6#32) (k1_off3_inb L k 6) 510 hr (off3_last L k hk63 6) _ _)
        iexact Hw6
      · iexact Hg6_dst
    · ipureintro
      have hrow : (rowN L (8 * k.val + 6) (by omega)).val = obase L + 510 := by rw [rowN_val]; omega
      exact out_row_good m d L (rowN L (8 * k.val + 6) (by omega)) (obase L + 510) hrow (k1_off3 L k 6#32) (k1_off3_inb L k 6) (off3_last L k hk63 6) g r6V fb6 pay6 hp6
  · have hr : 511 < 512 := by omega
    isplitl [Hg7]; · iexact Hg7
    isplitl [Ht7]; · iexact Ht7
    iexists _, _
    isplitr; swap
    · isplitl [Hw7]
      · iapply (wFlight_of (F := F) d L r7V cc1_scratch24 (k1_off3 L k 7#32) (k1_off3_inb L k 7) 511 hr (off3_last L k hk63 7) _ _)
        iexact Hw7
      · iexact Hg7_dst
    · ipureintro
      have hrow : (rowN L (8 * k.val + 7) (by omega)).val = obase L + 511 := by rw [rowN_val]; omega
      exact out_row_good m d L (rowN L (8 * k.val + 7) (by omega)) (obase L + 511) hrow (k1_off3 L k 7#32) (k1_off3_inb L k 7) (off3_last L k hk63 7) g r7V fb7 pay7 hp7

end Tile
end Cert.Kernel.Hand
end
-- ==== Proof.HandKernel.Tile.lean ====
/-
  The body obligation of the lookup kernel on one vector subcore.  The subcore fetches its 512 rows of the index
  array, starts eight gathers of table rows into its eight row buffers, and runs 64 trips of a ring: in trip k,
  slot b waits for its gather of row 8k + b, writes the row buffer out to output row 8k + b, and — except in the
  last trip — waits for that write and starts the gather of row 8k + 8 + b.  The loop goes by an invariant; the
  value is carried in it: the finished output rows hold, in their first 64 columns, the table rows their index
  words name.
-/
import proofs.«206440_g52347061403653_cont_9to1_m_884_16_alg».proof.Proof.HandKernel.TileD

noncomputable section

namespace Cert.Kernel.Hand

open Cert.Kernel Cert.Kernel.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "xV" => (Memref.whole Cert.Kernel.main_arg0_scv : Memref Cert.Kernel.sig Kind.scVector Space.hbm Cert.Kernel.S16384x50 EltTy.i32)
local notation "tV" => (Memref.whole Cert.Kernel.main_v1_scv : Memref Cert.Kernel.sig Kind.scVector Space.hbm Cert.Kernel.S1000000x128 EltTy.f32)
local notation "oV" => (Memref.whole Cert.Kernel.main_v2_scv : Memref Cert.Kernel.sig Kind.scVector Space.hbm Cert.Kernel.S16384x50x128 EltTy.f32)
local notation "iV" => (Memref.whole Cert.Kernel.cc1_scratch0 : Memref Cert.Kernel.sig Kind.scVector Space.vmem Cert.Kernel.S512x50 EltTy.i32)
local notation "r0V" => (Memref.whole Cert.Kernel.cc1_scratch1 : Memref Cert.Kernel.sig Kind.scVector Space.vmem Cert.Kernel.S50x128 EltTy.f32)
local notation "r1V" => (Memref.whole Cert.Kernel.cc1_scratch2 : Memref Cert.Kernel.sig Kind.scVector Space.vmem Cert.Kernel.S50x128 EltTy.f32)
local notation "r2V" => (Memref.whole Cert.Kernel.cc1_scratch3 : Memref Cert.Kernel.sig Kind.scVector Space.vmem Cert.Kernel.S50x128 EltTy.f32)
local notation "r3V" => (Memref.whole Cert.Kernel.cc1_scratch4 : Memref Cert.Kernel.sig Kind.scVector Space.vmem Cert.Kernel.S50x128 EltTy.f32)
local notation "r4V" => (Memref.whole Cert.Kernel.cc1_scratch5 : Memref Cert.Kernel.sig Kind.scVector Space.vmem Cert.Kernel.S50x128 EltTy.f32)
local notation "r5V" => (Memref.whole Cert.Kernel.cc1_scratch6 : Memref Cert.Kernel.sig Kind.scVector Space.vmem Cert.Kernel.S50x128 EltTy.f32)
local notation "r6V" => (Memref.whole Cert.Kernel.cc1_scratch7 : Memref Cert.Kernel.sig Kind.scVector Space.vmem Cert.Kernel.S50x128 EltTy.f32)
local notation "r7V" => (Memref.whole Cert.Kernel.cc1_scratch8 : Memref Cert.Kernel.sig Kind.scVector Space.vmem Cert.Kernel.S50x128 EltTy.f32)

variable [FloatOps F]
section Tile
variable (d : Dev nD) (L : grid1.Coords)

omit [FloatOps F] in
theorem oSet_obase : oSet (cL L) (sL L) = oRng (obase L + 8 * 0 + 0) (obase L + 512) := by
  rw [oSet_eq, wid_val]
  have h : 512 * (2 * (L 1).val + (L 0).val) = obase L + 8 * 0 + 0 := by unfold obase; omega
  rw [h]

omit [FloatOps F] in
theorem oSet_obase2 : oSet (cL L) (sL L) = oRng (obase L) (obase L + 512) := by
  rw [oSet_eq, wid_val]
  have h : 512 * (2 * (L 1).val + (L 0).val) = obase L := by unfold obase; omega
  rw [h]

omit [FloatOps F] in
theorem done_cast3 (a b b' : ℕ) (h : b = b') :
    (iprop(∃ gd : Buf (Elt F) (oLoc d), ⌜GoodOut (m (xLoc d)) (m (wLoc d)) (oRng a b) gd⌝ ∗ (oV).view.loc (V d (cV L) (jV L)) ↦[oRng a b]{fullShare} gd) : sProp 𝕄)
      ⊢ iprop(∃ gd : Buf (Elt F) (oLoc d), ⌜GoodOut (m (xLoc d)) (m (wLoc d)) (oRng a b') gd⌝ ∗ (oV).view.loc (V d (cV L) (jV L)) ↦[oRng a b']{fullShare} gd) := by
  subst h; exact Entails.rfl

omit [FloatOps F] in
/-- The finished rows, once they are all of the subcore's, are what the subcore brings back. -/
theorem done_to_out :
    (iprop(∃ gd : Buf (Elt F) (oLoc d), ⌜GoodOut (m (xLoc d)) (m (wLoc d)) (oRng (obase L) (obase L + 512)) gd⌝
        ∗ (oV).view.loc (V d (cV L) (jV L)) ↦[oRng (obase L) (obase L + 512)]{fullShare} gd) : sProp 𝕄)
      ⊢ iprop(∃ f, ⌜GoodOut (m (xLoc d)) (m (wLoc d)) (oSet (cL L) (sL L)) f⌝ ∗ oLoc d ↦[oSet (cL L) (sL L)]{fullShare} f) := by
  rw [oSet_obase2]; exact Entails.rfl

omit [FloatOps F] in
theorem pts_iAll (f : S512x50.Idx → Elt F .i32) (n : ℕ) (hn : n = 512) :
    ((iV).view.loc (V d (cV L) (jV L)) ↦[iRng 0 n]{fullShare} f : sProp 𝕄) ⊢ (V d (cV L) (jV L)).loc cc1_scratch0 ↦{fullShare} f := by
  subst hn; rw [iRng_all]

set_option maxHeartbeats 16000000 in
/-- The task on vector subcore `L`: the rows of the index array fetched, the eight first gathers, the ring's 64 trips by the
    invariant, the eight last writes awaited; the output rows join at contents good on all of them. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ goR m d (cL L) (sL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ (kern L)
          fun _ => iprop(tdR m d (cL L) (sL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  unfold kern
  simp only [cc1__emb_kernel_eq_skeleton]; unfold cc1__emb_kernel_skel
  simp only [k1_part4_eq_skeleton]; unfold k1_part4_skel
  simp only [k1_part5_eq_skeleton]; unfold k1_part5_skel
  rw [(K (F := F)).scopedBufs_V hF d (cV L) (jV L), SparseCore.Cfg.scopedSems0_V (Val := Elt F) d (cV L) (jV L), ownSems0_V, ownBufs_V]
  iintro ⟨#Hlv, -, ⟨Hx, ⟨%t, %ht, Hdd⟩, Ho⟩, ⟨⟨⟨%fi, Hi⟩, ⟨%f0, Hr0⟩, ⟨%f1, Hr1⟩, ⟨%f2, Hr2⟩, ⟨%f3, Hr3⟩, ⟨%f4, Hr4⟩, ⟨%f5, Hr5⟩, ⟨%f6, Hr6⟩, ⟨%f7, Hr7⟩⟩, Hbufs⟩,
    ⟨⟨Hg0, Hg1, Hg2, Hg3, Hg4, Hg5, Hg6, Hg7, Hw0, Hw1, Hw2, Hw3, Hw4, Hw5, Hw6, Hw7, Hsc⟩, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hx' := (Entails.of_eq (pts_xRowsK (F := F) d L _).symm) $$ Hx
  ihave Hd0 := (Entails.of_eq (show (tLoc d ↦{tq (cL L) (sL L)} t : sProp 𝕄) = tLoc d ↦{Transfers.shareDrop (tq (cL L) (sL L)) 0} t from rfl)) $$ Hdd
  ihave Hd1 := (tok_split (F := F) (tLoc d) t (tq (cL L) (sL L)) 0).1 $$ Hd0
  icases Hd1 with ⟨Hd1, Htk0⟩
  ihave Hd2 := (tok_split (F := F) (tLoc d) t (tq (cL L) (sL L)) 1).1 $$ Hd1
  icases Hd2 with ⟨Hd2, Htk1⟩
  ihave Hd3 := (tok_split (F := F) (tLoc d) t (tq (cL L) (sL L)) 2).1 $$ Hd2
  icases Hd3 with ⟨Hd3, Htk2⟩
  ihave Hd4 := (tok_split (F := F) (tLoc d) t (tq (cL L) (sL L)) 3).1 $$ Hd3
  icases Hd4 with ⟨Hd4, Htk3⟩
  ihave Hd5 := (tok_split (F := F) (tLoc d) t (tq (cL L) (sL L)) 4).1 $$ Hd4
  icases Hd5 with ⟨Hd5, Htk4⟩
  ihave Hd6 := (tok_split (F := F) (tLoc d) t (tq (cL L) (sL L)) 5).1 $$ Hd5
  icases Hd6 with ⟨Hd6, Htk5⟩
  ihave Hd7 := (tok_split (F := F) (tLoc d) t (tq (cL L) (sL L)) 6).1 $$ Hd6
  icases Hd7 with ⟨Hd7, Htk6⟩
  ihave Hd8 := (tok_split (F := F) (tLoc d) t (tq (cL L) (sL L)) 7).1 $$ Hd7
  icases Hd8 with ⟨Hd8, Htk7⟩
  ihave Hd9 := (tok_split (F := F) (tLoc d) t (tq (cL L) (sL L)) 8).1 $$ Hd8
  icases Hd9 with ⟨Hd9, Htk8⟩
  ihave Hd10 := (tok_split (F := F) (tLoc d) t (tq (cL L) (sL L)) 9).1 $$ Hd9
  icases Hd10 with ⟨Hd10, Htk9⟩
  ihave Hd11 := (tok_split (F := F) (tLoc d) t (tq (cL L) (sL L)) 10).1 $$ Hd10
  icases Hd11 with ⟨Hd11, Htk10⟩
  ihave Hd12 := (tok_split (F := F) (tLoc d) t (tq (cL L) (sL L)) 11).1 $$ Hd11
  icases Hd12 with ⟨Hd12, Htk11⟩
  ihave Ht0 := (Entails.of_eq (pts_tV (F := F) d L _ _).symm) $$ Htk4
  ihave Ht1 := (Entails.of_eq (pts_tV (F := F) d L _ _).symm) $$ Htk5
  ihave Ht2 := (Entails.of_eq (pts_tV (F := F) d L _ _).symm) $$ Htk6
  ihave Ht3 := (Entails.of_eq (pts_tV (F := F) d L _ _).symm) $$ Htk7
  ihave Ht4 := (Entails.of_eq (pts_tV (F := F) d L _ _).symm) $$ Htk8
  ihave Ht5 := (Entails.of_eq (pts_tV (F := F) d L _ _).symm) $$ Htk9
  ihave Ht6 := (Entails.of_eq (pts_tV (F := F) d L _ _).symm) $$ Htk10
  ihave Ht7 := (Entails.of_eq (pts_tV (F := F) d L _ _).symm) $$ Htk11
  ihave Hi' := (Entails.of_eq (pts_buf (F := F) d L cc1_scratch0 _).symm) $$ Hi
  ihave Hr0' := (Entails.of_eq (pts_buf (F := F) d L cc1_scratch1 _).symm) $$ Hr0
  ihave Hr1' := (Entails.of_eq (pts_buf (F := F) d L cc1_scratch2 _).symm) $$ Hr1
  ihave Hr2' := (Entails.of_eq (pts_buf (F := F) d L cc1_scratch3 _).symm) $$ Hr2
  ihave Hr3' := (Entails.of_eq (pts_buf (F := F) d L cc1_scratch4 _).symm) $$ Hr3
  ihave Hr4' := (Entails.of_eq (pts_buf (F := F) d L cc1_scratch5 _).symm) $$ Hr4
  ihave Hr5' := (Entails.of_eq (pts_buf (F := F) d L cc1_scratch6 _).symm) $$ Hr5
  ihave Hr6' := (Entails.of_eq (pts_buf (F := F) d L cc1_scratch7 _).symm) $$ Hr6
  ihave Hr7' := (Entails.of_eq (pts_buf (F := F) d L cc1_scratch8 _).symm) $$ Hr7
  sl_exec
  ihave Hi0 := (Entails.of_eq (idx_landed (F := F) m d L fi (tile_body.sl.dma0 m d L) rfl)) $$ Hi'
  ihave Hsp := (pts_iRng_split (F := F) d L (idxC m d L) (a := 0) (b := 1) (c := 512) (by omega) (by omega)).1 $$ Hi0
  icases Hsp with ⟨Hrow0, Hi1⟩
  ihave Hl0 := (Entails.of_eq (pts_idxRow (F := F) d L ![0, 0] inb_S512x50_S1x50_0_0 0 rfl (idxC m d L)).symm) $$ Hrow0
  ihave Hsp := (pts_iRng_split (F := F) d L (idxC m d L) (a := 1) (b := 2) (c := 512) (by omega) (by omega)).1 $$ Hi1
  icases Hsp with ⟨Hrow1, Hi2⟩
  ihave Hl1 := (Entails.of_eq (pts_idxRow (F := F) d L ![1, 0] inb_S512x50_S1x50_1_0 1 rfl (idxC m d L)).symm) $$ Hrow1
  ihave Hsp := (pts_iRng_split (F := F) d L (idxC m d L) (a := 2) (b := 3) (c := 512) (by omega) (by omega)).1 $$ Hi2
  icases Hsp with ⟨Hrow2, Hi3⟩
  ihave Hl2 := (Entails.of_eq (pts_idxRow (F := F) d L ![2, 0] inb_S512x50_S1x50_2_0 2 rfl (idxC m d L)).symm) $$ Hrow2
  ihave Hsp := (pts_iRng_split (F := F) d L (idxC m d L) (a := 3) (b := 4) (c := 512) (by omega) (by omega)).1 $$ Hi3
  icases Hsp with ⟨Hrow3, Hi4⟩
  ihave Hl3 := (Entails.of_eq (pts_idxRow (F := F) d L ![3, 0] inb_S512x50_S1x50_3_0 3 rfl (idxC m d L)).symm) $$ Hrow3
  ihave Hsp := (pts_iRng_split (F := F) d L (idxC m d L) (a := 4) (b := 5) (c := 512) (by omega) (by omega)).1 $$ Hi4
  icases Hsp with ⟨Hrow4, Hi5⟩
  ihave Hl4 := (Entails.of_eq (pts_idxRow (F := F) d L ![4, 0] inb_S512x50_S1x50_4_0 4 rfl (idxC m d L)).symm) $$ Hrow4
  ihave Hsp := (pts_iRng_split (F := F) d L (idxC m d L) (a := 5) (b := 6) (c := 512) (by omega) (by omega)).1 $$ Hi5
  icases Hsp with ⟨Hrow5, Hi6⟩
  ihave Hl5 := (Entails.of_eq (pts_idxRow (F := F) d L ![5, 0] inb_S512x50_S1x50_5_0 5 rfl (idxC m d L)).symm) $$ Hrow5
  ihave Hsp := (pts_iRng_split (F := F) d L (idxC m d L) (a := 6) (b := 7) (c := 512) (by omega) (by omega)).1 $$ Hi6
  icases Hsp with ⟨Hrow6, Hi7⟩
  ihave Hl6 := (Entails.of_eq (pts_idxRow (F := F) d L ![6, 0] inb_S512x50_S1x50_6_0 6 rfl (idxC m d L)).symm) $$ Hrow6
  ihave Hsp := (pts_iRng_split (F := F) d L (idxC m d L) (a := 7) (b := 8) (c := 512) (by omega) (by omega)).1 $$ Hi7
  icases Hsp with ⟨Hrow7, Hi8⟩
  ihave Hl7 := (Entails.of_eq (pts_idxRow (F := F) d L ![7, 0] inb_S512x50_S1x50_7_0 7 rfl (idxC m d L)).symm) $$ Hrow7
  have hin := inb_of_pre (F := F) m d L hpre
  sl_exec
  ihave Ho' := (Entails.of_eq (pts_oV (F := F) d L _ _).symm) $$ Ho
  ihave Ho0 := (pts_cast (F := F) (ℓ := (oV).view.loc (V d (cV L) (jV L))) (oSet_obase L) _ _) $$ Ho'
  rw [wp_bind]
  sl_for (inv m d L t O W) $$ [HO Hi8 Ho0 Hw0 Hg0 Ht0 Hw1 Hg1 Ht1 Hw2 Hg2 Ht2 Hw3 Hg3 Ht3 Hw4 Hg4 Ht4 Hw5 Hg5 Ht5 Hw6 Hg6 Ht6 Hw7 Hg7 Ht7]
  case region =>
    intro k _
    by_cases hk : k.val < 63
    · exact trip_lt m d L hpre t ht O W _ k hk
    · exact trip_63 m d L hpre t ht O W _ k hk
  · rw [inv_lt m d L t O W 0 _ (by omega)]
    isplitl [HO Hi8 Ho0]
    · isplitr; · iexact Hmw
      isplitl [HO]
      · iexists _; isplitr; swap; · iexact HO
        ipureintro; exact waits_ins _ (fun p hp => .inl hp)
      isplitr [Hi8 Ho0]
      · iapply (pts_iNil (F := F) d L (idxC m d L) (a := 0) (b := 8 * 0) (by omega)); iempintro
      isplitl [Hi8]
      · iapply (pts_iCast (F := F) d L (idxC m d L) (show 8 = 8 * 0 + 8 by omega) (rfl : 512 = 512)) $$ Hi8
      isplitr [Ho0]
      · iexists (m (oLoc d)); isplitr
        · ipureintro
          have h0 : obase L + dn 0 = obase L := by simp [dn]
          rw [h0]; exact goodOut_empty _ _ _ _
        · iapply (pts_oNil (F := F) d L (m (oLoc d)) (a := obase L) (b := obase L + dn 0) (by simp [dn])); iempintro
      iexists (m (oLoc d)); iexact Ho0
    isplitl [Hw0 Hg0 Ht0]
    · have hr : 8 * 0 + 0 < 512 := by omega
      isplitl [Hw0]; · iexact Hw0
      isplitr [Ht0]; swap; · iexact Ht0
      iexists _, _
      isplitr; swap
      · iapply (gFlight_of0 (F := F) m d L t r0V cc1_scratch9 4 ![0, 0] inb_S512x50_S1x50_0_0 (8 * 0 + 0) hr rfl f0 _)
        iexact Hg0
      · ipureintro
        exact gather_good m d L hpre t ht ![0, 0] inb_S512x50_S1x50_0_0 (8 * 0 + 0) hr rfl rfl (hin _ _)
    isplitl [Hw1 Hg1 Ht1]
    · have hr : 8 * 0 + 1 < 512 := by omega
      isplitl [Hw1]; · iexact Hw1
      isplitr [Ht1]; swap; · iexact Ht1
      iexists _, _
      isplitr; swap
      · iapply (gFlight_of0 (F := F) m d L t r1V cc1_scratch10 5 ![1, 0] inb_S512x50_S1x50_1_0 (8 * 0 + 1) hr rfl f1 _)
        iexact Hg1
      · ipureintro
        exact gather_good m d L hpre t ht ![1, 0] inb_S512x50_S1x50_1_0 (8 * 0 + 1) hr rfl rfl (hin _ _)
    isplitl [Hw2 Hg2 Ht2]
    · have hr : 8 * 0 + 2 < 512 := by omega
      isplitl [Hw2]; · iexact Hw2
      isplitr [Ht2]; swap; · iexact Ht2
      iexists _, _
      isplitr; swap
      · iapply (gFlight_of0 (F := F) m d L t r2V cc1_scratch11 6 ![2, 0] inb_S512x50_S1x50_2_0 (8 * 0 + 2) hr rfl f2 _)
        iexact Hg2
      · ipureintro
        exact gather_good m d L hpre t ht ![2, 0] inb_S512x50_S1x50_2_0 (8 * 0 + 2) hr rfl rfl (hin _ _)
    isplitl [Hw3 Hg3 Ht3]
    · have hr : 8 * 0 + 3 < 512 := by omega
      isplitl [Hw3]; · iexact Hw3
      isplitr [Ht3]; swap; · iexact Ht3
      iexists _, _
      isplitr; swap
      · iapply (gFlight_of0 (F := F) m d L t r3V cc1_scratch12 7 ![3, 0] inb_S512x50_S1x50_3_0 (8 * 0 + 3) hr rfl f3 _)
        iexact Hg3
      · ipureintro
        exact gather_good m d L hpre t ht ![3, 0] inb_S512x50_S1x50_3_0 (8 * 0 + 3) hr rfl rfl (hin _ _)
    isplitl [Hw4 Hg4 Ht4]
    · have hr : 8 * 0 + 4 < 512 := by omega
      isplitl [Hw4]; · iexact Hw4
      isplitr [Ht4]; swap; · iexact Ht4
      iexists _, _
      isplitr; swap
      · iapply (gFlight_of0 (F := F) m d L t r4V cc1_scratch13 8 ![4, 0] inb_S512x50_S1x50_4_0 (8 * 0 + 4) hr rfl f4 _)
        iexact Hg4
      · ipureintro
        exact gather_good m d L hpre t ht ![4, 0] inb_S512x50_S1x50_4_0 (8 * 0 + 4) hr rfl rfl (hin _ _)
    isplitl [Hw5 Hg5 Ht5]
    · have hr : 8 * 0 + 5 < 512 := by omega
      isplitl [Hw5]; · iexact Hw5
      isplitr [Ht5]; swap; · iexact Ht5
      iexists _, _
      isplitr; swap
      · iapply (gFlight_of0 (F := F) m d L t r5V cc1_scratch14 9 ![5, 0] inb_S512x50_S1x50_5_0 (8 * 0 + 5) hr rfl f5 _)
        iexact Hg5
      · ipureintro
        exact gather_good m d L hpre t ht ![5, 0] inb_S512x50_S1x50_5_0 (8 * 0 + 5) hr rfl rfl (hin _ _)
    isplitl [Hw6 Hg6 Ht6]
    · have hr : 8 * 0 + 6 < 512 := by omega
      isplitl [Hw6]; · iexact Hw6
      isplitr [Ht6]; swap; · iexact Ht6
      iexists _, _
      isplitr; swap
      · iapply (gFlight_of0 (F := F) m d L t r6V cc1_scratch15 10 ![6, 0] inb_S512x50_S1x50_6_0 (8 * 0 + 6) hr rfl f6 _)
        iexact Hg6
      · ipureintro
        exact gather_good m d L hpre t ht ![6, 0] inb_S512x50_S1x50_6_0 (8 * 0 + 6) hr rfl rfl (hin _ _)
    · have hr : 8 * 0 + 7 < 512 := by omega
      isplitl [Hw7]; · iexact Hw7
      isplitr [Ht7]; swap; · iexact Ht7
      iexists _, _
      isplitr; swap
      · iapply (gFlight_of0 (F := F) m d L t r7V cc1_scratch16 11 ![7, 0] inb_S512x50_S1x50_7_0 (8 * 0 + 7) hr rfl f7 _)
        iexact Hg7
      · ipureintro
        exact gather_good m d L hpre t ht ![7, 0] inb_S512x50_S1x50_7_0 (8 * 0 + 7) hr rfl rfl (hin _ _)
  iintro %_ HI
  ihave HI' := (Entails.of_eq (inv_ge m d L t O W k1_t1_loop.trips _ (by decide))) $$ HI
  icases HI' with ⟨⟨-, ⟨%W', %hW', HO⟩, Hpast, -, Hdone, -⟩, ⟨⟨Hg0, Ht0, %g0', %f0', %hg0', Hw0, Hrr0⟩, ⟨Hg1, Ht1, %g1', %f1', %hg1', Hw1, Hrr1⟩, ⟨Hg2, Ht2, %g2', %f2', %hg2', Hw2, Hrr2⟩, ⟨Hg3, Ht3, %g3', %f3', %hg3', Hw3, Hrr3⟩, ⟨Hg4, Ht4, %g4', %f4', %hg4', Hw4, Hrr4⟩, ⟨Hg5, Ht5, %g5', %f5', %hg5', Hw5, Hrr5⟩, ⟨Hg6, Ht6, %g6', %f6', %hg6', Hw6, Hrr6⟩, ⟨Hg7, Ht7, %g7', %f7', %hg7', Hw7, Hrr7⟩⟩⟩
  sl_exec
  sl_step
  isplitl [Hx' Hdone Hw0_dst Hw1_dst Hw2_dst Hw3_dst Hw4_dst Hw5_dst Hw6_dst Hw7_dst]
  · isplitl [Hx']
    · iapply (Entails.of_eq (pts_xRowsK (F := F) d L _)); iexact Hx'
    iapply (done_to_out (F := F) m d L)
    ihave Hd0 := (done_cast3 (F := F) m d L (obase L) _ (obase L + 504) (by have := dn_of_ge (show 63 ≤ k1_t1_loop.trips by decide); omega)) $$ Hdone
    ihave Hrw0 := (Entails.of_eq (pts_outRow (F := F) d L ![obase L + 504, 0, 0] (inbo L 504 (by omega)) (obase L + 504) rfl _)) $$ Hw0_dst
    ihave He0 := (done_extend (F := F) m d L (obase L) (obase L + 504) (by omega) _ hg0') $$ [Hd0 Hrw0]
    · isplitl [Hd0]; · iexact Hd0
      iexact Hrw0
    ihave Hd1 := (done_cast3 (F := F) m d L (obase L) _ (obase L + 505) (by omega)) $$ He0
    ihave Hrw1 := (Entails.of_eq (pts_outRow (F := F) d L ![obase L + 505, 0, 0] (inbo L 505 (by omega)) (obase L + 505) rfl _)) $$ Hw1_dst
    ihave He1 := (done_extend (F := F) m d L (obase L) (obase L + 505) (by omega) _ hg1') $$ [Hd1 Hrw1]
    · isplitl [Hd1]; · iexact Hd1
      iexact Hrw1
    ihave Hd2 := (done_cast3 (F := F) m d L (obase L) _ (obase L + 506) (by omega)) $$ He1
    ihave Hrw2 := (Entails.of_eq (pts_outRow (F := F) d L ![obase L + 506, 0, 0] (inbo L 506 (by omega)) (obase L + 506) rfl _)) $$ Hw2_dst
    ihave He2 := (done_extend (F := F) m d L (obase L) (obase L + 506) (by omega) _ hg2') $$ [Hd2 Hrw2]
    · isplitl [Hd2]; · iexact Hd2
      iexact Hrw2
    ihave Hd3 := (done_cast3 (F := F) m d L (obase L) _ (obase L + 507) (by omega)) $$ He2
    ihave Hrw3 := (Entails.of_eq (pts_outRow (F := F) d L ![obase L + 507, 0, 0] (inbo L 507 (by omega)) (obase L + 507) rfl _)) $$ Hw3_dst
    ihave He3 := (done_extend (F := F) m d L (obase L) (obase L + 507) (by omega) _ hg3') $$ [Hd3 Hrw3]
    · isplitl [Hd3]; · iexact Hd3
      iexact Hrw3
    ihave Hd4 := (done_cast3 (F := F) m d L (obase L) _ (obase L + 508) (by omega)) $$ He3
    ihave Hrw4 := (Entails.of_eq (pts_outRow (F := F) d L ![obase L + 508, 0, 0] (inbo L 508 (by omega)) (obase L + 508) rfl _)) $$ Hw4_dst
    ihave He4 := (done_extend (F := F) m d L (obase L) (obase L + 508) (by omega) _ hg4') $$ [Hd4 Hrw4]
    · isplitl [Hd4]; · iexact Hd4
      iexact Hrw4
    ihave Hd5 := (done_cast3 (F := F) m d L (obase L) _ (obase L + 509) (by omega)) $$ He4
    ihave Hrw5 := (Entails.of_eq (pts_outRow (F := F) d L ![obase L + 509, 0, 0] (inbo L 509 (by omega)) (obase L + 509) rfl _)) $$ Hw5_dst
    ihave He5 := (done_extend (F := F) m d L (obase L) (obase L + 509) (by omega) _ hg5') $$ [Hd5 Hrw5]
    · isplitl [Hd5]; · iexact Hd5
      iexact Hrw5
    ihave Hd6 := (done_cast3 (F := F) m d L (obase L) _ (obase L + 510) (by omega)) $$ He5
    ihave Hrw6 := (Entails.of_eq (pts_outRow (F := F) d L ![obase L + 510, 0, 0] (inbo L 510 (by omega)) (obase L + 510) rfl _)) $$ Hw6_dst
    ihave He6 := (done_extend (F := F) m d L (obase L) (obase L + 510) (by omega) _ hg6') $$ [Hd6 Hrw6]
    · isplitl [Hd6]; · iexact Hd6
      iexact Hrw6
    ihave Hd7 := (done_cast3 (F := F) m d L (obase L) _ (obase L + 511) (by omega)) $$ He6
    ihave Hrw7 := (Entails.of_eq (pts_outRow (F := F) d L ![obase L + 511, 0, 0] (inbo L 511 (by omega)) (obase L + 511) rfl _)) $$ Hw7_dst
    ihave He7 := (done_extend (F := F) m d L (obase L) (obase L + 511) (by omega) _ hg7') $$ [Hd7 Hrw7]
    · isplitl [Hd7]; · iexact Hd7
      iexact Hrw7
    ihave Hd8 := (done_cast3 (F := F) m d L (obase L) _ (obase L + 512) (by omega)) $$ He7
    iexact Hd8
  isplitl [Hpast Hrr0 Hrr1 Hrr2 Hrr3 Hrr4 Hrr5 Hrr6 Hrr7 Hbufs]
  · isplitr [Hbufs]; swap; · iexact Hbufs
    isplitl [Hpast]
    · iexists _; iapply (pts_iAll (F := F) d L _ _ (by decide)) $$ Hpast
    isplitl [Hrr0]; · iexists _; iexact Hrr0
    isplitl [Hrr1]; · iexists _; iexact Hrr1
    isplitl [Hrr2]; · iexists _; iexact Hrr2
    isplitl [Hrr3]; · iexists _; iexact Hrr3
    isplitl [Hrr4]; · iexists _; iexact Hrr4
    isplitl [Hrr5]; · iexists _; iexact Hrr5
    isplitl [Hrr6]; · iexists _; iexact Hrr6
    iexists _; iexact Hrr7
  isplitl [Hg0 Hg1 Hg2 Hg3 Hg4 Hg5 Hg6 Hg7 Hw0 Hw1 Hw2 Hw3 Hw4 Hw5 Hw6 Hw7 Hsc Hsems]
  · isplitr [Hsems]; swap; · iexact Hsems
    isplitl [Hg0]; · iexact Hg0
    isplitl [Hg1]; · iexact Hg1
    isplitl [Hg2]; · iexact Hg2
    isplitl [Hg3]; · iexact Hg3
    isplitl [Hg4]; · iexact Hg4
    isplitl [Hg5]; · iexact Hg5
    isplitl [Hg6]; · iexact Hg6
    isplitl [Hg7]; · iexact Hg7
    isplitl [Hw0]; · iexact Hw0
    isplitl [Hw1]; · iexact Hw1
    isplitl [Hw2]; · iexact Hw2
    isplitl [Hw3]; · iexact Hw3
    isplitl [Hw4]; · iexact Hw4
    isplitl [Hw5]; · iexact Hw5
    isplitl [Hw6]; · iexact Hw6
    isplitl [Hw7]; · iexact Hw7
    iexact Hsc
  iexists _; isplitr; swap; · iexact HO
  ipureintro; exact (waits_ins _ (waits_ins _ (waits_ins _ (waits_ins _ (waits_ins _ (waits_ins _ (waits_ins _ (waits_ins _ hW'))))))))

/-! ## The obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => kern (F := F) (coordsV c s)) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

end Tile

end Cert.Kernel.Hand

end
-- ==== Proof.HandKernel.RegionA.lean ====
import proofs.«206440_g52347061403653_cont_9to1_m_884_16_alg».proof.Proof.HandKernel.Common
import Idealize.ShloMosaic.Lib.Pipeline.Value

noncomputable section

namespace Cert.Kernel.Hand

open Cert.Kernel Cert.Kernel.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The table build: what it leaves, block by block -/

/-- The padded table's first 64 columns are the transposed table's rows. -/
def GoodTblT {α : Type} (a : S64x1000000.Idx → α) (t : S1000000x128.Idx → α) : Prop :=
  ∀ (v : Fin 1000000) (q : Fin 64), t (ix2 v (⟨q.val, by omega⟩ : Fin 128)) = a (ix2 q v)

/-- An input staging block at point `t` holds, on the columns inside the array, block `t` of the transposed table. -/
def InBlk {α : Type} (a : S64x1000000.Idx → α) (t : ℕ) (Y : S64x4096.Idx → α) : Prop :=
  ∀ (q : Fin 64) (p : Fin 4096) (h : 4096 * t + p.val < 1000000), Y (ix2 q p) = a (ix2 q (⟨4096 * t + p.val, h⟩ : Fin 1000000))

/-- An output staging block at point `t` holds, on the rows inside the array and the first 64 columns, the
    transposed block. -/
def GoodBlk {α : Type} (a : S64x1000000.Idx → α) (t : ℕ) (X : S4096x128.Idx → α) : Prop :=
  ∀ (p : Fin 4096) (q : Fin 64) (h : 4096 * t + p.val < 1000000),
    X (ix2 p (⟨q.val, by omega⟩ : Fin 128)) = a (ix2 q (⟨4096 * t + p.val, h⟩ : Fin 1000000))

/-- The host transpose read at an index. -/
theorem transpose_apply (w : S1000000x64.Idx → Elt F .f32) (q : Fin 64) (v : Fin 1000000) :
    (transpose S64x1000000 [1, 0] w transposes_S1000000x64_S64x1000000_1_0) (ix2 q v) = w (ix2 v q) :=
  Idealize.ShloMosaic.transpose_apply [1, 0] w transposes_S1000000x64_S64x1000000_1_0 (ix2 q v) (ix2 v q)
    (fun b => match b with | ⟨0, _⟩ => rfl | ⟨1, _⟩ => rfl)

/-- The body's payload read at an index: the transposed block. -/
theorem k0_pay1_apply (v0 : Vec F S64x4096 .f32) (p : Fin 4096) (q : Fin 64) :
    k0_pay1 v0 (ix2 p q) = v0 (ix2 q p) := by
  unfold k0_pay1
  rw [shapeCast_self]
  exact Idealize.ShloMosaic.transpose_apply [1, 0] v0 transposes_S64x4096_p1_0_S4096x64 (ix2 p q) (ix2 q p)
    (fun b => match b with | ⟨0, _⟩ => rfl | ⟨1, _⟩ => rfl)

/-- Where the two windows' blocks sit at each point, and how the last is cut. -/
theorem win_facts : ∀ t : Fin grid0.N,
    (win0_0.index t 0 = 0 ∧ win0_0.index t 1 = t.val ∧ win0_0.xsize (grid0.coords t) 0 = 64
      ∧ win0_0.xsize (grid0.coords t) 1 = min 4096 (1000000 - 4096 * t.val))
    ∧ (win0_1.index t 0 = t.val ∧ win0_1.index t 1 = 0 ∧ win0_1.xsize (grid0.coords t) 0 = min 4096 (1000000 - 4096 * t.val)
      ∧ win0_1.xsize (grid0.coords t) 1 = 128) := by decide +kernel

theorem lt_N (t : Fin grid0.N) : t.val < 245 := lt_of_lt_of_eq t.isLt N_0

end Cert.Kernel.Hand

end
-- ==== Proof.HandKernel.RegionB.lean ====
import proofs.«206440_g52347061403653_cont_9to1_m_884_16_alg».proof.Proof.HandKernel.RegionA
import Idealize.ShloMosaic.Lib.Pipeline.Value

noncomputable section

namespace Cert.Kernel.Hand

open Cert.Kernel Cert.Kernel.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## The kernel body on its staging buffers -/

set_option maxHeartbeats 1600000 in
/-- The body on staging buffers `s0` of the input window and `s1` of the output window: the input block is read
    whole, and its transpose is stored into the first 64 columns of the output block; the input buffer is unchanged,
    and every entry `(p, q)`, `q < 64`, of the output buffer ends holding entry `(q, p)` of the input block. Columns
    64‥127 of the output buffer keep what they held: nothing is said of them. -/
theorem sound_body (c : Dev nD) (i : grid0.Coords) (s0 s1 : Fin 2)
    (X0 : S64x4096.Idx → Elt F .f32) (X1 : S4096x128.Idx → Elt F .f32) :
    (iprop(owns (T c) (stage0_0 s0) fullShare X0 ∗ owns (T c) (stage0_1 s1) fullShare X1) : sProp 𝕄)
      ⊢ wp frame (wpE (defs₀ (F := F)) 𝒱₀ (T c) none) Set.univ
          (cc0__table_body i (stage0_0 s0) (hstage0_0 s0) (stage0_1 s1) (hstage0_1 s1))
          fun _ => iprop(owns (T c) (stage0_0 s0) fullShare X0
            ∗ ∃ X1' : S4096x128.Idx → Elt F .f32, ⌜∀ (p : Fin 4096) (q : Fin 64), X1' (ix2 p (⟨q.val, by omega⟩ : Fin 128)) = X0 (ix2 q p)⌝
                ∗ owns (T c) (stage0_1 s1) fullShare X1') := by
  have hz : (![0, 0] : Fin 2 → Nat) = fun _ => 0 := funext fun a => by fin_cases a <;> rfl
  fin_cases s0 <;> fin_cases s1 <;>
  · simp only [owns_whole_eq, cc0__table_body_eq_skeleton]; unfold cc0__table_body_skel
    simp only [Prog.lift, Prog.bind_op, Prog.bind_ret]
    iintro ⟨⟨%f0, %hf0, H0⟩, ⟨%f1, %hf1, H1⟩⟩
    sl_steps
    -- the output buffer now holds its old contents overwritten, through the rectangle of the first 64 columns, by
    -- the transposed input block
    generalize hG : View.write (Elt F) _ _ _ Finset.univ = G
    isplitl [H0]
    · iexists f0; isplitr; · ipureintro; exact hf0
      iexact H0
    · iexists G
      isplitr
      · ipureintro
        subst hG
        intro p q
        -- entry (p, q) of the rectangle is entry (p, q) of the buffer; the write puts the payload's entry there
        refine (congrArg _ ?he).trans ((View.write_emb_of_mem (x := ix2 p q) _ _ ?hm).trans ?hc)
        case hm => exact @Finset.mem_univ _ _ _
        case he =>
          funext a
          match a with
          | ⟨0, _⟩ => exact Fin.ext (by show p.val = 0 + 1 * p.val; omega)
          | ⟨1, _⟩ => exact Fin.ext (by show q.val = 0 + 1 * q.val; omega)
        case hc =>
          rw [cast_eq, k0_pay1_apply]
          subst hf0
          exact congrFun (Memref.readAt_unit_zero (Elt F) _ hz _ _) _
      · iexists G; isplitr; · ipureintro; rfl
        iexact H1

end Cert.Kernel.Hand

end
-- ==== Proof.HandKernel.Region.lean ====
/-
  The table build — the TensorCore kernel that stands before the SparseCore call in the kernel's program — as one
  region of @main on the TensorCore thread.

  The mathematics.  The grid has 245 points.  At point `t` the pipeline fetches block `t` of the transposed table
  (64 rows, columns `4096·t ‥ 4096·t + 4095`, cut at column 1000000: the last block keeps 576 columns), the body
  stores its transpose into the first 64 columns of the output staging block, and the pipeline writes rows
  `4096·t ‥` of the padded table back from that block, cut at row 1000000.  Columns 64‥127 of the staging block keep
  whatever they held, so what the body leaves is stated as a relation on the block's contents (its entries `(p, q)`,
  `q < 64`, on the rows inside the array), never as a closed form.  By induction on the point, after the write-backs
  below `n` every row below `4096·n` of the padded table holds, in its first 64 columns, the matching column of the
  transposed table; at `n = 245` that is every row.  The region takes nothing on and pays nothing off: the
  TensorCore's tallies pass through, and the only pairs its waits record are the staging cells' at the lowest index.
-/
import proofs.«206440_g52347061403653_cont_9to1_m_884_16_alg».proof.Proof.HandKernel.RegionB
import Idealize.ShloMosaic.Lib.Pipeline.Value

noncomputable section

namespace Cert.Kernel.Hand

open Cert.Kernel Cert.Kernel.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.Pipeline (RDat Cfg Window cellOf)
variable [FloatOps F]

/-! ## The proof data -/

/-- The (cell, index) pairs at the lowest level: what the TensorCore's waits may have recorded around the region. -/
def lowPairs (c : Dev nD) : Set (SemLoc sig × HIx 1) := {p | (K (F := F)).lev (T c, p.1) p.2 ≤ 0}

/-- The relational proof data of the table build on device `c`: the transposed table and the padded table at their
    entry contents; nothing is asked of the input buffer after the body; the output buffer then holds the transposed
    block on the rows inside the array and the first 64 columns; no invariant; full shares; the tallies unchanged. -/
def rdats (A0 : (d : Dev nD) → Buf (Elt F) (wtLoc d)) (A1 : (d : Dev nD) → Buf (Elt F) (tLoc d))
    (O : Dev nD → CellTallies nD τ sig (HIx 1)) (_ : Fin 1) (c : Dev nD) : RDat τ (Elt F) (HIx 1) ℕ UU ℕ cfg0 c where
  A w := match w with
    | ⟨0, _⟩ => A0 c
    | ⟨1, _⟩ => A1 c
  after w t := match w with
    | ⟨0, _⟩ => fun _ _ => True
    | ⟨1, _⟩ => fun _ X => GoodBlk (A0 c) t.val X
  Φ _ := iprop(emp)
  q _ := fullShare
  owed _ := O c
  recorded _ := lowPairs (F := F) c

variable (A0 : (d : Dev nD) → Buf (Elt F) (wtLoc d)) (A1 : (d : Dev nD) → Buf (Elt F) (tLoc d))
  (O : Dev nD → CellTallies nD τ sig (HIx 1))

theorem share_full (c : Dev nD) (w : Fin 2) : (rdats A0 A1 O 0 c).share w = fullShare := by
  unfold RDat.share; split <;> rfl

/-- What the body finds in the input buffer: the block just fetched, on the columns inside the array. -/
theorem inBlk_of_finds (c : Dev nD) (t : Fin cfg0.N) (Y : S64x4096.Idx → Elt F .f32)
    (h : (rdats A0 A1 O 0 c).Finds (0 : Fin 2) t Y) : InBlk (A0 c) t.val Y := by
  obtain ⟨d, rfl⟩ := ((rdats A0 A1 O 0 c).finds_of_fetch (fetch0_0 t) Y).mp h
  intro q p hp
  have hw := (win_facts t).1
  have hm : win0_0.moved (grid0.coords t) (ix2 q p) = true := (win0_0.moved_iff _ _).mpr fun a =>
    match a with
    | ⟨0, _⟩ => by show q.val < win0_0.xsize (grid0.coords t) 0; rw [hw.2.2.1]; exact q.isLt
    | ⟨1, _⟩ => by show p.val < win0_0.xsize (grid0.coords t) 1; rw [hw.2.2.2]; have := p.isLt; omega
  show win0_0.fill (grid0.coords t) d ((rdats A0 A1 O 0 c).blockOf (0 : Fin 2) t) (ix2 q p) = _
  unfold Window.fill
  rw [dif_pos hm]
  unfold RDat.blockOf
  rw [View.read_apply, cast_eq]
  show A0 c _ = _
  refine congrArg (A0 c) (funext fun a => Fin.ext ?_)
  match a with
  | ⟨0, _⟩ =>
    show ((win0_0.rect t).emb _ 0 : Nat) = q.val
    rw [Window.rect_emb_val, hw.1]; show 0 * 64 + q.val = q.val; omega
  | ⟨1, _⟩ =>
    show ((win0_0.rect t).emb _ 1 : Nat) = 4096 * t.val + p.val
    rw [Window.rect_emb_val, hw.2.1]; show t.val * 4096 + p.val = _; omega

/-- The kernel body's obligation at every point. -/
theorem body_obligation (c : Dev nD) : (rdats A0 A1 O 0 c).BodyObligation (defs₀ (F := F)) 𝒱₀ none Set.univ := fun t Y hY => by
  rw [bigSep_W0, bigSep_W0]
  have h0 := inBlk_of_finds A0 A1 O c t (Y 0) (hY 0)
  rw [show (rdats A0 A1 O 0 c).Φ t.succ = (rdats A0 A1 O 0 c).Φ t.castSucc from rfl,
    show (rdats A0 A1 O 0 c).owesAt none t.succ = (rdats A0 A1 O 0 c).owesAt none t.castSucc from rfl]
  iintro ⟨HΦ, Ho, H0, H1⟩
  iapply (wp_wand_r frame _ Set.univ)
  isplitl [H0 H1]
  · iapply (sound_body (F := F) c (grid0.coords t) (cfg0.slots t 0) (cfg0.slots t 1) (Y 0) (Y 1))
    isplitl [H0]; · iexact H0
    iexact H1
  · iintro %_ ⟨H0, %X1, %hX1, H1⟩
    isplitl [HΦ]; · iexact HΦ
    isplitl [Ho]; · iexact Ho
    isplitl [H0]
    · iexists (Y 0); isplitr; · ipureintro; trivial
      iexact H0
    · iexists X1; isplitr
      · ipureintro; intro p q h; rw [hX1 p q]; exact h0 q p h
      iexact H1

/-! ## The padded table after the write-backs -/

/-- An index of the padded table lies in point `t`'s block iff its row is among the block's rows inside the array. -/
theorem mem_blk1 (t : Fin cfg0.N) (i : S1000000x128.Idx) :
    i ∈ (win0_1.blk t).view.set ↔ 4096 * t.val ≤ (i 0).val ∧ (i 0).val < 4096 * t.val + min 4096 (1000000 - 4096 * t.val) := by
  have hw := (win_facts t).2
  show i ∈ ((View.whole main_v1).slice (win0_1.rect t)).set ↔ _
  rw [View.set_slice_whole, Rect.mem_set_unit]
  constructor
  · intro h
    have h0 := h 0
    change win0_1.index t 0 * 4096 ≤ (i 0).val ∧ (i 0).val < win0_1.index t 0 * 4096 + win0_1.xsize (grid0.coords t) 0 at h0
    rw [hw.1, hw.2.2.1] at h0; omega
  · intro h a
    match a with
    | ⟨0, _⟩ =>
      change win0_1.index t 0 * 4096 ≤ (i 0).val ∧ (i 0).val < win0_1.index t 0 * 4096 + win0_1.xsize (grid0.coords t) 0
      rw [hw.1, hw.2.2.1]; omega
    | ⟨1, _⟩ =>
      change win0_1.index t 1 * 128 ≤ (i 1).val ∧ (i 1).val < win0_1.index t 1 * 128 + win0_1.xsize (grid0.coords t) 1
      rw [hw.2.1, hw.2.2.2]; have := idx2_lt1 i; omega

/-- After the write-backs of the points below `n`, the rows below `4096·n` of the padded table hold, in their first 64
    columns, the transposed table's columns: each write-back lands a block that does, and leaves the earlier rows. -/
theorem good_of_arrAt (c : Dev nD) : ∀ (n : ℕ), n ≤ 245 → ∀ Fm, (rdats A0 A1 O 0 c).ArrAt (1 : Fin 2) n Fm →
    ∀ (v : Fin 1000000) (q : Fin 64), v.val < 4096 * n → Fm (ix2 v (⟨q.val, by omega⟩ : Fin 128)) = A0 c (ix2 q v)
  | 0, _, _, _, v, q, hv => absurd hv (by omega)
  | n + 1, hn, Fm, h, v, q, hv => by
    have hlt : n < cfg0.N := lt_of_lt_of_eq (by omega : n < 245) N_0.symm
    rw [show n + 1 = (⟨n, hlt⟩ : Fin cfg0.N).val + 1 from rfl, RDat.ArrAt_succ, if_pos (flush0_1 _)] at h
    obtain ⟨G₀, X, hG, ⟨Y, -, hYa⟩, rfl⟩ := h
    have ih := good_of_arrAt c n (by omega) G₀ hG
    have hX : GoodBlk (A0 c) n X := hYa
    have hw := (win_facts ⟨n, hlt⟩).2
    have hmem : (ix2 v (⟨q.val, by omega⟩ : Fin 128) : S1000000x128.Idx) ∈ (win0_1.blk ⟨n, hlt⟩).view.set
        ↔ 4096 * n ≤ v.val ∧ v.val < 4096 * n + min 4096 (1000000 - 4096 * n) := mem_blk1 ⟨n, hlt⟩ (ix2 v (⟨q.val, by omega⟩ : Fin 128))
    by_cases hin : (ix2 v (⟨q.val, by omega⟩ : Fin 128) : S1000000x128.Idx) ∈ (win0_1.blk ⟨n, hlt⟩).view.set
    · obtain ⟨y, -, hy⟩ := Finset.mem_map.mp hin
      have e0 : n * 4096 + (y 0).val = v.val := by
        have := congrArg (fun j : S1000000x128.Idx => (j 0).val) hy
        change ((win0_1.rect ⟨n, hlt⟩).emb y 0 : Nat) = v.val at this
        rw [Window.rect_emb_val, hw.1] at this; exact this
      have e1 : (y 1).val = q.val := by
        have := congrArg (fun j : S1000000x128.Idx => (j 1).val) hy
        change ((win0_1.rect ⟨n, hlt⟩).emb y 1 : Nat) = q.val at this
        rw [Window.rect_emb_val, hw.2.1] at this; change 0 * 128 + (y 1).val = q.val at this; omega
      have hp : (y 0).val < 4096 := by
        have h3 : (y 0).val < win0_1.xsize (grid0.coords ⟨n, hlt⟩) 0 := (y 0).isLt
        rw [hw.2.2.1] at h3; omega
      have hb : 4096 * n + (y 0).val < 1000000 := by have := v.isLt; omega
      have ex : win0_1.xinj (grid0.coords ⟨n, hlt⟩) y = ix2 (⟨(y 0).val, hp⟩ : Fin 4096) (⟨q.val, by omega⟩ : Fin 128) :=
        funext fun a => match a with
          | ⟨0, _⟩ => rfl
          | ⟨1, _⟩ => Fin.ext e1
      refine (congrArg _ hy.symm).trans ((View.write_emb_of_mem _ _ (Finset.mem_univ y)).trans ?_)
      rw [cast_eq]
      show X (win0_1.xinj (grid0.coords ⟨n, hlt⟩) y) = _
      rw [ex, hX ⟨(y 0).val, hp⟩ q hb]
      exact congrArg (fun z : Fin 1000000 => A0 c (ix2 q z)) (Fin.ext (by show 4096 * n + (y 0).val = v.val; omega))
    · refine (View.write_of_not_mem _ _ _ (by rwa [View.setOn_univ])).trans ?_
      refine ih v q ?_
      by_contra hge
      have hv2 := v.isLt
      exact hin (hmem.mpr ⟨by omega, by omega⟩)

theorem goodTbl_of_arrAt (c : Dev nD) (Fm) (h : (rdats A0 A1 O 0 c).ArrAt (1 : Fin 2) cfg0.N Fm) : GoodTblT (A0 c) Fm :=
  fun v q => good_of_arrAt A0 A1 O c 245 le_rfl Fm (by rw [show cfg0.N = 245 from N_0] at h; exact h) v q (by have := v.isLt; omega)

/-! ## The region -/

/-- The pipeline's one admissible table contents: none. -/
abbrev adm0 : (p : Fin 1) → (pcfgs (F := F) p).Adm := fun q => (cfgs q).toPCfg_adm

/-- The TensorCore may wait on the staging cells at the lowest index: everything it owes sits at a call's index. -/
theorem hwaits (hO : ∀ d g, O d g none = 0) (c : Dev nD) :
    (levAts (K (F := F)).L (K (F := F)).lev : sProp 𝕄) ⊢ Pipeline.RDat.cellsWaits cfgs (rdats A0 A1 O) none (0 : Fin 1) c :=
  Pipeline.RDat.cellsWaits_intro cfgs (rdats A0 A1 O) none (0 : Fin 1) c fun w s t => (K (F := F)).mayWait_none _ (hO c)

/-- The table build as a region of @main on the TensorCore: entered holding the transposed table and the padded
    table whole and the TensorCore's tallies with its recorded pairs at the lowest level; left holding the
    transposed table unchanged, the padded table at contents whose first 64 columns are its columns, and the same
    tallies under the same bound. -/
def seg (hO : ∀ d g, O d g none = 0) :
    Pipeline.RDat.RegionSeg (pcfgs (F := F)) adm0 (rdats A0 A1 O) none (defs₀ (F := F)) 𝒱₀ (K (F := F)).L (K (F := F)).lev (0 : Fin 1) where
  win := winFacts0.to₀
  block_pos := block_pos0
  stage_whole := stage_whole0
  K := PEmpty
  osem := fun k => k.elim
  ho := Pipeline.OwnSemFacts.none _
  hbody := body_obligation A0 A1 O
  hwaits := hwaits A0 A1 O hO
  pre c := iprop((wtLoc c ↦{fullShare} A0 c) ∗ (tLoc c ↦{fullShare} A1 c)
    ∗ ∃ W, ⌜(K (F := F)).WBelow (T c) W 0⌝ ∗ owes (T c) (O c) W)
  post c := iprop((wtLoc c ↦{fullShare} A0 c) ∗ (∃ t, ⌜GoodTblT (A0 c) t⌝ ∗ tLoc c ↦{fullShare} t)
    ∗ ∃ W, ⌜(K (F := F)).WBelow (T c) W 0⌝ ∗ owes (T c) (O c) W)
  X _ := iprop(emp)
  Y _ := iprop(emp)
  Z _ := iprop(emp)
  hentry c := by
    rw [Pipeline.RDat.arrays_eq (pcfgs (F := F)) adm0 (rdats A0 A1 O) (0 : Fin 1) c arr_whole0 (share_full A0 A1 O c), bigSep_W0]
    iintro ⟨⟨Ha0, Ha1, %W, %hW, Ho⟩, -, -⟩
    imodintro
    isplitl [Ha0 Ha1]
    · isplitl [Ha0]; · iexact Ha0
      iexact Ha1
    isplitr
    · unfold Pipeline.prefHeld; rw [Finset.univ_eq_empty, bigSep_empty]; iempintro
    isplitl [Ho]
    · iexists W; isplitr
      · ipureintro; exact fun p hp => Or.inl (hW p hp)
      iexact Ho
    isplitr <;> iempintro
  hin c := by
    show _ ⊢ iprop(emp)
    iintro -; iempintro
  hout c := by
    rw [Pipeline.ownSems0_none, scopedRest0_eq]
    iintro -; isplitr; · iempintro
    isplitr <;> iempintro
  hexit c := by
    unfold RDat.arraysAt
    rw [bigSep_W0, share_full, share_full,
      show (cfg0.win (0 : Fin 2)).arr.view.set = Finset.univ from View.set_whole main_v0,
      show (cfg0.win (1 : Fin 2)).arr.view.set = Finset.univ from View.set_whole main_v1]
    iintro ⟨⟨⟨%F0, %hF0, Ha0⟩, ⟨%F1, %hF1, Ha1⟩⟩, ⟨%W, %hW, Ho⟩, -, -⟩
    imodintro
    have e0 : F0 = A0 c := by
      have h := (rdats A0 A1 O 0 c).ArrAt_in (0 : Fin 2) rfl (Pipeline.pin (pcfgs (F := F)) adm0 0).N
      rw [h] at hF0; exact hF0
    have g1 := goodTbl_of_arrAt A0 A1 O c F1 hF1
    subst e0
    isplitl [Ha0]; · iexact Ha0
    isplitl [Ha1]
    · iexists F1; isplitr; · ipureintro; exact g1
      iexact Ha1
    · iexists W; isplitr
      · ipureintro
        intro p hp
        rcases hW hp with h | ⟨w, s, rfl⟩
        · exact h
        · exact le_of_eq ((K (F := F)).lev_none _)
      iexact Ho

/-- The staging cells' ghost state at the launch, from the rounds library's launch element at the staging cells. -/
theorem fund_region :
    (BI.own ((EP (F := F)) (initOf (Pipeline.cells cfgs cellOf_inj) (Pipeline.launchToks cfgs cellOf_inj))) : sProp 𝕄)
      ⊢ iprop(|==> bigSep Finset.univ fun d : Dev nD => iprop(Pipeline.cellsGhost cfgs (EP (F := F)) (0 : Fin 1) d ∗ Pipeline.toksInit cfgs (EP (F := F)) (0 : Fin 1) d)) := by
  refine (Pipeline.fund_ghost cfgs (EP (F := F)) cellOf_inj).trans ?_
  rw [bigSep_sep']
  simp only [show (Finset.univ : Finset (Fin 1)) = {0} from rfl, bigSep_singleton]
  exact BI.Entails.refl _

/-- The table build on device `d`'s TensorCore, inside the kernel's program: from the level facts, the region
    boundary, the transposed table and the padded table whole, the TensorCore's tallies (none at the lowest index, its
    recorded pairs at the lowest level) and the staging cells' ghost state, the region's call runs to the boundary, the
    transposed table unchanged, the padded table at contents whose first 64 columns are the transposed table's columns,
    and the same tallies under the same bound. -/
theorem region_wp (hO : ∀ d g, O d g none = 0) (d : Dev nD) (W : Waits sig (HIx 1)) (hW : (K (F := F)).WBelow (T d) W 0)
    (Φ : PUnit → sProp 𝕄) :
    iprop(levAts (K (F := F)).L (K (F := F)).lev ∗ boundary (T d) ∗ (wtLoc d ↦{fullShare} A0 d) ∗ (tLoc d ↦{fullShare} A1 d) ∗ owes (T d) (O d) W
        ∗ Pipeline.cellsGhost cfgs (EP (F := F)) (0 : Fin 1) d ∗ Pipeline.toksInit cfgs (EP (F := F)) (0 : Fin 1) d
        ∗ (iprop(boundary (T d) ∗ (wtLoc d ↦{fullShare} A0 d) ∗ (∃ t, ⌜GoodTblT (A0 d) t⌝ ∗ tLoc d ↦{fullShare} t)
              ∗ ∃ W', ⌜(K (F := F)).WBelow (T d) W' 0⌝ ∗ owes (T d) (O d) W') -∗ Φ ⟨⟩))
      ⊢ wp frame (wpE (D (F := F)) 𝒱 (T d) none) Set.univ (Prog.lift (.customCall (Pipeline.entry 0) ())) Φ := by
  have h := Pipeline.RDat.RegionSeg.wp (pcfgs (F := F)) adm0 (rdats A0 A1 O) none cellOf_inj (EP (F := F)) (defs₀ (F := F)) 𝒱₀
    (K (F := F)).L (K (F := F)).lev (seg A0 A1 O hO) d none (fun u hu => by cases hu) (fun _ => .ret ⟨⟩) Φ
  dsimp only [seg] at h
  iintro ⟨Hlev, Hb, Ha0, Ha1, Ho, Hg, Ht, Hk⟩
  iapply h
  isplitl [Hk]
  · iintro ⟨Hb, Ha0, Ht', Ho⟩
    rw [wp_ret]
    imodintro
    iapply Hk
    isplitl [Hb]; · iexact Hb
    isplitl [Ha0]; · iexact Ha0
    isplitl [Ht']; · iexact Ht'
    iexact Ho
  isplitl [Hb]; · iexact Hb
  isplitl [Ha0 Ha1 Ho]
  · isplitl [Ha0]; · iexact Ha0
    isplitl [Ha1]; · iexact Ha1
    iexists W; isplitr; · ipureintro; exact hW
    iexact Ho
  isplitl [Hlev]; · iexact Hlev
  isplitl [Hg]; · iexact Hg
  iexact Ht

end Cert.Kernel.Hand

end
-- ==== Proof.HandKernelIdeal.Common.lean ====
/-
  What the parts of the kernel's run share: the program as the launch theorem sees it, the resource algebra, the
  arrays' locations, the rows of the index array and of the padded output that each vector subcore works on, and
  what the handshakes between the TensorCore, the two sequencers and the thirty-two vector subcores carry.

  The mathematics.  The first region rewrites the transposed table row by row into a table `T` of 1000000 rows of
  128 numbers whose first 64 columns are the rows of `w` (`GoodTbl`); nothing is said of columns 64‥127.  Subcore
  `(c, s)` is worker `2·s + c`; it owns rows `512·(2·s + c) ‥ 512·(2·s + c) + 511` of the index array `x` and of the
  padded output, and leaves in each owned output entry `(n, j, q)`, `q < 64`, the table entry `w[x[n, j], q]`
  (`GoodOut`).
-/
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Tactic
import proofs.«206440_g52347061403653_cont_9to1_m_884_16_alg».proof.KernelIdeal
import proofs.«206440_g52347061403653_cont_9to1_m_884_16_alg».proof.Proof.Gen.KernelIdeal
import proofs.«206440_g52347061403653_cont_9to1_m_884_16_alg».proof.Proof.Gen.KernelIdeal.Skeleton
import proofs.«206440_g52347061403653_cont_9to1_m_884_16_alg».proof.Proof.Gen.KernelIdeal.Launch
import proofs.«206440_g52347061403653_cont_9to1_m_884_16_alg».proof.Proof.Gen.KernelIdeal.Points
import proofs.«206440_g52347061403653_cont_9to1_m_884_16_alg».proof.Proof.Spec

noncomputable section

namespace Cert.KernelIdeal.Hand

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the first region's staging cells, the transfers' counters -/

abbrev UH : Type := URounds (GSem nD τ sig) ℕ
abbrev UPp : Type := UR sig nD τ
abbrev UU : Type := UH × (UPp × Counters)

local notation "𝕄" => MT nD τ sig (HIx 1) (Elt F) ℕ UU ℕ

abbrev EH : Emb UH (MT nD τ sig (HIx 1) (Elt F) ℕ UU ℕ) := embL
def EP : Emb UPp (MT nD τ sig (HIx 1) (Elt F) ℕ UU ℕ) := (Emb.inl : Emb UPp (UPp × Counters)).trans embR
instance EP_landsIn : (EP (F := F)).LandsIn (upEmb : UEmb _ 𝕄) := by unfold EP embR; infer_instance

/-! ## The launch memory and the arrays -/

variable (m : (ℓ : Loc nD τ sig) → Buf (Elt F) ℓ) (ρ : Dev nD → PrngReg)

/-- The index array `x`, the table `w`, its transpose, the padded table, the padded output and the result. -/
abbrev xLoc (d : Dev nD) : Loc nD τ sig := (SparseCore.T d).loc main_arg0
abbrev wLoc (d : Dev nD) : Loc nD τ sig := (SparseCore.T d).loc main_arg1
abbrev wtLoc (d : Dev nD) : Loc nD τ sig := (SparseCore.T d).loc main_v0
abbrev tLoc (d : Dev nD) : Loc nD τ sig := (SparseCore.T d).loc main_v1
abbrev oLoc (d : Dev nD) : Loc nD τ sig := (SparseCore.T d).loc main_v2
abbrev rLoc (d : Dev nD) : Loc nD τ sig := (SparseCore.T d).loc main_v3

/-- Worker `2·s + c` of subcore `s` of SparseCore `c`. -/
def wid (c : Fin 2) (s : Fin 16) : Fin 32 := ⟨2 * s.val + c.val, by omega⟩

theorem xdiv : 32 ∣ S16384x50.size 0 := ⟨512, rfl⟩
theorem odiv : 32 ∣ S16384x50x128.size 0 := ⟨512, rfl⟩
/-- The 512 rows of `x`, and of the padded output, that worker `k` owns. -/
abbrev xrows (k : Fin 32) : Rect S16384x50 := Rect.part (s := S16384x50) (a₀ := 0) xdiv k
abbrev orows (k : Fin 32) : Rect S16384x50x128 := Rect.part (s := S16384x50x128) (a₀ := 0) odiv k
abbrev xSet (c : Fin 2) (s : Fin 16) : Finset S16384x50.Idx := (xrows (wid c s)).set
abbrev oSet (c : Fin 2) (s : Fin 16) : Finset S16384x50x128.Idx := (orows (wid c s)).set

/-- Subcore `(c, s)`'s read share of the padded table: token `2·s + c` of thirty-two. -/
abbrev tq (c : Fin 2) (s : Fin 16) : PosShare TreeShare := Transfers.shareTok fullShare 32 (wid c s)

/-- The padded table's first 64 columns are the table's rows. -/
def GoodTbl {α : Type} (w : S1000000x64.Idx → α) (t : S1000000x128.Idx → α) : Prop :=
  ∀ (v : Fin 1000000) (q : Fin 64), t (ix2 v (⟨q.val, by omega⟩ : Fin 128)) = w (ix2 v q)

/-- On the entries `I`, the padded output's first 64 columns are the looked-up rows. -/
def GoodOut {α : Type} (x : S16384x50.Idx → BitVec 32) (w : S1000000x64.Idx → α) (I : Finset S16384x50x128.Idx)
    (f : S16384x50x128.Idx → α) : Prop :=
  ∀ i ∈ I, ∀ h : (i 2).val < 64, f i = w (ix2 (Cert.Proof.Spec.row x (i 0) (i 1)) (⟨(i 2).val, h⟩ : Fin 64))

/-- What the proof asks of the launch memory: every word of `x` names a row of the table. -/
def PreOK : Prop := ∀ (d : Dev nD) (j : S16384x50.Idx), (m (xLoc d) j).toNat < 1000000

variable [FloatOps F]

/-! ## What the handshakes carry -/

/-- Handed to subcore `(c, s)`: its rows of `x`, its read share of the padded table (at contents whose first 64
    columns are `w`'s rows), its rows of the padded output as the launch memory has them. -/
abbrev goR (d : Dev nD) (c : Fin 2) (s : Fin 16) : sProp 𝕄 :=
  iprop((xLoc d ↦[xSet c s]{fullShare} m (xLoc d))
    ∗ (∃ t, ⌜GoodTbl (m (wLoc d)) t⌝ ∗ tLoc d ↦{tq c s} t)
    ∗ oLoc d ↦[oSet c s]{fullShare} m (oLoc d))

/-- Brought back by subcore `(c, s)`: its rows of `x` unchanged, its rows of the padded output holding the looked-up rows. -/
abbrev tdR (d : Dev nD) (c : Fin 2) (s : Fin 16) : sProp 𝕄 :=
  iprop((xLoc d ↦[xSet c s]{fullShare} m (xLoc d))
    ∗ ∃ f, ⌜GoodOut (m (xLoc d)) (m (wLoc d)) (oSet c s) f⌝ ∗ oLoc d ↦[oSet c s]{fullShare} f)

def P : (K (F := F)).Pay (nD := nD) (Val := Elt F) (Name := ℕ) (U := UU) where
  st := fun q d c => match q with | 0 => bigSep Finset.univ fun s : Fin 16 => goR m d (Fin.cast nCore_zero c) s
  dn := fun q d c => match q with | 0 => bigSep Finset.univ fun s : Fin 16 => tdR m d (Fin.cast nCore_zero c) s
  go := fun q d c i => match q with | 0 => goR m d (Fin.cast nCore_zero c) (Fin.cast nSub_zero i)
  td := fun q d c i => match q with | 0 => tdR m d (Fin.cast nCore_zero c) (Fin.cast nSub_zero i)
  x := fun _ _ => iprop(emp)

instance P_storable : (P (F := F) m).IsStorable where
  st q d c := match q with
    | 0 => (inferInstance : BI.Storable (upEmb : UEmb _ 𝕄) (bigSep Finset.univ fun s : Fin 16 => goR m d (Fin.cast nCore_zero c) s))
  dn q d c := match q with
    | 0 => (inferInstance : BI.Storable (upEmb : UEmb _ 𝕄) (bigSep Finset.univ fun s : Fin 16 => tdR m d (Fin.cast nCore_zero c) s))
  go q d c i := match q with
    | 0 => (inferInstance : BI.Storable (upEmb : UEmb _ 𝕄) (goR m d (Fin.cast nCore_zero c) (Fin.cast nSub_zero i)))
  td q d c i := match q with
    | 0 => (inferInstance : BI.Storable (upEmb : UEmb _ 𝕄) (tdR m d (Fin.cast nCore_zero c) (Fin.cast nSub_zero i)))

end Cert.KernelIdeal.Hand

end
-- ==== Proof.HandKernelIdeal.Split.lean ====
import proofs.«206440_g52347061403653_cont_9to1_m_884_16_alg».proof.Proof.HandKernelIdeal.Common

noncomputable section

namespace Cert.KernelIdeal.Hand

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## The thirty-two workers as pairs (SparseCore, subcore) -/

/-- Worker `k` is subcore `k / 2` of SparseCore `k % 2`. -/
def widEquiv : Fin 2 × Fin 16 ≃ Fin 32 where
  toFun p := wid p.1 p.2
  invFun k := (⟨k.val % 2, Nat.mod_lt _ (by norm_num)⟩, ⟨k.val / 2, by omega⟩)
  left_inv p := by
    rcases p with ⟨c, s⟩
    refine Prod.ext (Fin.ext ?_) (Fin.ext ?_) <;> simp only [wid] <;> omega
  right_inv k := by
    refine Fin.ext ?_
    simp only [wid]; omega

omit m ρ in
theorem bigSep_workers (Φ : Fin 32 → sProp 𝕄) :
    bigSep Finset.univ Φ = bigSep Finset.univ fun c : Fin 2 => bigSep Finset.univ fun s : Fin 16 => Φ (wid c s) := by
  rw [bigSep_univ_equiv widEquiv Φ, bigSep_univ_prod]; rfl

/-! ## The rows split among the workers and join again -/

omit m ρ in
theorem xrows_disjoint : ∀ i ∈ (Finset.univ : Finset (Fin 32)), ∀ j ∈ (Finset.univ : Finset (Fin 32)), i ≠ j →
    Disjoint (xrows i).set (xrows j).set :=
  fun _ _ _ _ h => Rect.part_disjoint xdiv h
omit m ρ in
theorem orows_disjoint : ∀ i ∈ (Finset.univ : Finset (Fin 32)), ∀ j ∈ (Finset.univ : Finset (Fin 32)), i ≠ j →
    Disjoint (orows i).set (orows j).set :=
  fun _ _ _ _ h => Rect.part_disjoint odiv h
omit m ρ in
theorem xrows_cover : (Finset.univ : Finset (Fin 32)).biUnion (fun k => (xrows k).set) = Finset.univ := Rect.biUnion_part xdiv
omit m ρ in
theorem orows_cover : (Finset.univ : Finset (Fin 32)).biUnion (fun k => (orows k).set) = Finset.univ := Rect.biUnion_part odiv

omit m ρ in
theorem xPts_rows (d : Dev nD) (f : Buf (Elt F) (xLoc d)) :
    (xLoc d ↦{fullShare} f : sProp 𝕄) = bigSep Finset.univ fun k : Fin 32 => xLoc d ↦[(xrows k).set]{fullShare} f := by
  rw [← pointsTo_biUnion Finset.univ (ℓ := xLoc d) (fun k => (xrows k).set) xrows_disjoint, xrows_cover]; try rfl
omit m ρ in
theorem oPts_rows (d : Dev nD) (f : Buf (Elt F) (oLoc d)) :
    (oLoc d ↦{fullShare} f : sProp 𝕄) = bigSep Finset.univ fun k : Fin 32 => oLoc d ↦[(orows k).set]{fullShare} f := by
  rw [← pointsTo_biUnion Finset.univ (ℓ := oLoc d) (fun k => (orows k).set) orows_disjoint, orows_cover]; try rfl

variable [FloatOps F]

/-! ## What the TensorCore hands the SparseCores, and what it gets back -/

/-- Worker `k`'s part of the three arrays before the call. -/
abbrev goK (d : Dev nD) (k : Fin 32) : sProp 𝕄 :=
  iprop((xLoc d ↦[(xrows k).set]{fullShare} m (xLoc d))
    ∗ (∃ t, ⌜GoodTbl (m (wLoc d)) t⌝ ∗ tLoc d ↦{Transfers.shareTok fullShare 32 k} t)
    ∗ oLoc d ↦[(orows k).set]{fullShare} m (oLoc d))

/-- and after it. -/
abbrev tdK (d : Dev nD) (k : Fin 32) : sProp 𝕄 :=
  iprop((xLoc d ↦[(xrows k).set]{fullShare} m (xLoc d))
    ∗ ∃ f, ⌜GoodOut (m (xLoc d)) (m (wLoc d)) (orows k).set f⌝ ∗ oLoc d ↦[(orows k).set]{fullShare} f)

omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem st_eq (d : Dev nD) :
    (bigSep Finset.univ fun c : Fin ((K (F := F)).nCore 0) => (P m).st 0 d c) = bigSep Finset.univ fun k : Fin 32 => goK m d k := by
  rw [bigSep_workers (F := F) (fun k => goK m d k)]
  exact bigSep_cores (F := F) (fun c => bigSep Finset.univ fun s : Fin 16 => goR m d c s)

theorem dn_eq (d : Dev nD) :
    (bigSep Finset.univ fun c : Fin ((K (F := F)).nCore 0) => (P m).dn 0 d c) = bigSep Finset.univ fun k : Fin 32 => tdK m d k := by
  rw [bigSep_workers (F := F) (fun k => tdK m d k)]
  exact bigSep_cores (F := F) (fun c => bigSep Finset.univ fun s : Fin 16 => tdR m d c s)

/-- The three arrays whole, the padded table at contents whose first 64 columns are the table's rows, are every
    SparseCore's share of the call's operands. -/
theorem deal_st (d : Dev nD) (t : Buf (Elt F) (tLoc d)) (ht : GoodTbl (m (wLoc d)) t) :
    iprop((xLoc d ↦{fullShare} m (xLoc d)) ∗ (tLoc d ↦{fullShare} t) ∗ (oLoc d ↦{fullShare} m (oLoc d)))
      ⊢ (bigSep Finset.univ fun c : Fin ((K (F := F)).nCore 0) => (P m).st 0 d c : sProp 𝕄) := by
  rw [st_eq]
  have h32 : iprop((xLoc d ↦{fullShare} m (xLoc d)) ∗ (tLoc d ↦{fullShare} t) ∗ (oLoc d ↦{fullShare} m (oLoc d)))
      ⊢ (bigSep Finset.univ fun k : Fin 32 => iprop((xLoc d ↦[(xrows k).set]{fullShare} m (xLoc d))
          ∗ (tLoc d ↦{Transfers.shareTok fullShare 32 k} t) ∗ oLoc d ↦[(orows k).set]{fullShare} m (oLoc d)) : sProp 𝕄) := by
    rw [bigSep_sep', bigSep_sep', ← xPts_rows, ← oPts_rows]
    iintro ⟨Hx, Ht, Ho⟩
    ihave Ht' := (Transfers.pointsTo_toks_split (ℓ := tLoc d) (S := Finset.univ) (f := t) fullShare 32) $$ Ht
    icases Ht' with ⟨-, Ht'⟩
    isplitl [Hx]; · iexact Hx
    isplitl [Ht']; · iexact Ht'
    iexact Ho
  have hk : ∀ k : Fin 32, (iprop((xLoc d ↦[(xrows k).set]{fullShare} m (xLoc d))
      ∗ (tLoc d ↦{Transfers.shareTok fullShare 32 k} t) ∗ oLoc d ↦[(orows k).set]{fullShare} m (oLoc d)) : sProp 𝕄) ⊢ goK m d k := by
    intro k
    iintro ⟨Hx, Ht, Ho⟩
    isplitl [Hx]; · iexact Hx
    isplitl [Ht]
    · iexists t; isplitr
      · ipureintro; exact ht
      · iexact Ht
    iexact Ho
  exact h32.trans (bigSep_mono fun k _ => hk k)

set_option maxRecDepth 8192 in
/-- What the SparseCores bring back is `x` whole and unchanged and the padded output whole, its first 64 columns
    the looked-up rows everywhere. -/
theorem gather_dn (d : Dev nD) :
    (bigSep Finset.univ fun c : Fin ((K (F := F)).nCore 0) => (P m).dn 0 d c : sProp 𝕄)
      ⊢ iprop((xLoc d ↦{fullShare} m (xLoc d)) ∗ ∃ f, ⌜GoodOut (m (xLoc d)) (m (wLoc d)) Finset.univ f⌝ ∗ oLoc d ↦{fullShare} f) := by
  rw [dn_eq, bigSep_sep', ← xPts_rows]
  iintro ⟨Hx, Ho⟩
  isplitl [Hx]; · iexact Hx
  ihave Ho' := (bigSep_exists_pi Finset.univ (fun (k : Fin 32) (f : Buf (Elt F) (oLoc d)) =>
    iprop(⌜GoodOut (m (xLoc d)) (m (wLoc d)) (orows k).set f⌝ ∗ oLoc d ↦[(orows k).set]{fullShare} f))) $$ Ho
  icases Ho' with ⟨%fs, Ho'⟩
  ihave Ho2 := (bigSep_pure_sep Finset.univ (fun k : Fin 32 => GoodOut (m (xLoc d)) (m (wLoc d)) (orows k).set (fs k))
    (fun k => (oLoc d ↦[(orows k).set]{fullShare} fs k : sProp 𝕄))) $$ Ho'
  icases Ho2 with ⟨%hgood, Ho2⟩
  have : Nonempty (Buf (Elt F) (oLoc d)) := ⟨fs 0⟩
  ihave H' := (pointsTo_biUnion_join (ℓ := oLoc d) (q := fullShare) (Val := Elt F) Finset.univ (fun k : Fin 32 => (orows k).set) fs (fs 0) orows_disjoint) $$ Ho2
  icases H' with ⟨%g, %hg, Hg⟩
  rw [orows_cover]
  iexists g; isplitr
  · ipureintro
    intro i _ h64
    have hi : i ∈ (Finset.univ : Finset (Fin 32)).biUnion fun k => (orows k).set := by rw [orows_cover]; exact Finset.mem_univ i
    obtain ⟨k, -, hk⟩ := Finset.mem_biUnion.mp hi
    rw [hg k (Finset.mem_univ k) i hk]
    exact hgood k (Finset.mem_univ k) i hk h64
  · iexact Hg

end Cert.KernelIdeal.Hand

end
-- ==== Proof.HandKernelIdeal.Value.lean ====
import proofs.«206440_g52347061403653_cont_9to1_m_884_16_alg».proof.Proof.HandKernelIdeal.Common

noncomputable section

namespace Cert.KernelIdeal.Hand

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## The host slice of a padded output whose first 64 columns are the looked-up rows is the lookup -/

omit m ρ in
theorem slice_good (x : S16384x50.Idx → BitVec 32) (w : S1000000x64.Idx → Elt F .f32) (f : S16384x50x128.Idx → Elt F .f32)
    (hg : GoodOut x w Finset.univ f) :
    extractStridedSlice S16384x50x64 ![0, 0, 0] f slices_S16384x50x128_S16384x50x64_0_0_0 = Cert.Proof.Spec.lookup x w := by
  funext j
  have h64 : (0 + (j 2).val) < 64 := by have := (j 2).isLt; simpa using this
  show f _ = _
  rw [hg _ (Finset.mem_univ _) (by simpa using h64)]
  unfold Cert.Proof.Spec.lookup
  congr 1
  refine congrArg₂ ix2 ?_ ?_
  · refine congrArg₂ (Cert.Proof.Spec.row x) (Fin.ext ?_) (Fin.ext ?_) <;> simp
  · exact Fin.ext (by simp)

end Cert.KernelIdeal.Hand

end
-- ==== Proof.HandKernelIdeal.Launch.lean ====
/-
  The program's run from its parts: @main on the TensorCore — the host transpose of the table, the first region
  (the padded table built), the SparseCore call (the rows looked up into the padded output), the host slice of its
  first 64 columns —, how a SparseCore's operands split among its subcores, the launch element, and what the final
  memory reads.  The first region's step, the funding of its staging cells and the vector subcores' obligation
  enter as hypotheses (`RegionHyp`, `FundHyp`, `TileObl`); the run's post says the result is the lookup
  `w[x[n, j], q]` and both arguments are unchanged.
-/
import proofs.«206440_g52347061403653_cont_9to1_m_884_16_alg».proof.Proof.HandKernelIdeal.Common
import proofs.«206440_g52347061403653_cont_9to1_m_884_16_alg».proof.Proof.HandKernelIdeal.Split
import proofs.«206440_g52347061403653_cont_9to1_m_884_16_alg».proof.Proof.HandKernelIdeal.Value
import Idealize.ShloMosaic.Lib.ValueLayout

noncomputable section

namespace Cert.KernelIdeal.Hand

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## @main on the TensorCore -/

abbrev x' : DevRef τ sig := Proc.devRef .tc (main_arg0 : Ref sig .tc)
abbrev w' : DevRef τ sig := Proc.devRef .tc (main_arg1 : Ref sig .tc)
abbrev wt' : DevRef τ sig := Proc.devRef .tc (main_v0 : Ref sig .tc)
abbrev o' : DevRef τ sig := Proc.devRef .tc (main_v2 : Ref sig .tc)
abbrev r' : DevRef τ sig := Proc.devRef .tc (main_v3 : Ref sig .tc)

/-- The host transpose of the table, and the host slice of the padded output's first 64 columns. -/
abbrev opT : HloOp τ sig (Elt F) :=
  StableHlo.unary main_arg1 main_v0 ((transpose S64x1000000 [1, 0] · transposes_S1000000x64_S64x1000000_1_0) : (⟨S1000000x64, .f32⟩ : BufTy).Contents (Elt F) → (⟨S64x1000000, .f32⟩ : BufTy).Contents (Elt F))
abbrev opS : HloOp τ sig (Elt F) :=
  StableHlo.unary main_v2 main_v3 ((extractStridedSlice S16384x50x64 ![0, 0, 0] · slices_S16384x50x128_S16384x50x64_0_0_0) : (⟨S16384x50x128, .f32⟩ : BufTy).Contents (Elt F) → (⟨S16384x50x64, .f32⟩ : BufTy).Contents (Elt F))

omit [FloatOps F] in
/-- The TensorCore's unscoped buffers: the two arguments, the transposed table, the padded table, the padded output, the result. -/
theorem unscopedBufs_eq (d : Dev nD) (W : (b : Ref sig .tc) → Buf (Elt F) ((d.tc : Thread nD τ).loc b)) :
    (unscopedBufs d W : sProp 𝕄)
      = iprop((xLoc d ↦{fullShare} W main_arg0) ∗ (wLoc d ↦{fullShare} W main_arg1) ∗ (wtLoc d ↦{fullShare} W main_v0)
          ∗ (tLoc d ↦{fullShare} W main_v1) ∗ (oLoc d ↦{fullShare} W main_v2) ∗ rLoc d ↦{fullShare} W main_v3) := by
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide),
    SparseCore.bigSep_insert' (by decide), SparseCore.bigSep_insert' (by decide), bigSep_singleton]

theorem opTBufs_eq (d : Dev nD) (W : Valuation τ sig (Elt F)) :
    (bigSep (opT (F := F)).bufs (fun b => ((d, b) : Loc nD τ sig) ↦{fullShare} W b) : sProp 𝕄)
      = iprop((wLoc d ↦{fullShare} W w') ∗ wtLoc d ↦{fullShare} W wt') := by
  show bigSep ({w', wt'} : Finset (DevRef τ sig)) (fun b => ((d, b) : Loc nD τ sig) ↦{fullShare} W b) = _
  rw [SparseCore.bigSep_insert' (by decide), bigSep_singleton]

theorem opSBufs_eq (d : Dev nD) (W : Valuation τ sig (Elt F)) :
    (bigSep (opS (F := F)).bufs (fun b => ((d, b) : Loc nD τ sig) ↦{fullShare} W b) : sProp 𝕄)
      = iprop((oLoc d ↦{fullShare} W o') ∗ rLoc d ↦{fullShare} W r') := by
  show bigSep ({o', r'} : Finset (DevRef τ sig)) (fun b => ((d, b) : Loc nD τ sig) ↦{fullShare} W b) = _
  rw [SparseCore.bigSep_insert' (by decide), bigSep_singleton]

/-- The first region's ghost state on device `d`: its staging cells' and its duty tokens'. -/
abbrev RG (d : Dev nD) : sProp 𝕄 := iprop(Pipeline.cellsGhost cfgs (EP (F := F)) 0 d ∗ Pipeline.toksInit cfgs (EP (F := F)) 0 d)

/-- The padded table's first 64 columns are the transposed table's rows. -/
def GoodTblT' {α : Type} (a : S64x1000000.Idx → α) (t : S1000000x128.Idx → α) : Prop :=
  ∀ (v : Fin 1000000) (q : Fin 64), t (ix2 v (⟨q.val, by omega⟩ : Fin 128)) = a (ix2 q v)

/-- What @main leaves the claim: the two arguments at their launch contents, the result at the lookup. -/
abbrev FIN (d : Dev nD) : sProp 𝕄 :=
  iprop((xLoc d ↦{fullShare} m (xLoc d)) ∗ (wLoc d ↦{fullShare} m (wLoc d))
    ∗ rLoc d ↦{fullShare} (Cert.Proof.Spec.lookup (m (xLoc d)) (m (wLoc d)) : Buf (Elt F) (rLoc d)))

/-- The device's valuation at launch. -/
abbrev Fv0 (d : Dev nD) : Valuation τ sig (Elt F) := fun b => m (d, b)

/-- The transposed table. -/
abbrev WT (d : Dev nD) : Buf (Elt F) (wtLoc d) :=
  (transpose S64x1000000 [1, 0] (m (wLoc d)) transposes_S1000000x64_S64x1000000_1_0 : S64x1000000.Idx → Elt F .f32)

omit m ρ [FloatOps F] in
theorem Otc_none (d : Dev nD) (n : ℕ) (g : GSem nD τ sig) : (K (F := F)).Otc d n g none = 0 := by
  by_contra h
  have := SparseCore.Cfg.lev_of_Otc_pos (K := K (F := F)) (Nat.pos_of_ne_zero h)
  rw [SparseCore.Cfg.lev_none] at this; omega

omit ρ [FloatOps F] in
/-- The transposed table at `(q, v)` is the table at `(v, q)`. -/
theorem WT_apply (d : Dev nD) (q : Fin 64) (v : Fin 1000000) : WT m d (ix2 q v) = m (wLoc d) (ix2 v q) :=
  transpose_ix2_apply _ _ q v

/-- The device's valuation before the slice: the launch's, the padded output at `f`. -/
def Fv1 (d : Dev nD) (f : Buf (Elt F) (oLoc d)) : Valuation τ sig (Elt F) := Function.update (fun b => m (d, b)) o' f
omit ρ [FloatOps F] in
theorem Fv1_o (d : Dev nD) (f : Buf (Elt F) (oLoc d)) : Fv1 m d f o' = f := Function.update_self _ _ _
omit ρ [FloatOps F] in
theorem Fv1_r (d : Dev nD) (f : Buf (Elt F) (oLoc d)) : Fv1 m d f r' = m (rLoc d) := Function.update_of_ne (show r' ≠ o' by decide) _ _

/-- What the first region's proof supplies: from the transposed table and the padded table whole, the region's custom
    call leaves the padded table at contents whose first 64 columns are the transposed table's rows. -/
def RegionHyp : Prop :=
  ∀ (A0 : (d : Dev nD) → Buf (Elt F) (wtLoc d)) (A1 : (d : Dev nD) → Buf (Elt F) (tLoc d)) (O : Dev nD → CellTallies nD τ sig (HIx 1)) (hO : ∀ d g, O d g none = 0)
      (d : Dev nD) (W : Waits sig (HIx 1)) (hW : (K (F := F)).WBelow (T d) W 0) (Φ : PUnit → sProp 𝕄),
      iprop(levAts (K (F := F)).L (K (F := F)).lev ∗ boundary (T d) ∗ (wtLoc d ↦{fullShare} A0 d) ∗ (tLoc d ↦{fullShare} A1 d) ∗ owes (T d) (O d) W
        ∗ Pipeline.cellsGhost cfgs (EP (F := F)) 0 d ∗ Pipeline.toksInit cfgs (EP (F := F)) 0 d
        ∗ (iprop(boundary (T d) ∗ (wtLoc d ↦{fullShare} A0 d) ∗ (∃ t, ⌜GoodTblT' (A0 d) t⌝ ∗ tLoc d ↦{fullShare} t) ∗ ∃ W', ⌜(K (F := F)).WBelow (T d) W' 0⌝ ∗ owes (T d) (O d) W') -∗ Φ ⟨⟩))
      ⊢ wp frame (wpE (D (F := F)) 𝒱 (T d) none) Set.univ (Prog.lift (.customCall (Pipeline.entry 0) ())) Φ

theorem region_lifted (hreg : RegionHyp (F := F)) (d : Dev nD) (W : Waits sig (HIx 1)) (hW : (K (F := F)).WBelow (SparseCore.T d) W 0) (Φ : PUnit → sProp 𝕄) :
    iprop(levAts (K (F := F)).L (K (F := F)).lev ∗ boundary (SparseCore.T d) ∗ (wtLoc d ↦{fullShare} WT m d) ∗ (tLoc d ↦{fullShare} m (tLoc d)) ∗ owes (SparseCore.T d) ((K (F := F)).Otc d 0) W
        ∗ Pipeline.cellsGhost cfgs (EP (F := F)) 0 d ∗ Pipeline.toksInit cfgs (EP (F := F)) 0 d
        ∗ (iprop(boundary (SparseCore.T d) ∗ (wtLoc d ↦{fullShare} WT m d) ∗ (∃ t, ⌜GoodTblT' (WT m d) t⌝ ∗ tLoc d ↦{fullShare} t) ∗ ∃ W', ⌜(K (F := F)).WBelow (SparseCore.T d) W' 0⌝ ∗ owes (SparseCore.T d) ((K (F := F)).Otc d 0) W') -∗ Φ ⟨⟩))
      ⊢ wp frame (wpE ((K (F := F)).defs (D (F := F))) 𝒱 (SparseCore.T d) none) Set.univ (Prog.lift (.customCall (SparseCore.inner (Pipeline.entry 0)) ())) Φ :=
  (hreg (WT m) (fun d => m (tLoc d)) (fun d => (K (F := F)).Otc d 0) (fun d g => Otc_none d 0 g) d W hW Φ).trans
    ((K (F := F)).wp_liftProg (D (F := F)) 𝒱 (SparseCore.T d) Set.univ none (Prog.lift (.customCall (Pipeline.entry 0) ())) Φ)

set_option maxRecDepth 8192 in
theorem hmain
    (hreg : RegionHyp (F := F))
    (κ : GSem nD τ sig → ℕ) (d : Dev nD) :
    iprop((K (F := F)).ctx EH (P m) κ ∗ (K (F := F)).tcSt EH d 0 ∗ (K (F := F)).tcRes m ρ d ∗ RG (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hx, Hw, Hwt, Ht, Ho, Hr⟩, -, -⟩, ⟨Hcg, Htk⟩⟩
  -- the host transpose
  iapply (wp_hlo 𝒱 (SparseCore.T d) none Set.univ (op := opT) (q := fun _ => fullShare) (F := Fv0 m d) (fun _ _ => rfl)) $$ [Hb Hw Hwt]
  · isplitl [Hb]; · iexact Hb
    rw [opTBufs_eq]
    isplitl [Hw]; · iexact Hw
    iexact Hwt
  rw [opTBufs_eq]
  iintro ⟨Hb, Hw, Hwt⟩
  rw [wp_ret]; imodintro
  rw [show (opT (F := F)).result (Fv0 m d) w' = m (wLoc d) from (opT (F := F)).result_of_not_mem (Fv0 m d) (b := w') (show w' ∉ ({wt'} : Finset (DevRef τ sig)) by decide),
    show (opT (F := F)).result (Fv0 m d) wt' = WT m d from StableHlo.unary_result _ _ _ _ _ _]
  -- the first region: the padded table built
  ihave Hlev := (SparseCore.Cfg.ctx_levAts κ) $$ Hctx
  ihave Hst' := (Entails.of_eq (show (K (F := F)).tcSt EH d 0 = iprop((∃ W, ⌜(K (F := F)).WBelow (SparseCore.T d) W (8 * 0)⌝ ∗ owes (SparseCore.T d) ((K (F := F)).Otc d 0) W) ∗ _) from rfl)) $$ Hst
  icases Hst' with ⟨⟨%W, %hW, HO⟩, Htail⟩
  iapply (region_lifted m hreg d W hW _) $$ [Hlev Hb Hwt Ht HO Hcg Htk Hx Hw Ho Hr Htail]
  isplitl [Hlev]; · iexact Hlev
  isplitl [Hb]; · iexact Hb
  isplitl [Hwt]; · iexact Hwt
  isplitl [Ht]; · iexact Ht
  isplitl [HO]; · iexact HO
  isplitl [Hcg]; · iexact Hcg
  isplitl [Htk]; · iexact Htk
  iintro ⟨Hb, Hwt, ⟨%t, %ht, Ht⟩, HO⟩
  -- the TensorCore's state again, the padded table's first 64 columns the table's rows
  have hgood : GoodTbl (m (wLoc d)) t := fun v q => (ht v q).trans (WT_apply m d q v)
  ihave Hst := (Entails.of_eq (show iprop((∃ W, ⌜(K (F := F)).WBelow (SparseCore.T d) W (8 * 0)⌝ ∗ owes (SparseCore.T d) ((K (F := F)).Otc d 0) W) ∗ _) = (K (F := F)).tcSt EH d 0 from rfl)) $$ [HO Htail]
  · isplitl [HO]; · iexact HO
    iexact Htail
  -- the SparseCore call
  iapply ((K (F := F)).wp_run (D (F := F)) 𝒱 (EH := EH) (P := P m) κ d 0) $$ [Hst Hx Ht Ho Hb Hw Hr Hwt]
  isplitr; · iexact Hctx
  isplitl [Hst]; · iexact Hst
  isplitl [Hx Ht Ho]
  · iapply (deal_st m d t hgood)
    isplitl [Hx]; · iexact Hx
    isplitl [Ht]; · iexact Ht
    iexact Ho
  iintro ⟨Hst, Hdn⟩
  ihave Hdn' := (gather_dn m d) $$ Hdn
  icases Hdn' with ⟨Hx, %f, %hf, Ho⟩
  -- the host slice
  iapply (wp_hlo 𝒱 (SparseCore.T d) none Set.univ (op := opS) (q := fun _ => fullShare) (F := Fv1 m d f) (fun _ _ => rfl)) $$ [Hb Ho Hr]
  · isplitl [Hb]; · iexact Hb
    rw [opSBufs_eq, Fv1_o, Fv1_r]
    isplitl [Ho]; · iexact Ho
    iexact Hr
  rw [opSBufs_eq]
  iintro ⟨Hb, Ho, Hr⟩
  rw [show (opS (F := F)).result (Fv1 m d f) r' = (Cert.Proof.Spec.lookup (m (xLoc d)) (m (wLoc d)) : Buf (Elt F) (rLoc d)) from
    (StableHlo.unary_result _ _ _ _ _ _).trans (by rw [Fv1_o]; exact slice_good _ _ _ hf)]
  rw [wp_ret]; imodintro; imodintro
  isplitl [Hst]; · iexact Hst
  isplitl [Hx]; · iexact Hx
  isplitl [Hw]; · iexact Hw
  iexact Hr

/-! ## How a SparseCore's operands split among its subcores -/

omit m ρ [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit ρ in
/-- A SparseCore's share of the operands IS its sixteen subcores' shares, and their results are its result. -/
theorem vecSplit : (K (F := F)).VecSplit' (P m) 0 := by
  intro d c
  show (bigSep Finset.univ fun s : Fin 16 => goR m d (Fin.cast nCore_zero c) s) ⊢ |={Set.univ}=> iprop(
      (bigSep Finset.univ fun i : Fin ((K (F := F)).nSub 0) => goR m d (Fin.cast nCore_zero c) (Fin.cast nSub_zero i))
      ∗ ((bigSep Finset.univ fun i : Fin ((K (F := F)).nSub 0) => tdR m d (Fin.cast nCore_zero c) (Fin.cast nSub_zero i))
          -∗ bigSep Finset.univ fun s : Fin 16 => tdR m d (Fin.cast nCore_zero c) s))
  rw [bigSep_tasks (F := F) (fun s => goR m d (Fin.cast nCore_zero c) s), bigSep_tasks (F := F) (fun s => tdR m d (Fin.cast nCore_zero c) s)]
  iintro H; imodintro
  isplitl [H]; · iexact H
  iintro H; iexact H

/-! ## The launch element -/

/-- The handshakes' launch element, the first region's staging cells' and the transfers' counters. -/
def u₀ : UU := (initOf (K (F := F)).hsCells (K (F := F)).hsToks,
  (initOf (Pipeline.cells cfgs cellOf_inj) (Pipeline.launchToks cfgs cellOf_inj), 1))

omit m ρ [FloatOps F] in
theorem bigSep_emp' {I : Type} (s : Finset I) : (bigSep s fun _ => iprop(emp)) = (iprop(emp) : sProp 𝕄) := bigSep_emp_const s

/-- What funds the first region's ghost state on every device. -/
def FundHyp : Prop :=
  (BI.own (EP (F := F) (initOf (Pipeline.cells cfgs cellOf_inj) (Pipeline.launchToks cfgs cellOf_inj))) : sProp 𝕄)
    ⊢ |==> bigSep Finset.univ fun d : Dev nD => RG (F := F) d

omit ρ in
theorem hu₀ (hfund : FundHyp (F := F)) : (ownU (u₀ (F := F)) : sProp 𝕄)
    ⊢ |={Set.univ}=> iprop(BI.own (EH (initOf (K (F := F)).hsCells (K (F := F)).hsToks)) ∗ (bigSep Finset.univ fun d : Dev nD => RG (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave HR' := (own_pair_emb embR _ _) $$ HR
  icases HR' with ⟨HP, -⟩
  have hfund' : (BI.own (EP (F := F) (initOf (Pipeline.cells cfgs cellOf_inj) (Pipeline.launchToks cfgs cellOf_inj))) : sProp 𝕄)
      ⊢ |==> bigSep Finset.univ fun d : Dev nD => RG (F := F) d := hfund
  ihave HP2 := (Entails.of_eq (show (BI.own (((Emb.inl : Emb UPp (UPp × Counters)).trans embR) (initOf (Pipeline.cells cfgs cellOf_inj) (Pipeline.launchToks cfgs cellOf_inj))) : sProp 𝕄)
    = BI.own (EP (F := F) (initOf (Pipeline.cells cfgs cellOf_inj) (Pipeline.launchToks cfgs cellOf_inj))) from rfl)) $$ HP
  imod hfund' $$ HP2 with HG
  imodintro
  isplitl [HH]; · iexact HH
  isplitl [HG]; · iexact HG
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## What the claim reads of the final memory -/

def fq (d : Dev nD) (s' : Phys nD τ sig (Elt F)) : Prop :=
  s'.mem.mem (rLoc d) = (Cert.Proof.Spec.lookup (m (xLoc d)) (m (wLoc d)) : Buf (Elt F) (rLoc d))
    ∧ s'.mem.mem (xLoc d) = m (xLoc d) ∧ s'.mem.mem (wLoc d) = m (wLoc d)

omit ρ in
set_option maxRecDepth 16384 in
theorem hfin (d : Dev nD) (s' : Phys nD τ sig (Elt F)) : iprop(FIN m d ∗ SI s') ⊢ (⌜fq m d s'⌝ : sProp 𝕄) := by
  iintro ⟨⟨Hx, Hw, Hr⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := wLoc d) (I := Finset.univ) (q := fullShare) (f := m (wLoc d)))) $$ [HSI Hw]
  · isplitl [HSI] <;> iassumption
  icases H with ⟨%h2, HSI, -⟩
  ihave H := (SI_pointsTo_agree (st := s') (ℓ := rLoc d) (I := Finset.univ) (q := fullShare)
    (f := (Cert.Proof.Spec.lookup (m (xLoc d)) (m (wLoc d)) : Buf (Elt F) (rLoc d)))) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

/-- The run's post: the result is the lookup, the two arguments are unchanged. -/
def QC : PUnit × MemSt nD τ sig (Elt F) → Prop := fun r => ∀ c : Dev nD,
  r.2.mem (rLoc c) = (Cert.Proof.Spec.lookup (m (xLoc c)) (m (wLoc c)) : Buf (Elt F) (rLoc c))
    ∧ r.2.mem (xLoc c) = m (xLoc c) ∧ r.2.mem (wLoc c) = m (wLoc c)

theorem run_of [∀ e, Nonempty (Elt F e)] (hreg : RegionHyp (F := F)) (hfund : FundHyp (F := F))
    (htile : (K (F := F)).TileObl (D (F := F)) 𝒱 (P m) v₀ 0) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (fun d => RG (F := F) d) (FIN m) (u₀ (F := F)) (sep_elim_left.trans (hu₀ m hfund)) (hmain m ρ hreg) (fq m) (hfin m) (QC m) (fun _ h => h)

end Cert.KernelIdeal.Hand

end
-- ==== Proof.HandKernelIdeal.TileA.lean ====
/-
  The body of the lookup kernel on one vector subcore: what the subcore owns when its task starts, and the names of
  the rows, row buffers and semaphores its ring of eight slots works on.
-/
import proofs.«206440_g52347061403653_cont_9to1_m_884_16_alg».proof.Proof.HandKernelIdeal.Common

noncomputable section

namespace Cert.KernelIdeal.Hand

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

section Tile

variable (d : Dev nD) (L : grid1.Coords)

abbrev cV (L : grid1.Coords) : Fin τ.nSC := (L 0).castLE hcore1
abbrev jV (L : grid1.Coords) : Fin τ.nSub := (L 1).castLE hsub1
theorem bound_zero : grid1.bound 0 = 2 := rfl
theorem bound_one : grid1.bound 1 = 16 := rfl
abbrev cL (L : grid1.Coords) : Fin 2 := Fin.cast bound_zero (L 0)
abbrev sL (L : grid1.Coords) : Fin 16 := Fin.cast bound_one (L 1)

/-! ## The subcore's own semaphores and buffers -/

/-- The seventeen DMA semaphores the kernel names. -/
def semsT : Finset (SemLoc sig) :=
  {SemLoc.dma cc1_scratch9.sem, SemLoc.dma cc1_scratch10.sem, SemLoc.dma cc1_scratch11.sem, SemLoc.dma cc1_scratch12.sem,
   SemLoc.dma cc1_scratch13.sem, SemLoc.dma cc1_scratch14.sem, SemLoc.dma cc1_scratch15.sem, SemLoc.dma cc1_scratch16.sem,
   SemLoc.dma cc1_scratch17.sem, SemLoc.dma cc1_scratch18.sem, SemLoc.dma cc1_scratch19.sem, SemLoc.dma cc1_scratch20.sem,
   SemLoc.dma cc1_scratch21.sem, SemLoc.dma cc1_scratch22.sem, SemLoc.dma cc1_scratch23.sem, SemLoc.dma cc1_scratch24.sem,
   SemLoc.dma cc1_scoped0.sem}

abbrev sv (d : Dev nD) (L : grid1.Coords) (a : DmaSems sig S_) : sProp 𝕄 := semVal (V d (cV L) (jV L), SemLoc.dma a.sem) 0

theorem ownSems0_V :
    (ownSems0 (V d (cV L) (jV L)) : sProp 𝕄)
      = iprop((sv d L cc1_scratch9 ∗ sv d L cc1_scratch10 ∗ sv d L cc1_scratch11 ∗ sv d L cc1_scratch12
          ∗ sv d L cc1_scratch13 ∗ sv d L cc1_scratch14 ∗ sv d L cc1_scratch15 ∗ sv d L cc1_scratch16
          ∗ sv d L cc1_scratch17 ∗ sv d L cc1_scratch18 ∗ sv d L cc1_scratch19 ∗ sv d L cc1_scratch20
          ∗ sv d L cc1_scratch21 ∗ sv d L cc1_scratch22 ∗ sv d L cc1_scratch23 ∗ sv d L cc1_scratch24
          ∗ sv d L cc1_scoped0)
          ∗ bigSep ((Finset.univ.filter fun sm : SemLoc sig => sm.isScoped .scVector) \ semsT) fun sm => semVal (V d (cV L) (jV L), sm) 0) := by
  rw [SparseCore.Cfg.ownSems0_eq]
  show bigSep (Finset.univ.filter fun sm : SemLoc sig => sm.isScoped .scVector) _ = _
  rw [SparseCore.bigSep_sdiff_split' (t := semsT) (by decide)]
  congr 1
  unfold semsT
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    bigSep_singleton]

/-- The nine scratch buffers the kernel names. -/
def bufsT : Finset (Ref sig .scVector) :=
  {cc1_scratch0, cc1_scratch1, cc1_scratch2, cc1_scratch3, cc1_scratch4, cc1_scratch5, cc1_scratch6, cc1_scratch7, cc1_scratch8}

abbrev bv (d : Dev nD) (L : grid1.Coords) (b : Ref sig .scVector) : sProp 𝕄 := iprop(∃ f, (V d (cV L) (jV L)).loc b ↦{fullShare} f)

def devEmb (L : grid1.Coords) : Ref sig .scVector ↪ DevRef τ sig :=
  ⟨(Proc.scVector (cV L) (jV L)).devRef, Proc.devRef_injective _⟩

theorem ownBufs_V :
    (ownBufs (V d (cV L) (jV L)) : sProp 𝕄)
      = iprop((bv d L cc1_scratch0 ∗ bv d L cc1_scratch1 ∗ bv d L cc1_scratch2 ∗ bv d L cc1_scratch3 ∗ bv d L cc1_scratch4
          ∗ bv d L cc1_scratch5 ∗ bv d L cc1_scratch6 ∗ bv d L cc1_scratch7 ∗ bv d L cc1_scratch8)
          ∗ bigSep (ownRefs (τ := τ) (.scVector (cV L) (jV L)) \ bufsT.map (devEmb L))
              fun b => iprop(∃ f, ((d, b) : Loc nD τ sig) ↦{fullShare} f)) := by
  unfold SparseCore.Cfg.ownBufs
  have hsub : bufsT.map (devEmb L) ⊆ ownRefs (τ := τ) (sig := sig) (.scVector (cV L) (jV L)) := by
    intro b hb
    obtain ⟨r, hr, rfl⟩ := Finset.mem_map.mp hb
    unfold bufsT at hr
    simp only [Finset.mem_insert, Finset.mem_singleton] at hr
    rcases hr with rfl | rfl | rfl | rfl | rfl | rfl | rfl | rfl | rfl <;>
      exact SparseCore.Cfg.mem_ownRefs_of_owner (p := Proc.scVector (cV L) (jV L)) rfl
  refine (SparseCore.bigSep_sdiff_split' hsub).trans ?_
  congr 1
  rw [bigSep_map]
  unfold bufsT
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    bigSep_singleton]
  rfl

/-! ## The rows of the index array, as the kernel slices them -/

local notation "xV" => (Memref.whole Cert.KernelIdeal.main_arg0_scv : Memref Cert.KernelIdeal.sig Kind.scVector Space.hbm Cert.KernelIdeal.S16384x50 EltTy.i32)
local notation "tV" => (Memref.whole Cert.KernelIdeal.main_v1_scv : Memref Cert.KernelIdeal.sig Kind.scVector Space.hbm Cert.KernelIdeal.S1000000x128 EltTy.f32)
local notation "oV" => (Memref.whole Cert.KernelIdeal.main_v2_scv : Memref Cert.KernelIdeal.sig Kind.scVector Space.hbm Cert.KernelIdeal.S16384x50x128 EltTy.f32)
local notation "iV" => (Memref.whole Cert.KernelIdeal.cc1_scratch0 : Memref Cert.KernelIdeal.sig Kind.scVector Space.vmem Cert.KernelIdeal.S512x50 EltTy.i32)
local notation "r0V" => (Memref.whole Cert.KernelIdeal.cc1_scratch1 : Memref Cert.KernelIdeal.sig Kind.scVector Space.vmem Cert.KernelIdeal.S50x128 EltTy.f32)
local notation "r1V" => (Memref.whole Cert.KernelIdeal.cc1_scratch2 : Memref Cert.KernelIdeal.sig Kind.scVector Space.vmem Cert.KernelIdeal.S50x128 EltTy.f32)
local notation "r2V" => (Memref.whole Cert.KernelIdeal.cc1_scratch3 : Memref Cert.KernelIdeal.sig Kind.scVector Space.vmem Cert.KernelIdeal.S50x128 EltTy.f32)
local notation "r3V" => (Memref.whole Cert.KernelIdeal.cc1_scratch4 : Memref Cert.KernelIdeal.sig Kind.scVector Space.vmem Cert.KernelIdeal.S50x128 EltTy.f32)
local notation "r4V" => (Memref.whole Cert.KernelIdeal.cc1_scratch5 : Memref Cert.KernelIdeal.sig Kind.scVector Space.vmem Cert.KernelIdeal.S50x128 EltTy.f32)
local notation "r5V" => (Memref.whole Cert.KernelIdeal.cc1_scratch6 : Memref Cert.KernelIdeal.sig Kind.scVector Space.vmem Cert.KernelIdeal.S50x128 EltTy.f32)
local notation "r6V" => (Memref.whole Cert.KernelIdeal.cc1_scratch7 : Memref Cert.KernelIdeal.sig Kind.scVector Space.vmem Cert.KernelIdeal.S50x128 EltTy.f32)
local notation "r7V" => (Memref.whole Cert.KernelIdeal.cc1_scratch8 : Memref Cert.KernelIdeal.sig Kind.scVector Space.vmem Cert.KernelIdeal.S50x128 EltTy.f32)

abbrev xrowsK (L : grid1.Coords) : Rect S16384x50 := Rect.unit (s := S16384x50) (k1_off1 L) S512x50.size (k1_off1_inb L)
abbrev xRowsK (L : grid1.Coords) : Memref sig .scVector .hbm S512x50 .i32 := (xV).slice (xrowsK L) (fun _ => rfl)

theorem wid_val (L : grid1.Coords) : (wid (cL L) (sL L)).val = 2 * (L 1).val + (L 0).val := rfl

theorem xrowsK_eq : xrowsK L = xrows (wid (cL L) (sL L)) := by
  unfold xrowsK xrows Rect.part Rect.block
  congr 1 <;> funext a
  · rw [k1_off1_eq]
    match a with
    | 0 => simp [Shape.partIx, Shape.partSize, wid_val]; omega
    | 1 => simp [Shape.partIx, Shape.partSize]
  · match a with
    | 0 => simp [Shape.partSize]
    | 1 => simp [Shape.partSize]

theorem set_xRowsK : (xRowsK L).view.set = xSet (cL L) (sL L) := by
  show ((xV).view.slice (xrowsK L)).set = (xrows (wid (cL L) (sL L))).set
  rw [xrowsK_eq]
  show ((View.whole (main_arg0_scv : Ref sig .scVector)).slice _).set = _
  rw [View.set_slice]; exact Finset.map_refl

theorem pts_xRowsK (f : Buf (Elt F) (xLoc d)) :
    ((xRowsK L).view.loc (V d (cV L) (jV L)) ↦[(xRowsK L).view.set]{fullShare} f : sProp 𝕄) = xLoc d ↦[xSet (cL L) (sL L)]{fullShare} f := by
  rw [set_xRowsK]
theorem pts_tV (q : PosShare TreeShare) (f : Buf (Elt F) (tLoc d)) :
    ((tV).view.loc (V d (cV L) (jV L)) ↦{q} f : sProp 𝕄) = tLoc d ↦{q} f := rfl
theorem pts_oV (I : Finset S16384x50x128.Idx) (f : Buf (Elt F) (oLoc d)) :
    ((oV).view.loc (V d (cV L) (jV L)) ↦[I]{fullShare} f : sProp 𝕄) = oLoc d ↦[I]{fullShare} f := rfl

end Tile

end Cert.KernelIdeal.Hand

end
-- ==== Proof.HandKernelIdeal.TileB.lean ====
/-
  The body of the lookup kernel on one vector subcore: what the subcore owns when its task starts, and the names of
  the rows, row buffers and semaphores its ring of eight slots works on.
-/
import proofs.«206440_g52347061403653_cont_9to1_m_884_16_alg».proof.Proof.HandKernelIdeal.TileA

noncomputable section

namespace Cert.KernelIdeal.Hand

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "xV" => (Memref.whole Cert.KernelIdeal.main_arg0_scv : Memref Cert.KernelIdeal.sig Kind.scVector Space.hbm Cert.KernelIdeal.S16384x50 EltTy.i32)
local notation "tV" => (Memref.whole Cert.KernelIdeal.main_v1_scv : Memref Cert.KernelIdeal.sig Kind.scVector Space.hbm Cert.KernelIdeal.S1000000x128 EltTy.f32)
local notation "oV" => (Memref.whole Cert.KernelIdeal.main_v2_scv : Memref Cert.KernelIdeal.sig Kind.scVector Space.hbm Cert.KernelIdeal.S16384x50x128 EltTy.f32)
local notation "iV" => (Memref.whole Cert.KernelIdeal.cc1_scratch0 : Memref Cert.KernelIdeal.sig Kind.scVector Space.vmem Cert.KernelIdeal.S512x50 EltTy.i32)
local notation "r0V" => (Memref.whole Cert.KernelIdeal.cc1_scratch1 : Memref Cert.KernelIdeal.sig Kind.scVector Space.vmem Cert.KernelIdeal.S50x128 EltTy.f32)
local notation "r1V" => (Memref.whole Cert.KernelIdeal.cc1_scratch2 : Memref Cert.KernelIdeal.sig Kind.scVector Space.vmem Cert.KernelIdeal.S50x128 EltTy.f32)
local notation "r2V" => (Memref.whole Cert.KernelIdeal.cc1_scratch3 : Memref Cert.KernelIdeal.sig Kind.scVector Space.vmem Cert.KernelIdeal.S50x128 EltTy.f32)
local notation "r3V" => (Memref.whole Cert.KernelIdeal.cc1_scratch4 : Memref Cert.KernelIdeal.sig Kind.scVector Space.vmem Cert.KernelIdeal.S50x128 EltTy.f32)
local notation "r4V" => (Memref.whole Cert.KernelIdeal.cc1_scratch5 : Memref Cert.KernelIdeal.sig Kind.scVector Space.vmem Cert.KernelIdeal.S50x128 EltTy.f32)
local notation "r5V" => (Memref.whole Cert.KernelIdeal.cc1_scratch6 : Memref Cert.KernelIdeal.sig Kind.scVector Space.vmem Cert.KernelIdeal.S50x128 EltTy.f32)
local notation "r6V" => (Memref.whole Cert.KernelIdeal.cc1_scratch7 : Memref Cert.KernelIdeal.sig Kind.scVector Space.vmem Cert.KernelIdeal.S50x128 EltTy.f32)
local notation "r7V" => (Memref.whole Cert.KernelIdeal.cc1_scratch8 : Memref Cert.KernelIdeal.sig Kind.scVector Space.vmem Cert.KernelIdeal.S50x128 EltTy.f32)

/-! ## Rows of the index scratch and of the padded output, by their leading coordinate -/

/-- The entries of the index scratch whose row lies in `[lo, hi)`. -/
def iRng (lo hi : ℕ) : Finset S512x50.Idx := Finset.univ.filter fun i => lo ≤ (i 0).val ∧ (i 0).val < hi
/-- The entries of the padded output whose row lies in `[lo, hi)`. -/
def oRng (lo hi : ℕ) : Finset S16384x50x128.Idx := Finset.univ.filter fun i => lo ≤ (i 0).val ∧ (i 0).val < hi

theorem mem_iRng {lo hi : ℕ} {i : S512x50.Idx} : i ∈ iRng lo hi ↔ lo ≤ (i 0).val ∧ (i 0).val < hi := by
  simp only [iRng, Finset.mem_filter, Finset.mem_univ, true_and]
theorem mem_oRng {lo hi : ℕ} {i : S16384x50x128.Idx} : i ∈ oRng lo hi ↔ lo ≤ (i 0).val ∧ (i 0).val < hi := by
  simp only [oRng, Finset.mem_filter, Finset.mem_univ, true_and]

theorem iRng_union {a b c : ℕ} (hab : a ≤ b) (hbc : b ≤ c) : iRng a c = iRng a b ∪ iRng b c := by
  ext i; simp only [mem_iRng, Finset.mem_union]; omega
theorem iRng_disjoint (a b c : ℕ) : Disjoint (iRng a b) (iRng b c) := by
  rw [Finset.disjoint_left]; intro i h1 h2; rw [mem_iRng] at h1 h2; omega
theorem oRng_union {a b c : ℕ} (hab : a ≤ b) (hbc : b ≤ c) : oRng a c = oRng a b ∪ oRng b c := by
  ext i; simp only [mem_oRng, Finset.mem_union]; omega
theorem oRng_disjoint (a b c : ℕ) : Disjoint (oRng a b) (oRng b c) := by
  rw [Finset.disjoint_left]; intro i h1 h2; rw [mem_oRng] at h1 h2; omega
theorem iRng_all : iRng 0 512 = Finset.univ := by
  ext i; simp only [mem_iRng, Finset.mem_univ, iff_true]; exact ⟨Nat.zero_le _, (i 0).isLt⟩

section Pts
variable {ℓ : Loc nD τ sig} {q : PosShare TreeShare} {f : Buf (Elt F) ℓ}
end Pts

/-- Row `o 0` of the index scratch, squeezed, as the kernel slices it. -/
abbrev idxRowR (o : Fin 2 → ℕ) (ho : ∀ a, o a + S1x50.size a ≤ S512x50.size a) : Rect S512x50 := Rect.unit (s := S512x50) o S1x50.size ho
abbrev idxRowM (o : Fin 2 → ℕ) (ho : ∀ a, o a + S1x50.size a ≤ S512x50.size a) : Memref sig .scVector .vmem S50 .i32 :=
  ((iV).slice (idxRowR o ho) (fun _ => rfl)).squeeze S50 squeezes_S1x50_S50
/-- Row `o 0` of the padded output, squeezed, as the kernel slices it. -/
abbrev outRowR (o : Fin 3 → ℕ) (ho : ∀ a, o a + S1x50x128.size a ≤ S16384x50x128.size a) : Rect S16384x50x128 := Rect.unit (s := S16384x50x128) o S1x50x128.size ho
abbrev outRowM (o : Fin 3 → ℕ) (ho : ∀ a, o a + S1x50x128.size a ≤ S16384x50x128.size a) : Memref sig .scVector .hbm S50x128 .f32 :=
  ((oV).slice (outRowR o ho) (fun _ => rfl)).squeeze S50x128 squeezes_S1x50x128_S50x128

theorem set_idxRowM (o : Fin 2 → ℕ) (ho : ∀ a, o a + S1x50.size a ≤ S512x50.size a) (r : ℕ) (h : o = ![r, 0]) :
    (idxRowM o ho).view.set = iRng r (r + 1) := by
  subst h
  show (((iV).view.slice (idxRowR _ ho)).reshape S50 squeezes_S1x50_S50.numel_eq).set = _
  rw [View.set_reshape]
  show ((View.whole (cc1_scratch0 : Ref sig .scVector)).slice _).set = _
  rw [View.set_slice]
  refine Finset.map_refl.trans ?_
  ext i
  rw [Rect.mem_set_unit, mem_iRng]
  constructor
  · intro h; have := h 0; simp at this; omega
  · intro h a
    match a with
    | 0 => simp; omega
    | 1 => simp; exact (i 1).isLt

theorem set_outRowM (o : Fin 3 → ℕ) (ho : ∀ a, o a + S1x50x128.size a ≤ S16384x50x128.size a) (r : ℕ) (h : o = ![r, 0, 0]) :
    (outRowM o ho).view.set = oRng r (r + 1) := by
  subst h
  show (((oV).view.slice (outRowR _ ho)).reshape S50x128 squeezes_S1x50x128_S50x128.numel_eq).set = _
  rw [View.set_reshape]
  show ((View.whole (main_v2_scv : Ref sig .scVector)).slice _).set = _
  rw [View.set_slice]
  refine Finset.map_refl.trans ?_
  ext i
  rw [Rect.mem_set_unit, mem_oRng]
  constructor
  · intro h; have := h 0; simp at this; omega
  · intro h a
    match a with
    | 0 => simp; omega
    | 1 => simp; exact (i 1).isLt
    | 2 => simp; exact (i 2).isLt

theorem oSet_eq (c : Fin 2) (s : Fin 16) : oSet c s = oRng (512 * (wid c s).val) (512 * (wid c s).val + 512) := by
  ext i
  rw [Rect.mem_set_unit, mem_oRng]
  constructor
  · intro h; have := h 0; simp [Shape.partIx, Shape.partSize] at this; omega
  · intro h a
    match a with
    | 0 => simp [Shape.partIx, Shape.partSize]; omega
    | 1 => simp [Shape.partIx, Shape.partSize]; exact (i 1).isLt
    | 2 => simp [Shape.partIx, Shape.partSize]; exact (i 2).isLt

end Cert.KernelIdeal.Hand
end
-- ==== Proof.HandKernelIdeal.TileC.lean ====
/-
  The body of the lookup kernel on one vector subcore: what the subcore owns when its task starts, and the names of
  the rows, row buffers and semaphores its ring of eight slots works on.
-/
import proofs.«206440_g52347061403653_cont_9to1_m_884_16_alg».proof.Proof.HandKernelIdeal.TileB

noncomputable section

namespace Cert.KernelIdeal.Hand

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "xV" => (Memref.whole Cert.KernelIdeal.main_arg0_scv : Memref Cert.KernelIdeal.sig Kind.scVector Space.hbm Cert.KernelIdeal.S16384x50 EltTy.i32)
local notation "tV" => (Memref.whole Cert.KernelIdeal.main_v1_scv : Memref Cert.KernelIdeal.sig Kind.scVector Space.hbm Cert.KernelIdeal.S1000000x128 EltTy.f32)
local notation "oV" => (Memref.whole Cert.KernelIdeal.main_v2_scv : Memref Cert.KernelIdeal.sig Kind.scVector Space.hbm Cert.KernelIdeal.S16384x50x128 EltTy.f32)
local notation "iV" => (Memref.whole Cert.KernelIdeal.cc1_scratch0 : Memref Cert.KernelIdeal.sig Kind.scVector Space.vmem Cert.KernelIdeal.S512x50 EltTy.i32)
local notation "r0V" => (Memref.whole Cert.KernelIdeal.cc1_scratch1 : Memref Cert.KernelIdeal.sig Kind.scVector Space.vmem Cert.KernelIdeal.S50x128 EltTy.f32)
local notation "r1V" => (Memref.whole Cert.KernelIdeal.cc1_scratch2 : Memref Cert.KernelIdeal.sig Kind.scVector Space.vmem Cert.KernelIdeal.S50x128 EltTy.f32)
local notation "r2V" => (Memref.whole Cert.KernelIdeal.cc1_scratch3 : Memref Cert.KernelIdeal.sig Kind.scVector Space.vmem Cert.KernelIdeal.S50x128 EltTy.f32)
local notation "r3V" => (Memref.whole Cert.KernelIdeal.cc1_scratch4 : Memref Cert.KernelIdeal.sig Kind.scVector Space.vmem Cert.KernelIdeal.S50x128 EltTy.f32)
local notation "r4V" => (Memref.whole Cert.KernelIdeal.cc1_scratch5 : Memref Cert.KernelIdeal.sig Kind.scVector Space.vmem Cert.KernelIdeal.S50x128 EltTy.f32)
local notation "r5V" => (Memref.whole Cert.KernelIdeal.cc1_scratch6 : Memref Cert.KernelIdeal.sig Kind.scVector Space.vmem Cert.KernelIdeal.S50x128 EltTy.f32)
local notation "r6V" => (Memref.whole Cert.KernelIdeal.cc1_scratch7 : Memref Cert.KernelIdeal.sig Kind.scVector Space.vmem Cert.KernelIdeal.S50x128 EltTy.f32)
local notation "r7V" => (Memref.whole Cert.KernelIdeal.cc1_scratch8 : Memref Cert.KernelIdeal.sig Kind.scVector Space.vmem Cert.KernelIdeal.S50x128 EltTy.f32)

variable [FloatOps F]
section Tile
variable (d : Dev nD) (L : grid1.Coords)

abbrev kern (L : grid1.Coords) := cc1__emb_kernel (F := F) L xV (Memref.isWhole_whole _) tV (Memref.isWhole_whole _) oV (Memref.isWhole_whole _)
  iV (Memref.isWhole_whole _) r0V (Memref.isWhole_whole _) r1V (Memref.isWhole_whole _) r2V (Memref.isWhole_whole _) r3V (Memref.isWhole_whole _)
  r4V (Memref.isWhole_whole _) r5V (Memref.isWhole_whole _) r6V (Memref.isWhole_whole _) r7V (Memref.isWhole_whole _)
  cc1_scratch9 cc1_scratch10 cc1_scratch11 cc1_scratch12 cc1_scratch13 cc1_scratch14 cc1_scratch15 cc1_scratch16
  cc1_scratch17 cc1_scratch18 cc1_scratch19 cc1_scratch20 cc1_scratch21 cc1_scratch22 cc1_scratch23 cc1_scratch24 cc1_scoped0

omit [FloatOps F] in
theorem tok_split (ℓ : Loc nD τ sig) (f : Buf (Elt F) ℓ) (q : PosShare TreeShare) (i : ℕ) :
    (ℓ ↦{Transfers.shareDrop q i} f : sProp 𝕄) ⊣⊢ iprop((ℓ ↦{Transfers.shareDrop q (i + 1)} f) ∗ ℓ ↦{Transfers.shareTokN q i} f) :=
  pointsTo_share (PosShare.mem_left_op_right _)

omit [FloatOps F] in
theorem pts_buf (b : Ref sig .scVector) (f : Buf (Elt F) ((V d (cV L) (jV L)).loc b)) :
    ((Memref.whole b).view.loc (V d (cV L) (jV L)) ↦{fullShare} f : sProp 𝕄) = (V d (cV L) (jV L)).loc b ↦{fullShare} f := rfl

/-- What the index scratch holds once the subcore's rows of the index array have landed in it. -/
def idxC (d : Dev nD) (L : grid1.Coords) : S512x50.Idx → Elt F .i32 :=
  ReadAs.same.apply ((xRowsK L).view.read (Elt F) (m (xLoc d)))

omit [FloatOps F] in
theorem idxC_apply (i : S512x50.Idx) : idxC m d L i = m (xLoc d) ((xRowsK L).view.emb i) :=
  (View.read_apply _ _).trans (cast_eq _ _)

omit [FloatOps F] in
theorem idx_landed (fi : Buf (Elt F) ((V d (cV L) (jV L)).loc cc1_scratch0)) (pay : S512x50.Idx → Elt F .i32) (hpay : pay = idxC m d L) :
    ((iV).view.loc (V d (cV L) (jV L)) ↦{fullShare} View.write (Elt F) (iV).view fi pay Finset.univ : sProp 𝕄)
      = (iV).view.loc (V d (cV L) (jV L)) ↦[iRng 0 512]{fullShare} idxC m d L := by
  subst hpay; rw [iRng_all, View.write_whole_univ]

omit [FloatOps F] in
theorem pts_iRng_split (f : S512x50.Idx → Elt F .i32) {a b c : ℕ} (hab : a ≤ b) (hbc : b ≤ c) :
    ((iV).view.loc (V d (cV L) (jV L)) ↦[iRng a c]{fullShare} f : sProp 𝕄)
      ⊣⊢ iprop(((iV).view.loc (V d (cV L) (jV L)) ↦[iRng a b]{fullShare} f) ∗ (iV).view.loc (V d (cV L) (jV L)) ↦[iRng b c]{fullShare} f) := by
  rw [iRng_union hab hbc]; exact pointsTo_union (iRng_disjoint a b c)

omit [FloatOps F] in
theorem pts_idxRow (o : Fin 2 → ℕ) (ho : ∀ a, o a + S1x50.size a ≤ S512x50.size a) (r : ℕ) (h : o = ![r, 0]) (f : S512x50.Idx → Elt F .i32) :
    ((idxRowM o ho).view.loc (V d (cV L) (jV L)) ↦[(idxRowM o ho).view.set]{fullShare} f : sProp 𝕄)
      = (iV).view.loc (V d (cV L) (jV L)) ↦[iRng r (r + 1)]{fullShare} f := by
  rw [set_idxRowM o ho r h]

omit [FloatOps F] in
/-- Every word of every row of the landed index scratch names a row of the table. -/
theorem inb_of_pre (hpre : PreOK m) (o : Fin 2 → ℕ) (ho : ∀ a, o a + S1x50.size a ≤ S512x50.size a) :
    ∀ x, ((idxRowM o ho).view.read (Elt F) (idxC m d L) x).toNat < S1000000x128.size gathers_S1000000x128_S50x128.axis := by
  intro x
  rw [show (idxRowM o ho).view.read (Elt F) (idxC m d L) x = idxC m d L ((idxRowM o ho).view.emb x) from (View.read_apply _ _).trans (cast_eq _ _),
    idxC_apply]
  exact hpre d _

/-- The whole padded table, as every gather slices it. -/
abbrev tAllM : Memref sig .scVector .hbm S1000000x128 .f32 :=
  (tV).slice (Rect.unit (s := S1000000x128) ![0, 0] S1000000x128.size inb_S1000000x128_S1000000x128_0_0) (fun _ => rfl)

omit [FloatOps F] in
theorem wid_row_lt (r : ℕ) (hr : r < 512) : 512 * (wid (cL L) (sL L)).val + r < 16384 := by
  have := (wid (cL L) (sL L)).isLt; omega

/-- A row buffer's contents `p` hold, in their first 64 columns, the table rows that row `n` of the index array names. -/
def RowGood {α : Type} (x : S16384x50.Idx → BitVec 32) (w : S1000000x64.Idx → α) (n : Fin 16384) (p : S50x128.Idx → α) : Prop :=
  ∀ (y : S50x128.Idx) (h : (y 1).val < 64), p y = w (ix2 (Cert.Proof.Spec.row x n (y 0)) (⟨(y 1).val, h⟩ : Fin 64))

end Tile
end Cert.KernelIdeal.Hand
end
-- ==== Proof.HandKernelIdeal.TileX.lean ====
/-
  The value carried by one gather: the rows gathered for a row of the subcore's indices are, in their first 64
  columns, the table rows those indices name.
-/
import proofs.«206440_g52347061403653_cont_9to1_m_884_16_alg».proof.Proof.HandKernelIdeal.TileC

noncomputable section

namespace Cert.KernelIdeal.Hand

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-! ## The gathered rows are the looked-up rows -/

omit m in
/-- The padded table sliced whole reads the padded table. -/
theorem tAllM_emb (i : S1000000x128.Idx) : (tAllM).view.emb i = i := by
  funext a
  refine Fin.ext ?_
  simp only [Memref.view_slice, View.emb_slice, Memref.view_whole, View.emb_whole, Function.Embedding.trans_apply,
    Function.Embedding.refl_apply, Rect.emb_apply]
  match a with
  | ⟨0, _⟩ => rw [Rect.emb_apply]; simp [Rect.unit]
  | ⟨1, _⟩ => rw [Rect.emb_apply]; simp [Rect.unit]

omit m in
/-- A row of 50 words read as a 1 × 50 block: entry `z` is entry `(0, z)`. -/
theorem squeeze_row (h : S50.numel = S1x50.numel) (z : S50.Idx) : Shape.reshapeEquiv h z = (ix2 (0 : Fin 1) (z 0) : S1x50.Idx) := by
  refine Shape.reshapeEquiv_eq_of_rowMajor _ ?_
  rw [Shape.rowMajor_val_two, Shape.rowMajor_val_one]
  simp

/-- Entry `z` of row `r` of the landed index scratch is entry `(512·wid + r, z)` of the index array. -/
theorem idxRow_read (d : Dev nD) (L : grid1.Coords) (r : ℕ) (hr : r < 512) (ho : ∀ a, (![r, 0] : Fin 2 → ℕ) a + S1x50.size a ≤ S512x50.size a) (z : S50.Idx) :
    (idxRowM ![r, 0] ho).view.read (Elt F) (idxC m d L) z
      = m (xLoc d) (ix2 (⟨512 * (wid (cL L) (sL L)).val + r, wid_row_lt L r hr⟩ : Fin 16384) (z 0)) := by
  rw [show (idxRowM ![r, 0] ho).view.read (Elt F) (idxC m d L) z = idxC m d L ((idxRowM ![r, 0] ho).view.emb z) from (View.read_apply _ _).trans (cast_eq _ _),
    idxC_apply]
  congr 1
  funext a
  refine Fin.ext ?_
  simp only [Memref.view_slice, Memref.view_squeeze, View.emb_slice, View.emb_reshape, Memref.view_whole, View.emb_whole, Function.Embedding.trans_apply,
    Function.Embedding.refl_apply, Equiv.coe_toEmbedding, squeeze_row]
  match a with
  | ⟨0, _⟩ => rw [Rect.emb_apply, Rect.emb_apply, squeeze_row]; simp [Rect.unit, k1_off1_eq, wid_val]; omega
  | ⟨1, _⟩ => rw [Rect.emb_apply, Rect.emb_apply, squeeze_row]; simp [Rect.unit, k1_off1_eq]

omit m in
/-- The index whose row-major position is `k` in a row of 50 is `k`. -/
theorem rowMajor_symm_zero (k : Fin S50.numel) : ((S50.rowMajor.symm k) 0).val = k.val := by
  have h := Shape.rowMajor_val_one (S50.rowMajor.symm k)
  rw [Equiv.apply_symm_apply] at h
  exact h.symm

/-- The rows gathered for row `r` of the subcore's indices hold, in their first 64 columns, the table rows those
    indices name: the index scratch holds the subcore's rows of `x`, every word below the table's height is its own
    row number, and the padded table's first 64 columns are the table's. -/
theorem gather_good (d : Dev nD) (L : grid1.Coords) (hpre : PreOK m) (t : Buf (Elt F) (tLoc d)) (ht : GoodTbl (m (wLoc d)) t)
    (o : Fin 2 → ℕ) (ho : ∀ a, o a + S1x50.size a ≤ S512x50.size a) (r : ℕ) (hr : r < 512) (ho_eq : o = ![r, 0])
    (hn : S50.numel = S50x128.size gathers_S1000000x128_S50x128.axis')
    (hin : ∀ x, ((idxRowM o ho).view.read (Elt F) (idxC m d L) x).toNat < S1000000x128.size gathers_S1000000x128_S50x128.axis) :
    RowGood (m (xLoc d)) (m (wLoc d)) ⟨512 * (wid (cL L) (sL L)).val + r, wid_row_lt L r hr⟩
      (SparseCore.gatherPayload gathers_S1000000x128_S50x128 ((tAllM).view.read (Elt F) t)
        (SparseCore.rows ((idxRowM o ho).view.read (Elt F) (idxC m d L)) hn hin)) := by
  intro y h64
  subst ho_eq
  unfold SparseCore.gatherPayload
  rw [show ∀ i, (tAllM).view.read (Elt F) t i = t ((tAllM).view.emb i) from fun i => (View.read_apply _ _).trans (cast_eq _ _), tAllM_emb]
  have hI : gathers_S1000000x128_S50x128.idx (SparseCore.rows ((idxRowM ![r, 0] ho).view.read (Elt F) (idxC m d L)) hn hin) y
      = ix2 (Cert.Proof.Spec.row (m (xLoc d)) ⟨512 * (wid (cL L) (sL L)).val + r, wid_row_lt L r hr⟩ (y 0)) (⟨(y 1).val, by omega⟩ : Fin 128) := by
    funext a
    refine Fin.ext ?_
    match a with
    | ⟨0, h0⟩ =>
      have e1 := Shape.Gathers.idx_axis gathers_S1000000x128_S50x128 (SparseCore.rows ((idxRowM ![r, 0] ho).view.read (Elt F) (idxC m d L)) hn hin) y
      rw [show (⟨0, h0⟩ : Fin S1000000x128.rank) = gathers_S1000000x128_S50x128.axis from rfl, e1]
      unfold SparseCore.rows
      simp only [idxRow_read m d L r hr ho]
      have ez : (S50.rowMajor.symm ((y gathers_S1000000x128_S50x128.axis').cast hn.symm)) 0 = y 0 := by
        refine Fin.ext ?_
        rw [rowMajor_symm_zero]; rfl
      rw [ez]
      exact (Nat.mod_eq_of_lt (hpre d _)).symm
    | ⟨1, h1⟩ =>
      exact Shape.Gathers.idx_of_ne gathers_S1000000x128_S50x128 _ y ⟨1, h1⟩ (show (1 : ℕ) ≠ 0 from Nat.one_ne_zero)
  rw [hI]
  exact ht _ ⟨(y 1).val, h64⟩

end Cert.KernelIdeal.Hand

end
-- ==== Proof.HandKernelIdeal.TileY.lean ====
/-
  The value carried by one write-out: a row buffer holding the rows gathered for index row `n`, copied to output
  row `n`, leaves the looked-up rows in that output row's first 64 columns.
-/
import proofs.«206440_g52347061403653_cont_9to1_m_884_16_alg».proof.Proof.HandKernelIdeal.TileC

noncomputable section

namespace Cert.KernelIdeal.Hand

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

omit m in
/-- A 50 × 128 block read as a 1 × 50 × 128 block: entry `(a, b)` is entry `(0, a, b)`. -/
theorem squeeze_block (h : S50x128.numel = S1x50x128.numel) (y : S50x128.Idx) :
    Shape.reshapeEquiv h y = (ix3 (0 : Fin 1) (y 0) (y 1) : S1x50x128.Idx) := by
  refine Shape.reshapeEquiv_eq_of_rowMajor _ ?_
  rw [Shape.rowMajor_val_three, Shape.rowMajor_val_two]
  simp

omit m in
/-- Entry `(a, b)` of output row `r`, as the kernel slices it, is entry `(r, a, b)` of the padded output. -/
theorem outRowM_emb (r : ℕ) (ho : ∀ a, (![r, 0, 0] : Fin 3 → ℕ) a + S1x50x128.size a ≤ S16384x50x128.size a) (i : S16384x50x128.Idx) (hi : (i 0).val = r) :
    (outRowM ![r, 0, 0] ho).view.emb (ix2 (i 1) (i 2)) = i := by
  funext a
  refine Fin.ext ?_
  simp only [Memref.view_slice, Memref.view_squeeze, View.emb_slice, View.emb_reshape, Memref.view_whole, View.emb_whole, Function.Embedding.trans_apply,
    Function.Embedding.refl_apply, Equiv.coe_toEmbedding]
  match a with
  | ⟨0, _⟩ => rw [Rect.emb_apply, squeeze_block]; simp [Rect.unit, hi]
  | ⟨1, _⟩ => rw [Rect.emb_apply, squeeze_block]; simp [Rect.unit]
  | ⟨2, _⟩ => rw [Rect.emb_apply, squeeze_block]; simp [Rect.unit]; rfl

/-- The row written out: the row buffer's gathered rows, written through the kernel's slice of output row `r`, put
    the looked-up rows into that output row's first 64 columns. -/
theorem out_row_good (d : Dev nD) (L : grid1.Coords) (n : Fin 16384) (r : ℕ) (hnr : n.val = r)
    (o : Fin 3 → ℕ) (ho : ∀ a, o a + S1x50x128.size a ≤ S16384x50x128.size a) (ho_eq : o = ![r, 0, 0])
    (g : Buf (Elt F) (oLoc d)) (rb : Memref sig .scVector .vmem S50x128 .f32)
    (fb : Buf (Elt F) (rb.view.loc (V d (cV L) (jV L)))) (pay : S50x128.Idx → Elt F .f32)
    (hp : RowGood (m (xLoc d)) (m (wLoc d)) n pay) :
    GoodOut (m (xLoc d)) (m (wLoc d)) (oRng r (r + 1))
      ((outRowM o ho).view.writes (Elt F) g
        [⟨Rect.whole S50x128, ReadAs.same.apply (rb.view.read (Elt F) (rb.view.writes (Elt F) fb [⟨Rect.whole S50x128, pay⟩]))⟩]) := by
  subst ho_eq
  intro i hi h64
  rw [mem_oRng] at hi
  have hi0 : (i 0).val = r := by omega
  have hn : i 0 = n := Fin.ext (hi0.trans hnr.symm)
  have hread := View.read_writes_cons_emb (outRowM ![r, 0, 0] ho).view g (Rect.whole S50x128)
    (ReadAs.same.apply (rb.view.read (Elt F) (rb.view.writes (Elt F) fb [⟨Rect.whole S50x128, pay⟩]))) [] (ix2 (i 1) (i 2))
  rw [Rect.emb_whole_apply, show ∀ f y, (outRowM ![r, 0, 0] ho).view.read (Elt F) f y = f ((outRowM ![r, 0, 0] ho).view.emb y) from
    fun f y => (View.read_apply _ _).trans (cast_eq _ _), outRowM_emb r ho i hi0] at hread
  rw [hread, ReadAs.apply_same]
  have hpay := View.read_writes_cons_emb rb.view fb (Rect.whole S50x128) pay [] (ix2 (i 1) (i 2))
  rw [Rect.emb_whole_apply] at hpay
  rw [hpay, hp (ix2 (i 1) (i 2)) h64, hn]

end Cert.KernelIdeal.Hand

end
-- ==== Proof.HandKernelIdeal.TileD.lean ====
/-
  The body of the lookup kernel on one vector subcore: what the subcore owns when its task starts, and the names of
  the rows, row buffers and semaphores its ring of eight slots works on.
-/
import proofs.«206440_g52347061403653_cont_9to1_m_884_16_alg».proof.Proof.HandKernelIdeal.TileX
import proofs.«206440_g52347061403653_cont_9to1_m_884_16_alg».proof.Proof.HandKernelIdeal.TileY

noncomputable section

namespace Cert.KernelIdeal.Hand

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "xV" => (Memref.whole Cert.KernelIdeal.main_arg0_scv : Memref Cert.KernelIdeal.sig Kind.scVector Space.hbm Cert.KernelIdeal.S16384x50 EltTy.i32)
local notation "tV" => (Memref.whole Cert.KernelIdeal.main_v1_scv : Memref Cert.KernelIdeal.sig Kind.scVector Space.hbm Cert.KernelIdeal.S1000000x128 EltTy.f32)
local notation "oV" => (Memref.whole Cert.KernelIdeal.main_v2_scv : Memref Cert.KernelIdeal.sig Kind.scVector Space.hbm Cert.KernelIdeal.S16384x50x128 EltTy.f32)
local notation "iV" => (Memref.whole Cert.KernelIdeal.cc1_scratch0 : Memref Cert.KernelIdeal.sig Kind.scVector Space.vmem Cert.KernelIdeal.S512x50 EltTy.i32)
local notation "r0V" => (Memref.whole Cert.KernelIdeal.cc1_scratch1 : Memref Cert.KernelIdeal.sig Kind.scVector Space.vmem Cert.KernelIdeal.S50x128 EltTy.f32)
local notation "r1V" => (Memref.whole Cert.KernelIdeal.cc1_scratch2 : Memref Cert.KernelIdeal.sig Kind.scVector Space.vmem Cert.KernelIdeal.S50x128 EltTy.f32)
local notation "r2V" => (Memref.whole Cert.KernelIdeal.cc1_scratch3 : Memref Cert.KernelIdeal.sig Kind.scVector Space.vmem Cert.KernelIdeal.S50x128 EltTy.f32)
local notation "r3V" => (Memref.whole Cert.KernelIdeal.cc1_scratch4 : Memref Cert.KernelIdeal.sig Kind.scVector Space.vmem Cert.KernelIdeal.S50x128 EltTy.f32)
local notation "r4V" => (Memref.whole Cert.KernelIdeal.cc1_scratch5 : Memref Cert.KernelIdeal.sig Kind.scVector Space.vmem Cert.KernelIdeal.S50x128 EltTy.f32)
local notation "r5V" => (Memref.whole Cert.KernelIdeal.cc1_scratch6 : Memref Cert.KernelIdeal.sig Kind.scVector Space.vmem Cert.KernelIdeal.S50x128 EltTy.f32)
local notation "r6V" => (Memref.whole Cert.KernelIdeal.cc1_scratch7 : Memref Cert.KernelIdeal.sig Kind.scVector Space.vmem Cert.KernelIdeal.S50x128 EltTy.f32)
local notation "r7V" => (Memref.whole Cert.KernelIdeal.cc1_scratch8 : Memref Cert.KernelIdeal.sig Kind.scVector Space.vmem Cert.KernelIdeal.S50x128 EltTy.f32)

variable [FloatOps F]
section Tile
variable (d : Dev nD) (L : grid1.Coords)

omit [FloatOps F] in
theorem inb_row (r : ℕ) (hr : r < 512) : ∀ a, (![r, 0] : Fin 2 → ℕ) a + S1x50.size a ≤ S512x50.size a := by
  intro a
  match a with
  | 0 => simp; omega
  | 1 => simp

/-- The first row of the padded output that the subcore owns. -/
abbrev obase (L : grid1.Coords) : ℕ := 1024 * (L 1).val + 512 * (L 0).val

omit [FloatOps F] in
theorem pts_oRng_split (f : Buf (Elt F) (oLoc d)) {a b c : ℕ} (hab : a ≤ b) (hbc : b ≤ c) :
    ((oV).view.loc (V d (cV L) (jV L)) ↦[oRng a c]{fullShare} f : sProp 𝕄)
      ⊣⊢ iprop(((oV).view.loc (V d (cV L) (jV L)) ↦[oRng a b]{fullShare} f) ∗ (oV).view.loc (V d (cV L) (jV L)) ↦[oRng b c]{fullShare} f) := by
  rw [oRng_union hab hbc]; exact pointsTo_union (oRng_disjoint a b c)

omit [FloatOps F] in
theorem pts_outRow (o : Fin 3 → ℕ) (ho : ∀ a, o a + S1x50x128.size a ≤ S16384x50x128.size a) (r : ℕ) (h : o = ![r, 0, 0]) (f : Buf (Elt F) (oLoc d)) :
    ((outRowM o ho).view.loc (V d (cV L) (jV L)) ↦[(outRowM o ho).view.set]{fullShare} f : sProp 𝕄)
      = (oV).view.loc (V d (cV L) (jV L)) ↦[oRng r (r + 1)]{fullShare} f := by
  rw [set_outRowM o ho r h]

omit [FloatOps F] in
theorem k1_conds_pos : ∀ k : Fin k1_t1_loop.trips, k.val < 63 →
    k1_cond1 k = 1#1 ∧ k1_cond2 k = 1#1 ∧ k1_cond3 k = 1#1 ∧ k1_cond4 k = 1#1 ∧ k1_cond5 k = 1#1 ∧ k1_cond6 k = 1#1 ∧ k1_cond7 k = 1#1 ∧ k1_cond8 k = 1#1 := by
  decide +kernel
omit [FloatOps F] in
theorem k1_conds_neg : ∀ k : Fin k1_t1_loop.trips, ¬ k.val < 63 →
    ¬ k1_cond1 k = 1#1 ∧ ¬ k1_cond2 k = 1#1 ∧ ¬ k1_cond3 k = 1#1 ∧ ¬ k1_cond4 k = 1#1 ∧ ¬ k1_cond5 k = 1#1 ∧ ¬ k1_cond6 k = 1#1 ∧ ¬ k1_cond7 k = 1#1 ∧ ¬ k1_cond8 k = 1#1 := by
  decide +kernel

omit [FloatOps F] in
theorem k_lt64 (k : Fin k1_t1_loop.trips) : k.val < 64 := by
  have h : k1_t1_loop.trips = 64 := by decide
  exact h ▸ k.isLt

/-- The thread of subcore `L`. -/
abbrev thr (d : Dev nD) (L : grid1.Coords) : Thread nD τ := V d (cV L) (jV L)

/-- Slot `b` with the gather of index row `r` in flight on its semaphore: the row buffer will hold `pay`. -/
abbrev gFlight (d : Dev nD) (L : grid1.Coords) (t : Buf (Elt F) (tLoc d)) (rb : Memref sig .scVector .vmem S50x128 .f32) (gs : DmaSems sig S_) (tokN : ℕ)
    (r : ℕ) (hr : r < 512) (fb : Buf (Elt F) (rb.view.loc (V d (cV L) (jV L)))) (pay : S50x128.Idx → Elt F .f32) : sProp 𝕄 :=
  Transfers.Flight countersEmb (V d (cV L) (jV L)) (SemLoc.dma gs.sem) (default : HIx 1) 204800
    iprop(((rb.view.loc (V d (cV L) (jV L)) ↦{fullShare} rb.view.writes (Elt F) fb [⟨Rect.whole S50x128, pay⟩])
        ∗ ((idxRowM ![r, 0] (inb_row r hr)).view.loc (V d (cV L) (jV L)) ↦[(idxRowM ![r, 0] (inb_row r hr)).view.set]{fullShare} idxC m d L))
      ∗ ((tV).view.loc (V d (cV L) (jV L)) ↦[(tAllM).view.set]{Transfers.shareTokN (tq (cL L) (sL L)) tokN} t))

abbrev tRest (d : Dev nD) (L : grid1.Coords) (t : Buf (Elt F) (tLoc d)) (tokN : ℕ) : sProp 𝕄 :=
  (tV).view.loc (V d (cV L) (jV L)) ↦[Finset.univ \ (tAllM).view.set]{Transfers.shareTokN (tq (cL L) (sL L)) tokN} t

omit [FloatOps F] in
theorem goodOut_join {α : Type} (x : S16384x50.Idx → BitVec 32) (w : S1000000x64.Idx → α) {I J : Finset S16384x50x128.Idx}
    {f g : S16384x50x128.Idx → α} (hf : GoodOut x w I f) (hg : GoodOut x w J g) : GoodOut x w (I ∪ J) (J.piecewise g f) := by
  intro i hi h
  by_cases hj : i ∈ J
  · rw [Finset.piecewise_eq_of_mem _ _ _ hj]; exact hg i hj h
  · rw [Finset.piecewise_eq_of_notMem _ _ _ hj]; exact hf i ((Finset.mem_union.mp hi).resolve_right hj) h

omit [FloatOps F] in
theorem goodOut_empty {α : Type} (x : S16384x50.Idx → BitVec 32) (w : S1000000x64.Idx → α) (a : ℕ) (f : S16384x50x128.Idx → α) :
    GoodOut x w (oRng a a) f := by
  intro i hi; rw [mem_oRng] at hi; omega

omit [FloatOps F] in
/-- The finished rows grow by one finished row. -/
theorem done_extend (a b : ℕ) (hab : a ≤ b) (g' : Buf (Elt F) (oLoc d)) (hg' : GoodOut (m (xLoc d)) (m (wLoc d)) (oRng b (b + 1)) g') :
    iprop((∃ gd : Buf (Elt F) (oLoc d), ⌜GoodOut (m (xLoc d)) (m (wLoc d)) (oRng a b) gd⌝ ∗ (oV).view.loc (V d (cV L) (jV L)) ↦[oRng a b]{fullShare} gd)
        ∗ ((oV).view.loc (V d (cV L) (jV L)) ↦[oRng b (b + 1)]{fullShare} g'))
      ⊢ (iprop(∃ gd : Buf (Elt F) (oLoc d), ⌜GoodOut (m (xLoc d)) (m (wLoc d)) (oRng a (b + 1)) gd⌝ ∗ (oV).view.loc (V d (cV L) (jV L)) ↦[oRng a (b + 1)]{fullShare} gd) : sProp 𝕄) := by
  iintro ⟨⟨%gd, %hgd, Hd⟩, Hr⟩
  iexists ((oRng b (b + 1)).piecewise g' gd)
  rw [oRng_union hab (Nat.le_succ b)]
  isplitr
  · ipureintro; exact goodOut_join _ _ hgd hg'
  · iapply (pointsTo_join (oRng_disjoint a b (b + 1)))
    isplitl [Hd] <;> iassumption

omit [FloatOps F] in
theorem pts_cast {ℓ : Loc nD τ sig} {S S' : Finset (Idx ℓ)} (h : S = S') (q : PosShare TreeShare) (f : Buf (Elt F) ℓ) :
    (ℓ ↦[S]{q} f : sProp 𝕄) ⊢ ℓ ↦[S']{q} f := by subst h; exact Entails.rfl

omit [FloatOps F] in
theorem inbo (r : ℕ) (hr : r < 512) : ∀ a, (![obase L + r, 0, 0] : Fin 3 → ℕ) a + S1x50x128.size a ≤ S16384x50x128.size a := by
  intro a
  have h0 : (L 0).val < 2 := (L 0).isLt
  have h1 : (L 1).val < 16 := (L 1).isLt
  match a with
  | 0 => simp [obase]; omega
  | 1 => simp
  | 2 => simp

omit [FloatOps F] in
theorem waits_ins {W W' : Waits sig (HIx 1)} (sm : SemLoc sig) (h : ∀ p ∈ W', p ∈ W ∨ p.2 = none) :
    ∀ p ∈ insert (sm, (default : HIx 1)) W', p ∈ W ∨ p.2 = none := by
  intro p hp
  rcases Finset.mem_insert.mp hp with hp | hp
  · exact .inr (hp ▸ rfl)
  · exact h p hp

/-- Row `r` of the subcore's rows, as a row of the index array and of the padded output. -/
abbrev rowN (L : grid1.Coords) (r : ℕ) (hr : r < 512) : Fin 16384 := ⟨512 * (wid (cL L) (sL L)).val + r, wid_row_lt L r hr⟩

omit [FloatOps F] in
theorem rowN_val (r : ℕ) (hr : r < 512) : (rowN L r hr).val = obase L + r := by
  show 512 * (wid (cL L) (sL L)).val + r = obase L + r
  rw [wid_val]; unfold obase; omega

/-- Slot `b` while its gather of index row `r` is in flight: its write semaphore free, the flight at SOME row-buffer
    contents whose gathered payload is good for row `r`, the rest of its read token of the table. -/
abbrev slotG (t : Buf (Elt F) (tLoc d)) (rb : Memref sig .scVector .vmem S50x128 .f32) (gs ws : DmaSems sig S_) (tokN : ℕ) (r : ℕ) (hr : r < 512) : sProp 𝕄 :=
  iprop(sv d L ws
    ∗ (∃ (fb : Buf (Elt F) (rb.view.loc (V d (cV L) (jV L)))) (pay : S50x128.Idx → Elt F .f32),
        ⌜RowGood (m (xLoc d)) (m (wLoc d)) (rowN L r hr) pay⌝ ∗ gFlight m d L t rb gs tokN r hr fb pay)
    ∗ tRest d L t tokN)

/-- Slot `b` while its write of output row `r` is in flight: its gather semaphore free, its read token whole. -/
abbrev slotW (t : Buf (Elt F) (tLoc d)) (rb : Memref sig .scVector .vmem S50x128 .f32) (gs ws : DmaSems sig S_) (tokN : ℕ) (r : ℕ) (hr : r < 512) : sProp 𝕄 :=
  iprop(sv d L gs ∗ ((tV).view.loc (V d (cV L) (jV L)) ↦{Transfers.shareTokN (tq (cL L) (sL L)) tokN} t)
    ∗ ∃ (g' : Buf (Elt F) (oLoc d)) (f' : Buf (Elt F) (rb.view.loc (V d (cV L) (jV L)))),
        ⌜GoodOut (m (xLoc d)) (m (wLoc d)) (oRng (obase L + r) (obase L + r + 1)) g'⌝
        ∗ Transfers.Flight countersEmb (V d (cV L) (jV L)) (SemLoc.dma ws.sem) (default : HIx 1) 204800
            iprop(((outRowM ![obase L + r, 0, 0] (inbo L r hr)).view.loc (V d (cV L) (jV L)) ↦[(outRowM ![obase L + r, 0, 0] (inbo L r hr)).view.set]{fullShare} g')
              ∗ (rb.view.loc (V d (cV L) (jV L)) ↦[rb.view.set]{fullShare} f'))
        ∗ (rb.view.loc (V d (cV L) (jV L)) ↦[Finset.univ \ rb.view.set]{fullShare} f'))

omit [FloatOps F] in
theorem slotG_cast (t : Buf (Elt F) (tLoc d)) (rb : Memref sig .scVector .vmem S50x128 .f32) (gs ws : DmaSems sig S_) (tokN : ℕ)
    (r r' : ℕ) (hr : r < 512) (hr' : r' < 512) (h : r = r') : slotG m d L t rb gs ws tokN r hr ⊢ slotG m d L t rb gs ws tokN r' hr' := by
  subst h; exact Entails.rfl

omit [FloatOps F] in
/-- The flight the run leaves after issuing the gather of the index row at offsets `o`, read as a slot's. -/
theorem gFlight_of (t : Buf (Elt F) (tLoc d)) (rb : Memref sig .scVector .vmem S50x128 .f32) (gs : DmaSems sig S_) (tokN : ℕ)
    (o : Fin 2 → ℕ) (ho : ∀ a, o a + S1x50.size a ≤ S512x50.size a) (r : ℕ) (hr : r < 512) (h : o = ![r, 0])
    (fb : Buf (Elt F) (rb.view.loc (V d (cV L) (jV L)))) (p0 pay : S50x128.Idx → Elt F .f32) :
    Transfers.Flight countersEmb (V d (cV L) (jV L)) (SemLoc.dma gs.sem) (default : HIx 1) 204800
        iprop(((rb.view.loc (V d (cV L) (jV L)) ↦{fullShare} rb.view.writes (Elt F) fb [⟨Rect.whole S50x128, pay⟩, ⟨Rect.whole S50x128, p0⟩])
            ∗ ((idxRowM o ho).view.loc (V d (cV L) (jV L)) ↦[(idxRowM o ho).view.set]{fullShare} idxC m d L))
          ∗ ((tV).view.loc (V d (cV L) (jV L)) ↦[(tAllM).view.set]{Transfers.shareTokN (tq (cL L) (sL L)) tokN} t))
      ⊢ gFlight m d L t rb gs tokN r hr (rb.view.writes (Elt F) fb [⟨Rect.whole S50x128, p0⟩]) pay := by
  subst h; exact Entails.rfl

omit [FloatOps F] in
/-- The same for a first gather, over the buffer's launch contents. -/
theorem gFlight_of0 (t : Buf (Elt F) (tLoc d)) (rb : Memref sig .scVector .vmem S50x128 .f32) (gs : DmaSems sig S_) (tokN : ℕ)
    (o : Fin 2 → ℕ) (ho : ∀ a, o a + S1x50.size a ≤ S512x50.size a) (r : ℕ) (hr : r < 512) (h : o = ![r, 0])
    (fb : Buf (Elt F) (rb.view.loc (V d (cV L) (jV L)))) (pay : S50x128.Idx → Elt F .f32) :
    Transfers.Flight countersEmb (V d (cV L) (jV L)) (SemLoc.dma gs.sem) (default : HIx 1) 204800
        iprop(((rb.view.loc (V d (cV L) (jV L)) ↦{fullShare} rb.view.writes (Elt F) fb [⟨Rect.whole S50x128, pay⟩])
            ∗ ((idxRowM o ho).view.loc (V d (cV L) (jV L)) ↦[(idxRowM o ho).view.set]{fullShare} idxC m d L))
          ∗ ((tV).view.loc (V d (cV L) (jV L)) ↦[(tAllM).view.set]{Transfers.shareTokN (tq (cL L) (sL L)) tokN} t))
      ⊢ gFlight m d L t rb gs tokN r hr fb pay := by
  subst h; exact Entails.rfl

omit [FloatOps F] in
/-- The flight the run leaves after issuing the write of the output row at offsets `o`, read as a slot's. -/
theorem wFlight_of (rb : Memref sig .scVector .vmem S50x128 .f32) (ws : DmaSems sig S_)
    (o : Fin 3 → ℕ) (ho : ∀ a, o a + S1x50x128.size a ≤ S16384x50x128.size a) (r : ℕ) (hr : r < 512) (h : o = ![obase L + r, 0, 0])
    (g' : Buf (Elt F) (oLoc d)) (f' : Buf (Elt F) (rb.view.loc (V d (cV L) (jV L)))) :
    (Transfers.Flight countersEmb (V d (cV L) (jV L)) (SemLoc.dma ws.sem) (default : HIx 1) 204800
        iprop(((outRowM o ho).view.loc (V d (cV L) (jV L)) ↦[(outRowM o ho).view.set]{fullShare} g') ∗ (rb.view.loc (V d (cV L) (jV L)) ↦[rb.view.set]{fullShare} f')) : sProp 𝕄)
      ⊢ Transfers.Flight countersEmb (V d (cV L) (jV L)) (SemLoc.dma ws.sem) (default : HIx 1) 204800
        iprop(((outRowM ![obase L + r, 0, 0] (inbo L r hr)).view.loc (V d (cV L) (jV L)) ↦[(outRowM ![obase L + r, 0, 0] (inbo L r hr)).view.set]{fullShare} g')
          ∗ (rb.view.loc (V d (cV L) (jV L)) ↦[rb.view.set]{fullShare} f')) := by
  subst h; exact Entails.rfl

/-- How many of the subcore's output rows are finished before trip `k`. -/
def dn (k : ℕ) : ℕ := 8 * min k 63

/-- What every trip boundary shares. -/
abbrev invC (t : Buf (Elt F) (tLoc d)) (O : CellTallies nD τ sig (HIx 1)) (W : Waits sig (HIx 1)) (k : ℕ) : sProp 𝕄 :=
  iprop(Transfers.MayWaits (V d (cV L) (jV L)) (default : HIx 1) O
    ∗ (∃ W', ⌜∀ p ∈ W', p ∈ W ∨ p.2 = none⌝ ∗ owes (V d (cV L) (jV L)) O W')
    ∗ ((iV).view.loc (V d (cV L) (jV L)) ↦[iRng 0 (8 * k)]{fullShare} idxC m d L)
    ∗ ((iV).view.loc (V d (cV L) (jV L)) ↦[iRng (8 * k + 8) 512]{fullShare} idxC m d L)
    ∗ (∃ gd : Buf (Elt F) (oLoc d), ⌜GoodOut (m (xLoc d)) (m (wLoc d)) (oRng (obase L) (obase L + dn k)) gd⌝ ∗ (oV).view.loc (V d (cV L) (jV L)) ↦[oRng (obase L) (obase L + dn k)]{fullShare} gd)
    ∗ (∃ g : Buf (Elt F) (oLoc d), (oV).view.loc (V d (cV L) (jV L)) ↦[oRng (obase L + 8 * k + 0) (obase L + 512)]{fullShare} g))

abbrev slotsG (t : Buf (Elt F) (tLoc d)) (k : ℕ) (hk : k < 64) : sProp 𝕄 :=
  iprop(slotG m d L t r0V cc1_scratch9 cc1_scratch17 4 (8 * k + 0) (by omega)
    ∗ slotG m d L t r1V cc1_scratch10 cc1_scratch18 5 (8 * k + 1) (by omega)
    ∗ slotG m d L t r2V cc1_scratch11 cc1_scratch19 6 (8 * k + 2) (by omega)
    ∗ slotG m d L t r3V cc1_scratch12 cc1_scratch20 7 (8 * k + 3) (by omega)
    ∗ slotG m d L t r4V cc1_scratch13 cc1_scratch21 8 (8 * k + 4) (by omega)
    ∗ slotG m d L t r5V cc1_scratch14 cc1_scratch22 9 (8 * k + 5) (by omega)
    ∗ slotG m d L t r6V cc1_scratch15 cc1_scratch23 10 (8 * k + 6) (by omega)
    ∗ slotG m d L t r7V cc1_scratch16 cc1_scratch24 11 (8 * k + 7) (by omega))

abbrev slotsW (t : Buf (Elt F) (tLoc d)) : sProp 𝕄 :=
  iprop(slotW m d L t r0V cc1_scratch9 cc1_scratch17 4 504 (by omega)
    ∗ slotW m d L t r1V cc1_scratch10 cc1_scratch18 5 505 (by omega)
    ∗ slotW m d L t r2V cc1_scratch11 cc1_scratch19 6 506 (by omega)
    ∗ slotW m d L t r3V cc1_scratch12 cc1_scratch20 7 507 (by omega)
    ∗ slotW m d L t r4V cc1_scratch13 cc1_scratch21 8 508 (by omega)
    ∗ slotW m d L t r5V cc1_scratch14 cc1_scratch22 9 509 (by omega)
    ∗ slotW m d L t r6V cc1_scratch15 cc1_scratch23 10 510 (by omega)
    ∗ slotW m d L t r7V cc1_scratch16 cc1_scratch24 11 511 (by omega))

/-- The loop's invariant: before trip `k` the index rows below `8k` are back, the output rows below `8k` hold their
    looked-up rows, and each slot has its gather of row `8k + b` in flight; after the last trip each slot has its
    write of row `504 + b` in flight instead. -/
def inv (t : Buf (Elt F) (tLoc d)) (O : CellTallies nD τ sig (HIx 1)) (W : Waits sig (HIx 1)) (k : ℕ) (_ : Unit) : sProp 𝕄 :=
  iprop(invC m d L t O W k ∗ if hk : k < 64 then slotsG m d L t k hk else slotsW m d L t)

omit [FloatOps F] in
theorem inv_lt (t : Buf (Elt F) (tLoc d)) (O : CellTallies nD τ sig (HIx 1)) (W : Waits sig (HIx 1)) (k : ℕ) (u : Unit) (hk : k < 64) :
    inv m d L t O W k u = iprop(invC m d L t O W k ∗ slotsG m d L t k hk) := by
  unfold inv; rw [dif_pos hk]
omit [FloatOps F] in
theorem inv_ge (t : Buf (Elt F) (tLoc d)) (O : CellTallies nD τ sig (HIx 1)) (W : Waits sig (HIx 1)) (k : ℕ) (u : Unit) (hk : ¬ k < 64) :
    inv m d L t O W k u = iprop(invC m d L t O W k ∗ slotsW m d L t) := by
  unfold inv; rw [dif_neg hk]

omit [FloatOps F] in
theorem dn_of_le {k : ℕ} (h : k ≤ 63) : dn k = 8 * k := by unfold dn; rw [Nat.min_eq_left h]
omit [FloatOps F] in
theorem dn_of_ge {k : ℕ} (h : 63 ≤ k) : dn k = 504 := by unfold dn; rw [Nat.min_eq_right h]

omit [FloatOps F] in
theorem done_cast (a b b' : ℕ) (h : a + b = b') :
    (iprop(∃ gd : Buf (Elt F) (oLoc d), ⌜GoodOut (m (xLoc d)) (m (wLoc d)) (oRng a (a + b)) gd⌝ ∗ (oV).view.loc (V d (cV L) (jV L)) ↦[oRng a (a + b)]{fullShare} gd) : sProp 𝕄)
      ⊢ iprop(∃ gd : Buf (Elt F) (oLoc d), ⌜GoodOut (m (xLoc d)) (m (wLoc d)) (oRng a b') gd⌝ ∗ (oV).view.loc (V d (cV L) (jV L)) ↦[oRng a b']{fullShare} gd) := by
  subst h; exact Entails.rfl

omit [FloatOps F] in
theorem iRng_empty_eq {a b : ℕ} (ha : 512 ≤ a) (hb : 512 ≤ b) : iRng a 512 = iRng b 512 := by
  ext i; simp only [mem_iRng]; omega

omit [FloatOps F] in
theorem off3_last (k : Fin k1_t1_loop.trips) (hk63 : k.val = 63) (b : Fin 8) :
    k1_off3 L k (BitVec.ofNat 32 b.val) = ![obase L + (504 + b.val), 0, 0] := by
  rw [k1_off3_eq L k b]
  have h : 1024 * (L 1).val + 512 * (L 0).val + 8 * k.val + b.val = obase L + (504 + b.val) := by unfold obase; omega
  rw [h]

omit [FloatOps F] in
theorem done_cast2 (a b b' : ℕ) (h : b = a + b') :
    (iprop(∃ gd : Buf (Elt F) (oLoc d), ⌜GoodOut (m (xLoc d)) (m (wLoc d)) (oRng a b) gd⌝ ∗ (oV).view.loc (V d (cV L) (jV L)) ↦[oRng a b]{fullShare} gd) : sProp 𝕄)
      ⊢ iprop(∃ gd : Buf (Elt F) (oLoc d), ⌜GoodOut (m (xLoc d)) (m (wLoc d)) (oRng a (a + b')) gd⌝ ∗ (oV).view.loc (V d (cV L) (jV L)) ↦[oRng a (a + b')]{fullShare} gd) := by
  subst h; exact Entails.rfl

omit [FloatOps F] in
theorem pts_iCast (f : S512x50.Idx → Elt F .i32) {a b a' b' : ℕ} (ha : a = a') (hb : b = b') :
    ((iV).view.loc (V d (cV L) (jV L)) ↦[iRng a b]{fullShare} f : sProp 𝕄) ⊢ (iV).view.loc (V d (cV L) (jV L)) ↦[iRng a' b']{fullShare} f := by
  subst ha hb; exact Entails.rfl
omit [FloatOps F] in
theorem pts_oCast (f : Buf (Elt F) (oLoc d)) {a b a' b' : ℕ} (ha : a = a') (hb : b = b') :
    ((oV).view.loc (V d (cV L) (jV L)) ↦[oRng a b]{fullShare} f : sProp 𝕄) ⊢ (oV).view.loc (V d (cV L) (jV L)) ↦[oRng a' b']{fullShare} f := by
  subst ha hb; exact Entails.rfl
omit [FloatOps F] in
theorem pts_iNil (f : S512x50.Idx → Elt F .i32) {a b : ℕ} (h : b ≤ a) :
    (iprop(emp) : sProp 𝕄) ⊢ (iV).view.loc (V d (cV L) (jV L)) ↦[iRng a b]{fullShare} f := by
  rw [show iRng a b = ∅ from Finset.eq_empty_of_forall_notMem fun i hi => by rw [mem_iRng] at hi; omega, pointsTo_empty]
omit [FloatOps F] in
theorem pts_oNil (f : Buf (Elt F) (oLoc d)) {a b : ℕ} (h : b ≤ a) :
    (iprop(emp) : sProp 𝕄) ⊢ (oV).view.loc (V d (cV L) (jV L)) ↦[oRng a b]{fullShare} f := by
  rw [show oRng a b = ∅ from Finset.eq_empty_of_forall_notMem fun i hi => by rw [mem_oRng] at hi; omega, pointsTo_empty]

set_option maxHeartbeats 16000000 in
/-- A trip that is not the last: each slot's gather landed, its row written out and that write awaited, its next gather issued. -/
theorem trip_lt (hpre : PreOK m) (t : Buf (Elt F) (tLoc d)) (ht : GoodTbl (m (wLoc d)) t) (O : CellTallies nD τ sig (HIx 1)) (W : Waits sig (HIx 1))
    (v2 : BitVec 32) (k : Fin k1_t1_loop.trips) (hk : k.val < 63) :
    inv m d L t O W k.val ()
      ⊢ wp frame (wpE (defs₀ (F := F)) 𝒱₀ (V d (cV L) (jV L)) none) Set.univ
          (k1_t1_body (F := F) L xV (Memref.isWhole_whole _) tV (Memref.isWhole_whole _) oV (Memref.isWhole_whole _)
  iV (Memref.isWhole_whole _) r0V (Memref.isWhole_whole _) r1V (Memref.isWhole_whole _) r2V (Memref.isWhole_whole _) r3V (Memref.isWhole_whole _)
  r4V (Memref.isWhole_whole _) r5V (Memref.isWhole_whole _) r6V (Memref.isWhole_whole _) r7V (Memref.isWhole_whole _)
  cc1_scratch9 cc1_scratch10 cc1_scratch11 cc1_scratch12 cc1_scratch13 cc1_scratch14 cc1_scratch15 cc1_scratch16
  cc1_scratch17 cc1_scratch18 cc1_scratch19 cc1_scratch20 cc1_scratch21 cc1_scratch22 cc1_scratch23 cc1_scratch24 cc1_scoped0 v2 k ())
          (inv m d L t O W (k.val + 1)) := by
  obtain ⟨hc1, hc2, hc3, hc4, hc5, hc6, hc7, hc8⟩ := k1_conds_pos k hk
  have hpost : inv m d L t O W (k.val + 1) = fun _ => iprop(invC m d L t O W (k.val + 1) ∗ slotsG m d L t (k.val + 1) (by omega)) :=
    funext fun u => inv_lt m d L t O W (k.val + 1) u (by omega)
  rw [hpost]
  have hin := inb_of_pre (F := F) m d L hpre
  have hk64 := k_lt64 k
  rw [inv_lt m d L t O W k.val () hk64]
  iintro ⟨⟨#Hmw, ⟨%W', %hW', HO⟩, Hpast, Hf0, Hdone, ⟨%g, Ho0⟩⟩, ⟨⟨Hw0, ⟨%fb0, %pay0, %hp0, Hg0⟩, Ht0⟩, ⟨Hw1, ⟨%fb1, %pay1, %hp1, Hg1⟩, Ht1⟩, ⟨Hw2, ⟨%fb2, %pay2, %hp2, Hg2⟩, Ht2⟩, ⟨Hw3, ⟨%fb3, %pay3, %hp3, Hg3⟩, Ht3⟩, ⟨Hw4, ⟨%fb4, %pay4, %hp4, Hg4⟩, Ht4⟩, ⟨Hw5, ⟨%fb5, %pay5, %hp5, Hg5⟩, Ht5⟩, ⟨Hw6, ⟨%fb6, %pay6, %hp6, Hg6⟩, Ht6⟩, ⟨Hw7, ⟨%fb7, %pay7, %hp7, Hg7⟩, Ht7⟩⟩⟩
  ihave Hsp := (pts_iRng_split (F := F) d L (idxC m d L) (a := 8 * k.val + 8) (b := 8 * k.val + 9) (c := 512) (by omega) (by omega)).1 $$ Hf0
  icases Hsp with ⟨Hrow0, Hf1⟩
  ihave Hl0 := (Entails.of_eq (pts_idxRow (F := F) d L (k1_off5 k) (k1_off5_inb k hc1) (8 * k.val + 8) (k1_off5_eq k) (idxC m d L)).symm) $$ Hrow0
  ihave Hsp := (pts_iRng_split (F := F) d L (idxC m d L) (a := 8 * k.val + 9) (b := 8 * k.val + 10) (c := 512) (by omega) (by omega)).1 $$ Hf1
  icases Hsp with ⟨Hrow1, Hf2⟩
  ihave Hl1 := (Entails.of_eq (pts_idxRow (F := F) d L (k1_off7 k) (k1_off7_inb k hc2) (8 * k.val + 9) (k1_off7_eq k) (idxC m d L)).symm) $$ Hrow1
  ihave Hsp := (pts_iRng_split (F := F) d L (idxC m d L) (a := 8 * k.val + 10) (b := 8 * k.val + 11) (c := 512) (by omega) (by omega)).1 $$ Hf2
  icases Hsp with ⟨Hrow2, Hf3⟩
  ihave Hl2 := (Entails.of_eq (pts_idxRow (F := F) d L (k1_off9 k) (k1_off9_inb k hc3) (8 * k.val + 10) (k1_off9_eq k) (idxC m d L)).symm) $$ Hrow2
  ihave Hsp := (pts_iRng_split (F := F) d L (idxC m d L) (a := 8 * k.val + 11) (b := 8 * k.val + 12) (c := 512) (by omega) (by omega)).1 $$ Hf3
  icases Hsp with ⟨Hrow3, Hf4⟩
  ihave Hl3 := (Entails.of_eq (pts_idxRow (F := F) d L (k1_off11 k) (k1_off11_inb k hc4) (8 * k.val + 11) (k1_off11_eq k) (idxC m d L)).symm) $$ Hrow3
  ihave Hsp := (pts_iRng_split (F := F) d L (idxC m d L) (a := 8 * k.val + 12) (b := 8 * k.val + 13) (c := 512) (by omega) (by omega)).1 $$ Hf4
  icases Hsp with ⟨Hrow4, Hf5⟩
  ihave Hl4 := (Entails.of_eq (pts_idxRow (F := F) d L (k1_off13 k) (k1_off13_inb k hc5) (8 * k.val + 12) (k1_off13_eq k) (idxC m d L)).symm) $$ Hrow4
  ihave Hsp := (pts_iRng_split (F := F) d L (idxC m d L) (a := 8 * k.val + 13) (b := 8 * k.val + 14) (c := 512) (by omega) (by omega)).1 $$ Hf5
  icases Hsp with ⟨Hrow5, Hf6⟩
  ihave Hl5 := (Entails.of_eq (pts_idxRow (F := F) d L (k1_off15 k) (k1_off15_inb k hc6) (8 * k.val + 13) (k1_off15_eq k) (idxC m d L)).symm) $$ Hrow5
  ihave Hsp := (pts_iRng_split (F := F) d L (idxC m d L) (a := 8 * k.val + 14) (b := 8 * k.val + 15) (c := 512) (by omega) (by omega)).1 $$ Hf6
  icases Hsp with ⟨Hrow6, Hf7⟩
  ihave Hl6 := (Entails.of_eq (pts_idxRow (F := F) d L (k1_off17 k) (k1_off17_inb k hc7) (8 * k.val + 14) (k1_off17_eq k) (idxC m d L)).symm) $$ Hrow6
  ihave Hsp := (pts_iRng_split (F := F) d L (idxC m d L) (a := 8 * k.val + 15) (b := 8 * k.val + 16) (c := 512) (by omega) (by omega)).1 $$ Hf7
  icases Hsp with ⟨Hrow7, Hf8⟩
  ihave Hl7 := (Entails.of_eq (pts_idxRow (F := F) d L (k1_off19 k) (k1_off19_inb k hc8) (8 * k.val + 15) (k1_off19_eq k) (idxC m d L)).symm) $$ Hrow7
  ihave Hsp := (pts_oRng_split (F := F) d L g (a := obase L + 8 * k.val + 0) (b := obase L + 8 * k.val + 1) (c := obase L + 512) (by omega) (by omega)).1 $$ Ho0
  icases Hsp with ⟨Horow0, Ho1⟩
  ihave Hor0 := (Entails.of_eq (pts_outRow (F := F) d L (k1_off3 L k 0#32) (k1_off3_inb L k 0) (obase L + 8 * k.val + 0) (k1_off3_eq L k 0) g).symm) $$ Horow0
  ihave Hsp := (pts_oRng_split (F := F) d L g (a := obase L + 8 * k.val + 1) (b := obase L + 8 * k.val + 2) (c := obase L + 512) (by omega) (by omega)).1 $$ Ho1
  icases Hsp with ⟨Horow1, Ho2⟩
  ihave Hor1 := (Entails.of_eq (pts_outRow (F := F) d L (k1_off3 L k 1#32) (k1_off3_inb L k 1) (obase L + 8 * k.val + 1) (k1_off3_eq L k 1) g).symm) $$ Horow1
  ihave Hsp := (pts_oRng_split (F := F) d L g (a := obase L + 8 * k.val + 2) (b := obase L + 8 * k.val + 3) (c := obase L + 512) (by omega) (by omega)).1 $$ Ho2
  icases Hsp with ⟨Horow2, Ho3⟩
  ihave Hor2 := (Entails.of_eq (pts_outRow (F := F) d L (k1_off3 L k 2#32) (k1_off3_inb L k 2) (obase L + 8 * k.val + 2) (k1_off3_eq L k 2) g).symm) $$ Horow2
  ihave Hsp := (pts_oRng_split (F := F) d L g (a := obase L + 8 * k.val + 3) (b := obase L + 8 * k.val + 4) (c := obase L + 512) (by omega) (by omega)).1 $$ Ho3
  icases Hsp with ⟨Horow3, Ho4⟩
  ihave Hor3 := (Entails.of_eq (pts_outRow (F := F) d L (k1_off3 L k 3#32) (k1_off3_inb L k 3) (obase L + 8 * k.val + 3) (k1_off3_eq L k 3) g).symm) $$ Horow3
  ihave Hsp := (pts_oRng_split (F := F) d L g (a := obase L + 8 * k.val + 4) (b := obase L + 8 * k.val + 5) (c := obase L + 512) (by omega) (by omega)).1 $$ Ho4
  icases Hsp with ⟨Horow4, Ho5⟩
  ihave Hor4 := (Entails.of_eq (pts_outRow (F := F) d L (k1_off3 L k 4#32) (k1_off3_inb L k 4) (obase L + 8 * k.val + 4) (k1_off3_eq L k 4) g).symm) $$ Horow4
  ihave Hsp := (pts_oRng_split (F := F) d L g (a := obase L + 8 * k.val + 5) (b := obase L + 8 * k.val + 6) (c := obase L + 512) (by omega) (by omega)).1 $$ Ho5
  icases Hsp with ⟨Horow5, Ho6⟩
  ihave Hor5 := (Entails.of_eq (pts_outRow (F := F) d L (k1_off3 L k 5#32) (k1_off3_inb L k 5) (obase L + 8 * k.val + 5) (k1_off3_eq L k 5) g).symm) $$ Horow5
  ihave Hsp := (pts_oRng_split (F := F) d L g (a := obase L + 8 * k.val + 6) (b := obase L + 8 * k.val + 7) (c := obase L + 512) (by omega) (by omega)).1 $$ Ho6
  icases Hsp with ⟨Horow6, Ho7⟩
  ihave Hor6 := (Entails.of_eq (pts_outRow (F := F) d L (k1_off3 L k 6#32) (k1_off3_inb L k 6) (obase L + 8 * k.val + 6) (k1_off3_eq L k 6) g).symm) $$ Horow6
  ihave Hsp := (pts_oRng_split (F := F) d L g (a := obase L + 8 * k.val + 7) (b := obase L + 8 * k.val + 8) (c := obase L + 512) (by omega) (by omega)).1 $$ Ho7
  icases Hsp with ⟨Horow7, Ho8⟩
  ihave Hor7 := (Entails.of_eq (pts_outRow (F := F) d L (k1_off3 L k 7#32) (k1_off3_inb L k 7) (obase L + 8 * k.val + 7) (k1_off3_eq L k 7) g).symm) $$ Horow7
  sl_exec (disch := assumption)
  sl_step
  isplitl [HO Hpast Hf8 Hdone Ho8 Hg0_dst_and Hor0 Hg1_dst_and Hor1 Hg2_dst_and Hor2 Hg3_dst_and Hor3 Hg4_dst_and Hor4 Hg5_dst_and Hor5 Hg6_dst_and Hor6 Hg7_dst_and Hor7]
  · isplitr; · iexact Hmw
    isplitl [HO]
    · iexists _; isplitr; swap; · iexact HO
      ipureintro; exact (waits_ins _ (waits_ins _ (waits_ins _ (waits_ins _ (waits_ins _ (waits_ins _ (waits_ins _ (waits_ins _ (waits_ins _ (waits_ins _ (waits_ins _ (waits_ins _ (waits_ins _ (waits_ins _ (waits_ins _ (waits_ins _ hW'))))))))))))))))
    isplitl [Hpast Hg0_dst_and Hg1_dst_and Hg2_dst_and Hg3_dst_and Hg4_dst_and Hg5_dst_and Hg6_dst_and Hg7_dst_and]
    · ihave Hp0 := (pts_iCast (F := F) d L (idxC m d L) (rfl : 0 = 0) (show 8 * k.val = 8 * k.val + 0 by omega)) $$ Hpast
      ihave Hr0 := (Entails.of_eq (pts_idxRow (F := F) d L ![8 * k.val + 0, 0] (inb_row (8 * k.val + 0) (by omega)) (8 * k.val + 0) rfl (idxC m d L))) $$ Hg0_dst_and
      ihave Hp1 := (pts_iRng_split (F := F) d L (idxC m d L) (a := 0) (b := 8 * k.val + 0) (c := 8 * k.val + 0 + 1) (by omega) (by omega)).2 $$ [Hp0 Hr0]
      · isplitl [Hp0]; · iexact Hp0
        iexact Hr0
      ihave Hr1 := (Entails.of_eq (pts_idxRow (F := F) d L ![8 * k.val + 1, 0] (inb_row (8 * k.val + 1) (by omega)) (8 * k.val + 1) rfl (idxC m d L))) $$ Hg1_dst_and
      ihave Hp2 := (pts_iRng_split (F := F) d L (idxC m d L) (a := 0) (b := 8 * k.val + 1) (c := 8 * k.val + 1 + 1) (by omega) (by omega)).2 $$ [Hp1 Hr1]
      · isplitl [Hp1]; · iexact Hp1
        iexact Hr1
      ihave Hr2 := (Entails.of_eq (pts_idxRow (F := F) d L ![8 * k.val + 2, 0] (inb_row (8 * k.val + 2) (by omega)) (8 * k.val + 2) rfl (idxC m d L))) $$ Hg2_dst_and
      ihave Hp3 := (pts_iRng_split (F := F) d L (idxC m d L) (a := 0) (b := 8 * k.val + 2) (c := 8 * k.val + 2 + 1) (by omega) (by omega)).2 $$ [Hp2 Hr2]
      · isplitl [Hp2]; · iexact Hp2
        iexact Hr2
      ihave Hr3 := (Entails.of_eq (pts_idxRow (F := F) d L ![8 * k.val + 3, 0] (inb_row (8 * k.val + 3) (by omega)) (8 * k.val + 3) rfl (idxC m d L))) $$ Hg3_dst_and
      ihave Hp4 := (pts_iRng_split (F := F) d L (idxC m d L) (a := 0) (b := 8 * k.val + 3) (c := 8 * k.val + 3 + 1) (by omega) (by omega)).2 $$ [Hp3 Hr3]
      · isplitl [Hp3]; · iexact Hp3
        iexact Hr3
      ihave Hr4 := (Entails.of_eq (pts_idxRow (F := F) d L ![8 * k.val + 4, 0] (inb_row (8 * k.val + 4) (by omega)) (8 * k.val + 4) rfl (idxC m d L))) $$ Hg4_dst_and
      ihave Hp5 := (pts_iRng_split (F := F) d L (idxC m d L) (a := 0) (b := 8 * k.val + 4) (c := 8 * k.val + 4 + 1) (by omega) (by omega)).2 $$ [Hp4 Hr4]
      · isplitl [Hp4]; · iexact Hp4
        iexact Hr4
      ihave Hr5 := (Entails.of_eq (pts_idxRow (F := F) d L ![8 * k.val + 5, 0] (inb_row (8 * k.val + 5) (by omega)) (8 * k.val + 5) rfl (idxC m d L))) $$ Hg5_dst_and
      ihave Hp6 := (pts_iRng_split (F := F) d L (idxC m d L) (a := 0) (b := 8 * k.val + 5) (c := 8 * k.val + 5 + 1) (by omega) (by omega)).2 $$ [Hp5 Hr5]
      · isplitl [Hp5]; · iexact Hp5
        iexact Hr5
      ihave Hr6 := (Entails.of_eq (pts_idxRow (F := F) d L ![8 * k.val + 6, 0] (inb_row (8 * k.val + 6) (by omega)) (8 * k.val + 6) rfl (idxC m d L))) $$ Hg6_dst_and
      ihave Hp7 := (pts_iRng_split (F := F) d L (idxC m d L) (a := 0) (b := 8 * k.val + 6) (c := 8 * k.val + 6 + 1) (by omega) (by omega)).2 $$ [Hp6 Hr6]
      · isplitl [Hp6]; · iexact Hp6
        iexact Hr6
      ihave Hr7 := (Entails.of_eq (pts_idxRow (F := F) d L ![8 * k.val + 7, 0] (inb_row (8 * k.val + 7) (by omega)) (8 * k.val + 7) rfl (idxC m d L))) $$ Hg7_dst_and
      ihave Hp8 := (pts_iRng_split (F := F) d L (idxC m d L) (a := 0) (b := 8 * k.val + 7) (c := 8 * k.val + 7 + 1) (by omega) (by omega)).2 $$ [Hp7 Hr7]
      · isplitl [Hp7]; · iexact Hp7
        iexact Hr7
      iapply (pts_iCast (F := F) d L (idxC m d L) (rfl : 0 = 0) (show 8 * k.val + 7 + 1 = 8 * (k.val + 1) by omega)) $$ Hp8
    isplitl [Hf8]
    · iapply (pts_iCast (F := F) d L (idxC m d L) (show 8 * k.val + 16 = 8 * (k.val + 1) + 8 by omega) (rfl : 512 = 512)) $$ Hf8
    isplitl [Hdone Hor0 Hor1 Hor2 Hor3 Hor4 Hor5 Hor6 Hor7]
    · ihave Hd0 := (done_cast (F := F) m d L (obase L) _ (obase L + 8 * k.val + 0) (by have := dn_of_le (show k.val ≤ 63 by omega); omega)) $$ Hdone
      have hgo0 := out_row_good m d L (rowN L (8 * k.val + 0) (by omega)) (obase L + 8 * k.val + 0) (rowN_val L _ _) (k1_off3 L k 0#32) (k1_off3_inb L k 0) (k1_off3_eq L k 0) g r0V fb0 pay0 hp0
      ihave Hrw0 := (Entails.of_eq (pts_outRow (F := F) d L (k1_off3 L k 0#32) (k1_off3_inb L k 0) (obase L + 8 * k.val + 0) (k1_off3_eq L k 0) _)) $$ Hor0
      ihave Hd1 := (done_extend (F := F) m d L (obase L) (obase L + 8 * k.val + 0) (by omega) _ hgo0) $$ [Hd0 Hrw0]
      · isplitl [Hd0]; · iexact Hd0
        iexact Hrw0
      have hgo1 := out_row_good m d L (rowN L (8 * k.val + 1) (by omega)) (obase L + 8 * k.val + 1) (rowN_val L _ _) (k1_off3 L k 1#32) (k1_off3_inb L k 1) (k1_off3_eq L k 1) g r1V fb1 pay1 hp1
      ihave Hrw1 := (Entails.of_eq (pts_outRow (F := F) d L (k1_off3 L k 1#32) (k1_off3_inb L k 1) (obase L + 8 * k.val + 1) (k1_off3_eq L k 1) _)) $$ Hor1
      ihave Hd2 := (done_extend (F := F) m d L (obase L) (obase L + 8 * k.val + 1) (by omega) _ hgo1) $$ [Hd1 Hrw1]
      · isplitl [Hd1]; · iexact Hd1
        iexact Hrw1
      have hgo2 := out_row_good m d L (rowN L (8 * k.val + 2) (by omega)) (obase L + 8 * k.val + 2) (rowN_val L _ _) (k1_off3 L k 2#32) (k1_off3_inb L k 2) (k1_off3_eq L k 2) g r2V fb2 pay2 hp2
      ihave Hrw2 := (Entails.of_eq (pts_outRow (F := F) d L (k1_off3 L k 2#32) (k1_off3_inb L k 2) (obase L + 8 * k.val + 2) (k1_off3_eq L k 2) _)) $$ Hor2
      ihave Hd3 := (done_extend (F := F) m d L (obase L) (obase L + 8 * k.val + 2) (by omega) _ hgo2) $$ [Hd2 Hrw2]
      · isplitl [Hd2]; · iexact Hd2
        iexact Hrw2
      have hgo3 := out_row_good m d L (rowN L (8 * k.val + 3) (by omega)) (obase L + 8 * k.val + 3) (rowN_val L _ _) (k1_off3 L k 3#32) (k1_off3_inb L k 3) (k1_off3_eq L k 3) g r3V fb3 pay3 hp3
      ihave Hrw3 := (Entails.of_eq (pts_outRow (F := F) d L (k1_off3 L k 3#32) (k1_off3_inb L k 3) (obase L + 8 * k.val + 3) (k1_off3_eq L k 3) _)) $$ Hor3
      ihave Hd4 := (done_extend (F := F) m d L (obase L) (obase L + 8 * k.val + 3) (by omega) _ hgo3) $$ [Hd3 Hrw3]
      · isplitl [Hd3]; · iexact Hd3
        iexact Hrw3
      have hgo4 := out_row_good m d L (rowN L (8 * k.val + 4) (by omega)) (obase L + 8 * k.val + 4) (rowN_val L _ _) (k1_off3 L k 4#32) (k1_off3_inb L k 4) (k1_off3_eq L k 4) g r4V fb4 pay4 hp4
      ihave Hrw4 := (Entails.of_eq (pts_outRow (F := F) d L (k1_off3 L k 4#32) (k1_off3_inb L k 4) (obase L + 8 * k.val + 4) (k1_off3_eq L k 4) _)) $$ Hor4
      ihave Hd5 := (done_extend (F := F) m d L (obase L) (obase L + 8 * k.val + 4) (by omega) _ hgo4) $$ [Hd4 Hrw4]
      · isplitl [Hd4]; · iexact Hd4
        iexact Hrw4
      have hgo5 := out_row_good m d L (rowN L (8 * k.val + 5) (by omega)) (obase L + 8 * k.val + 5) (rowN_val L _ _) (k1_off3 L k 5#32) (k1_off3_inb L k 5) (k1_off3_eq L k 5) g r5V fb5 pay5 hp5
      ihave Hrw5 := (Entails.of_eq (pts_outRow (F := F) d L (k1_off3 L k 5#32) (k1_off3_inb L k 5) (obase L + 8 * k.val + 5) (k1_off3_eq L k 5) _)) $$ Hor5
      ihave Hd6 := (done_extend (F := F) m d L (obase L) (obase L + 8 * k.val + 5) (by omega) _ hgo5) $$ [Hd5 Hrw5]
      · isplitl [Hd5]; · iexact Hd5
        iexact Hrw5
      have hgo6 := out_row_good m d L (rowN L (8 * k.val + 6) (by omega)) (obase L + 8 * k.val + 6) (rowN_val L _ _) (k1_off3 L k 6#32) (k1_off3_inb L k 6) (k1_off3_eq L k 6) g r6V fb6 pay6 hp6
      ihave Hrw6 := (Entails.of_eq (pts_outRow (F := F) d L (k1_off3 L k 6#32) (k1_off3_inb L k 6) (obase L + 8 * k.val + 6) (k1_off3_eq L k 6) _)) $$ Hor6
      ihave Hd7 := (done_extend (F := F) m d L (obase L) (obase L + 8 * k.val + 6) (by omega) _ hgo6) $$ [Hd6 Hrw6]
      · isplitl [Hd6]; · iexact Hd6
        iexact Hrw6
      have hgo7 := out_row_good m d L (rowN L (8 * k.val + 7) (by omega)) (obase L + 8 * k.val + 7) (rowN_val L _ _) (k1_off3 L k 7#32) (k1_off3_inb L k 7) (k1_off3_eq L k 7) g r7V fb7 pay7 hp7
      ihave Hrw7 := (Entails.of_eq (pts_outRow (F := F) d L (k1_off3 L k 7#32) (k1_off3_inb L k 7) (obase L + 8 * k.val + 7) (k1_off3_eq L k 7) _)) $$ Hor7
      ihave Hd8 := (done_extend (F := F) m d L (obase L) (obase L + 8 * k.val + 7) (by omega) _ hgo7) $$ [Hd7 Hrw7]
      · isplitl [Hd7]; · iexact Hd7
        iexact Hrw7
      iapply (done_cast2 (F := F) m d L (obase L) _ _ (by have := dn_of_le (show k.val + 1 ≤ 63 by omega); omega)) $$ Hd8
    iexists g
    iapply (pts_oCast (F := F) d L g (show obase L + 8 * k.val + 8 = obase L + 8 * (k.val + 1) + 0 by omega) (rfl : obase L + 512 = obase L + 512)) $$ Ho8
  isplitl [Hw0 Hg0 Ht0]
  · have hr : 8 * k.val + 8 < 512 := by omega
    have he : 8 * k.val + 8 = 8 * (k.val + 1) + 0 := by omega
    iapply (slotG_cast (F := F) m d L t r0V cc1_scratch9 cc1_scratch17 4 (8 * k.val + 8) (8 * (k.val + 1) + 0) hr _ he)
    isplitl [Hw0]; · iexact Hw0
    isplitr [Ht0]; swap; · iexact Ht0
    iexists _, _
    isplitr; swap
    · iapply (gFlight_of (F := F) m d L t r0V cc1_scratch9 4 (k1_off5 k) (k1_off5_inb k hc1) (8 * k.val + 8) hr (k1_off5_eq k) fb0 pay0 _)
      iexact Hg0
    · ipureintro
      exact gather_good m d L hpre t ht (k1_off5 k) (k1_off5_inb k hc1) (8 * k.val + 8) hr (k1_off5_eq k) rfl (hin _ _)
  isplitl [Hw1 Hg1 Ht1]
  · have hr : 8 * k.val + 9 < 512 := by omega
    have he : 8 * k.val + 9 = 8 * (k.val + 1) + 1 := by omega
    iapply (slotG_cast (F := F) m d L t r1V cc1_scratch10 cc1_scratch18 5 (8 * k.val + 9) (8 * (k.val + 1) + 1) hr _ he)
    isplitl [Hw1]; · iexact Hw1
    isplitr [Ht1]; swap; · iexact Ht1
    iexists _, _
    isplitr; swap
    · iapply (gFlight_of (F := F) m d L t r1V cc1_scratch10 5 (k1_off7 k) (k1_off7_inb k hc2) (8 * k.val + 9) hr (k1_off7_eq k) fb1 pay1 _)
      iexact Hg1
    · ipureintro
      exact gather_good m d L hpre t ht (k1_off7 k) (k1_off7_inb k hc2) (8 * k.val + 9) hr (k1_off7_eq k) rfl (hin _ _)
  isplitl [Hw2 Hg2 Ht2]
  · have hr : 8 * k.val + 10 < 512 := by omega
    have he : 8 * k.val + 10 = 8 * (k.val + 1) + 2 := by omega
    iapply (slotG_cast (F := F) m d L t r2V cc1_scratch11 cc1_scratch19 6 (8 * k.val + 10) (8 * (k.val + 1) + 2) hr _ he)
    isplitl [Hw2]; · iexact Hw2
    isplitr [Ht2]; swap; · iexact Ht2
    iexists _, _
    isplitr; swap
    · iapply (gFlight_of (F := F) m d L t r2V cc1_scratch11 6 (k1_off9 k) (k1_off9_inb k hc3) (8 * k.val + 10) hr (k1_off9_eq k) fb2 pay2 _)
      iexact Hg2
    · ipureintro
      exact gather_good m d L hpre t ht (k1_off9 k) (k1_off9_inb k hc3) (8 * k.val + 10) hr (k1_off9_eq k) rfl (hin _ _)
  isplitl [Hw3 Hg3 Ht3]
  · have hr : 8 * k.val + 11 < 512 := by omega
    have he : 8 * k.val + 11 = 8 * (k.val + 1) + 3 := by omega
    iapply (slotG_cast (F := F) m d L t r3V cc1_scratch12 cc1_scratch20 7 (8 * k.val + 11) (8 * (k.val + 1) + 3) hr _ he)
    isplitl [Hw3]; · iexact Hw3
    isplitr [Ht3]; swap; · iexact Ht3
    iexists _, _
    isplitr; swap
    · iapply (gFlight_of (F := F) m d L t r3V cc1_scratch12 7 (k1_off11 k) (k1_off11_inb k hc4) (8 * k.val + 11) hr (k1_off11_eq k) fb3 pay3 _)
      iexact Hg3
    · ipureintro
      exact gather_good m d L hpre t ht (k1_off11 k) (k1_off11_inb k hc4) (8 * k.val + 11) hr (k1_off11_eq k) rfl (hin _ _)
  isplitl [Hw4 Hg4 Ht4]
  · have hr : 8 * k.val + 12 < 512 := by omega
    have he : 8 * k.val + 12 = 8 * (k.val + 1) + 4 := by omega
    iapply (slotG_cast (F := F) m d L t r4V cc1_scratch13 cc1_scratch21 8 (8 * k.val + 12) (8 * (k.val + 1) + 4) hr _ he)
    isplitl [Hw4]; · iexact Hw4
    isplitr [Ht4]; swap; · iexact Ht4
    iexists _, _
    isplitr; swap
    · iapply (gFlight_of (F := F) m d L t r4V cc1_scratch13 8 (k1_off13 k) (k1_off13_inb k hc5) (8 * k.val + 12) hr (k1_off13_eq k) fb4 pay4 _)
      iexact Hg4
    · ipureintro
      exact gather_good m d L hpre t ht (k1_off13 k) (k1_off13_inb k hc5) (8 * k.val + 12) hr (k1_off13_eq k) rfl (hin _ _)
  isplitl [Hw5 Hg5 Ht5]
  · have hr : 8 * k.val + 13 < 512 := by omega
    have he : 8 * k.val + 13 = 8 * (k.val + 1) + 5 := by omega
    iapply (slotG_cast (F := F) m d L t r5V cc1_scratch14 cc1_scratch22 9 (8 * k.val + 13) (8 * (k.val + 1) + 5) hr _ he)
    isplitl [Hw5]; · iexact Hw5
    isplitr [Ht5]; swap; · iexact Ht5
    iexists _, _
    isplitr; swap
    · iapply (gFlight_of (F := F) m d L t r5V cc1_scratch14 9 (k1_off15 k) (k1_off15_inb k hc6) (8 * k.val + 13) hr (k1_off15_eq k) fb5 pay5 _)
      iexact Hg5
    · ipureintro
      exact gather_good m d L hpre t ht (k1_off15 k) (k1_off15_inb k hc6) (8 * k.val + 13) hr (k1_off15_eq k) rfl (hin _ _)
  isplitl [Hw6 Hg6 Ht6]
  · have hr : 8 * k.val + 14 < 512 := by omega
    have he : 8 * k.val + 14 = 8 * (k.val + 1) + 6 := by omega
    iapply (slotG_cast (F := F) m d L t r6V cc1_scratch15 cc1_scratch23 10 (8 * k.val + 14) (8 * (k.val + 1) + 6) hr _ he)
    isplitl [Hw6]; · iexact Hw6
    isplitr [Ht6]; swap; · iexact Ht6
    iexists _, _
    isplitr; swap
    · iapply (gFlight_of (F := F) m d L t r6V cc1_scratch15 10 (k1_off17 k) (k1_off17_inb k hc7) (8 * k.val + 14) hr (k1_off17_eq k) fb6 pay6 _)
      iexact Hg6
    · ipureintro
      exact gather_good m d L hpre t ht (k1_off17 k) (k1_off17_inb k hc7) (8 * k.val + 14) hr (k1_off17_eq k) rfl (hin _ _)
  · have hr : 8 * k.val + 15 < 512 := by omega
    have he : 8 * k.val + 15 = 8 * (k.val + 1) + 7 := by omega
    iapply (slotG_cast (F := F) m d L t r7V cc1_scratch16 cc1_scratch24 11 (8 * k.val + 15) (8 * (k.val + 1) + 7) hr _ he)
    isplitl [Hw7]; · iexact Hw7
    isplitr [Ht7]; swap; · iexact Ht7
    iexists _, _
    isplitr; swap
    · iapply (gFlight_of (F := F) m d L t r7V cc1_scratch16 11 (k1_off19 k) (k1_off19_inb k hc8) (8 * k.val + 15) hr (k1_off19_eq k) fb7 pay7 _)
      iexact Hg7
    · ipureintro
      exact gather_good m d L hpre t ht (k1_off19 k) (k1_off19_inb k hc8) (8 * k.val + 15) hr (k1_off19_eq k) rfl (hin _ _)

set_option maxHeartbeats 16000000 in
/-- The last trip: each slot's gather landed and its row's write issued; nothing is refilled. -/
theorem trip_63 (hpre : PreOK m) (t : Buf (Elt F) (tLoc d)) (ht : GoodTbl (m (wLoc d)) t) (O : CellTallies nD τ sig (HIx 1)) (W : Waits sig (HIx 1))
    (v2 : BitVec 32) (k : Fin k1_t1_loop.trips) (hk : ¬ k.val < 63) :
    inv m d L t O W k.val ()
      ⊢ wp frame (wpE (defs₀ (F := F)) 𝒱₀ (V d (cV L) (jV L)) none) Set.univ
          (k1_t1_body (F := F) L xV (Memref.isWhole_whole _) tV (Memref.isWhole_whole _) oV (Memref.isWhole_whole _)
  iV (Memref.isWhole_whole _) r0V (Memref.isWhole_whole _) r1V (Memref.isWhole_whole _) r2V (Memref.isWhole_whole _) r3V (Memref.isWhole_whole _)
  r4V (Memref.isWhole_whole _) r5V (Memref.isWhole_whole _) r6V (Memref.isWhole_whole _) r7V (Memref.isWhole_whole _)
  cc1_scratch9 cc1_scratch10 cc1_scratch11 cc1_scratch12 cc1_scratch13 cc1_scratch14 cc1_scratch15 cc1_scratch16
  cc1_scratch17 cc1_scratch18 cc1_scratch19 cc1_scratch20 cc1_scratch21 cc1_scratch22 cc1_scratch23 cc1_scratch24 cc1_scoped0 v2 k ())
          (inv m d L t O W (k.val + 1)) := by
  obtain ⟨hc1, hc2, hc3, hc4, hc5, hc6, hc7, hc8⟩ := k1_conds_neg k hk
  have hk63 : k.val = 63 := by have := k_lt64 k; omega
  have hpost : inv m d L t O W (k.val + 1) = fun _ => iprop(invC m d L t O W (k.val + 1) ∗ slotsW m d L t) :=
    funext fun u => inv_ge m d L t O W (k.val + 1) u (by omega)
  rw [hpost]
  have hin := inb_of_pre (F := F) m d L hpre
  have hk64 := k_lt64 k
  rw [inv_lt m d L t O W k.val () hk64]
  iintro ⟨⟨#Hmw, ⟨%W', %hW', HO⟩, Hpast, Hf0, Hdone, ⟨%g, Ho0⟩⟩, ⟨⟨Hw0, ⟨%fb0, %pay0, %hp0, Hg0⟩, Ht0⟩, ⟨Hw1, ⟨%fb1, %pay1, %hp1, Hg1⟩, Ht1⟩, ⟨Hw2, ⟨%fb2, %pay2, %hp2, Hg2⟩, Ht2⟩, ⟨Hw3, ⟨%fb3, %pay3, %hp3, Hg3⟩, Ht3⟩, ⟨Hw4, ⟨%fb4, %pay4, %hp4, Hg4⟩, Ht4⟩, ⟨Hw5, ⟨%fb5, %pay5, %hp5, Hg5⟩, Ht5⟩, ⟨Hw6, ⟨%fb6, %pay6, %hp6, Hg6⟩, Ht6⟩, ⟨Hw7, ⟨%fb7, %pay7, %hp7, Hg7⟩, Ht7⟩⟩⟩
  ihave Hsp := (pts_oRng_split (F := F) d L g (a := obase L + 8 * k.val + 0) (b := obase L + 8 * k.val + 1) (c := obase L + 512) (by omega) (by omega)).1 $$ Ho0
  icases Hsp with ⟨Horow0, Ho1⟩
  ihave Hor0 := (Entails.of_eq (pts_outRow (F := F) d L (k1_off3 L k 0#32) (k1_off3_inb L k 0) (obase L + 8 * k.val + 0) (k1_off3_eq L k 0) g).symm) $$ Horow0
  ihave Hsp := (pts_oRng_split (F := F) d L g (a := obase L + 8 * k.val + 1) (b := obase L + 8 * k.val + 2) (c := obase L + 512) (by omega) (by omega)).1 $$ Ho1
  icases Hsp with ⟨Horow1, Ho2⟩
  ihave Hor1 := (Entails.of_eq (pts_outRow (F := F) d L (k1_off3 L k 1#32) (k1_off3_inb L k 1) (obase L + 8 * k.val + 1) (k1_off3_eq L k 1) g).symm) $$ Horow1
  ihave Hsp := (pts_oRng_split (F := F) d L g (a := obase L + 8 * k.val + 2) (b := obase L + 8 * k.val + 3) (c := obase L + 512) (by omega) (by omega)).1 $$ Ho2
  icases Hsp with ⟨Horow2, Ho3⟩
  ihave Hor2 := (Entails.of_eq (pts_outRow (F := F) d L (k1_off3 L k 2#32) (k1_off3_inb L k 2) (obase L + 8 * k.val + 2) (k1_off3_eq L k 2) g).symm) $$ Horow2
  ihave Hsp := (pts_oRng_split (F := F) d L g (a := obase L + 8 * k.val + 3) (b := obase L + 8 * k.val + 4) (c := obase L + 512) (by omega) (by omega)).1 $$ Ho3
  icases Hsp with ⟨Horow3, Ho4⟩
  ihave Hor3 := (Entails.of_eq (pts_outRow (F := F) d L (k1_off3 L k 3#32) (k1_off3_inb L k 3) (obase L + 8 * k.val + 3) (k1_off3_eq L k 3) g).symm) $$ Horow3
  ihave Hsp := (pts_oRng_split (F := F) d L g (a := obase L + 8 * k.val + 4) (b := obase L + 8 * k.val + 5) (c := obase L + 512) (by omega) (by omega)).1 $$ Ho4
  icases Hsp with ⟨Horow4, Ho5⟩
  ihave Hor4 := (Entails.of_eq (pts_outRow (F := F) d L (k1_off3 L k 4#32) (k1_off3_inb L k 4) (obase L + 8 * k.val + 4) (k1_off3_eq L k 4) g).symm) $$ Horow4
  ihave Hsp := (pts_oRng_split (F := F) d L g (a := obase L + 8 * k.val + 5) (b := obase L + 8 * k.val + 6) (c := obase L + 512) (by omega) (by omega)).1 $$ Ho5
  icases Hsp with ⟨Horow5, Ho6⟩
  ihave Hor5 := (Entails.of_eq (pts_outRow (F := F) d L (k1_off3 L k 5#32) (k1_off3_inb L k 5) (obase L + 8 * k.val + 5) (k1_off3_eq L k 5) g).symm) $$ Horow5
  ihave Hsp := (pts_oRng_split (F := F) d L g (a := obase L + 8 * k.val + 6) (b := obase L + 8 * k.val + 7) (c := obase L + 512) (by omega) (by omega)).1 $$ Ho6
  icases Hsp with ⟨Horow6, Ho7⟩
  ihave Hor6 := (Entails.of_eq (pts_outRow (F := F) d L (k1_off3 L k 6#32) (k1_off3_inb L k 6) (obase L + 8 * k.val + 6) (k1_off3_eq L k 6) g).symm) $$ Horow6
  ihave Hsp := (pts_oRng_split (F := F) d L g (a := obase L + 8 * k.val + 7) (b := obase L + 8 * k.val + 8) (c := obase L + 512) (by omega) (by omega)).1 $$ Ho7
  icases Hsp with ⟨Horow7, Ho8⟩
  ihave Hor7 := (Entails.of_eq (pts_outRow (F := F) d L (k1_off3 L k 7#32) (k1_off3_inb L k 7) (obase L + 8 * k.val + 7) (k1_off3_eq L k 7) g).symm) $$ Horow7
  sl_exec (disch := assumption)
  sl_step
  isplitl [HO Hpast Hf0 Hdone Ho8 Hg0_dst_and Hg1_dst_and Hg2_dst_and Hg3_dst_and Hg4_dst_and Hg5_dst_and Hg6_dst_and Hg7_dst_and]
  · isplitr; · iexact Hmw
    isplitl [HO]
    · iexists _; isplitr; swap; · iexact HO
      ipureintro; exact (waits_ins _ (waits_ins _ (waits_ins _ (waits_ins _ (waits_ins _ (waits_ins _ (waits_ins _ (waits_ins _ hW'))))))))
    isplitl [Hpast Hg0_dst_and Hg1_dst_and Hg2_dst_and Hg3_dst_and Hg4_dst_and Hg5_dst_and Hg6_dst_and Hg7_dst_and]
    · ihave Hp0 := (pts_iCast (F := F) d L (idxC m d L) (rfl : 0 = 0) (show 8 * k.val = 8 * k.val + 0 by omega)) $$ Hpast
      ihave Hr0 := (Entails.of_eq (pts_idxRow (F := F) d L ![8 * k.val + 0, 0] (inb_row (8 * k.val + 0) (by omega)) (8 * k.val + 0) rfl (idxC m d L))) $$ Hg0_dst_and
      ihave Hp1 := (pts_iRng_split (F := F) d L (idxC m d L) (a := 0) (b := 8 * k.val + 0) (c := 8 * k.val + 0 + 1) (by omega) (by omega)).2 $$ [Hp0 Hr0]
      · isplitl [Hp0]; · iexact Hp0
        iexact Hr0
      ihave Hr1 := (Entails.of_eq (pts_idxRow (F := F) d L ![8 * k.val + 1, 0] (inb_row (8 * k.val + 1) (by omega)) (8 * k.val + 1) rfl (idxC m d L))) $$ Hg1_dst_and
      ihave Hp2 := (pts_iRng_split (F := F) d L (idxC m d L) (a := 0) (b := 8 * k.val + 1) (c := 8 * k.val + 1 + 1) (by omega) (by omega)).2 $$ [Hp1 Hr1]
      · isplitl [Hp1]; · iexact Hp1
        iexact Hr1
      ihave Hr2 := (Entails.of_eq (pts_idxRow (F := F) d L ![8 * k.val + 2, 0] (inb_row (8 * k.val + 2) (by omega)) (8 * k.val + 2) rfl (idxC m d L))) $$ Hg2_dst_and
      ihave Hp3 := (pts_iRng_split (F := F) d L (idxC m d L) (a := 0) (b := 8 * k.val + 2) (c := 8 * k.val + 2 + 1) (by omega) (by omega)).2 $$ [Hp2 Hr2]
      · isplitl [Hp2]; · iexact Hp2
        iexact Hr2
      ihave Hr3 := (Entails.of_eq (pts_idxRow (F := F) d L ![8 * k.val + 3, 0] (inb_row (8 * k.val + 3) (by omega)) (8 * k.val + 3) rfl (idxC m d L))) $$ Hg3_dst_and
      ihave Hp4 := (pts_iRng_split (F := F) d L (idxC m d L) (a := 0) (b := 8 * k.val + 3) (c := 8 * k.val + 3 + 1) (by omega) (by omega)).2 $$ [Hp3 Hr3]
      · isplitl [Hp3]; · iexact Hp3
        iexact Hr3
      ihave Hr4 := (Entails.of_eq (pts_idxRow (F := F) d L ![8 * k.val + 4, 0] (inb_row (8 * k.val + 4) (by omega)) (8 * k.val + 4) rfl (idxC m d L))) $$ Hg4_dst_and
      ihave Hp5 := (pts_iRng_split (F := F) d L (idxC m d L) (a := 0) (b := 8 * k.val + 4) (c := 8 * k.val + 4 + 1) (by omega) (by omega)).2 $$ [Hp4 Hr4]
      · isplitl [Hp4]; · iexact Hp4
        iexact Hr4
      ihave Hr5 := (Entails.of_eq (pts_idxRow (F := F) d L ![8 * k.val + 5, 0] (inb_row (8 * k.val + 5) (by omega)) (8 * k.val + 5) rfl (idxC m d L))) $$ Hg5_dst_and
      ihave Hp6 := (pts_iRng_split (F := F) d L (idxC m d L) (a := 0) (b := 8 * k.val + 5) (c := 8 * k.val + 5 + 1) (by omega) (by omega)).2 $$ [Hp5 Hr5]
      · isplitl [Hp5]; · iexact Hp5
        iexact Hr5
      ihave Hr6 := (Entails.of_eq (pts_idxRow (F := F) d L ![8 * k.val + 6, 0] (inb_row (8 * k.val + 6) (by omega)) (8 * k.val + 6) rfl (idxC m d L))) $$ Hg6_dst_and
      ihave Hp7 := (pts_iRng_split (F := F) d L (idxC m d L) (a := 0) (b := 8 * k.val + 6) (c := 8 * k.val + 6 + 1) (by omega) (by omega)).2 $$ [Hp6 Hr6]
      · isplitl [Hp6]; · iexact Hp6
        iexact Hr6
      ihave Hr7 := (Entails.of_eq (pts_idxRow (F := F) d L ![8 * k.val + 7, 0] (inb_row (8 * k.val + 7) (by omega)) (8 * k.val + 7) rfl (idxC m d L))) $$ Hg7_dst_and
      ihave Hp8 := (pts_iRng_split (F := F) d L (idxC m d L) (a := 0) (b := 8 * k.val + 7) (c := 8 * k.val + 7 + 1) (by omega) (by omega)).2 $$ [Hp7 Hr7]
      · isplitl [Hp7]; · iexact Hp7
        iexact Hr7
      iapply (pts_iCast (F := F) d L (idxC m d L) (rfl : 0 = 0) (show 8 * k.val + 7 + 1 = 8 * (k.val + 1) by omega)) $$ Hp8
    isplitl [Hf0]
    · iapply (pts_cast (F := F) (ℓ := (iV).view.loc (V d (cV L) (jV L))) (iRng_empty_eq (by omega) (by omega)) _ _) $$ Hf0
    isplitl [Hdone]
    · iapply (done_cast (F := F) m d L (obase L) _ _ (by rw [dn_of_ge (show 63 ≤ k.val by omega), dn_of_ge (show 63 ≤ k.val + 1 by omega)])) $$ Hdone
    iexists g
    iapply (pts_oCast (F := F) d L g (show obase L + 8 * k.val + 8 = obase L + 8 * (k.val + 1) + 0 by omega) (rfl : obase L + 512 = obase L + 512)) $$ Ho8
  isplitl [Hg0 Ht0 Hw0 Hg0_dst]
  · have hr : 504 < 512 := by omega
    isplitl [Hg0]; · iexact Hg0
    isplitl [Ht0]; · iexact Ht0
    iexists _, _
    isplitr; swap
    · isplitl [Hw0]
      · iapply (wFlight_of (F := F) d L r0V cc1_scratch17 (k1_off3 L k 0#32) (k1_off3_inb L k 0) 504 hr (off3_last L k hk63 0) _ _)
        iexact Hw0
      · iexact Hg0_dst
    · ipureintro
      have hrow : (rowN L (8 * k.val + 0) (by omega)).val = obase L + 504 := by rw [rowN_val]; omega
      exact out_row_good m d L (rowN L (8 * k.val + 0) (by omega)) (obase L + 504) hrow (k1_off3 L k 0#32) (k1_off3_inb L k 0) (off3_last L k hk63 0) g r0V fb0 pay0 hp0
  isplitl [Hg1 Ht1 Hw1 Hg1_dst]
  · have hr : 505 < 512 := by omega
    isplitl [Hg1]; · iexact Hg1
    isplitl [Ht1]; · iexact Ht1
    iexists _, _
    isplitr; swap
    · isplitl [Hw1]
      · iapply (wFlight_of (F := F) d L r1V cc1_scratch18 (k1_off3 L k 1#32) (k1_off3_inb L k 1) 505 hr (off3_last L k hk63 1) _ _)
        iexact Hw1
      · iexact Hg1_dst
    · ipureintro
      have hrow : (rowN L (8 * k.val + 1) (by omega)).val = obase L + 505 := by rw [rowN_val]; omega
      exact out_row_good m d L (rowN L (8 * k.val + 1) (by omega)) (obase L + 505) hrow (k1_off3 L k 1#32) (k1_off3_inb L k 1) (off3_last L k hk63 1) g r1V fb1 pay1 hp1
  isplitl [Hg2 Ht2 Hw2 Hg2_dst]
  · have hr : 506 < 512 := by omega
    isplitl [Hg2]; · iexact Hg2
    isplitl [Ht2]; · iexact Ht2
    iexists _, _
    isplitr; swap
    · isplitl [Hw2]
      · iapply (wFlight_of (F := F) d L r2V cc1_scratch19 (k1_off3 L k 2#32) (k1_off3_inb L k 2) 506 hr (off3_last L k hk63 2) _ _)
        iexact Hw2
      · iexact Hg2_dst
    · ipureintro
      have hrow : (rowN L (8 * k.val + 2) (by omega)).val = obase L + 506 := by rw [rowN_val]; omega
      exact out_row_good m d L (rowN L (8 * k.val + 2) (by omega)) (obase L + 506) hrow (k1_off3 L k 2#32) (k1_off3_inb L k 2) (off3_last L k hk63 2) g r2V fb2 pay2 hp2
  isplitl [Hg3 Ht3 Hw3 Hg3_dst]
  · have hr : 507 < 512 := by omega
    isplitl [Hg3]; · iexact Hg3
    isplitl [Ht3]; · iexact Ht3
    iexists _, _
    isplitr; swap
    · isplitl [Hw3]
      · iapply (wFlight_of (F := F) d L r3V cc1_scratch20 (k1_off3 L k 3#32) (k1_off3_inb L k 3) 507 hr (off3_last L k hk63 3) _ _)
        iexact Hw3
      · iexact Hg3_dst
    · ipureintro
      have hrow : (rowN L (8 * k.val + 3) (by omega)).val = obase L + 507 := by rw [rowN_val]; omega
      exact out_row_good m d L (rowN L (8 * k.val + 3) (by omega)) (obase L + 507) hrow (k1_off3 L k 3#32) (k1_off3_inb L k 3) (off3_last L k hk63 3) g r3V fb3 pay3 hp3
  isplitl [Hg4 Ht4 Hw4 Hg4_dst]
  · have hr : 508 < 512 := by omega
    isplitl [Hg4]; · iexact Hg4
    isplitl [Ht4]; · iexact Ht4
    iexists _, _
    isplitr; swap
    · isplitl [Hw4]
      · iapply (wFlight_of (F := F) d L r4V cc1_scratch21 (k1_off3 L k 4#32) (k1_off3_inb L k 4) 508 hr (off3_last L k hk63 4) _ _)
        iexact Hw4
      · iexact Hg4_dst
    · ipureintro
      have hrow : (rowN L (8 * k.val + 4) (by omega)).val = obase L + 508 := by rw [rowN_val]; omega
      exact out_row_good m d L (rowN L (8 * k.val + 4) (by omega)) (obase L + 508) hrow (k1_off3 L k 4#32) (k1_off3_inb L k 4) (off3_last L k hk63 4) g r4V fb4 pay4 hp4
  isplitl [Hg5 Ht5 Hw5 Hg5_dst]
  · have hr : 509 < 512 := by omega
    isplitl [Hg5]; · iexact Hg5
    isplitl [Ht5]; · iexact Ht5
    iexists _, _
    isplitr; swap
    · isplitl [Hw5]
      · iapply (wFlight_of (F := F) d L r5V cc1_scratch22 (k1_off3 L k 5#32) (k1_off3_inb L k 5) 509 hr (off3_last L k hk63 5) _ _)
        iexact Hw5
      · iexact Hg5_dst
    · ipureintro
      have hrow : (rowN L (8 * k.val + 5) (by omega)).val = obase L + 509 := by rw [rowN_val]; omega
      exact out_row_good m d L (rowN L (8 * k.val + 5) (by omega)) (obase L + 509) hrow (k1_off3 L k 5#32) (k1_off3_inb L k 5) (off3_last L k hk63 5) g r5V fb5 pay5 hp5
  isplitl [Hg6 Ht6 Hw6 Hg6_dst]
  · have hr : 510 < 512 := by omega
    isplitl [Hg6]; · iexact Hg6
    isplitl [Ht6]; · iexact Ht6
    iexists _, _
    isplitr; swap
    · isplitl [Hw6]
      · iapply (wFlight_of (F := F) d L r6V cc1_scratch23 (k1_off3 L k 6#32) (k1_off3_inb L k 6) 510 hr (off3_last L k hk63 6) _ _)
        iexact Hw6
      · iexact Hg6_dst
    · ipureintro
      have hrow : (rowN L (8 * k.val + 6) (by omega)).val = obase L + 510 := by rw [rowN_val]; omega
      exact out_row_good m d L (rowN L (8 * k.val + 6) (by omega)) (obase L + 510) hrow (k1_off3 L k 6#32) (k1_off3_inb L k 6) (off3_last L k hk63 6) g r6V fb6 pay6 hp6
  · have hr : 511 < 512 := by omega
    isplitl [Hg7]; · iexact Hg7
    isplitl [Ht7]; · iexact Ht7
    iexists _, _
    isplitr; swap
    · isplitl [Hw7]
      · iapply (wFlight_of (F := F) d L r7V cc1_scratch24 (k1_off3 L k 7#32) (k1_off3_inb L k 7) 511 hr (off3_last L k hk63 7) _ _)
        iexact Hw7
      · iexact Hg7_dst
    · ipureintro
      have hrow : (rowN L (8 * k.val + 7) (by omega)).val = obase L + 511 := by rw [rowN_val]; omega
      exact out_row_good m d L (rowN L (8 * k.val + 7) (by omega)) (obase L + 511) hrow (k1_off3 L k 7#32) (k1_off3_inb L k 7) (off3_last L k hk63 7) g r7V fb7 pay7 hp7

end Tile
end Cert.KernelIdeal.Hand
end
-- ==== Proof.HandKernelIdeal.Tile.lean ====
/-
  The body obligation of the lookup kernel on one vector subcore.  The subcore fetches its 512 rows of the index
  array, starts eight gathers of table rows into its eight row buffers, and runs 64 trips of a ring: in trip k,
  slot b waits for its gather of row 8k + b, writes the row buffer out to output row 8k + b, and — except in the
  last trip — waits for that write and starts the gather of row 8k + 8 + b.  The loop goes by an invariant; the
  value is carried in it: the finished output rows hold, in their first 64 columns, the table rows their index
  words name.
-/
import proofs.«206440_g52347061403653_cont_9to1_m_884_16_alg».proof.Proof.HandKernelIdeal.TileD

noncomputable section

namespace Cert.KernelIdeal.Hand

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "xV" => (Memref.whole Cert.KernelIdeal.main_arg0_scv : Memref Cert.KernelIdeal.sig Kind.scVector Space.hbm Cert.KernelIdeal.S16384x50 EltTy.i32)
local notation "tV" => (Memref.whole Cert.KernelIdeal.main_v1_scv : Memref Cert.KernelIdeal.sig Kind.scVector Space.hbm Cert.KernelIdeal.S1000000x128 EltTy.f32)
local notation "oV" => (Memref.whole Cert.KernelIdeal.main_v2_scv : Memref Cert.KernelIdeal.sig Kind.scVector Space.hbm Cert.KernelIdeal.S16384x50x128 EltTy.f32)
local notation "iV" => (Memref.whole Cert.KernelIdeal.cc1_scratch0 : Memref Cert.KernelIdeal.sig Kind.scVector Space.vmem Cert.KernelIdeal.S512x50 EltTy.i32)
local notation "r0V" => (Memref.whole Cert.KernelIdeal.cc1_scratch1 : Memref Cert.KernelIdeal.sig Kind.scVector Space.vmem Cert.KernelIdeal.S50x128 EltTy.f32)
local notation "r1V" => (Memref.whole Cert.KernelIdeal.cc1_scratch2 : Memref Cert.KernelIdeal.sig Kind.scVector Space.vmem Cert.KernelIdeal.S50x128 EltTy.f32)
local notation "r2V" => (Memref.whole Cert.KernelIdeal.cc1_scratch3 : Memref Cert.KernelIdeal.sig Kind.scVector Space.vmem Cert.KernelIdeal.S50x128 EltTy.f32)
local notation "r3V" => (Memref.whole Cert.KernelIdeal.cc1_scratch4 : Memref Cert.KernelIdeal.sig Kind.scVector Space.vmem Cert.KernelIdeal.S50x128 EltTy.f32)
local notation "r4V" => (Memref.whole Cert.KernelIdeal.cc1_scratch5 : Memref Cert.KernelIdeal.sig Kind.scVector Space.vmem Cert.KernelIdeal.S50x128 EltTy.f32)
local notation "r5V" => (Memref.whole Cert.KernelIdeal.cc1_scratch6 : Memref Cert.KernelIdeal.sig Kind.scVector Space.vmem Cert.KernelIdeal.S50x128 EltTy.f32)
local notation "r6V" => (Memref.whole Cert.KernelIdeal.cc1_scratch7 : Memref Cert.KernelIdeal.sig Kind.scVector Space.vmem Cert.KernelIdeal.S50x128 EltTy.f32)
local notation "r7V" => (Memref.whole Cert.KernelIdeal.cc1_scratch8 : Memref Cert.KernelIdeal.sig Kind.scVector Space.vmem Cert.KernelIdeal.S50x128 EltTy.f32)

variable [FloatOps F]
section Tile
variable (d : Dev nD) (L : grid1.Coords)

omit [FloatOps F] in
theorem oSet_obase : oSet (cL L) (sL L) = oRng (obase L + 8 * 0 + 0) (obase L + 512) := by
  rw [oSet_eq, wid_val]
  have h : 512 * (2 * (L 1).val + (L 0).val) = obase L + 8 * 0 + 0 := by unfold obase; omega
  rw [h]

omit [FloatOps F] in
theorem oSet_obase2 : oSet (cL L) (sL L) = oRng (obase L) (obase L + 512) := by
  rw [oSet_eq, wid_val]
  have h : 512 * (2 * (L 1).val + (L 0).val) = obase L := by unfold obase; omega
  rw [h]

omit [FloatOps F] in
theorem done_cast3 (a b b' : ℕ) (h : b = b') :
    (iprop(∃ gd : Buf (Elt F) (oLoc d), ⌜GoodOut (m (xLoc d)) (m (wLoc d)) (oRng a b) gd⌝ ∗ (oV).view.loc (V d (cV L) (jV L)) ↦[oRng a b]{fullShare} gd) : sProp 𝕄)
      ⊢ iprop(∃ gd : Buf (Elt F) (oLoc d), ⌜GoodOut (m (xLoc d)) (m (wLoc d)) (oRng a b') gd⌝ ∗ (oV).view.loc (V d (cV L) (jV L)) ↦[oRng a b']{fullShare} gd) := by
  subst h; exact Entails.rfl

omit [FloatOps F] in
/-- The finished rows, once they are all of the subcore's, are what the subcore brings back. -/
theorem done_to_out :
    (iprop(∃ gd : Buf (Elt F) (oLoc d), ⌜GoodOut (m (xLoc d)) (m (wLoc d)) (oRng (obase L) (obase L + 512)) gd⌝
        ∗ (oV).view.loc (V d (cV L) (jV L)) ↦[oRng (obase L) (obase L + 512)]{fullShare} gd) : sProp 𝕄)
      ⊢ iprop(∃ f, ⌜GoodOut (m (xLoc d)) (m (wLoc d)) (oSet (cL L) (sL L)) f⌝ ∗ oLoc d ↦[oSet (cL L) (sL L)]{fullShare} f) := by
  rw [oSet_obase2]; exact Entails.rfl

omit [FloatOps F] in
theorem pts_iAll (f : S512x50.Idx → Elt F .i32) (n : ℕ) (hn : n = 512) :
    ((iV).view.loc (V d (cV L) (jV L)) ↦[iRng 0 n]{fullShare} f : sProp 𝕄) ⊢ (V d (cV L) (jV L)).loc cc1_scratch0 ↦{fullShare} f := by
  subst hn; rw [iRng_all]

set_option maxHeartbeats 16000000 in
/-- The task on vector subcore `L`: the rows of the index array fetched, the eight first gathers, the ring's 64 trips by the
    invariant, the eight last writes awaited; the output rows join at contents good on all of them. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ goR m d (cL L) (sL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ (kern L)
          fun _ => iprop(tdR m d (cL L) (sL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  unfold kern
  simp only [cc1__emb_kernel_eq_skeleton]; unfold cc1__emb_kernel_skel
  simp only [k1_part4_eq_skeleton]; unfold k1_part4_skel
  simp only [k1_part5_eq_skeleton]; unfold k1_part5_skel
  rw [(K (F := F)).scopedBufs_V hF d (cV L) (jV L), SparseCore.Cfg.scopedSems0_V (Val := Elt F) d (cV L) (jV L), ownSems0_V, ownBufs_V]
  iintro ⟨#Hlv, -, ⟨Hx, ⟨%t, %ht, Hdd⟩, Ho⟩, ⟨⟨⟨%fi, Hi⟩, ⟨%f0, Hr0⟩, ⟨%f1, Hr1⟩, ⟨%f2, Hr2⟩, ⟨%f3, Hr3⟩, ⟨%f4, Hr4⟩, ⟨%f5, Hr5⟩, ⟨%f6, Hr6⟩, ⟨%f7, Hr7⟩⟩, Hbufs⟩,
    ⟨⟨Hg0, Hg1, Hg2, Hg3, Hg4, Hg5, Hg6, Hg7, Hw0, Hw1, Hw2, Hw3, Hw4, Hw5, Hw6, Hw7, Hsc⟩, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hx' := (Entails.of_eq (pts_xRowsK (F := F) d L _).symm) $$ Hx
  ihave Hd0 := (Entails.of_eq (show (tLoc d ↦{tq (cL L) (sL L)} t : sProp 𝕄) = tLoc d ↦{Transfers.shareDrop (tq (cL L) (sL L)) 0} t from rfl)) $$ Hdd
  ihave Hd1 := (tok_split (F := F) (tLoc d) t (tq (cL L) (sL L)) 0).1 $$ Hd0
  icases Hd1 with ⟨Hd1, Htk0⟩
  ihave Hd2 := (tok_split (F := F) (tLoc d) t (tq (cL L) (sL L)) 1).1 $$ Hd1
  icases Hd2 with ⟨Hd2, Htk1⟩
  ihave Hd3 := (tok_split (F := F) (tLoc d) t (tq (cL L) (sL L)) 2).1 $$ Hd2
  icases Hd3 with ⟨Hd3, Htk2⟩
  ihave Hd4 := (tok_split (F := F) (tLoc d) t (tq (cL L) (sL L)) 3).1 $$ Hd3
  icases Hd4 with ⟨Hd4, Htk3⟩
  ihave Hd5 := (tok_split (F := F) (tLoc d) t (tq (cL L) (sL L)) 4).1 $$ Hd4
  icases Hd5 with ⟨Hd5, Htk4⟩
  ihave Hd6 := (tok_split (F := F) (tLoc d) t (tq (cL L) (sL L)) 5).1 $$ Hd5
  icases Hd6 with ⟨Hd6, Htk5⟩
  ihave Hd7 := (tok_split (F := F) (tLoc d) t (tq (cL L) (sL L)) 6).1 $$ Hd6
  icases Hd7 with ⟨Hd7, Htk6⟩
  ihave Hd8 := (tok_split (F := F) (tLoc d) t (tq (cL L) (sL L)) 7).1 $$ Hd7
  icases Hd8 with ⟨Hd8, Htk7⟩
  ihave Hd9 := (tok_split (F := F) (tLoc d) t (tq (cL L) (sL L)) 8).1 $$ Hd8
  icases Hd9 with ⟨Hd9, Htk8⟩
  ihave Hd10 := (tok_split (F := F) (tLoc d) t (tq (cL L) (sL L)) 9).1 $$ Hd9
  icases Hd10 with ⟨Hd10, Htk9⟩
  ihave Hd11 := (tok_split (F := F) (tLoc d) t (tq (cL L) (sL L)) 10).1 $$ Hd10
  icases Hd11 with ⟨Hd11, Htk10⟩
  ihave Hd12 := (tok_split (F := F) (tLoc d) t (tq (cL L) (sL L)) 11).1 $$ Hd11
  icases Hd12 with ⟨Hd12, Htk11⟩
  ihave Ht0 := (Entails.of_eq (pts_tV (F := F) d L _ _).symm) $$ Htk4
  ihave Ht1 := (Entails.of_eq (pts_tV (F := F) d L _ _).symm) $$ Htk5
  ihave Ht2 := (Entails.of_eq (pts_tV (F := F) d L _ _).symm) $$ Htk6
  ihave Ht3 := (Entails.of_eq (pts_tV (F := F) d L _ _).symm) $$ Htk7
  ihave Ht4 := (Entails.of_eq (pts_tV (F := F) d L _ _).symm) $$ Htk8
  ihave Ht5 := (Entails.of_eq (pts_tV (F := F) d L _ _).symm) $$ Htk9
  ihave Ht6 := (Entails.of_eq (pts_tV (F := F) d L _ _).symm) $$ Htk10
  ihave Ht7 := (Entails.of_eq (pts_tV (F := F) d L _ _).symm) $$ Htk11
  ihave Hi' := (Entails.of_eq (pts_buf (F := F) d L cc1_scratch0 _).symm) $$ Hi
  ihave Hr0' := (Entails.of_eq (pts_buf (F := F) d L cc1_scratch1 _).symm) $$ Hr0
  ihave Hr1' := (Entails.of_eq (pts_buf (F := F) d L cc1_scratch2 _).symm) $$ Hr1
  ihave Hr2' := (Entails.of_eq (pts_buf (F := F) d L cc1_scratch3 _).symm) $$ Hr2
  ihave Hr3' := (Entails.of_eq (pts_buf (F := F) d L cc1_scratch4 _).symm) $$ Hr3
  ihave Hr4' := (Entails.of_eq (pts_buf (F := F) d L cc1_scratch5 _).symm) $$ Hr4
  ihave Hr5' := (Entails.of_eq (pts_buf (F := F) d L cc1_scratch6 _).symm) $$ Hr5
  ihave Hr6' := (Entails.of_eq (pts_buf (F := F) d L cc1_scratch7 _).symm) $$ Hr6
  ihave Hr7' := (Entails.of_eq (pts_buf (F := F) d L cc1_scratch8 _).symm) $$ Hr7
  sl_exec
  ihave Hi0 := (Entails.of_eq (idx_landed (F := F) m d L fi (tile_body.sl.dma0 m d L) rfl)) $$ Hi'
  ihave Hsp := (pts_iRng_split (F := F) d L (idxC m d L) (a := 0) (b := 1) (c := 512) (by omega) (by omega)).1 $$ Hi0
  icases Hsp with ⟨Hrow0, Hi1⟩
  ihave Hl0 := (Entails.of_eq (pts_idxRow (F := F) d L ![0, 0] inb_S512x50_S1x50_0_0 0 rfl (idxC m d L)).symm) $$ Hrow0
  ihave Hsp := (pts_iRng_split (F := F) d L (idxC m d L) (a := 1) (b := 2) (c := 512) (by omega) (by omega)).1 $$ Hi1
  icases Hsp with ⟨Hrow1, Hi2⟩
  ihave Hl1 := (Entails.of_eq (pts_idxRow (F := F) d L ![1, 0] inb_S512x50_S1x50_1_0 1 rfl (idxC m d L)).symm) $$ Hrow1
  ihave Hsp := (pts_iRng_split (F := F) d L (idxC m d L) (a := 2) (b := 3) (c := 512) (by omega) (by omega)).1 $$ Hi2
  icases Hsp with ⟨Hrow2, Hi3⟩
  ihave Hl2 := (Entails.of_eq (pts_idxRow (F := F) d L ![2, 0] inb_S512x50_S1x50_2_0 2 rfl (idxC m d L)).symm) $$ Hrow2
  ihave Hsp := (pts_iRng_split (F := F) d L (idxC m d L) (a := 3) (b := 4) (c := 512) (by omega) (by omega)).1 $$ Hi3
  icases Hsp with ⟨Hrow3, Hi4⟩
  ihave Hl3 := (Entails.of_eq (pts_idxRow (F := F) d L ![3, 0] inb_S512x50_S1x50_3_0 3 rfl (idxC m d L)).symm) $$ Hrow3
  ihave Hsp := (pts_iRng_split (F := F) d L (idxC m d L) (a := 4) (b := 5) (c := 512) (by omega) (by omega)).1 $$ Hi4
  icases Hsp with ⟨Hrow4, Hi5⟩
  ihave Hl4 := (Entails.of_eq (pts_idxRow (F := F) d L ![4, 0] inb_S512x50_S1x50_4_0 4 rfl (idxC m d L)).symm) $$ Hrow4
  ihave Hsp := (pts_iRng_split (F := F) d L (idxC m d L) (a := 5) (b := 6) (c := 512) (by omega) (by omega)).1 $$ Hi5
  icases Hsp with ⟨Hrow5, Hi6⟩
  ihave Hl5 := (Entails.of_eq (pts_idxRow (F := F) d L ![5, 0] inb_S512x50_S1x50_5_0 5 rfl (idxC m d L)).symm) $$ Hrow5
  ihave Hsp := (pts_iRng_split (F := F) d L (idxC m d L) (a := 6) (b := 7) (c := 512) (by omega) (by omega)).1 $$ Hi6
  icases Hsp with ⟨Hrow6, Hi7⟩
  ihave Hl6 := (Entails.of_eq (pts_idxRow (F := F) d L ![6, 0] inb_S512x50_S1x50_6_0 6 rfl (idxC m d L)).symm) $$ Hrow6
  ihave Hsp := (pts_iRng_split (F := F) d L (idxC m d L) (a := 7) (b := 8) (c := 512) (by omega) (by omega)).1 $$ Hi7
  icases Hsp with ⟨Hrow7, Hi8⟩
  ihave Hl7 := (Entails.of_eq (pts_idxRow (F := F) d L ![7, 0] inb_S512x50_S1x50_7_0 7 rfl (idxC m d L)).symm) $$ Hrow7
  have hin := inb_of_pre (F := F) m d L hpre
  sl_exec
  ihave Ho' := (Entails.of_eq (pts_oV (F := F) d L _ _).symm) $$ Ho
  ihave Ho0 := (pts_cast (F := F) (ℓ := (oV).view.loc (V d (cV L) (jV L))) (oSet_obase L) _ _) $$ Ho'
  rw [wp_bind]
  sl_for (inv m d L t O W) $$ [HO Hi8 Ho0 Hw0 Hg0 Ht0 Hw1 Hg1 Ht1 Hw2 Hg2 Ht2 Hw3 Hg3 Ht3 Hw4 Hg4 Ht4 Hw5 Hg5 Ht5 Hw6 Hg6 Ht6 Hw7 Hg7 Ht7]
  case region =>
    intro k _
    by_cases hk : k.val < 63
    · exact trip_lt m d L hpre t ht O W _ k hk
    · exact trip_63 m d L hpre t ht O W _ k hk
  · rw [inv_lt m d L t O W 0 _ (by omega)]
    isplitl [HO Hi8 Ho0]
    · isplitr; · iexact Hmw
      isplitl [HO]
      · iexists _; isplitr; swap; · iexact HO
        ipureintro; exact waits_ins _ (fun p hp => .inl hp)
      isplitr [Hi8 Ho0]
      · iapply (pts_iNil (F := F) d L (idxC m d L) (a := 0) (b := 8 * 0) (by omega)); iempintro
      isplitl [Hi8]
      · iapply (pts_iCast (F := F) d L (idxC m d L) (show 8 = 8 * 0 + 8 by omega) (rfl : 512 = 512)) $$ Hi8
      isplitr [Ho0]
      · iexists (m (oLoc d)); isplitr
        · ipureintro
          have h0 : obase L + dn 0 = obase L := by simp [dn]
          rw [h0]; exact goodOut_empty _ _ _ _
        · iapply (pts_oNil (F := F) d L (m (oLoc d)) (a := obase L) (b := obase L + dn 0) (by simp [dn])); iempintro
      iexists (m (oLoc d)); iexact Ho0
    isplitl [Hw0 Hg0 Ht0]
    · have hr : 8 * 0 + 0 < 512 := by omega
      isplitl [Hw0]; · iexact Hw0
      isplitr [Ht0]; swap; · iexact Ht0
      iexists _, _
      isplitr; swap
      · iapply (gFlight_of0 (F := F) m d L t r0V cc1_scratch9 4 ![0, 0] inb_S512x50_S1x50_0_0 (8 * 0 + 0) hr rfl f0 _)
        iexact Hg0
      · ipureintro
        exact gather_good m d L hpre t ht ![0, 0] inb_S512x50_S1x50_0_0 (8 * 0 + 0) hr rfl rfl (hin _ _)
    isplitl [Hw1 Hg1 Ht1]
    · have hr : 8 * 0 + 1 < 512 := by omega
      isplitl [Hw1]; · iexact Hw1
      isplitr [Ht1]; swap; · iexact Ht1
      iexists _, _
      isplitr; swap
      · iapply (gFlight_of0 (F := F) m d L t r1V cc1_scratch10 5 ![1, 0] inb_S512x50_S1x50_1_0 (8 * 0 + 1) hr rfl f1 _)
        iexact Hg1
      · ipureintro
        exact gather_good m d L hpre t ht ![1, 0] inb_S512x50_S1x50_1_0 (8 * 0 + 1) hr rfl rfl (hin _ _)
    isplitl [Hw2 Hg2 Ht2]
    · have hr : 8 * 0 + 2 < 512 := by omega
      isplitl [Hw2]; · iexact Hw2
      isplitr [Ht2]; swap; · iexact Ht2
      iexists _, _
      isplitr; swap
      · iapply (gFlight_of0 (F := F) m d L t r2V cc1_scratch11 6 ![2, 0] inb_S512x50_S1x50_2_0 (8 * 0 + 2) hr rfl f2 _)
        iexact Hg2
      · ipureintro
        exact gather_good m d L hpre t ht ![2, 0] inb_S512x50_S1x50_2_0 (8 * 0 + 2) hr rfl rfl (hin _ _)
    isplitl [Hw3 Hg3 Ht3]
    · have hr : 8 * 0 + 3 < 512 := by omega
      isplitl [Hw3]; · iexact Hw3
      isplitr [Ht3]; swap; · iexact Ht3
      iexists _, _
      isplitr; swap
      · iapply (gFlight_of0 (F := F) m d L t r3V cc1_scratch12 7 ![3, 0] inb_S512x50_S1x50_3_0 (8 * 0 + 3) hr rfl f3 _)
        iexact Hg3
      · ipureintro
        exact gather_good m d L hpre t ht ![3, 0] inb_S512x50_S1x50_3_0 (8 * 0 + 3) hr rfl rfl (hin _ _)
    isplitl [Hw4 Hg4 Ht4]
    · have hr : 8 * 0 + 4 < 512 := by omega
      isplitl [Hw4]; · iexact Hw4
      isplitr [Ht4]; swap; · iexact Ht4
      iexists _, _
      isplitr; swap
      · iapply (gFlight_of0 (F := F) m d L t r4V cc1_scratch13 8 ![4, 0] inb_S512x50_S1x50_4_0 (8 * 0 + 4) hr rfl f4 _)
        iexact Hg4
      · ipureintro
        exact gather_good m d L hpre t ht ![4, 0] inb_S512x50_S1x50_4_0 (8 * 0 + 4) hr rfl rfl (hin _ _)
    isplitl [Hw5 Hg5 Ht5]
    · have hr : 8 * 0 + 5 < 512 := by omega
      isplitl [Hw5]; · iexact Hw5
      isplitr [Ht5]; swap; · iexact Ht5
      iexists _, _
      isplitr; swap
      · iapply (gFlight_of0 (F := F) m d L t r5V cc1_scratch14 9 ![5, 0] inb_S512x50_S1x50_5_0 (8 * 0 + 5) hr rfl f5 _)
        iexact Hg5
      · ipureintro
        exact gather_good m d L hpre t ht ![5, 0] inb_S512x50_S1x50_5_0 (8 * 0 + 5) hr rfl rfl (hin _ _)
    isplitl [Hw6 Hg6 Ht6]
    · have hr : 8 * 0 + 6 < 512 := by omega
      isplitl [Hw6]; · iexact Hw6
      isplitr [Ht6]; swap; · iexact Ht6
      iexists _, _
      isplitr; swap
      · iapply (gFlight_of0 (F := F) m d L t r6V cc1_scratch15 10 ![6, 0] inb_S512x50_S1x50_6_0 (8 * 0 + 6) hr rfl f6 _)
        iexact Hg6
      · ipureintro
        exact gather_good m d L hpre t ht ![6, 0] inb_S512x50_S1x50_6_0 (8 * 0 + 6) hr rfl rfl (hin _ _)
    · have hr : 8 * 0 + 7 < 512 := by omega
      isplitl [Hw7]; · iexact Hw7
      isplitr [Ht7]; swap; · iexact Ht7
      iexists _, _
      isplitr; swap
      · iapply (gFlight_of0 (F := F) m d L t r7V cc1_scratch16 11 ![7, 0] inb_S512x50_S1x50_7_0 (8 * 0 + 7) hr rfl f7 _)
        iexact Hg7
      · ipureintro
        exact gather_good m d L hpre t ht ![7, 0] inb_S512x50_S1x50_7_0 (8 * 0 + 7) hr rfl rfl (hin _ _)
  iintro %_ HI
  ihave HI' := (Entails.of_eq (inv_ge m d L t O W k1_t1_loop.trips _ (by decide))) $$ HI
  icases HI' with ⟨⟨-, ⟨%W', %hW', HO⟩, Hpast, -, Hdone, -⟩, ⟨⟨Hg0, Ht0, %g0', %f0', %hg0', Hw0, Hrr0⟩, ⟨Hg1, Ht1, %g1', %f1', %hg1', Hw1, Hrr1⟩, ⟨Hg2, Ht2, %g2', %f2', %hg2', Hw2, Hrr2⟩, ⟨Hg3, Ht3, %g3', %f3', %hg3', Hw3, Hrr3⟩, ⟨Hg4, Ht4, %g4', %f4', %hg4', Hw4, Hrr4⟩, ⟨Hg5, Ht5, %g5', %f5', %hg5', Hw5, Hrr5⟩, ⟨Hg6, Ht6, %g6', %f6', %hg6', Hw6, Hrr6⟩, ⟨Hg7, Ht7, %g7', %f7', %hg7', Hw7, Hrr7⟩⟩⟩
  sl_exec
  sl_step
  isplitl [Hx' Hdone Hw0_dst Hw1_dst Hw2_dst Hw3_dst Hw4_dst Hw5_dst Hw6_dst Hw7_dst]
  · isplitl [Hx']
    · iapply (Entails.of_eq (pts_xRowsK (F := F) d L _)); iexact Hx'
    iapply (done_to_out (F := F) m d L)
    ihave Hd0 := (done_cast3 (F := F) m d L (obase L) _ (obase L + 504) (by have := dn_of_ge (show 63 ≤ k1_t1_loop.trips by decide); omega)) $$ Hdone
    ihave Hrw0 := (Entails.of_eq (pts_outRow (F := F) d L ![obase L + 504, 0, 0] (inbo L 504 (by omega)) (obase L + 504) rfl _)) $$ Hw0_dst
    ihave He0 := (done_extend (F := F) m d L (obase L) (obase L + 504) (by omega) _ hg0') $$ [Hd0 Hrw0]
    · isplitl [Hd0]; · iexact Hd0
      iexact Hrw0
    ihave Hd1 := (done_cast3 (F := F) m d L (obase L) _ (obase L + 505) (by omega)) $$ He0
    ihave Hrw1 := (Entails.of_eq (pts_outRow (F := F) d L ![obase L + 505, 0, 0] (inbo L 505 (by omega)) (obase L + 505) rfl _)) $$ Hw1_dst
    ihave He1 := (done_extend (F := F) m d L (obase L) (obase L + 505) (by omega) _ hg1') $$ [Hd1 Hrw1]
    · isplitl [Hd1]; · iexact Hd1
      iexact Hrw1
    ihave Hd2 := (done_cast3 (F := F) m d L (obase L) _ (obase L + 506) (by omega)) $$ He1
    ihave Hrw2 := (Entails.of_eq (pts_outRow (F := F) d L ![obase L + 506, 0, 0] (inbo L 506 (by omega)) (obase L + 506) rfl _)) $$ Hw2_dst
    ihave He2 := (done_extend (F := F) m d L (obase L) (obase L + 506) (by omega) _ hg2') $$ [Hd2 Hrw2]
    · isplitl [Hd2]; · iexact Hd2
      iexact Hrw2
    ihave Hd3 := (done_cast3 (F := F) m d L (obase L) _ (obase L + 507) (by omega)) $$ He2
    ihave Hrw3 := (Entails.of_eq (pts_outRow (F := F) d L ![obase L + 507, 0, 0] (inbo L 507 (by omega)) (obase L + 507) rfl _)) $$ Hw3_dst
    ihave He3 := (done_extend (F := F) m d L (obase L) (obase L + 507) (by omega) _ hg3') $$ [Hd3 Hrw3]
    · isplitl [Hd3]; · iexact Hd3
      iexact Hrw3
    ihave Hd4 := (done_cast3 (F := F) m d L (obase L) _ (obase L + 508) (by omega)) $$ He3
    ihave Hrw4 := (Entails.of_eq (pts_outRow (F := F) d L ![obase L + 508, 0, 0] (inbo L 508 (by omega)) (obase L + 508) rfl _)) $$ Hw4_dst
    ihave He4 := (done_extend (F := F) m d L (obase L) (obase L + 508) (by omega) _ hg4') $$ [Hd4 Hrw4]
    · isplitl [Hd4]; · iexact Hd4
      iexact Hrw4
    ihave Hd5 := (done_cast3 (F := F) m d L (obase L) _ (obase L + 509) (by omega)) $$ He4
    ihave Hrw5 := (Entails.of_eq (pts_outRow (F := F) d L ![obase L + 509, 0, 0] (inbo L 509 (by omega)) (obase L + 509) rfl _)) $$ Hw5_dst
    ihave He5 := (done_extend (F := F) m d L (obase L) (obase L + 509) (by omega) _ hg5') $$ [Hd5 Hrw5]
    · isplitl [Hd5]; · iexact Hd5
      iexact Hrw5
    ihave Hd6 := (done_cast3 (F := F) m d L (obase L) _ (obase L + 510) (by omega)) $$ He5
    ihave Hrw6 := (Entails.of_eq (pts_outRow (F := F) d L ![obase L + 510, 0, 0] (inbo L 510 (by omega)) (obase L + 510) rfl _)) $$ Hw6_dst
    ihave He6 := (done_extend (F := F) m d L (obase L) (obase L + 510) (by omega) _ hg6') $$ [Hd6 Hrw6]
    · isplitl [Hd6]; · iexact Hd6
      iexact Hrw6
    ihave Hd7 := (done_cast3 (F := F) m d L (obase L) _ (obase L + 511) (by omega)) $$ He6
    ihave Hrw7 := (Entails.of_eq (pts_outRow (F := F) d L ![obase L + 511, 0, 0] (inbo L 511 (by omega)) (obase L + 511) rfl _)) $$ Hw7_dst
    ihave He7 := (done_extend (F := F) m d L (obase L) (obase L + 511) (by omega) _ hg7') $$ [Hd7 Hrw7]
    · isplitl [Hd7]; · iexact Hd7
      iexact Hrw7
    ihave Hd8 := (done_cast3 (F := F) m d L (obase L) _ (obase L + 512) (by omega)) $$ He7
    iexact Hd8
  isplitl [Hpast Hrr0 Hrr1 Hrr2 Hrr3 Hrr4 Hrr5 Hrr6 Hrr7 Hbufs]
  · isplitr [Hbufs]; swap; · iexact Hbufs
    isplitl [Hpast]
    · iexists _; iapply (pts_iAll (F := F) d L _ _ (by decide)) $$ Hpast
    isplitl [Hrr0]; · iexists _; iexact Hrr0
    isplitl [Hrr1]; · iexists _; iexact Hrr1
    isplitl [Hrr2]; · iexists _; iexact Hrr2
    isplitl [Hrr3]; · iexists _; iexact Hrr3
    isplitl [Hrr4]; · iexists _; iexact Hrr4
    isplitl [Hrr5]; · iexists _; iexact Hrr5
    isplitl [Hrr6]; · iexists _; iexact Hrr6
    iexists _; iexact Hrr7
  isplitl [Hg0 Hg1 Hg2 Hg3 Hg4 Hg5 Hg6 Hg7 Hw0 Hw1 Hw2 Hw3 Hw4 Hw5 Hw6 Hw7 Hsc Hsems]
  · isplitr [Hsems]; swap; · iexact Hsems
    isplitl [Hg0]; · iexact Hg0
    isplitl [Hg1]; · iexact Hg1
    isplitl [Hg2]; · iexact Hg2
    isplitl [Hg3]; · iexact Hg3
    isplitl [Hg4]; · iexact Hg4
    isplitl [Hg5]; · iexact Hg5
    isplitl [Hg6]; · iexact Hg6
    isplitl [Hg7]; · iexact Hg7
    isplitl [Hw0]; · iexact Hw0
    isplitl [Hw1]; · iexact Hw1
    isplitl [Hw2]; · iexact Hw2
    isplitl [Hw3]; · iexact Hw3
    isplitl [Hw4]; · iexact Hw4
    isplitl [Hw5]; · iexact Hw5
    isplitl [Hw6]; · iexact Hw6
    isplitl [Hw7]; · iexact Hw7
    iexact Hsc
  iexists _; isplitr; swap; · iexact HO
  ipureintro; exact (waits_ins _ (waits_ins _ (waits_ins _ (waits_ins _ (waits_ins _ (waits_ins _ (waits_ins _ (waits_ins _ hW'))))))))

/-! ## The obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => kern (F := F) (coordsV c s)) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

end Tile

end Cert.KernelIdeal.Hand

end
-- ==== Proof.HandKernelIdeal.RegionA.lean ====
import proofs.«206440_g52347061403653_cont_9to1_m_884_16_alg».proof.Proof.HandKernelIdeal.Common
import Idealize.ShloMosaic.Lib.Pipeline.Value

noncomputable section

namespace Cert.KernelIdeal.Hand

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The table build: what it leaves, block by block -/

/-- The padded table's first 64 columns are the transposed table's rows. -/
def GoodTblT {α : Type} (a : S64x1000000.Idx → α) (t : S1000000x128.Idx → α) : Prop :=
  ∀ (v : Fin 1000000) (q : Fin 64), t (ix2 v (⟨q.val, by omega⟩ : Fin 128)) = a (ix2 q v)

/-- An input staging block at point `t` holds, on the columns inside the array, block `t` of the transposed table. -/
def InBlk {α : Type} (a : S64x1000000.Idx → α) (t : ℕ) (Y : S64x4096.Idx → α) : Prop :=
  ∀ (q : Fin 64) (p : Fin 4096) (h : 4096 * t + p.val < 1000000), Y (ix2 q p) = a (ix2 q (⟨4096 * t + p.val, h⟩ : Fin 1000000))

/-- An output staging block at point `t` holds, on the rows inside the array and the first 64 columns, the
    transposed block. -/
def GoodBlk {α : Type} (a : S64x1000000.Idx → α) (t : ℕ) (X : S4096x128.Idx → α) : Prop :=
  ∀ (p : Fin 4096) (q : Fin 64) (h : 4096 * t + p.val < 1000000),
    X (ix2 p (⟨q.val, by omega⟩ : Fin 128)) = a (ix2 q (⟨4096 * t + p.val, h⟩ : Fin 1000000))

/-- The host transpose read at an index. -/
theorem transpose_apply (w : S1000000x64.Idx → Elt F .f32) (q : Fin 64) (v : Fin 1000000) :
    (transpose S64x1000000 [1, 0] w transposes_S1000000x64_S64x1000000_1_0) (ix2 q v) = w (ix2 v q) :=
  Idealize.ShloMosaic.transpose_apply [1, 0] w transposes_S1000000x64_S64x1000000_1_0 (ix2 q v) (ix2 v q)
    (fun b => match b with | ⟨0, _⟩ => rfl | ⟨1, _⟩ => rfl)

/-- The body's payload read at an index: the transposed block. -/
theorem k0_pay1_apply (v0 : Vec F S64x4096 .f32) (p : Fin 4096) (q : Fin 64) :
    k0_pay1 v0 (ix2 p q) = v0 (ix2 q p) := by
  unfold k0_pay1
  rw [shapeCast_self]
  exact Idealize.ShloMosaic.transpose_apply [1, 0] v0 transposes_S64x4096_p1_0_S4096x64 (ix2 p q) (ix2 q p)
    (fun b => match b with | ⟨0, _⟩ => rfl | ⟨1, _⟩ => rfl)

/-- Where the two windows' blocks sit at each point, and how the last is cut. -/
theorem win_facts : ∀ t : Fin grid0.N,
    (win0_0.index t 0 = 0 ∧ win0_0.index t 1 = t.val ∧ win0_0.xsize (grid0.coords t) 0 = 64
      ∧ win0_0.xsize (grid0.coords t) 1 = min 4096 (1000000 - 4096 * t.val))
    ∧ (win0_1.index t 0 = t.val ∧ win0_1.index t 1 = 0 ∧ win0_1.xsize (grid0.coords t) 0 = min 4096 (1000000 - 4096 * t.val)
      ∧ win0_1.xsize (grid0.coords t) 1 = 128) := by decide +kernel

theorem lt_N (t : Fin grid0.N) : t.val < 245 := lt_of_lt_of_eq t.isLt N_0

end Cert.KernelIdeal.Hand

end
-- ==== Proof.HandKernelIdeal.RegionB.lean ====
import proofs.«206440_g52347061403653_cont_9to1_m_884_16_alg».proof.Proof.HandKernelIdeal.RegionA
import Idealize.ShloMosaic.Lib.Pipeline.Value

noncomputable section

namespace Cert.KernelIdeal.Hand

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## The kernel body on its staging buffers -/

set_option maxHeartbeats 1600000 in
/-- The body on staging buffers `s0` of the input window and `s1` of the output window: the input block is read
    whole, and its transpose is stored into the first 64 columns of the output block; the input buffer is unchanged,
    and every entry `(p, q)`, `q < 64`, of the output buffer ends holding entry `(q, p)` of the input block. Columns
    64‥127 of the output buffer keep what they held: nothing is said of them. -/
theorem sound_body (c : Dev nD) (i : grid0.Coords) (s0 s1 : Fin 2)
    (X0 : S64x4096.Idx → Elt F .f32) (X1 : S4096x128.Idx → Elt F .f32) :
    (iprop(owns (T c) (stage0_0 s0) fullShare X0 ∗ owns (T c) (stage0_1 s1) fullShare X1) : sProp 𝕄)
      ⊢ wp frame (wpE (defs₀ (F := F)) 𝒱₀ (T c) none) Set.univ
          (cc0__table_body i (stage0_0 s0) (hstage0_0 s0) (stage0_1 s1) (hstage0_1 s1))
          fun _ => iprop(owns (T c) (stage0_0 s0) fullShare X0
            ∗ ∃ X1' : S4096x128.Idx → Elt F .f32, ⌜∀ (p : Fin 4096) (q : Fin 64), X1' (ix2 p (⟨q.val, by omega⟩ : Fin 128)) = X0 (ix2 q p)⌝
                ∗ owns (T c) (stage0_1 s1) fullShare X1') := by
  have hz : (![0, 0] : Fin 2 → Nat) = fun _ => 0 := funext fun a => by fin_cases a <;> rfl
  fin_cases s0 <;> fin_cases s1 <;>
  · simp only [owns_whole_eq, cc0__table_body_eq_skeleton]; unfold cc0__table_body_skel
    simp only [Prog.lift, Prog.bind_op, Prog.bind_ret]
    iintro ⟨⟨%f0, %hf0, H0⟩, ⟨%f1, %hf1, H1⟩⟩
    sl_steps
    -- the output buffer now holds its old contents overwritten, through the rectangle of the first 64 columns, by
    -- the transposed input block
    generalize hG : View.write (Elt F) _ _ _ Finset.univ = G
    isplitl [H0]
    · iexists f0; isplitr; · ipureintro; exact hf0
      iexact H0
    · iexists G
      isplitr
      · ipureintro
        subst hG
        intro p q
        -- entry (p, q) of the rectangle is entry (p, q) of the buffer; the write puts the payload's entry there
        refine (congrArg _ ?he).trans ((View.write_emb_of_mem (x := ix2 p q) _ _ ?hm).trans ?hc)
        case hm => exact @Finset.mem_univ _ _ _
        case he =>
          funext a
          match a with
          | ⟨0, _⟩ => exact Fin.ext (by show p.val = 0 + 1 * p.val; omega)
          | ⟨1, _⟩ => exact Fin.ext (by show q.val = 0 + 1 * q.val; omega)
        case hc =>
          rw [cast_eq, k0_pay1_apply]
          subst hf0
          exact congrFun (Memref.readAt_unit_zero (Elt F) _ hz _ _) _
      · iexists G; isplitr; · ipureintro; rfl
        iexact H1

end Cert.KernelIdeal.Hand

end
-- ==== Proof.HandKernelIdeal.Region.lean ====
/-
  The table build — the TensorCore kernel that stands before the SparseCore call in the kernel's program — as one
  region of @main on the TensorCore thread.

  The mathematics.  The grid has 245 points.  At point `t` the pipeline fetches block `t` of the transposed table
  (64 rows, columns `4096·t ‥ 4096·t + 4095`, cut at column 1000000: the last block keeps 576 columns), the body
  stores its transpose into the first 64 columns of the output staging block, and the pipeline writes rows
  `4096·t ‥` of the padded table back from that block, cut at row 1000000.  Columns 64‥127 of the staging block keep
  whatever they held, so what the body leaves is stated as a relation on the block's contents (its entries `(p, q)`,
  `q < 64`, on the rows inside the array), never as a closed form.  By induction on the point, after the write-backs
  below `n` every row below `4096·n` of the padded table holds, in its first 64 columns, the matching column of the
  transposed table; at `n = 245` that is every row.  The region takes nothing on and pays nothing off: the
  TensorCore's tallies pass through, and the only pairs its waits record are the staging cells' at the lowest index.
-/
import proofs.«206440_g52347061403653_cont_9to1_m_884_16_alg».proof.Proof.HandKernelIdeal.RegionB
import Idealize.ShloMosaic.Lib.Pipeline.Value

noncomputable section

namespace Cert.KernelIdeal.Hand

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.Pipeline (RDat Cfg Window cellOf)
variable [FloatOps F]

/-! ## The proof data -/

/-- The (cell, index) pairs at the lowest level: what the TensorCore's waits may have recorded around the region. -/
def lowPairs (c : Dev nD) : Set (SemLoc sig × HIx 1) := {p | (K (F := F)).lev (T c, p.1) p.2 ≤ 0}

/-- The relational proof data of the table build on device `c`: the transposed table and the padded table at their
    entry contents; nothing is asked of the input buffer after the body; the output buffer then holds the transposed
    block on the rows inside the array and the first 64 columns; no invariant; full shares; the tallies unchanged. -/
def rdats (A0 : (d : Dev nD) → Buf (Elt F) (wtLoc d)) (A1 : (d : Dev nD) → Buf (Elt F) (tLoc d))
    (O : Dev nD → CellTallies nD τ sig (HIx 1)) (_ : Fin 1) (c : Dev nD) : RDat τ (Elt F) (HIx 1) ℕ UU ℕ cfg0 c where
  A w := match w with
    | ⟨0, _⟩ => A0 c
    | ⟨1, _⟩ => A1 c
  after w t := match w with
    | ⟨0, _⟩ => fun _ _ => True
    | ⟨1, _⟩ => fun _ X => GoodBlk (A0 c) t.val X
  Φ _ := iprop(emp)
  q _ := fullShare
  owed _ := O c
  recorded _ := lowPairs (F := F) c

variable (A0 : (d : Dev nD) → Buf (Elt F) (wtLoc d)) (A1 : (d : Dev nD) → Buf (Elt F) (tLoc d))
  (O : Dev nD → CellTallies nD τ sig (HIx 1))

theorem share_full (c : Dev nD) (w : Fin 2) : (rdats A0 A1 O 0 c).share w = fullShare := by
  unfold RDat.share; split <;> rfl

/-- What the body finds in the input buffer: the block just fetched, on the columns inside the array. -/
theorem inBlk_of_finds (c : Dev nD) (t : Fin cfg0.N) (Y : S64x4096.Idx → Elt F .f32)
    (h : (rdats A0 A1 O 0 c).Finds (0 : Fin 2) t Y) : InBlk (A0 c) t.val Y := by
  obtain ⟨d, rfl⟩ := ((rdats A0 A1 O 0 c).finds_of_fetch (fetch0_0 t) Y).mp h
  intro q p hp
  have hw := (win_facts t).1
  have hm : win0_0.moved (grid0.coords t) (ix2 q p) = true := (win0_0.moved_iff _ _).mpr fun a =>
    match a with
    | ⟨0, _⟩ => by show q.val < win0_0.xsize (grid0.coords t) 0; rw [hw.2.2.1]; exact q.isLt
    | ⟨1, _⟩ => by show p.val < win0_0.xsize (grid0.coords t) 1; rw [hw.2.2.2]; have := p.isLt; omega
  show win0_0.fill (grid0.coords t) d ((rdats A0 A1 O 0 c).blockOf (0 : Fin 2) t) (ix2 q p) = _
  unfold Window.fill
  rw [dif_pos hm]
  unfold RDat.blockOf
  rw [View.read_apply, cast_eq]
  show A0 c _ = _
  refine congrArg (A0 c) (funext fun a => Fin.ext ?_)
  match a with
  | ⟨0, _⟩ =>
    show ((win0_0.rect t).emb _ 0 : Nat) = q.val
    rw [Window.rect_emb_val, hw.1]; show 0 * 64 + q.val = q.val; omega
  | ⟨1, _⟩ =>
    show ((win0_0.rect t).emb _ 1 : Nat) = 4096 * t.val + p.val
    rw [Window.rect_emb_val, hw.2.1]; show t.val * 4096 + p.val = _; omega

/-- The kernel body's obligation at every point. -/
theorem body_obligation (c : Dev nD) : (rdats A0 A1 O 0 c).BodyObligation (defs₀ (F := F)) 𝒱₀ none Set.univ := fun t Y hY => by
  rw [bigSep_W0, bigSep_W0]
  have h0 := inBlk_of_finds A0 A1 O c t (Y 0) (hY 0)
  rw [show (rdats A0 A1 O 0 c).Φ t.succ = (rdats A0 A1 O 0 c).Φ t.castSucc from rfl,
    show (rdats A0 A1 O 0 c).owesAt none t.succ = (rdats A0 A1 O 0 c).owesAt none t.castSucc from rfl]
  iintro ⟨HΦ, Ho, H0, H1⟩
  iapply (wp_wand_r frame _ Set.univ)
  isplitl [H0 H1]
  · iapply (sound_body (F := F) c (grid0.coords t) (cfg0.slots t 0) (cfg0.slots t 1) (Y 0) (Y 1))
    isplitl [H0]; · iexact H0
    iexact H1
  · iintro %_ ⟨H0, %X1, %hX1, H1⟩
    isplitl [HΦ]; · iexact HΦ
    isplitl [Ho]; · iexact Ho
    isplitl [H0]
    · iexists (Y 0); isplitr; · ipureintro; trivial
      iexact H0
    · iexists X1; isplitr
      · ipureintro; intro p q h; rw [hX1 p q]; exact h0 q p h
      iexact H1

/-! ## The padded table after the write-backs -/

/-- An index of the padded table lies in point `t`'s block iff its row is among the block's rows inside the array. -/
theorem mem_blk1 (t : Fin cfg0.N) (i : S1000000x128.Idx) :
    i ∈ (win0_1.blk t).view.set ↔ 4096 * t.val ≤ (i 0).val ∧ (i 0).val < 4096 * t.val + min 4096 (1000000 - 4096 * t.val) := by
  have hw := (win_facts t).2
  show i ∈ ((View.whole main_v1).slice (win0_1.rect t)).set ↔ _
  rw [View.set_slice_whole, Rect.mem_set_unit]
  constructor
  · intro h
    have h0 := h 0
    change win0_1.index t 0 * 4096 ≤ (i 0).val ∧ (i 0).val < win0_1.index t 0 * 4096 + win0_1.xsize (grid0.coords t) 0 at h0
    rw [hw.1, hw.2.2.1] at h0; omega
  · intro h a
    match a with
    | ⟨0, _⟩ =>
      change win0_1.index t 0 * 4096 ≤ (i 0).val ∧ (i 0).val < win0_1.index t 0 * 4096 + win0_1.xsize (grid0.coords t) 0
      rw [hw.1, hw.2.2.1]; omega
    | ⟨1, _⟩ =>
      change win0_1.index t 1 * 128 ≤ (i 1).val ∧ (i 1).val < win0_1.index t 1 * 128 + win0_1.xsize (grid0.coords t) 1
      rw [hw.2.1, hw.2.2.2]; have := idx2_lt1 i; omega

/-- After the write-backs of the points below `n`, the rows below `4096·n` of the padded table hold, in their first 64
    columns, the transposed table's columns: each write-back lands a block that does, and leaves the earlier rows. -/
theorem good_of_arrAt (c : Dev nD) : ∀ (n : ℕ), n ≤ 245 → ∀ Fm, (rdats A0 A1 O 0 c).ArrAt (1 : Fin 2) n Fm →
    ∀ (v : Fin 1000000) (q : Fin 64), v.val < 4096 * n → Fm (ix2 v (⟨q.val, by omega⟩ : Fin 128)) = A0 c (ix2 q v)
  | 0, _, _, _, v, q, hv => absurd hv (by omega)
  | n + 1, hn, Fm, h, v, q, hv => by
    have hlt : n < cfg0.N := lt_of_lt_of_eq (by omega : n < 245) N_0.symm
    rw [show n + 1 = (⟨n, hlt⟩ : Fin cfg0.N).val + 1 from rfl, RDat.ArrAt_succ, if_pos (flush0_1 _)] at h
    obtain ⟨G₀, X, hG, ⟨Y, -, hYa⟩, rfl⟩ := h
    have ih := good_of_arrAt c n (by omega) G₀ hG
    have hX : GoodBlk (A0 c) n X := hYa
    have hw := (win_facts ⟨n, hlt⟩).2
    have hmem : (ix2 v (⟨q.val, by omega⟩ : Fin 128) : S1000000x128.Idx) ∈ (win0_1.blk ⟨n, hlt⟩).view.set
        ↔ 4096 * n ≤ v.val ∧ v.val < 4096 * n + min 4096 (1000000 - 4096 * n) := mem_blk1 ⟨n, hlt⟩ (ix2 v (⟨q.val, by omega⟩ : Fin 128))
    by_cases hin : (ix2 v (⟨q.val, by omega⟩ : Fin 128) : S1000000x128.Idx) ∈ (win0_1.blk ⟨n, hlt⟩).view.set
    · obtain ⟨y, -, hy⟩ := Finset.mem_map.mp hin
      have e0 : n * 4096 + (y 0).val = v.val := by
        have := congrArg (fun j : S1000000x128.Idx => (j 0).val) hy
        change ((win0_1.rect ⟨n, hlt⟩).emb y 0 : Nat) = v.val at this
        rw [Window.rect_emb_val, hw.1] at this; exact this
      have e1 : (y 1).val = q.val := by
        have := congrArg (fun j : S1000000x128.Idx => (j 1).val) hy
        change ((win0_1.rect ⟨n, hlt⟩).emb y 1 : Nat) = q.val at this
        rw [Window.rect_emb_val, hw.2.1] at this; change 0 * 128 + (y 1).val = q.val at this; omega
      have hp : (y 0).val < 4096 := by
        have h3 : (y 0).val < win0_1.xsize (grid0.coords ⟨n, hlt⟩) 0 := (y 0).isLt
        rw [hw.2.2.1] at h3; omega
      have hb : 4096 * n + (y 0).val < 1000000 := by have := v.isLt; omega
      have ex : win0_1.xinj (grid0.coords ⟨n, hlt⟩) y = ix2 (⟨(y 0).val, hp⟩ : Fin 4096) (⟨q.val, by omega⟩ : Fin 128) :=
        funext fun a => match a with
          | ⟨0, _⟩ => rfl
          | ⟨1, _⟩ => Fin.ext e1
      refine (congrArg _ hy.symm).trans ((View.write_emb_of_mem _ _ (Finset.mem_univ y)).trans ?_)
      rw [cast_eq]
      show X (win0_1.xinj (grid0.coords ⟨n, hlt⟩) y) = _
      rw [ex, hX ⟨(y 0).val, hp⟩ q hb]
      exact congrArg (fun z : Fin 1000000 => A0 c (ix2 q z)) (Fin.ext (by show 4096 * n + (y 0).val = v.val; omega))
    · refine (View.write_of_not_mem _ _ _ (by rwa [View.setOn_univ])).trans ?_
      refine ih v q ?_
      by_contra hge
      have hv2 := v.isLt
      exact hin (hmem.mpr ⟨by omega, by omega⟩)

theorem goodTbl_of_arrAt (c : Dev nD) (Fm) (h : (rdats A0 A1 O 0 c).ArrAt (1 : Fin 2) cfg0.N Fm) : GoodTblT (A0 c) Fm :=
  fun v q => good_of_arrAt A0 A1 O c 245 le_rfl Fm (by rw [show cfg0.N = 245 from N_0] at h; exact h) v q (by have := v.isLt; omega)

/-! ## The region -/

/-- The pipeline's one admissible table contents: none. -/
abbrev adm0 : (p : Fin 1) → (pcfgs (F := F) p).Adm := fun q => (cfgs q).toPCfg_adm

/-- The TensorCore may wait on the staging cells at the lowest index: everything it owes sits at a call's index. -/
theorem hwaits (hO : ∀ d g, O d g none = 0) (c : Dev nD) :
    (levAts (K (F := F)).L (K (F := F)).lev : sProp 𝕄) ⊢ Pipeline.RDat.cellsWaits cfgs (rdats A0 A1 O) none (0 : Fin 1) c :=
  Pipeline.RDat.cellsWaits_intro cfgs (rdats A0 A1 O) none (0 : Fin 1) c fun w s t => (K (F := F)).mayWait_none _ (hO c)

/-- The table build as a region of @main on the TensorCore: entered holding the transposed table and the padded
    table whole and the TensorCore's tallies with its recorded pairs at the lowest level; left holding the
    transposed table unchanged, the padded table at contents whose first 64 columns are its columns, and the same
    tallies under the same bound. -/
def seg (hO : ∀ d g, O d g none = 0) :
    Pipeline.RDat.RegionSeg (pcfgs (F := F)) adm0 (rdats A0 A1 O) none (defs₀ (F := F)) 𝒱₀ (K (F := F)).L (K (F := F)).lev (0 : Fin 1) where
  win := winFacts0.to₀
  block_pos := block_pos0
  stage_whole := stage_whole0
  K := PEmpty
  osem := fun k => k.elim
  ho := Pipeline.OwnSemFacts.none _
  hbody := body_obligation A0 A1 O
  hwaits := hwaits A0 A1 O hO
  pre c := iprop((wtLoc c ↦{fullShare} A0 c) ∗ (tLoc c ↦{fullShare} A1 c)
    ∗ ∃ W, ⌜(K (F := F)).WBelow (T c) W 0⌝ ∗ owes (T c) (O c) W)
  post c := iprop((wtLoc c ↦{fullShare} A0 c) ∗ (∃ t, ⌜GoodTblT (A0 c) t⌝ ∗ tLoc c ↦{fullShare} t)
    ∗ ∃ W, ⌜(K (F := F)).WBelow (T c) W 0⌝ ∗ owes (T c) (O c) W)
  X _ := iprop(emp)
  Y _ := iprop(emp)
  Z _ := iprop(emp)
  hentry c := by
    rw [Pipeline.RDat.arrays_eq (pcfgs (F := F)) adm0 (rdats A0 A1 O) (0 : Fin 1) c arr_whole0 (share_full A0 A1 O c), bigSep_W0]
    iintro ⟨⟨Ha0, Ha1, %W, %hW, Ho⟩, -, -⟩
    imodintro
    isplitl [Ha0 Ha1]
    · isplitl [Ha0]; · iexact Ha0
      iexact Ha1
    isplitr
    · unfold Pipeline.prefHeld; rw [Finset.univ_eq_empty, bigSep_empty]; iempintro
    isplitl [Ho]
    · iexists W; isplitr
      · ipureintro; exact fun p hp => Or.inl (hW p hp)
      iexact Ho
    isplitr <;> iempintro
  hin c := by
    show _ ⊢ iprop(emp)
    iintro -; iempintro
  hout c := by
    rw [Pipeline.ownSems0_none, scopedRest0_eq]
    iintro -; isplitr; · iempintro
    isplitr <;> iempintro
  hexit c := by
    unfold RDat.arraysAt
    rw [bigSep_W0, share_full, share_full,
      show (cfg0.win (0 : Fin 2)).arr.view.set = Finset.univ from View.set_whole main_v0,
      show (cfg0.win (1 : Fin 2)).arr.view.set = Finset.univ from View.set_whole main_v1]
    iintro ⟨⟨⟨%F0, %hF0, Ha0⟩, ⟨%F1, %hF1, Ha1⟩⟩, ⟨%W, %hW, Ho⟩, -, -⟩
    imodintro
    have e0 : F0 = A0 c := by
      have h := (rdats A0 A1 O 0 c).ArrAt_in (0 : Fin 2) rfl (Pipeline.pin (pcfgs (F := F)) adm0 0).N
      rw [h] at hF0; exact hF0
    have g1 := goodTbl_of_arrAt A0 A1 O c F1 hF1
    subst e0
    isplitl [Ha0]; · iexact Ha0
    isplitl [Ha1]
    · iexists F1; isplitr; · ipureintro; exact g1
      iexact Ha1
    · iexists W; isplitr
      · ipureintro
        intro p hp
        rcases hW hp with h | ⟨w, s, rfl⟩
        · exact h
        · exact le_of_eq ((K (F := F)).lev_none _)
      iexact Ho

/-- The staging cells' ghost state at the launch, from the rounds library's launch element at the staging cells. -/
theorem fund_region :
    (BI.own ((EP (F := F)) (initOf (Pipeline.cells cfgs cellOf_inj) (Pipeline.launchToks cfgs cellOf_inj))) : sProp 𝕄)
      ⊢ iprop(|==> bigSep Finset.univ fun d : Dev nD => iprop(Pipeline.cellsGhost cfgs (EP (F := F)) (0 : Fin 1) d ∗ Pipeline.toksInit cfgs (EP (F := F)) (0 : Fin 1) d)) := by
  refine (Pipeline.fund_ghost cfgs (EP (F := F)) cellOf_inj).trans ?_
  rw [bigSep_sep']
  simp only [show (Finset.univ : Finset (Fin 1)) = {0} from rfl, bigSep_singleton]
  exact BI.Entails.refl _

/-- The table build on device `d`'s TensorCore, inside the kernel's program: from the level facts, the region
    boundary, the transposed table and the padded table whole, the TensorCore's tallies (none at the lowest index, its
    recorded pairs at the lowest level) and the staging cells' ghost state, the region's call runs to the boundary, the
    transposed table unchanged, the padded table at contents whose first 64 columns are the transposed table's columns,
    and the same tallies under the same bound. -/
theorem region_wp (hO : ∀ d g, O d g none = 0) (d : Dev nD) (W : Waits sig (HIx 1)) (hW : (K (F := F)).WBelow (T d) W 0)
    (Φ : PUnit → sProp 𝕄) :
    iprop(levAts (K (F := F)).L (K (F := F)).lev ∗ boundary (T d) ∗ (wtLoc d ↦{fullShare} A0 d) ∗ (tLoc d ↦{fullShare} A1 d) ∗ owes (T d) (O d) W
        ∗ Pipeline.cellsGhost cfgs (EP (F := F)) (0 : Fin 1) d ∗ Pipeline.toksInit cfgs (EP (F := F)) (0 : Fin 1) d
        ∗ (iprop(boundary (T d) ∗ (wtLoc d ↦{fullShare} A0 d) ∗ (∃ t, ⌜GoodTblT (A0 d) t⌝ ∗ tLoc d ↦{fullShare} t)
              ∗ ∃ W', ⌜(K (F := F)).WBelow (T d) W' 0⌝ ∗ owes (T d) (O d) W') -∗ Φ ⟨⟩))
      ⊢ wp frame (wpE (D (F := F)) 𝒱 (T d) none) Set.univ (Prog.lift (.customCall (Pipeline.entry 0) ())) Φ := by
  have h := Pipeline.RDat.RegionSeg.wp (pcfgs (F := F)) adm0 (rdats A0 A1 O) none cellOf_inj (EP (F := F)) (defs₀ (F := F)) 𝒱₀
    (K (F := F)).L (K (F := F)).lev (seg A0 A1 O hO) d none (fun u hu => by cases hu) (fun _ => .ret ⟨⟩) Φ
  dsimp only [seg] at h
  iintro ⟨Hlev, Hb, Ha0, Ha1, Ho, Hg, Ht, Hk⟩
  iapply h
  isplitl [Hk]
  · iintro ⟨Hb, Ha0, Ht', Ho⟩
    rw [wp_ret]
    imodintro
    iapply Hk
    isplitl [Hb]; · iexact Hb
    isplitl [Ha0]; · iexact Ha0
    isplitl [Ht']; · iexact Ht'
    iexact Ho
  isplitl [Hb]; · iexact Hb
  isplitl [Ha0 Ha1 Ho]
  · isplitl [Ha0]; · iexact Ha0
    isplitl [Ha1]; · iexact Ha1
    iexists W; isplitr; · ipureintro; exact hW
    iexact Ho
  isplitl [Hlev]; · iexact Hlev
  isplitl [Hg]; · iexact Hg
  iexact Ht

end Cert.KernelIdeal.Hand

end
-- ==== Proof.PreRange.lean ====
/-
  The integer half of the input-domain predicate, read back: when the predicate holds of an index array `x`
  (and a table `w`), every entry of `x`, read signed, lies between 0 and 999999, so its natural-number value is
  below 1000000.
-/
import proofs.«206440_g52347061403653_cont_9to1_m_884_16_alg».proof.Pre_input_domain
import Idealize.ShloMosaic.Lib.ReduceAll
import Idealize.ShloMosaic.Lib.ValueIdx
import Idealize.ShloMosaic.Lib.IdealHost

namespace Cert.Proof

open Idealize.ShloMosaic Idealize.ShloMosaic.ValueIdx

instance subsingleton_scalarIdx : Subsingleton Cert.Pre_input_domain.S_.Idx := ⟨fun a b => funext fun d => d.elim0⟩

/-- A 32-bit word that reads signed between 0 and 999999 has natural-number value below 1000000. -/
theorem toNat_lt_of_toInt_range (v : BitVec 32) (h0 : (0#32 : BitVec 32).toInt ≤ v.toInt)
    (h1 : v.toInt ≤ (999999#32 : BitVec 32).toInt) : v.toNat < 1000000 := by
  have e0 : (0#32 : BitVec 32).toInt = 0 := by decide
  have e1 : (999999#32 : BitVec 32).toInt = 999999 := by decide
  rw [e0] at h0
  rw [e1] at h1
  have hv := BitVec.toInt_eq_toNat_cond v
  have hlt := v.isLt
  split at hv <;> omega

theorem pre_range {F : FTy → Type} [FloatOps F] [Cert.Pre_input_domain.Facts]
    (x : IVec Cert.Pre_input_domain.S16384x50 32) (w : FVec F Cert.Pre_input_domain.S1000000x64 .f32)
    (h : Cert.Pre_input_domain.fn (F := F) x w = fun _ => 1#1) :
    ∀ i : Cert.Pre_input_domain.S16384x50.Idx, (x i).toNat < 1000000 := by
  intro i
  have h0 := congrFun h ValueIdx.ix0
  dsimp only [Cert.Pre_input_domain.fn] at h0
  -- the predicate is the conjunction of the table's half and the index array's half
  obtain ⟨-, hx⟩ := IntOp.andi_eq_one.1 h0
  -- the index array's half is an all-reduce of the entrywise conjunction of the two comparisons
  have hi := Host.reduce_andi_all _ _ _ _ _ hx i
  obtain ⟨hge, hle⟩ := IntOp.andi_eq_one.1 hi
  have hge' := IntOp.cmpi_sge.1 hge
  have hle' := IntOp.cmpi_sle.1 hle
  rw [broadcastInDim_scalar_apply] at hge' hle'
  exact toNat_lt_of_toInt_range (x i) hge' hle'

end Cert.Proof
-- ==== Proof.RefOps.lean ====
/-
  The reference program as a straight line: its entry function calls the lookup function, which calls the
  three-way choice function; with both calls unfolded the program is one list of twenty-four host operations,
  each writing a buffer of its own.  Its run then ends with the result buffer at the operations' composed term of
  the two argument buffers, and the arguments unchanged.
-/
import proofs.«206440_g52347061403653_cont_9to1_m_884_16_alg».proof.Proof.Gen.ReferenceIdeal
import Idealize.ShloMosaic.Lib.StableHlo.Run

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

/-- The entry function's operations in order, both calls unfolded: the lookup function's twenty-three and, at its
    seventh place, the choice function's one. -/
abbrev ops : List (HloOp τ sig (Elt F)) :=
  [ TRef.nullary main_call0.c (constantI S_ 32 0#32),
    TRef.unary main_call0.c main_call0.v0 (broadcastInDim S16384x50 ![] bcast_S_S16384x50),
    TRef.binary (.of main_arg0) main_call0.v0 main_call0.v1 (cmpi .slt),
    TRef.nullary main_call0.c_0 (constantI S_ 32 1000000#32),
    TRef.unary main_call0.c_0 main_call0.v2 (broadcastInDim S16384x50 ![] bcast_S_S16384x50),
    TRef.binary (.of main_arg0) main_call0.v2 main_call0.v3 addi,
    TRef.ternary main_call0.v1 main_call0.v3 (.of main_arg0) main_call0.call0.v0 select,
    TRef.unary main_call0.call0.v0 main_call0.v5 (broadcastInDim S16384x50x1 ![0, 1] bcast_S16384x50_S16384x50x1_0_1),
    TRef.nullary main_call0.c_1 (constantI S1 32 999999#32),
    TRef.nullary main_call0.c_2 (constantI S_ 32 0#32),
    TRef.unary main_call0.c_2 main_call0.v6 (broadcastInDim S16384x50x1 ![] bcast_S_S16384x50x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S16384x50x1 ![0, 1, 2] bcast_S1x1x1_S16384x50x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x50x1_S16384x50_d2 h_S_),
    TRef.binary (.of main_arg1) main_call0.v5 main_call0.v13 (fun x i => Host.gather gather_S1000000x64_S16384x50x1_S16384x50x64_2_0_n_n_0_2_164 x i),
    TRef.unary main_call0.v12 main_call0.v14 (broadcastInDim S16384x50x64 ![0, 1] bcast_S16384x50_S16384x50x64_0_1),
    TRef.nullary main_call0.cst (constant S_ .f32 0x7FC00000#32),
    TRef.unary main_call0.cst main_call0.v15 (broadcastInDim S16384x50x64 ![] bcast_S_S16384x50x64),
    TRef.ternary main_call0.v14 main_call0.v13 main_call0.v15 main_call0.v16 select ]

/-- The entry function is that straight line: the two functions' definitions unfolded at their calls, both sides
    are one chain of steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

/-- From any memory with zero counters every weakly fair execution of the entry function terminates, and every
    final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.Proof.Ref

end
-- ==== Proof.RefValue.lean ====
/-
  What the reference program leaves in its result buffer, as one term of its two arguments: the row numbers with a
  negative one moved up by the table's height; those as start indices of a gather of whole rows; the test that a
  start index lies inside the table; and the gathered rows where the test holds, a fixed value elsewhere.
-/
import proofs.«206440_g52347061403653_cont_9to1_m_884_16_alg».proof.Proof.RefOps

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

/-- The row numbers the lookup reads: a negative one moved up by the table's height. -/
def wrapped (x : IVec S16384x50 32) : IVec S16384x50 32 :=
  select (cmpi .slt x (broadcastInDim S16384x50 ![] bcast_S_S16384x50 (constantI S_ 32 0#32)))
    (addi x (broadcastInDim S16384x50 ![] bcast_S_S16384x50 (constantI S_ 32 1000000#32))) x

/-- The gather's start indices: one row number per result row. -/
def starts (x : IVec S16384x50 32) : IVec S16384x50x1 32 :=
  broadcastInDim S16384x50x1 ![0, 1] bcast_S16384x50_S16384x50x1_0_1 (wrapped x)

/-- The test, per result row, that the start index lies between 0 and 999999. -/
def inRange (x : IVec S16384x50 32) : IVec S16384x50 1 :=
  Host.reduce IntOp.andi
    (andi (cmpi .sge (starts x) (broadcastInDim S16384x50x1 ![] bcast_S_S16384x50x1 (constantI S_ 32 0#32)))
      (cmpi .sle (starts x) (broadcastInDim S16384x50x1 ![0, 1, 2] bcast_S1x1x1_S16384x50x1_0_1_2
        (broadcastInDim S1x1x1 ![2] bcast_S1_S1x1x1_2 (constantI S1 32 999999#32)))))
    (constantI S_ 1 1#1) reducesTo_S16384x50x1_S16384x50_d2 h_S_

/-- The result: the gathered rows where the test holds, a fixed value elsewhere. -/
def out (x : IVec S16384x50 32) (w : FVec F S1000000x64 .f32) : FVec F S16384x50x64 .f32 :=
  select (broadcastInDim S16384x50x64 ![0, 1] bcast_S16384x50_S16384x50x64_0_1 (inRange x))
    (Host.gather gather_S1000000x64_S16384x50x1_S16384x50x64_2_0_n_n_0_2_164 w (starts x))
    (broadcastInDim S16384x50x64 ![] bcast_S_S16384x50x64 (constant S_ .f32 0x7FC00000#32))

attribute [local irreducible] Host.reduce Host.gather in
set_option maxRecDepth 8192 in
/-- The operations' fold at the result buffer is that term of the arguments: the fold unrolled, each operation's
    result at its own buffer is its function's value and at any other buffer what was there, and the typed
    references' casts are the identity at these literal references. -/
theorem out_eq (V : Valuation τ sig (Elt F)) :
    after ops V (main_v0 : DevRef τ sig) = out (V (main_arg0 : DevRef τ sig)) (V (main_arg1 : DevRef τ sig)) := by
  unfold out inRange starts wrapped
  after_results_simp
  rfl

theorem arg0_eq (V : Valuation τ sig (Elt F)) :
    after ops V (main_arg0 : DevRef τ sig) = V (main_arg0 : DevRef τ sig) := by
  after_results

theorem arg1_eq (V : Valuation τ sig (Elt F)) :
    after ops V (main_arg1 : DevRef τ sig) = V (main_arg1 : DevRef τ sig) := by
  after_results

/-- The run with its result read back: the result buffer ends at `out` of the two arguments' launch contents, and
    the arguments end unchanged. -/
theorem run_out (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v0)
          = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v0).trans (out_eq _), (h c main_arg0).trans (arg0_eq _),
      (h c main_arg1).trans (arg1_eq _)⟩) (run_main m ρ)

end Cert.Proof.Ref

end
-- ==== Proof.RefGather.lean ====
/-
  A gather of whole rows of a table, one row number per entry of a two-axis array of start indices, read at an index:
  entry `(n, j, q)` of the result is the table at the row the start index `(n, j)` names — read signed and clamped
  into the table's rows — and column `q`.
-/
import Idealize.ShloMosaic.Lib.ValueIdx

namespace Cert.Proof.Ref

open Idealize.ShloMosaic Idealize.ShloMosaic.ValueIdx

variable {α : Type}

/-- The dimension numbers of that gather: operand `[N, C]`, start indices `[R, K, 1]`, result `[R, K, C]`; the
    result's last axis is the offset axis, the operand's first axis is collapsed and is the one the start index
    names, and a slice is one whole row. -/
abbrev lookupDims (N R K C : Nat)
    (wf : GatherDims.WF ⟨2, ![N, C]⟩ ⟨3, ![R, K, 1]⟩ ⟨3, ![R, K, C]⟩ [2] [0] [] [0] [] 2 ![1, C]) :
    GatherDims ⟨2, ![N, C]⟩ ⟨3, ![R, K, 1]⟩ ⟨3, ![R, K, C]⟩ where
  offsetDims := [2]
  collapsedSliceDims := [0]
  operandBatchingDims := []
  startIndicesBatchingDims := []
  startIndexMap := [0]
  indexVectorDim := 2
  sliceSizes := ![1, C]
  wf := wf

/-- The row a start index names: read signed, clamped into the operand's rows. -/
def rowOf {N R K w : Nat} (hN : 0 < N) (idx : IVec ⟨3, ![R, K, 1]⟩ w) (n : Fin R) (j : Fin K) : Fin N :=
  ⟨min (idx (ix3 n j 0)).toInt.toNat (N - 1), by omega⟩

/-- The gather read at `(n, j, q)`: the operand at the row the start index `(n, j)` names, column `q`. -/
theorem gather_lookup_apply {N R K C w : Nat} (hN : 0 < N)
    (wf : GatherDims.WF ⟨2, ![N, C]⟩ ⟨3, ![R, K, 1]⟩ ⟨3, ![R, K, C]⟩ [2] [0] [] [0] [] 2 ![1, C])
    (x : (⟨2, ![N, C]⟩ : Shape).Idx → α) (idx : IVec ⟨3, ![R, K, 1]⟩ w) (n : Fin R) (j : Fin K) (q : Fin C) :
    Host.gather (lookupDims N R K C wf) x idx (ix3 n j q) = x (ix2 (rowOf hN idx n j) q) := by
  -- on the table's row axis: the clamped start index, no batching coordinate, no offset (the axis is collapsed)
  have h0 : ((lookupDims N R K C wf).operandIdx (ix3 n j q) idx (0 : Fin 2)).val = (rowOf hN idx n j).val := by
    show (lookupDims N R K C wf).start (ix3 n j q) idx 0 + (lookupDims N R K C wf).batchCoord (ix3 n j q) 0
        + (lookupDims N R K C wf).offCoord (ix3 n j q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (lookupDims N R K C wf).startIndexMap from List.mem_singleton.mpr rfl)]
    have hsi : (lookupDims N R K C wf).siIdx (ix3 n j q) ⟨List.idxOf (0 : Fin 2) (lookupDims N R K C wf).startIndexMap,
        List.idxOf_lt_length_iff.2 (List.mem_singleton.mpr rfl)⟩ = ix3 n j 0 := by
      funext b; refine Fin.ext ?_
      match b with
      | ⟨0, _⟩ => rfl
      | ⟨1, _⟩ => rfl
      | ⟨2, _⟩ => rfl
    rw [hsi]
    rfl
  -- on the table's column axis: no start index, no batching coordinate, the result's offset coordinate
  have h1 : ((lookupDims N R K C wf).operandIdx (ix3 n j q) idx (1 : Fin 2)).val = q.val := by
    show (lookupDims N R K C wf).start (ix3 n j q) idx 1 + (lookupDims N R K C wf).batchCoord (ix3 n j q) 1
        + (lookupDims N R K C wf).offCoord (ix3 n j q) 1 = _
    rw [GatherDims.batchCoord_eq_zero _ _ _ List.not_mem_nil]
    have hn : (1 : Fin 2) ∉ (lookupDims N R K C wf).startIndexMap :=
      fun h => absurd (List.mem_singleton.mp h) (show ¬((1 : Fin 2) = 0) from by decide)
    have hk : (1 : Fin 2) ∈ (lookupDims N R K C wf).sKept :=
      (GatherDims.mem_sKept _ _).2
        ⟨fun h => absurd (List.mem_singleton.mp h) (show ¬((1 : Fin 2) = 0) from by decide), List.not_mem_nil⟩
    unfold GatherDims.start GatherDims.offCoord
    rw [dif_neg hn, dif_pos hk]
    simp only [Nat.add_zero, Nat.zero_add]
    rfl
  unfold Host.gather
  congr 1
  funext a
  refine Fin.ext ?_
  match a with
  | ⟨0, _⟩ => exact h0
  | ⟨1, _⟩ => exact h1

end Cert.Proof.Ref
-- ==== Proof.RefRead.lean ====
/-
  The reference's result read at an index, on row numbers below the table's height: no row number is negative, so
  none is moved; every start index lies inside the table, so the test holds everywhere and the result is the gather;
  and the gather at `(n, j, q)` reads the table at row `x (n, j)`, column `q` — the lookup.
-/
import proofs.«206440_g52347061403653_cont_9to1_m_884_16_alg».proof.Proof.RefValue
import proofs.«206440_g52347061403653_cont_9to1_m_884_16_alg».proof.Proof.RefGather
import proofs.«206440_g52347061403653_cont_9to1_m_884_16_alg».proof.Proof.Spec
import Idealize.ShloMosaic.Lib.Affine
import Idealize.ShloMosaic.PureOps.Reduce

namespace Cert.Proof.Ref

open Cert.ReferenceIdeal Cert.ReferenceIdeal.Gen Idealize.ShloMosaic Idealize.ShloMosaic.ValueIdx

variable {F : FTy → Type} [FloatOps F]

/-- A word below 1000000 reads the same signed and unsigned. -/
theorem toInt_of_lt (v : BitVec 32) (h : v.toNat < 1000000) : v.toInt = (v.toNat : Int) :=
  BitVec.toInt_eq_toNat_of_lt (by omega)

/-- A left fold by `and` from 1 over words that are all 1 is 1. -/
theorem foldl_andi_ones {ι : Type} (f : ι → BitVec 1) (hf : ∀ i, f i = 1#1) :
    ∀ l : List ι, l.foldl (fun r i => IntOp.andi r (f i)) 1#1 = 1#1
  | [] => rfl
  | a :: l => by
    rw [List.foldl_cons, hf a, show IntOp.andi 1#1 1#1 = 1#1 from by decide]
    exact foldl_andi_ones f hf l

section
variable (x : IVec S16384x50 32) (hx : ∀ i : S16384x50.Idx, (x i).toNat < 1000000)
include hx

/-- No row number is negative: none is moved. -/
theorem wrapped_eq : wrapped x = x := by
  funext i
  unfold wrapped
  rw [select_apply]
  have hc : ¬(cmpi .slt x (broadcastInDim S16384x50 ![] bcast_S_S16384x50 (constantI S_ 32 0#32)) i = 1#1) := by
    show ¬(IntOp.cmpi .slt (x i) 0#32 = 1#1)
    rw [IntOp.cmpi_slt, toInt_of_lt _ (hx i), show (0#32 : BitVec 32).toInt = 0 from by decide]
    omega
  rw [eq_zero_of_ne_one hc, select_zero]

omit hx in
/-- A start index is the row number of its result row. -/
theorem starts_apply (i : S16384x50x1.Idx) : starts x i = wrapped x (ix2 (i 0) (i 1)) := by
  unfold starts broadcastInDim
  refine congrArg (wrapped x) (funext fun a => Fin.ext ?_)
  match a with
  | ⟨0, _⟩ => rfl
  | ⟨1, _⟩ => rfl

/-- Every start index lies inside the table: the test holds everywhere. -/
theorem inRange_eq : inRange x = fun _ => 1#1 := by
  funext i
  unfold inRange
  rw [Host.reduce_eq_foldl]
  refine foldl_andi_ones _ (fun k => ?_) _
  refine IntOp.andi_eq_one.2 ⟨?_, ?_⟩
  · show IntOp.cmpi .sge (starts x k) 0#32 = 1#1
    rw [IntOp.cmpi_sge, starts_apply, wrapped_eq x hx, toInt_of_lt _ (hx _), show (0#32 : BitVec 32).toInt = 0 from by decide]
    omega
  · show IntOp.cmpi .sle (starts x k) 999999#32 = 1#1
    rw [IntOp.cmpi_sle, starts_apply, wrapped_eq x hx, toInt_of_lt _ (hx _),
      show (999999#32 : BitVec 32).toInt = 999999 from by decide]
    have := hx (ix2 (k 0) (k 1))
    omega

/-- The result at `(n, j, q)` is the table at row `x (n, j)`, column `q`. -/
theorem out_apply (w : FVec F S1000000x64 .f32) (n : Fin 16384) (j : Fin 50) (q : Fin 64) :
    out x w (ix3 n j q) = w (ix2 (Cert.Proof.Spec.row x n j) q) := by
  unfold out
  rw [select_apply, inRange_eq x hx]
  show Scalar.select 1#1 _ _ = _
  rw [select_one]
  refine (gather_lookup_apply (N := 1000000) (R := 16384) (K := 50) (C := 64) (by norm_num)
    gather_S1000000x64_S16384x50x1_S16384x50x64_2_0_n_n_0_2_164_wf w (starts x) n j q).trans ?_
  refine congrArg w (congrArg (fun r => ix2 r q) (Fin.ext ?_))
  show min (starts x (ix3 n j 0)).toInt.toNat (1000000 - 1) = (x (ix2 n j)).toNat % 1000000
  have h := hx (ix2 n j)
  rw [starts_apply, wrapped_eq x hx]
  show min (x (ix2 n j)).toInt.toNat (1000000 - 1) = (x (ix2 n j)).toNat % 1000000
  rw [toInt_of_lt _ h, Int.toNat_natCast, Nat.mod_eq_of_lt h]
  omega

/-- The result is the lookup. -/
theorem out_eq_lookup (w : FVec F S1000000x64 .f32) : out x w = Cert.Proof.Spec.lookup x w := by
  funext i
  rw [eq_ix3 i]
  exact out_apply x hx w (i 0) (i 1) (i 2)

end

end Cert.Proof.Ref
-- ==== Proof.RefRun.lean ====
/-
  The reference's run under the input-domain predicate: every weakly fair execution terminates with the result
  buffer at the lookup of the table by the row numbers, and the two arguments unchanged.
-/
import proofs.«206440_g52347061403653_cont_9to1_m_884_16_alg».proof.Defs
import proofs.«206440_g52347061403653_cont_9to1_m_884_16_alg».proof.Proof.Gen.ReferenceIdeal
import proofs.«206440_g52347061403653_cont_9to1_m_884_16_alg».proof.Proof.Gen.Pre_input_domain
import proofs.«206440_g52347061403653_cont_9to1_m_884_16_alg».proof.Proof.Spec
import proofs.«206440_g52347061403653_cont_9to1_m_884_16_alg».proof.Proof.PreRange
import proofs.«206440_g52347061403653_cont_9to1_m_884_16_alg».proof.Proof.RefRead

noncomputable section

namespace Cert.Proof.Ref

open Idealize.ShloMosaic Idealize.SL.Sem

/-- Under the input-domain predicate the reference runs, its result is the lookup, and its arguments end
    unchanged: the predicate bounds every row number below the table's height, and on such row numbers the
    reference's composed term is the lookup. -/
theorem run
    (m' : (ℓ : Loc Cert.ReferenceIdeal.nD Cert.ReferenceIdeal.τ Cert.ReferenceIdeal.sig) → Buf (Elt Ideal) ℓ)
    (g' : Dev Cert.ReferenceIdeal.nD → PrngReg) (hpre : Cert.Pre_ReferenceIdeal m') :
    θ_run (Cert.ReferenceIdeal.defs (F := Ideal)) (onTc (τ := Cert.ReferenceIdeal.τ) (Cert.ReferenceIdeal.main (F := Ideal)))
      ⟨m', fun _ => 0, g'⟩
      (fun r => ∀ c : Dev Cert.ReferenceIdeal.nD,
        r.2.mem ((c.tc : Thread Cert.ReferenceIdeal.nD Cert.ReferenceIdeal.τ).loc Cert.ReferenceIdeal.main_v0)
            = Cert.Proof.Spec.lookup
                (m' ((c.tc : Thread Cert.ReferenceIdeal.nD Cert.ReferenceIdeal.τ).loc Cert.ReferenceIdeal.main_arg0))
                (m' ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0)
            = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m' ((c.tc : Thread Cert.ReferenceIdeal.nD Cert.ReferenceIdeal.τ).loc Cert.ReferenceIdeal.main_arg1)) :=
  (θ_run (Cert.ReferenceIdeal.defs (F := Ideal)) _ _).mono
    (fun _ h c => ⟨(h c).1.trans (out_eq_lookup _ (Cert.Proof.pre_range (F := Ideal) _ _ (hpre c)) _), (h c).2⟩)
    (run_out (F := Ideal) m' g')

end Cert.Proof.Ref

end
-- ==== Proof.lean ====
/-
  The certificate of the embedding lookup.  The kernel builds a padded copy of the table (a TensorCore region that
  transposes the transposed table back, 4096 rows at a time, into the first 64 of 128 columns), then thirty-two
  SparseCore vector subcores each copy their 512 rows of the index array `x`, gather for every row of indices the
  50 named rows of the padded table and write them to the padded output, and the host keeps the first 64 columns.
  The reference is the host's row gather `w[x]`, guarded against out-of-range indices; on the inputs the claim
  speaks of (`0 ≤ x ≤ 999999`) the guard never fires.  Both compute `(n, j, q) ↦ w[x[n, j], q]`
  (`Cert.Proof.Spec.lookup`): pure data movement, the same at every float instance.

  The three frames are the runs with the value dropped; the idealization rewrote nothing, so `preserves` is
  trivial; `algebraic` is the two runs side by side from memories that agree on the arguments.
-/
import proofs.«206440_g52347061403653_cont_9to1_m_884_16_alg».proof.Defs
import proofs.«206440_g52347061403653_cont_9to1_m_884_16_alg».proof.Proof.HandKernel.Launch
import proofs.«206440_g52347061403653_cont_9to1_m_884_16_alg».proof.Proof.HandKernel.Tile
import proofs.«206440_g52347061403653_cont_9to1_m_884_16_alg».proof.Proof.HandKernel.Region
import proofs.«206440_g52347061403653_cont_9to1_m_884_16_alg».proof.Proof.HandKernelIdeal.Launch
import proofs.«206440_g52347061403653_cont_9to1_m_884_16_alg».proof.Proof.HandKernelIdeal.Tile
import proofs.«206440_g52347061403653_cont_9to1_m_884_16_alg».proof.Proof.HandKernelIdeal.Region
import proofs.«206440_g52347061403653_cont_9to1_m_884_16_alg».proof.Proof.Gen.Kernel
import proofs.«206440_g52347061403653_cont_9to1_m_884_16_alg».proof.Proof.Gen.KernelIdeal
import proofs.«206440_g52347061403653_cont_9to1_m_884_16_alg».proof.Proof.Gen.ReferenceIdeal
import proofs.«206440_g52347061403653_cont_9to1_m_884_16_alg».proof.Proof.Gen.Pre_input_domain
import proofs.«206440_g52347061403653_cont_9to1_m_884_16_alg».proof.Proof.PreRange
import proofs.«206440_g52347061403653_cont_9to1_m_884_16_alg».proof.Proof.RefRun

noncomputable section

namespace Cert.Proof

open Idealize.ShloMosaic Idealize.SL.Sem

/-- Under the precondition every word of `x` names a row of the table: at the word-level program, -/
theorem preOK_kernel (m : (ℓ : Loc Cert.Kernel.nD Cert.Kernel.τ Cert.Kernel.sig) → Buf (Elt Bits) ℓ) (h : Cert.Pre_Kernel m) :
    Cert.Kernel.Hand.PreOK (F := Bits) m :=
  fun d j => Cert.Proof.pre_range (F := Bits) _ _ (h d) j

/-- and at the idealized one. -/
theorem preOK_kernelIdeal (m : (ℓ : Loc Cert.KernelIdeal.nD Cert.KernelIdeal.τ Cert.KernelIdeal.sig) → Buf (Elt Ideal) ℓ) (h : Cert.Pre_KernelIdeal m) :
    Cert.KernelIdeal.Hand.PreOK (F := Ideal) m :=
  fun d j => Cert.Proof.pre_range (F := Ideal) _ _ (h d) j

/-- The word-level program's run: the result is the lookup, the arguments are unchanged. -/
theorem run_kernel (m : (ℓ : Loc Cert.Kernel.nD Cert.Kernel.τ Cert.Kernel.sig) → Buf (Elt Bits) ℓ) (g : Dev Cert.Kernel.nD → PrngReg) (h : Cert.Pre_Kernel m) :
    θ_run (Cert.Kernel.defs (F := Bits)) (Cert.Kernel.threads (F := Bits)) ⟨m, fun _ => 0, g⟩ (Cert.Kernel.Hand.QC m) :=
  Cert.Kernel.Hand.run_of (F := Bits) m g Cert.Kernel.Hand.region_wp Cert.Kernel.Hand.fund_region
    (Cert.Kernel.Hand.tileObl m Cert.Kernel.Hand.facts (preOK_kernel m h))

/-- The idealized program's run, the same. -/
theorem run_kernelIdeal (m : (ℓ : Loc Cert.KernelIdeal.nD Cert.KernelIdeal.τ Cert.KernelIdeal.sig) → Buf (Elt Ideal) ℓ) (g : Dev Cert.KernelIdeal.nD → PrngReg)
    (h : Cert.Pre_KernelIdeal m) :
    θ_run (Cert.KernelIdeal.defs (F := Ideal)) (Cert.KernelIdeal.threads (F := Ideal)) ⟨m, fun _ => 0, g⟩ (Cert.KernelIdeal.Hand.QC m) :=
  Cert.KernelIdeal.Hand.run_of (F := Ideal) m g Cert.KernelIdeal.Hand.region_wp Cert.KernelIdeal.Hand.fund_region
    (Cert.KernelIdeal.Hand.tileObl m Cert.KernelIdeal.Hand.facts (preOK_kernelIdeal m h))

theorem frame_k : Cert.frame_Kernel := fun m g h =>
  (θ_run Cert.Kernel.defs _ _).mono (fun _ p c => (p c).2) (run_kernel m g h)

theorem frame_ki : Cert.frame_KernelIdeal := fun m g h =>
  (θ_run Cert.KernelIdeal.defs _ _).mono (fun _ p c => (p c).2) (run_kernelIdeal m g h)

theorem frame_ri : Cert.frame_ReferenceIdeal := fun m g h =>
  (θ_run Cert.ReferenceIdeal.defs _ _).mono (fun _ p c => (p c).2) (Cert.Proof.Ref.run m g h)

/-- From memories that agree on `x` and `w`, both programs end with the lookup `w[x[n, j], q]` as their result. -/
theorem algebraic : Cert.algebraic_KernelIdeal_ReferenceIdeal := by
  intro m g m' g' hpre hagree
  refine ⟨fun c => Cert.Proof.Spec.lookup (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), ?_, ?_⟩
  · exact (θ_run Cert.KernelIdeal.defs _ _).mono (fun _ p c => p c) (run_kernelIdeal m g hpre)
  · have hpre' : Cert.Pre_ReferenceIdeal m' := fun c => by
      have := hpre c
      rw [← (hagree c).1, ← (hagree c).2] at this
      exact this
    refine (θ_run Cert.ReferenceIdeal.defs _ _).mono (fun _ p c => ⟨?_, (p c).2⟩) (Cert.Proof.Ref.run m' g' hpre')
    rw [(p c).1, (hagree c).1, (hagree c).2]

theorem claim : Cert.Claim :=
  ⟨Cert.Kernel.Gen.facts, Cert.KernelIdeal.Gen.facts, Cert.ReferenceIdeal.Gen.facts, Cert.Pre_input_domain.Gen.facts,
    frame_k, frame_ki, frame_ri, trivial, algebraic⟩

end Cert.Proof

end
